-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S4x4096x4096 : Shape := ⟨3, ![4, 4096, 4096]⟩
abbrev S64x5x65x8 : Shape := ⟨4, ![64, 5, 65, 8]⟩
abbrev S64x8 : Shape := ⟨2, ![64, 8]⟩
abbrev S64 : Shape := ⟨1, ![64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S64x5x65x8 : S_.BroadcastsInDim S64x5x65x8 (![] : Fin 0 → Fin S64x5x65x8.rank)
  reducesTo_S64x5x65x8_S_d0_1_2_3 : S64x5x65x8.ReducesTo [0, 1, 2, 3] S_
  bcast_S_S64x8 : S_.BroadcastsInDim S64x8 (![] : Fin 0 → Fin S64x8.rank)
  reducesTo_S64x8_S_d0_1 : S64x8.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x8 .f32) (main_arg5 : FVec F S64 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S64x8 .f32 := Host.absf main_arg4
  let main_cst_6 : FVec F S_ .f32 := constant S_ .f32 0x7F800000#32
  let main_v20 : FVec F S64x8 .f32 := broadcastInDim S64x8 ![] bcast_S_S64x8 main_cst_6
  let main_v21 : IVec S64x8 1 := cmpf .olt main_v19 main_v20
  let main_c_7 : IVec S_ 1 := constantI S_ 1 1#1
  let main_v22 : IVec S_ 1 := (fun x v => Host.reduce IntOp.andi x v reducesTo_S64x8_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4x4096x64 .f32) (main_arg1 : FVec F S4x4096x4096 .f32) (main_arg2 : FVec F S64x5x65x8 .f32) (main_arg3 : FVec F S64x8 .f32) (main_arg4 : FVec F S64x8 .f32) (main_arg5 : FVec F S64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S64x5x65x8 .f32 := Host.absf main_arg2
  let main_cst_2 : FVec F S_ .f32 := constant S_ .f32 0x7F800000#32
  let main_v10 : FVec F S64x5x65x8 .f32 := broadcastInDim S64x5x65x8 ![] bcast_S_S64x5x65x8 main_cst_2
  let main_v11 : IVec S64x5x65x8 1 := cmpf .olt main_v9 main_v10
  let main_c_3 : IVec S_ 1 := constantI S_ 1 1#1
  let main_v12 : IVec S_ 1 := (fun x v => Host.reduce IntOp.andi x v reducesTo_S64x5x65x8_S_d0_1_2_3 h_S_) main_v11 main_c_3
  let main_v13 : IVec S_ 1 := andi main_v8 main_v12
  let main_v14 : FVec F S64x8 .f32 := Host.absf main_arg3
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg4 main_arg5 main_v13 main_v16
-- ==== Kernel.lean ====
abbrev S4x4096x64 : Shape := ⟨3, ![4, 4096, 64]⟩
abbrev S4x4096x4096 : Shape := ⟨3, ![4, 4096, 4096]⟩
abbrev S64x5x65x8 : Shape := ⟨4, ![64, 5, 65, 8]⟩
abbrev S64x8 : Shape := ⟨2, ![64, 8]⟩
abbrev S64 : Shape := ⟨1, ![64]⟩
abbrev S64x5x64x8 : Shape := ⟨4, ![64, 5, 64, 8]⟩
abbrev S64x5x1x8 : Shape := ⟨4, ![64, 5, 1, 8]⟩
abbrev S64x5x8 : Shape := ⟨3, ![64, 5, 8]⟩
abbrev S64x1x64x8 : Shape := ⟨4, ![64, 1, 64, 8]⟩
abbrev S64x64x8 : Shape := ⟨3, ![64, 64, 8]⟩
abbrev S_ : Shape := ⟨0, ![]⟩
abbrev S64x512 : Shape := ⟨2, ![64, 512]⟩
abbrev S64x1x8 : Shape := ⟨3, ![64, 1, 8]⟩
abbrev S512 : Shape := ⟨1, ![512]⟩
abbrev S1x512 : Shape := ⟨2, ![1, 512]⟩
abbrev S8x512 : Shape := ⟨2, ![8, 512]⟩
abbrev S512x1 : Shape := ⟨2, ![512, 1]⟩
abbrev S1x64 : Shape := ⟨2, ![1, 64]⟩
abbrev S512x64 : Shape := ⟨2, ![512, 64]⟩
abbrev S4x8x4096 : Shape := ⟨3, ![4, 8, 4096]⟩
abbrev S128x128 : Shape := ⟨2, ![128, 128]⟩
abbrev S128 : Shape := ⟨1, ![128]⟩
abbrev S16 : Shape := ⟨1, ![16]⟩
abbrev S1x128x128 : Shape := ⟨3, ![1, 128, 128]⟩
abbrev S1x16 : Shape := ⟨2, ![1, 16]⟩
abbrev S1x1x128 : Shape := ⟨3, ![1, 1, 128]⟩
abbrev S4x1x64 : Shape := ⟨3, ![4, 1, 64]⟩
abbrev S1x1024x4096 : Shape := ⟨3, ![1, 1024, 4096]⟩
abbrev S1x4096x64 : Shape := ⟨3, ![1, 4096, 64]⟩
abbrev S1x8x4096 : Shape := ⟨3, ![1, 8, 4096]⟩
abbrev S1x1x64 : Shape := ⟨3, ![1, 1, 64]⟩
abbrev S4096x8 : Shape := ⟨2, ![4096, 8]⟩
abbrev S1024x4096 : Shape := ⟨2, ![1024, 4096]⟩
abbrev S1024 : Shape := ⟨1, ![1024]⟩
abbrev S4096 : Shape := ⟨1, ![4096]⟩
abbrev S4096x1 : Shape := ⟨2, ![4096, 1]⟩
abbrev S1024x1 : Shape := ⟨2, ![1024, 1]⟩
abbrev S4096x64 : Shape := ⟨2, ![4096, 64]⟩
abbrev S4096x512 : Shape := ⟨2, ![4096, 512]⟩
abbrev S1x1x4096 : Shape := ⟨3, ![1, 1, 4096]⟩
abbrev S1x4096x1 : Shape := ⟨3, ![1, 4096, 1]⟩
abbrev S1 : Shape := ⟨1, ![1]⟩
abbrev S1x1x1 : Shape := ⟨3, ![1, 1, 1]⟩
abbrev S4x64 : Shape := ⟨2, ![4, 64]⟩

abbrev nBuf : Table → Nat
  | .hbm => 100
  | .local .tc .vmem => 14
  | .local .scVector .vmem => 2
  | _ => 0

abbrev bufTy : (tb : Table) → Fin (nBuf tb) → BufTy
  | .hbm, ⟨0, _⟩ => ⟨S4x4096x64, .f32⟩
  | .hbm, ⟨1, _⟩ => ⟨S4x4096x4096, .f32⟩
  | .hbm, ⟨2, _⟩ => ⟨S64x5x65x8, .f32⟩
  | .hbm, ⟨3, _⟩ => ⟨S64x8, .f32⟩
  | .hbm, ⟨4, _⟩ => ⟨S64x8, .f32⟩
  | .hbm, ⟨5, _⟩ => ⟨S64, .f32⟩
  | .hbm, ⟨6, _⟩ => ⟨S64x5x64x8, .f32⟩
  | .hbm, ⟨7, _⟩ => ⟨S64x5x1x8, .f32⟩
  | .hbm, ⟨8, _⟩ => ⟨S64x5x8, .f32⟩
  | .hbm, ⟨9, _⟩ => ⟨S64x1x64x8, .f32⟩
  | .hbm, ⟨10, _⟩ => ⟨S64x64x8, .f32⟩
  | .hbm, ⟨11, _⟩ => ⟨S64x1x64x8, .f32⟩
  | .hbm, ⟨12, _⟩ => ⟨S64x64x8, .f32⟩
  | .hbm, ⟨13, _⟩ => ⟨S64x1x64x8, .f32⟩
  | .hbm, ⟨14, _⟩ => ⟨S64x64x8, .f32⟩
  | .hbm, ⟨15, _⟩ => ⟨S64x64x8, .f32⟩
  | .hbm, ⟨16, _⟩ => ⟨S_, .f32⟩
  | .hbm, ⟨17, _⟩ => ⟨S64x64x8, .f32⟩
  | .hbm, ⟨18, _⟩ => ⟨S64x64x8, .f32⟩
  | .hbm, ⟨19, _⟩ => ⟨S64x64x8, .f32⟩
  | .hbm, ⟨20, _⟩ => ⟨S64x64x8, .f32⟩
  | .hbm, ⟨21, _⟩ => ⟨S64x512, .f32⟩
  | .hbm, ⟨22, _⟩ => ⟨S64x1x64x8, .f32⟩
  | .hbm, ⟨23, _⟩ => ⟨S64x64x8, .f32⟩
  | .hbm, ⟨24, _⟩ => ⟨S_, .f32⟩
  | .hbm, ⟨25, _⟩ => ⟨S64x64x8, .f32⟩
  | .hbm, ⟨26, _⟩ => ⟨S64x64x8, .f32⟩
  | .hbm, ⟨27, _⟩ => ⟨S64x1x64x8, .f32⟩
  | .hbm, ⟨28, _⟩ => ⟨S64x64x8, .f32⟩
  | .hbm, ⟨29, _⟩ => ⟨S_, .f32⟩
  | .hbm, ⟨30, _⟩ => ⟨S64x64x8, .f32⟩
  | .hbm, ⟨31, _⟩ => ⟨S64x64x8, .f32⟩
  | .hbm, ⟨32, _⟩ => ⟨S64x64x8, .f32⟩
  | .hbm, ⟨33, _⟩ => ⟨S64x64x8, .f32⟩
  | .hbm, ⟨34, _⟩ => ⟨S64x512, .f32⟩
  | .hbm, ⟨35, _⟩ => ⟨S64x1x8, .f32⟩
  | .hbm, ⟨36, _⟩ => ⟨S64x8, .f32⟩
  | .hbm, ⟨37, _⟩ => ⟨S512, .f32⟩
  | .hbm, ⟨38, _⟩ => ⟨S64x1x8, .f32⟩
  | .hbm, ⟨39, _⟩ => ⟨S64x8, .f32⟩
  | .hbm, ⟨40, _⟩ => ⟨S512, .f32⟩
  | .hbm, ⟨41, _⟩ => ⟨S64x1x8, .f32⟩
  | .hbm, ⟨42, _⟩ => ⟨S64x8, .f32⟩
  | .hbm, ⟨43, _⟩ => ⟨S512, .f32⟩
  | .hbm, ⟨44, _⟩ => ⟨S64x1x8, .f32⟩
  | .hbm, ⟨45, _⟩ => ⟨S64x8, .f32⟩
  | .hbm, ⟨46, _⟩ => ⟨S512, .f32⟩
  | .hbm, ⟨47, _⟩ => ⟨S64x1x8, .f32⟩
  | .hbm, ⟨48, _⟩ => ⟨S64x8, .f32⟩
  | .hbm, ⟨49, _⟩ => ⟨S512, .f32⟩
  | .hbm, ⟨50, _⟩ => ⟨S512, .f32⟩
  | .hbm, ⟨51, _⟩ => ⟨S_, .f32⟩
  | .hbm, ⟨52, _⟩ => ⟨S512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S1x512, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S8x512, .f32⟩
  | .hbm, ⟨64, _⟩ => ⟨S512, .i32⟩
  | .hbm, ⟨65, _⟩ => ⟨S_, .i32⟩
  | .hbm, ⟨66, _⟩ => ⟨S_, .i32⟩
  | .hbm, ⟨67, _⟩ => ⟨S512, .i32⟩
  | .hbm, ⟨68, _⟩ => ⟨S512, .i32⟩
  | .hbm, ⟨69, _⟩ => ⟨S512, .i32⟩
  | .hbm, ⟨70, _⟩ => ⟨S_, .i32⟩
  | .hbm, ⟨71, _⟩ => ⟨S512, .i32⟩
  | .hbm, ⟨72, _⟩ => ⟨S512, .i1⟩
  | .hbm, ⟨73, _⟩ => ⟨S512, .i32⟩
  | .hbm, ⟨74, _⟩ => ⟨S512, .i32⟩
  | .hbm, ⟨75, _⟩ => ⟨S_, .i32⟩
  | .hbm, ⟨76, _⟩ => ⟨S512, .i32⟩
  | .hbm, ⟨77, _⟩ => ⟨S512, .i1⟩
  | .hbm, ⟨78, _⟩ => ⟨S512, .i1⟩
  | .hbm, ⟨79, _⟩ => ⟨S_, .i32⟩
  | .hbm, ⟨80, _⟩ => ⟨S512, .i32⟩
  | .hbm, ⟨81, _⟩ => ⟨S512, .i32⟩
  | .hbm, ⟨82, _⟩ => ⟨S512, .i32⟩
  | .hbm, ⟨83, _⟩ => ⟨S512x1, .i32⟩
  | .hbm, ⟨84, _⟩ => ⟨S64, .i32⟩
  | .hbm, ⟨85, _⟩ => ⟨S1x64, .i32⟩
  | .hbm, ⟨86, _⟩ => ⟨S512x64, .i32⟩
  | .hbm, ⟨87, _⟩ => ⟨S512x64, .i32⟩
  | .hbm, ⟨88, _⟩ => ⟨S512x64, .i1⟩
  | .hbm, ⟨89, _⟩ => ⟨S512, .f32⟩
  | .hbm, ⟨90, _⟩ => ⟨S512x1, .f32⟩
  | .hbm, ⟨91, _⟩ => ⟨S_, .f32⟩
  | .hbm, ⟨92, _⟩ => ⟨S_, .f32⟩
  | .hbm, ⟨93, _⟩ => ⟨S512x64, .f32⟩
  | .hbm, ⟨94, _⟩ => ⟨S512x64, .f32⟩
  | .hbm, ⟨95, _⟩ => ⟨S512x64, .f32⟩
  | .hbm, ⟨96, _⟩ => ⟨S4x8x4096, .f32⟩
  | .hbm, ⟨97, _⟩ => ⟨S1x64, .f32⟩
  | .hbm, ⟨98, _⟩ => ⟨S4x1x64, .f32⟩
  | .hbm, ⟨99, _⟩ => ⟨S4x64, .f32⟩
  | .local .tc .vmem, ⟨0, _⟩ => ⟨S1x1024x4096, .f32⟩
  | .local .tc .vmem, ⟨1, _⟩ => ⟨S1x1024x4096, .f32⟩
  | .local .tc .vmem, ⟨2, _⟩ => ⟨S1x4096x64, .f32⟩
  | .local .tc .vmem, ⟨3, _⟩ => ⟨S1x4096x64, .f32⟩
  | .local .tc .vmem, ⟨4, _⟩ => ⟨S1x8x4096, .f32⟩
  | .local .tc .vmem, ⟨5, _⟩ => ⟨S1x8x4096, .f32⟩
  | .local .tc .vmem, ⟨6, _⟩ => ⟨S64x512, .f32⟩
  | .local .tc .vmem, ⟨7, _⟩ => ⟨S64x512, .f32⟩
  | .local .tc .vmem, ⟨8, _⟩ => ⟨S8x512, .f32⟩
  | .local .tc .vmem, ⟨9, _⟩ => ⟨S512x64, .f32⟩
  | .local .tc .vmem, ⟨10, _⟩ => ⟨S1x64, .f32⟩
  | .local .tc .vmem, ⟨11, _⟩ => ⟨S1x1x64, .f32⟩
  | .local .tc .vmem, ⟨12, _⟩ => ⟨S1x1x64, .f32⟩
  | .local .tc .vmem, ⟨13, _⟩ => ⟨S4096x8, .f32⟩
  | .local .scVector .vmem, ⟨0, _⟩ => ⟨S128x128, .f32⟩
  | .local .scVector .vmem, ⟨1, _⟩ => ⟨S128, .f32⟩
  | _, _ => ⟨S4x4096x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_c : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_c : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_c_0 : Ref sig .tc := ⟨.hbm, 79, rfl⟩
abbrev main_call0_v12 : Ref sig .tc := ⟨.hbm, 80, rfl⟩
abbrev main_call0_v13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_4 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_arg1_scv : Ref sig .scVector := ⟨.hbm, 1, rfl⟩
abbrev main_v64_scv : Ref sig .scVector := ⟨.hbm, 96, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg8_1 : Ref sig .tc := ⟨.vmem, 12, rfl⟩
abbrev cc1_scratch0 : Ref sig .tc := ⟨.vmem, 13, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem8_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  v2
@[reducible] def k0_t1_loop : Scf.Loop 32 :=
  let c0_i32_0 : BitVec 32 := 0#32
  let c4_i32 : BitVec 32 := 4#32
  let v6 : BitVec 32 := Scalar.addi c0_i32_0 c4_i32
  let c1_i32 : BitVec 32 := 1#32
  ⟨c0_i32_0, v6, c1_i32⟩
def k0_off1 (i : grid0.Coords) (k0_t1 : Fin k0_t1_loop.trips) : Fin 3 → Nat :=
  let c0_i32_0 : BitVec 32 := 0#32
  let c1_i32 : BitVec 32 := 1#32
  let arg7 : BitVec 32 := Scf.iv c0_i32_0 c1_i32 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let v3 : BitVec 32 := v2
  ![arg7.toNat, v3.toNat, v3.toNat]
def k0_off2 (i : grid0.Coords) (k0_t1 : Fin k0_t1_loop.trips) : Fin 3 → Nat :=
  let c0_i32_0 : BitVec 32 := 0#32
  let c1_i32 : BitVec 32 := 1#32
  let arg7 : BitVec 32 := Scf.iv c0_i32_0 c1_i32 k0_t1
  let c0_i32_390 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let v3 : BitVec 32 := v2
  ![arg7.toNat, 0, v3.toNat]
abbrev grid1 : Pipeline.Grid := ⟨2, ![4, 5], ![false, false]⟩

def k1_cond1 (i : grid1.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg1 : BitVec 32 := BitVec.ofNat 32 (i 1).val
  let c1024_i32 : BitVec 32 := 1024#32
  let v20 : BitVec 32 := Scalar.muli arg1 c1024_i32
  let v21 : Index := Scalar.indexCast v20
  let c1 : Index := 1#32
  ![v21.toNat, 1]
def k1_cond3 (i : grid1.Coords) : BitVec 1 :=
  let arg1 : BitVec 32 := BitVec.ofNat 32 (i 1).val
  let c4_i32_0 : BitVec 32 := 4#32
  let v3 : BitVec 1 := Scalar.cmpi .eq arg1 c4_i32_0
  let v4 : BitVec 32 := Scalar.extui v3
  let c0_i32_1 : BitVec 32 := 0#32
  let v5 : BitVec 1 := Scalar.cmpi .ne v4 c0_i32_1
  v5

def cc1_transform_0 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x1x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S64x5x65x8_S64x5x64x8_0_0_0_0 : S64x5x65x8.Slices ![0, 0, 0, 0] S64x5x64x8
  slices_S64x5x65x8_S64x5x1x8_0_0_64_0 : S64x5x65x8.Slices ![0, 0, 64, 0] S64x5x1x8
  shapeCasts_S64x5x1x8_S64x5x8 : S64x5x1x8.ShapeCasts S64x5x8
  slices_S64x5x64x8_S64x1x64x8_0_0_0_0 : S64x5x64x8.Slices ![0, 0, 0, 0] S64x1x64x8
  shapeCasts_S64x1x64x8_S64x64x8 : S64x1x64x8.ShapeCasts S64x64x8
  slices_S64x5x64x8_S64x1x64x8_0_2_0_0 : S64x5x64x8.Slices ![0, 2, 0, 0] S64x1x64x8
  slices_S64x5x64x8_S64x1x64x8_0_3_0_0 : S64x5x64x8.Slices ![0, 3, 0, 0] S64x1x64x8
  bcast_S_S64x64x8 : S_.BroadcastsInDim S64x64x8 (![] : Fin 0 → Fin S64x64x8.rank)
  transposes_S64x64x8_S64x64x8_1_0_2 : S64x64x8.Transposes [1, 0, 2] S64x64x8
  shapeCasts_S64x64x8_S64x512 : S64x64x8.ShapeCasts S64x512
  slices_S64x5x64x8_S64x1x64x8_0_1_0_0 : S64x5x64x8.Slices ![0, 1, 0, 0] S64x1x64x8
  slices_S64x5x64x8_S64x1x64x8_0_4_0_0 : S64x5x64x8.Slices ![0, 4, 0, 0] S64x1x64x8
  slices_S64x5x8_S64x1x8_0_0_0 : S64x5x8.Slices ![0, 0, 0] S64x1x8
  shapeCasts_S64x1x8_S64x8 : S64x1x8.ShapeCasts S64x8
  shapeCasts_S64x8_S512 : S64x8.ShapeCasts S512
  slices_S64x5x8_S64x1x8_0_1_0 : S64x5x8.Slices ![0, 1, 0] S64x1x8
  slices_S64x5x8_S64x1x8_0_2_0 : S64x5x8.Slices ![0, 2, 0] S64x1x8
  slices_S64x5x8_S64x1x8_0_3_0 : S64x5x8.Slices ![0, 3, 0] S64x1x8
  slices_S64x5x8_S64x1x8_0_4_0 : S64x5x8.Slices ![0, 4, 0] S64x1x8
  bcast_S_S512 : S_.BroadcastsInDim S512 (![] : Fin 0 → Fin S512.rank)
  bcast_S512_S1x512_1 : S512.BroadcastsInDim S1x512 (![1] : Fin 1 → Fin S1x512.rank)
  concatenates_S1x512_S1x512_S1x512_S1x512_S1x512_S1x512_S1x512_S1x512_S8x512_d0 : Shape.Concatenates [S1x512, S1x512, S1x512, S1x512, S1x512, S1x512, S1x512, S1x512] S8x512 0
  bcast_S512_S512x1_0 : S512.BroadcastsInDim S512x1 (![0] : Fin 1 → Fin S512x1.rank)
  bcast_S64_S1x64_1 : S64.BroadcastsInDim S1x64 (![1] : Fin 1 → Fin S1x64.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  iota_S16_d0_w32_scVector : S16.Iotas .scVector 32 [0]
  squeezes_S1x128x128_S128x128 : S1x128x128.Squeezes S128x128
  inb_S128x128_S1x16_0_0 : ∀ a, (![0, 0] : Fin 2 → Nat) a + S1x16.size a ≤ S128x128.size a
  h_S1x16 : 0 < S1x16.numel
  shapeCasts_S1x16_S16 : S1x16.ShapeCasts S16
  inb_S128x128_S1x16_1_0 : ∀ a, (![1, 0] : Fin 2 → Nat) a + S1x16.size a ≤ S128x128.size a
  inb_S128x128_S1x16_2_0 : ∀ a, (![2, 0] : Fin 2 → Nat) a + S1x16.size a ≤ S128x128.size a
  inb_S128x128_S1x16_3_0 : ∀ a, (![3, 0] : Fin 2 → Nat) a + S1x16.size a ≤ S128x128.size a
  inb_S128x128_S1x16_4_0 : ∀ a, (![4, 0] : Fin 2 → Nat) a + S1x16.size a ≤ S128x128.size a
  inb_S128x128_S1x16_5_0 : ∀ a, (![5, 0] : Fin 2 → Nat) a + S1x16.size a ≤ S128x128.size a
  inb_S128x128_S1x16_6_0 : ∀ a, (![6, 0] : Fin 2 → Nat) a + S1x16.size a ≤ S128x128.size a
  inb_S128x128_S1x16_7_0 : ∀ a, (![7, 0] : Fin 2 → Nat) a + S1x16.size a ≤ S128x128.size a
  inb_S128x128_S1x16_8_0 : ∀ a, (![8, 0] : Fin 2 → Nat) a + S1x16.size a ≤ S128x128.size a
  inb_S128x128_S1x16_9_0 : ∀ a, (![9, 0] : Fin 2 → Nat) a + S1x16.size a ≤ S128x128.size a
  inb_S128x128_S1x16_10_0 : ∀ a, (![10, 0] : Fin 2 → Nat) a + S1x16.size a ≤ S128x128.size a
  inb_S128x128_S1x16_11_0 : ∀ a, (![11, 0] : Fin 2 → Nat) a + S1x16.size a ≤ S128x128.size a
  inb_S128x128_S1x16_12_0 : ∀ a, (![12, 0] : Fin 2 → Nat) a + S1x16.size a ≤ S128x128.size a
  inb_S128x128_S1x16_13_0 : ∀ a, (![13, 0] : Fin 2 → Nat) a + S1x16.size a ≤ S128x128.size a
  inb_S128x128_S1x16_14_0 : ∀ a, (![14, 0] : Fin 2 → Nat) a + S1x16.size a ≤ S128x128.size a
  inb_S128x128_S1x16_15_0 : ∀ a, (![15, 0] : Fin 2 → Nat) a + S1x16.size a ≤ S128x128.size a
  inb_S128_S16_0 : ∀ a, (![0] : Fin 1 → Nat) a + S16.size a ≤ S128.size a
  h_S16 : 0 < S16.numel
  shapeCasts_S16_S16 : S16.ShapeCasts S16
  inb_S128x128_S1x16_16_16 : ∀ a, (![16, 16] : Fin 2 → Nat) a + S1x16.size a ≤ S128x128.size a
  inb_S128x128_S1x16_17_16 : ∀ a, (![17, 16] : Fin 2 → Nat) a + S1x16.size a ≤ S128x128.size a
  inb_S128x128_S1x16_18_16 : ∀ a, (![18, 16] : Fin 2 → Nat) a + S1x16.size a ≤ S128x128.size a
  inb_S128x128_S1x16_19_16 : ∀ a, (![19, 16] : Fin 2 → Nat) a + S1x16.size a ≤ S128x128.size a
  inb_S128x128_S1x16_20_16 : ∀ a, (![20, 16] : Fin 2 → Nat) a + S1x16.size a ≤ S128x128.size a
  inb_S128x128_S1x16_21_16 : ∀ a, (![21, 16] : Fin 2 → Nat) a + S1x16.size a ≤ S128x128.size a
  inb_S128x128_S1x16_22_16 : ∀ a, (![22, 16] : Fin 2 → Nat) a + S1x16.size a ≤ S128x128.size a
  inb_S128x128_S1x16_23_16 : ∀ a, (![23, 16] : Fin 2 → Nat) a + S1x16.size a ≤ S128x128.size a
  inb_S128x128_S1x16_24_16 : ∀ a, (![24, 16] : Fin 2 → Nat) a + S1x16.size a ≤ S128x128.size a
  inb_S128x128_S1x16_25_16 : ∀ a, (![25, 16] : Fin 2 → Nat) a + S1x16.size a ≤ S128x128.size a
  inb_S128x128_S1x16_26_16 : ∀ a, (![26, 16] : Fin 2 → Nat) a + S1x16.size a ≤ S128x128.size a
  inb_S128x128_S1x16_27_16 : ∀ a, (![27, 16] : Fin 2 → Nat) a + S1x16.size a ≤ S128x128.size a
  inb_S128x128_S1x16_28_16 : ∀ a, (![28, 16] : Fin 2 → Nat) a + S1x16.size a ≤ S128x128.size a
  inb_S128x128_S1x16_29_16 : ∀ a, (![29, 16] : Fin 2 → Nat) a + S1x16.size a ≤ S128x128.size a
  inb_S128x128_S1x16_30_16 : ∀ a, (![30, 16] : Fin 2 → Nat) a + S1x16.size a ≤ S128x128.size a
  inb_S128x128_S1x16_31_16 : ∀ a, (![31, 16] : Fin 2 → Nat) a + S1x16.size a ≤ S128x128.size a
  inb_S128_S16_16 : ∀ a, (![16] : Fin 1 → Nat) a + S16.size a ≤ S128.size a
  inb_S128x128_S1x16_32_32 : ∀ a, (![32, 32] : Fin 2 → Nat) a + S1x16.size a ≤ S128x128.size a
  inb_S128x128_S1x16_33_32 : ∀ a, (![33, 32] : Fin 2 → Nat) a + S1x16.size a ≤ S128x128.size a
  inb_S128x128_S1x16_34_32 : ∀ a, (![34, 32] : Fin 2 → Nat) a + S1x16.size a ≤ S128x128.size a
  inb_S128x128_S1x16_35_32 : ∀ a, (![35, 32] : Fin 2 → Nat) a + S1x16.size a ≤ S128x128.size a
  inb_S128x128_S1x16_36_32 : ∀ a, (![36, 32] : Fin 2 → Nat) a + S1x16.size a ≤ S128x128.size a
  inb_S128x128_S1x16_37_32 : ∀ a, (![37, 32] : Fin 2 → Nat) a + S1x16.size a ≤ S128x128.size a
  inb_S128x128_S1x16_38_32 : ∀ a, (![38, 32] : Fin 2 → Nat) a + S1x16.size a ≤ S128x128.size a
  inb_S128x128_S1x16_39_32 : ∀ a, (![39, 32] : Fin 2 → Nat) a + S1x16.size a ≤ S128x128.size a
  inb_S128x128_S1x16_40_32 : ∀ a, (![40, 32] : Fin 2 → Nat) a + S1x16.size a ≤ S128x128.size a
  inb_S128x128_S1x16_41_32 : ∀ a, (![41, 32] : Fin 2 → Nat) a + S1x16.size a ≤ S128x128.size a
  inb_S128x128_S1x16_42_32 : ∀ a, (![42, 32] : Fin 2 → Nat) a + S1x16.size a ≤ S128x128.size a
  inb_S128x128_S1x16_43_32 : ∀ a, (![43, 32] : Fin 2 → Nat) a + S1x16.size a ≤ S128x128.size a
  inb_S128x128_S1x16_44_32 : ∀ a, (![44, 32] : Fin 2 → Nat) a + S1x16.size a ≤ S128x128.size a
  inb_S128x128_S1x16_45_32 : ∀ a, (![45, 32] : Fin 2 → Nat) a + S1x16.size a ≤ S128x128.size a
  inb_S128x128_S1x16_46_32 : ∀ a, (![46, 32] : Fin 2 → Nat) a + S1x16.size a ≤ S128x128.size a
  inb_S128x128_S1x16_47_32 : ∀ a, (![47, 32] : Fin 2 → Nat) a + S1x16.size a ≤ S128x128.size a
  inb_S128_S16_32 : ∀ a, (![32] : Fin 1 → Nat) a + S16.size a ≤ S128.size a
  inb_S128x128_S1x16_48_48 : ∀ a, (![48, 48] : Fin 2 → Nat) a + S1x16.size a ≤ S128x128.size a
  inb_S128x128_S1x16_49_48 : ∀ a, (![49, 48] : Fin 2 → Nat) a + S1x16.size a ≤ S128x128.size a
  inb_S128x128_S1x16_50_48 : ∀ a, (![50, 48] : Fin 2 → Nat) a + S1x16.size a ≤ S128x128.size a
  inb_S128x128_S1x16_51_48 : ∀ a, (![51, 48] : Fin 2 → Nat) a + S1x16.size a ≤ S128x128.size a
  inb_S128x128_S1x16_52_48 : ∀ a, (![52, 48] : Fin 2 → Nat) a + S1x16.size a ≤ S128x128.size a
  inb_S128x128_S1x16_53_48 : ∀ a, (![53, 48] : Fin 2 → Nat) a + S1x16.size a ≤ S128x128.size a
  inb_S128x128_S1x16_54_48 : ∀ a, (![54, 48] : Fin 2 → Nat) a + S1x16.size a ≤ S128x128.size a
  inb_S128x128_S1x16_55_48 : ∀ a, (![55, 48] : Fin 2 → Nat) a + S1x16.size a ≤ S128x128.size a
  inb_S128x128_S1x16_56_48 : ∀ a, (![56, 48] : Fin 2 → Nat) a + S1x16.size a ≤ S128x128.size a
  inb_S128x128_S1x16_57_48 : ∀ a, (![57, 48] : Fin 2 → Nat) a + S1x16.size a ≤ S128x128.size a
  inb_S128x128_S1x16_58_48 : ∀ a, (![58, 48] : Fin 2 → Nat) a + S1x16.size a ≤ S128x128.size a
  inb_S128x128_S1x16_59_48 : ∀ a, (![59, 48] : Fin 2 → Nat) a + S1x16.size a ≤ S128x128.size a
  inb_S128x128_S1x16_60_48 : ∀ a, (![60, 48] : Fin 2 → Nat) a + S1x16.size a ≤ S128x128.size a
  inb_S128x128_S1x16_61_48 : ∀ a, (![61, 48] : Fin 2 → Nat) a + S1x16.size a ≤ S128x128.size a
  inb_S128x128_S1x16_62_48 : ∀ a, (![62, 48] : Fin 2 → Nat) a + S1x16.size a ≤ S128x128.size a
  inb_S128x128_S1x16_63_48 : ∀ a, (![63, 48] : Fin 2 → Nat) a + S1x16.size a ≤ S128x128.size a
  inb_S128_S16_48 : ∀ a, (![48] : Fin 1 → Nat) a + S16.size a ≤ S128.size a
  inb_S128x128_S1x16_64_64 : ∀ a, (![64, 64] : Fin 2 → Nat) a + S1x16.size a ≤ S128x128.size a
  inb_S128x128_S1x16_65_64 : ∀ a, (![65, 64] : Fin 2 → Nat) a + S1x16.size a ≤ S128x128.size a
  inb_S128x128_S1x16_66_64 : ∀ a, (![66, 64] : Fin 2 → Nat) a + S1x16.size a ≤ S128x128.size a
  inb_S128x128_S1x16_67_64 : ∀ a, (![67, 64] : Fin 2 → Nat) a + S1x16.size a ≤ S128x128.size a
  inb_S128x128_S1x16_68_64 : ∀ a, (![68, 64] : Fin 2 → Nat) a + S1x16.size a ≤ S128x128.size a
  inb_S128x128_S1x16_69_64 : ∀ a, (![69, 64] : Fin 2 → Nat) a + S1x16.size a ≤ S128x128.size a
  inb_S128x128_S1x16_70_64 : ∀ a, (![70, 64] : Fin 2 → Nat) a + S1x16.size a ≤ S128x128.size a
  inb_S128x128_S1x16_71_64 : ∀ a, (![71, 64] : Fin 2 → Nat) a + S1x16.size a ≤ S128x128.size a
  inb_S128x128_S1x16_72_64 : ∀ a, (![72, 64] : Fin 2 → Nat) a + S1x16.size a ≤ S128x128.size a
  inb_S128x128_S1x16_73_64 : ∀ a, (![73, 64] : Fin 2 → Nat) a + S1x16.size a ≤ S128x128.size a
  inb_S128x128_S1x16_74_64 : ∀ a, (![74, 64] : Fin 2 → Nat) a + S1x16.size a ≤ S128x128.size a
  inb_S128x128_S1x16_75_64 : ∀ a, (![75, 64] : Fin 2 → Nat) a + S1x16.size a ≤ S128x128.size a
  inb_S128x128_S1x16_76_64 : ∀ a, (![76, 64] : Fin 2 → Nat) a + S1x16.size a ≤ S128x128.size a
  inb_S128x128_S1x16_77_64 : ∀ a, (![77, 64] : Fin 2 → Nat) a + S1x16.size a ≤ S128x128.size a
  inb_S128x128_S1x16_78_64 : ∀ a, (![78, 64] : Fin 2 → Nat) a + S1x16.size a ≤ S128x128.size a
  inb_S128x128_S1x16_79_64 : ∀ a, (![79, 64] : Fin 2 → Nat) a + S1x16.size a ≤ S128x128.size a
  inb_S128_S16_64 : ∀ a, (![64] : Fin 1 → Nat) a + S16.size a ≤ S128.size a
  inb_S128x128_S1x16_80_80 : ∀ a, (![80, 80] : Fin 2 → Nat) a + S1x16.size a ≤ S128x128.size a
  inb_S128x128_S1x16_81_80 : ∀ a, (![81, 80] : Fin 2 → Nat) a + S1x16.size a ≤ S128x128.size a
  inb_S128x128_S1x16_82_80 : ∀ a, (![82, 80] : Fin 2 → Nat) a + S1x16.size a ≤ S128x128.size a
  inb_S128x128_S1x16_83_80 : ∀ a, (![83, 80] : Fin 2 → Nat) a + S1x16.size a ≤ S128x128.size a
  inb_S128x128_S1x16_84_80 : ∀ a, (![84, 80] : Fin 2 → Nat) a + S1x16.size a ≤ S128x128.size a
  inb_S128x128_S1x16_85_80 : ∀ a, (![85, 80] : Fin 2 → Nat) a + S1x16.size a ≤ S128x128.size a
  inb_S128x128_S1x16_86_80 : ∀ a, (![86, 80] : Fin 2 → Nat) a + S1x16.size a ≤ S128x128.size a
  inb_S128x128_S1x16_87_80 : ∀ a, (![87, 80] : Fin 2 → Nat) a + S1x16.size a ≤ S128x128.size a
  inb_S128x128_S1x16_88_80 : ∀ a, (![88, 80] : Fin 2 → Nat) a + S1x16.size a ≤ S128x128.size a
  inb_S128x128_S1x16_89_80 : ∀ a, (![89, 80] : Fin 2 → Nat) a + S1x16.size a ≤ S128x128.size a
  inb_S128x128_S1x16_90_80 : ∀ a, (![90, 80] : Fin 2 → Nat) a + S1x16.size a ≤ S128x128.size a
  inb_S128x128_S1x16_91_80 : ∀ a, (![91, 80] : Fin 2 → Nat) a + S1x16.size a ≤ S128x128.size a
  inb_S128x128_S1x16_92_80 : ∀ a, (![92, 80] : Fin 2 → Nat) a + S1x16.size a ≤ S128x128.size a
  inb_S128x128_S1x16_93_80 : ∀ a, (![93, 80] : Fin 2 → Nat) a + S1x16.size a ≤ S128x128.size a
  inb_S128x128_S1x16_94_80 : ∀ a, (![94, 80] : Fin 2 → Nat) a + S1x16.size a ≤ S128x128.size a
  inb_S128x128_S1x16_95_80 : ∀ a, (![95, 80] : Fin 2 → Nat) a + S1x16.size a ≤ S128x128.size a
  inb_S128_S16_80 : ∀ a, (![80] : Fin 1 → Nat) a + S16.size a ≤ S128.size a
  inb_S128x128_S1x16_96_96 : ∀ a, (![96, 96] : Fin 2 → Nat) a + S1x16.size a ≤ S128x128.size a
  inb_S128x128_S1x16_97_96 : ∀ a, (![97, 96] : Fin 2 → Nat) a + S1x16.size a ≤ S128x128.size a
  inb_S128x128_S1x16_98_96 : ∀ a, (![98, 96] : Fin 2 → Nat) a + S1x16.size a ≤ S128x128.size a
  inb_S128x128_S1x16_99_96 : ∀ a, (![99, 96] : Fin 2 → Nat) a + S1x16.size a ≤ S128x128.size a
  inb_S128x128_S1x16_100_96 : ∀ a, (![100, 96] : Fin 2 → Nat) a + S1x16.size a ≤ S128x128.size a
  inb_S128x128_S1x16_101_96 : ∀ a, (![101, 96] : Fin 2 → Nat) a + S1x16.size a ≤ S128x128.size a
  inb_S128x128_S1x16_102_96 : ∀ a, (![102, 96] : Fin 2 → Nat) a + S1x16.size a ≤ S128x128.size a
  inb_S128x128_S1x16_103_96 : ∀ a, (![103, 96] : Fin 2 → Nat) a + S1x16.size a ≤ S128x128.size a
  inb_S128x128_S1x16_104_96 : ∀ a, (![104, 96] : Fin 2 → Nat) a + S1x16.size a ≤ S128x128.size a
  inb_S128x128_S1x16_105_96 : ∀ a, (![105, 96] : Fin 2 → Nat) a + S1x16.size a ≤ S128x128.size a
  inb_S128x128_S1x16_106_96 : ∀ a, (![106, 96] : Fin 2 → Nat) a + S1x16.size a ≤ S128x128.size a
  inb_S128x128_S1x16_107_96 : ∀ a, (![107, 96] : Fin 2 → Nat) a + S1x16.size a ≤ S128x128.size a
  inb_S128x128_S1x16_108_96 : ∀ a, (![108, 96] : Fin 2 → Nat) a + S1x16.size a ≤ S128x128.size a
  inb_S128x128_S1x16_109_96 : ∀ a, (![109, 96] : Fin 2 → Nat) a + S1x16.size a ≤ S128x128.size a
  inb_S128x128_S1x16_110_96 : ∀ a, (![110, 96] : Fin 2 → Nat) a + S1x16.size a ≤ S128x128.size a
  inb_S128x128_S1x16_111_96 : ∀ a, (![111, 96] : Fin 2 → Nat) a + S1x16.size a ≤ S128x128.size a
  inb_S128_S16_96 : ∀ a, (![96] : Fin 1 → Nat) a + S16.size a ≤ S128.size a
  inb_S128x128_S1x16_112_112 : ∀ a, (![112, 112] : Fin 2 → Nat) a + S1x16.size a ≤ S128x128.size a
  inb_S128x128_S1x16_113_112 : ∀ a, (![113, 112] : Fin 2 → Nat) a + S1x16.size a ≤ S128x128.size a
  inb_S128x128_S1x16_114_112 : ∀ a, (![114, 112] : Fin 2 → Nat) a + S1x16.size a ≤ S128x128.size a
  inb_S128x128_S1x16_115_112 : ∀ a, (![115, 112] : Fin 2 → Nat) a + S1x16.size a ≤ S128x128.size a
  inb_S128x128_S1x16_116_112 : ∀ a, (![116, 112] : Fin 2 → Nat) a + S1x16.size a ≤ S128x128.size a
  inb_S128x128_S1x16_117_112 : ∀ a, (![117, 112] : Fin 2 → Nat) a + S1x16.size a ≤ S128x128.size a
  inb_S128x128_S1x16_118_112 : ∀ a, (![118, 112] : Fin 2 → Nat) a + S1x16.size a ≤ S128x128.size a
  inb_S128x128_S1x16_119_112 : ∀ a, (![119, 112] : Fin 2 → Nat) a + S1x16.size a ≤ S128x128.size a
  inb_S128x128_S1x16_120_112 : ∀ a, (![120, 112] : Fin 2 → Nat) a + S1x16.size a ≤ S128x128.size a
  inb_S128x128_S1x16_121_112 : ∀ a, (![121, 112] : Fin 2 → Nat) a + S1x16.size a ≤ S128x128.size a
  inb_S128x128_S1x16_122_112 : ∀ a, (![122, 112] : Fin 2 → Nat) a + S1x16.size a ≤ S128x128.size a
  inb_S128x128_S1x16_123_112 : ∀ a, (![123, 112] : Fin 2 → Nat) a + S1x16.size a ≤ S128x128.size a
  inb_S128x128_S1x16_124_112 : ∀ a, (![124, 112] : Fin 2 → Nat) a + S1x16.size a ≤ S128x128.size a
  inb_S128x128_S1x16_125_112 : ∀ a, (![125, 112] : Fin 2 → Nat) a + S1x16.size a ≤ S128x128.size a
  inb_S128x128_S1x16_126_112 : ∀ a, (![126, 112] : Fin 2 → Nat) a + S1x16.size a ≤ S128x128.size a
  inb_S128x128_S1x16_127_112 : ∀ a, (![127, 112] : Fin 2 → Nat) a + S1x16.size a ≤ S128x128.size a
  inb_S128_S16_112 : ∀ a, (![112] : Fin 1 → Nat) a + S16.size a ≤ S128.size a
  squeezes_S1x1x128_S128 : S1x1x128.Squeezes S128
  shapeCasts_S64_S1x64 : S64.ShapeCasts S1x64
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  reduces_S1024x4096_S1024 : S1024x4096.Reduces [1] S1024
  reduces_S1024x4096_S4096 : S1024x4096.Reduces [0] S4096
  inb_S4096x8_S4096x1_0_0 : ∀ a, (![0, 0] : Fin 2 → Nat) a + S4096x1.size a ≤ S4096x8.size a
  h_S4096x1 : 0 < S4096x1.numel
  shapeCasts_S4096x1_S4096x1 : S4096x1.ShapeCasts S4096x1
  shapeCasts_S4096_S4096x1 : S4096.ShapeCasts S4096x1
  shapeCasts_S1024_S1024x1 : S1024.ShapeCasts S1024x1
  h_S1024x1 : 0 < S1024x1.numel
  shapeCasts_S1024x1_S1024x1 : S1024x1.ShapeCasts S1024x1
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  reduces_S4096x64_S64 : S4096x64.Reduces [0] S64
  inb_S4096x8_S4096x1_0_1 : ∀ a, (![0, 1] : Fin 2 → Nat) a + S4096x1.size a ≤ S4096x8.size a
  inb_S1x8x4096_S1x1x4096_0_0_0 : ∀ a, (![0, 0, 0] : Fin 3 → Nat) a + S1x1x4096.size a ≤ S1x8x4096.size a
  h_S1x1x4096 : 0 < S1x1x4096.numel
  shapeCasts_S1x1x4096_S4096 : S1x1x4096.ShapeCasts S4096
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o1_0_S1x512 : S8x512.Slices ![1, 0] S1x512
  slices_S8x512_o4_0_S1x512 : S8x512.Slices ![4, 0] S1x512
  slices_S8x512_o5_0_S1x512 : S8x512.Slices ![5, 0] S1x512
  slices_S8x512_o0_0_S1x512 : S8x512.Slices ![0, 0] S1x512
  broadcasts_S4096x1_S4096x512 : S4096x1.Broadcasts S4096x512
  broadcasts_S1x512_S4096x512 : S1x512.Broadcasts S4096x512
  slices_S8x512_o2_0_S1x512 : S8x512.Slices ![2, 0] S1x512
  slices_S8x512_o3_0_S1x512 : S8x512.Slices ![3, 0] S1x512
  reduces_S4096x512_S512 : S4096x512.Reduces [0] S512
  shapeCasts_S512_S1x512 : S512.ShapeCasts S1x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S1x64_S64 : S1x64.ShapeCasts S64
  inb_S1x64_S1x64_0_0 : ∀ a, (![0, 0] : Fin 2 → Nat) a + S1x64.size a ≤ S1x64.size a
  h_S1x64 : 0 < S1x64.numel
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x1x64 : S64.ShapeCasts S1x1x64
  shapeCasts_S4x1x64_S4x64 : S4x1x64.ShapeCasts S4x64
  dot_S4096x64_S64x512_S4096x512_1_0_0_1_n_n_wf : DotDims.WF S4096x64 S64x512 S4096x512 [1] [0] [0] [1] [] []
  dot_S1x64_S64x512_S1x512_1_0_0_1_n_n_wf : DotDims.WF S1x64 S64x512 S1x512 [1] [0] [0] [1] [] []
  dot_S1x512_S512x64_S1x64_1_0_0_1_n_n_wf : DotDims.WF S1x512 S512x64 S1x64 [1] [0] [0] [1] [] []
  hcc0_scratch2 : 0 + S_.numel ≤ 15
  hcc0_scoped0 : 1 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 128 ∣ (k0_mult1 i).toNat
  k0_t1_ok : k0_t1_loop.OK
  k0_off1_inb : ∀ (i : grid0.Coords) (k0_t1 : Fin k0_t1_loop.trips), ∀ a, (k0_off1 i k0_t1) a + S1x128x128.size a ≤ S4x4096x4096.size a
  k0_off2_inb : ∀ (i : grid0.Coords) (k0_t1 : Fin k0_t1_loop.trips), ∀ a, (k0_off2 i k0_t1) a + S1x1x128.size a ≤ S4x8x4096.size a
  hrank1 : 0 < grid1.rank
  k1_off1_inb : ∀ i : grid1.Coords, ∀ (k1_h1 : k1_cond1 i = 1#1), ∀ a, (k1_off1 i) a + S1024x1.size a ≤ S4096x8.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x4096.size a ≤ S4x4096x4096.size a
  hwx1_0 : ∀ i : grid1.Coords, EltTy.bits .f32 = 32 ∨ (Rect.block (s := S4x4096x4096) S1x1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .f32 = 32 ∨ (Rect.block (s := S4x4096x64) S1x4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x4096.size a ≤ S4x8x4096.size a
  hwx1_2 : ∀ i : grid1.Coords, EltTy.bits .f32 = 32 ∨ (Rect.block (s := S4x8x4096) S1x8x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x512.size a ≤ S64x512.size a
  hwx1_3 : ∀ i : grid1.Coords, EltTy.bits .f32 = 32 ∨ (Rect.block (s := S64x512) S64x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x512.size a ≤ S64x512.size a
  hwx1_4 : ∀ i : grid1.Coords, EltTy.bits .f32 = 32 ∨ (Rect.block (s := S64x512) S64x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x512.size a ≤ S8x512.size a
  hwx1_5 : ∀ i : grid1.Coords, EltTy.bits .f32 = 32 ∨ (Rect.block (s := S8x512) S8x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x64.size a ≤ S512x64.size a
  hwx1_6 : ∀ i : grid1.Coords, EltTy.bits .f32 = 32 ∨ (Rect.block (s := S512x64) S512x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x64.size a ≤ S4x1x64.size a
  hwx1_8 : ∀ i : grid1.Coords, EltTy.bits .f32 = 32 ∨ (Rect.block (s := S4x1x64) S1x1x64.size (cc1_transform_8 i) (hinb1_8 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf
def dot_S1x64_S64x512_S1x512_1_0_0_1_n_n : DotDims S1x64 S64x512 S1x512 where
  lhsContracting := [1]
  rhsContracting := [0]
  lhsNonContracting := [0]
  rhsNonContracting := [1]
  lhsBatch := []
  rhsBatch := []
  wf := dot_S1x64_S64x512_S1x512_1_0_0_1_n_n_wf
def dot_S1x512_S512x64_S1x64_1_0_0_1_n_n : DotDims S1x512 S512x64 S1x64 where
  lhsContracting := [1]
  rhsContracting := [0]
  lhsNonContracting := [0]
  rhsNonContracting := [1]
  lhsBatch := []
  rhsBatch := []
  wf := dot_S1x512_S512x64_S1x64_1_0_0_1_n_n_wf

abbrev win1_0 : Pipeline.Window sig grid1 :=
  Pipeline.Window.ofSpec (Memref.whole main_arg1) S1x1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x8x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S64x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S64x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S8x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S512x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v65) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v66) S1x1x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond3 i == 1#1) | ⟨_ + 9, h⟩ => absurd h (Nat.not_lt.2 (Nat.le_add_left _ _))

class Facts : Prop extends Facts₀ where

variable [Facts]
-- ==== ReferenceIdeal.lean ====
abbrev S4x4096x64 : Shape := ⟨3, ![4, 4096, 64]⟩
abbrev S4x4096x4096 : Shape := ⟨3, ![4, 4096, 4096]⟩
abbrev S64x5x65x8 : Shape := ⟨4, ![64, 5, 65, 8]⟩
abbrev S64x8 : Shape := ⟨2, ![64, 8]⟩
abbrev S64 : Shape := ⟨1, ![64]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S4x4096 : Shape := ⟨2, ![4, 4096]⟩
abbrev S4 : Shape := ⟨1, ![4]⟩
abbrev S4x64 : Shape := ⟨2, ![4, 64]⟩
abbrev S4x4096x1 : Shape := ⟨3, ![4, 4096, 1]⟩
abbrev S4x4096x65 : Shape := ⟨3, ![4, 4096, 65]⟩
abbrev S4x1x64 : Shape := ⟨3, ![4, 1, 64]⟩
abbrev S4x1x1 : Shape := ⟨3, ![4, 1, 1]⟩
abbrev S4x4096x1x65 : Shape := ⟨4, ![4, 4096, 1, 65]⟩
abbrev S4x4096x5x65 : Shape := ⟨4, ![4, 4096, 5, 65]⟩
abbrev S64x8x4x4096 : Shape := ⟨4, ![64, 8, 4, 4096]⟩
abbrev S4x64x4096x8 : Shape := ⟨4, ![4, 64, 4096, 8]⟩
abbrev S1x64x1x8 : Shape := ⟨4, ![1, 64, 1, 8]⟩
abbrev S4x64x8 : Shape := ⟨3, ![4, 64, 8]⟩
abbrev S64x4 : Shape := ⟨2, ![64, 4]⟩
abbrev S1x64 : Shape := ⟨2, ![1, 64]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x4096, .f32⟩
  | .hbm, ⟨2, _⟩ => ⟨S64x5x65x8, .f32⟩
  | .hbm, ⟨3, _⟩ => ⟨S64x8, .f32⟩
  | .hbm, ⟨4, _⟩ => ⟨S64x8, .f32⟩
  | .hbm, ⟨5, _⟩ => ⟨S64, .f32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x1, .i32⟩
  | .hbm, ⟨24, _⟩ => ⟨S4096x2, .i32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S_, .f32⟩
  | .hbm, ⟨35, _⟩ => ⟨S4x64, .f32⟩
  | .hbm, ⟨36, _⟩ => ⟨S4x4096x1, .f32⟩
  | .hbm, ⟨37, _⟩ => ⟨S4x4096x65, .f32⟩
  | .hbm, ⟨38, _⟩ => ⟨S4x1x64, .f32⟩
  | .hbm, ⟨39, _⟩ => ⟨S4x4096x64, .f32⟩
  | .hbm, ⟨40, _⟩ => ⟨S4x1x1, .f32⟩
  | .hbm, ⟨41, _⟩ => ⟨S4x4096x1, .f32⟩
  | .hbm, ⟨42, _⟩ => ⟨S4x4096x65, .f32⟩
  | .hbm, ⟨43, _⟩ => ⟨S_, .f32⟩
  | .hbm, ⟨44, _⟩ => ⟨S4x4096x65, .f32⟩
  | .hbm, ⟨45, _⟩ => ⟨S4x4096x65, .f32⟩
  | .hbm, ⟨46, _⟩ => ⟨S4x4096x1, .f32⟩
  | .hbm, ⟨47, _⟩ => ⟨S4x4096x65, .f32⟩
  | .hbm, ⟨48, _⟩ => ⟨S_, .f32⟩
  | .hbm, ⟨49, _⟩ => ⟨S4x4096x65, .f32⟩
  | .hbm, ⟨50, _⟩ => ⟨S4x4096x65, .f32⟩
  | .hbm, ⟨51, _⟩ => ⟨S4x4096x1, .f32⟩
  | .hbm, ⟨52, _⟩ => ⟨S4x4096x65, .f32⟩
  | .hbm, ⟨53, _⟩ => ⟨S_, .f32⟩
  | .hbm, ⟨54, _⟩ => ⟨S4x4096x65, .f32⟩
  | .hbm, ⟨55, _⟩ => ⟨S4x4096x65, .f32⟩
  | .hbm, ⟨56, _⟩ => ⟨S4x1x64, .f32⟩
  | .hbm, ⟨57, _⟩ => ⟨S4x4096x64, .f32⟩
  | .hbm, ⟨58, _⟩ => ⟨S4x1x1, .f32⟩
  | .hbm, ⟨59, _⟩ => ⟨S4x4096x1, .f32⟩
  | .hbm, ⟨60, _⟩ => ⟨S4x4096x65, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4x4096x65, .f32⟩
  | .hbm, ⟨65, _⟩ => ⟨S4x4096x65, .f32⟩
  | .hbm, ⟨66, _⟩ => ⟨S4x4096x1x65, .f32⟩
  | .hbm, ⟨67, _⟩ => ⟨S4x4096x1x65, .f32⟩
  | .hbm, ⟨68, _⟩ => ⟨S4x4096x1x65, .f32⟩
  | .hbm, ⟨69, _⟩ => ⟨S4x4096x1x65, .f32⟩
  | .hbm, ⟨70, _⟩ => ⟨S4x4096x1x65, .f32⟩
  | .hbm, ⟨71, _⟩ => ⟨S4x4096x5x65, .f32⟩
  | .hbm, ⟨72, _⟩ => ⟨S64x8x4x4096, .f32⟩
  | .hbm, ⟨73, _⟩ => ⟨S4x64x4096x8, .f32⟩
  | .hbm, ⟨74, _⟩ => ⟨S1x64x1x8, .f32⟩
  | .hbm, ⟨75, _⟩ => ⟨S4x64x4096x8, .f32⟩
  | .hbm, ⟨76, _⟩ => ⟨S4x64x4096x8, .f32⟩
  | .hbm, ⟨77, _⟩ => ⟨S_, .f32⟩
  | .hbm, ⟨78, _⟩ => ⟨S4x64x4096x8, .f32⟩
  | .hbm, ⟨79, _⟩ => ⟨S4x64x4096x8, .f32⟩
  | .hbm, ⟨80, _⟩ => ⟨S_, .f32⟩
  | .hbm, ⟨81, _⟩ => ⟨S4x64x8, .f32⟩
  | .hbm, ⟨82, _⟩ => ⟨S64x4, .f32⟩
  | .hbm, ⟨83, _⟩ => ⟨S4x64, .f32⟩
  | .hbm, ⟨84, _⟩ => ⟨S_, .f32⟩
  | .hbm, ⟨85, _⟩ => ⟨S4x64, .f32⟩
  | .hbm, ⟨86, _⟩ => ⟨S4x64, .f32⟩
  | .hbm, ⟨87, _⟩ => ⟨S1x64, .f32⟩
  | .hbm, ⟨88, _⟩ => ⟨S4x64, .f32⟩
  | .hbm, ⟨89, _⟩ => ⟨S4x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_call0_c_0 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_c_1 : Ref sig .tc := ⟨.hbm, 15, rfl⟩
abbrev main_call0_v7 : Ref sig .tc := ⟨.hbm, 16, rfl⟩
abbrev main_call0_v8 : Ref sig .tc := ⟨.hbm, 17, rfl⟩
abbrev main_call0_c_2 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_cst_1 : Ref sig .tc := ⟨.hbm, 30, rfl⟩
abbrev main_v3 : Ref sig .tc := ⟨.hbm, 31, rfl⟩
abbrev main_cst_2 : Ref sig .tc := ⟨.hbm, 32, rfl⟩
abbrev main_v4 : Ref sig .tc := ⟨.hbm, 33, rfl⟩
abbrev main_cst_3 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_4 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_5 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_6 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_7 : Ref sig .tc := ⟨.hbm, 61, rfl⟩
abbrev main_cst_8 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_call1_cst : Ref sig .tc := ⟨.hbm, 77, rfl⟩
abbrev main_call1_v0 : Ref sig .tc := ⟨.hbm, 78, rfl⟩
abbrev main_v42 : Ref sig .tc := ⟨.hbm, 79, rfl⟩
abbrev main_cst_9 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_10 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  reducesTo_S4x4096x4096_S4x4096_d2 : S4x4096x4096.ReducesTo [2] S4x4096
  h_S_ : 0 < S_.numel
  reducesTo_S4x4096x4096_S4x4096_d1 : S4x4096x4096.ReducesTo [1] S4x4096
  reducesTo_S4x4096_S4_d1 : S4x4096.ReducesTo [1] S4
  reducesTo_S4x4096x4096_S4_d1_2 : S4x4096x4096.ReducesTo [1, 2] S4
  reducesTo_S4x4096x64_S4x64_d1 : S4x4096x64.ReducesTo [1] S4x64
  bcast_S4x4096_S4x4096x1_0_1 : S4x4096.BroadcastsInDim S4x4096x1 (![0, 1] : Fin 2 → Fin S4x4096x1.rank)
  concatenates_S4x4096x64_S4x4096x1_S4x4096x65_d2 : Shape.Concatenates [S4x4096x64, S4x4096x1] S4x4096x65 2
  bcast_S4x64_S4x1x64_0_2 : S4x64.BroadcastsInDim S4x1x64 (![0, 2] : Fin 2 → Fin S4x1x64.rank)
  bcast_S4x1x64_S4x4096x64_0_1_2 : S4x1x64.BroadcastsInDim S4x4096x64 (![0, 1, 2] : Fin 3 → Fin S4x4096x64.rank)
  bcast_S4_S4x1x1_0 : S4.BroadcastsInDim S4x1x1 (![0] : Fin 1 → Fin S4x1x1.rank)
  bcast_S4x1x1_S4x4096x1_0_1_2 : S4x1x1.BroadcastsInDim S4x4096x1 (![0, 1, 2] : Fin 3 → Fin S4x4096x1.rank)
  bcast_S_S4x4096x65 : S_.BroadcastsInDim S4x4096x65 (![] : Fin 0 → Fin S4x4096x65.rank)
  bcast_S4x4096x65_S4x4096x1x65_0_1_3 : S4x4096x65.BroadcastsInDim S4x4096x1x65 (![0, 1, 3] : Fin 3 → Fin S4x4096x1x65.rank)
  concatenates_S4x4096x1x65_S4x4096x1x65_S4x4096x1x65_S4x4096x1x65_S4x4096x1x65_S4x4096x5x65_d2 : Shape.Concatenates [S4x4096x1x65, S4x4096x1x65, S4x4096x1x65, S4x4096x1x65, S4x4096x1x65] S4x4096x5x65 2
  transposes_S64x8x4x4096_S4x64x4096x8_2_0_3_1 : S64x8x4x4096.Transposes [2, 0, 3, 1] S4x64x4096x8
  bcast_S64x8_S1x64x1x8_1_3 : S64x8.BroadcastsInDim S1x64x1x8 (![1, 3] : Fin 2 → Fin S1x64x1x8.rank)
  bcast_S1x64x1x8_S4x64x4096x8_0_1_2_3 : S1x64x1x8.BroadcastsInDim S4x64x4096x8 (![0, 1, 2, 3] : Fin 4 → Fin S4x64x4096x8.rank)
  bcast_S_S4x64x4096x8 : S_.BroadcastsInDim S4x64x4096x8 (![] : Fin 0 → Fin S4x64x4096x8.rank)
  reducesTo_S4x64x4096x8_S4x64x8_d2 : S4x64x4096x8.ReducesTo [2] S4x64x8
  transposes_S64x4_S4x64_1_0 : S64x4.Transposes [1, 0] S4x64
  bcast_S_S4x64 : S_.BroadcastsInDim S4x64 (![] : Fin 0 → Fin S4x64.rank)
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  gather_S4x4096x4096_S4096x2_S4x4096_0_12_n_n_12_1_411_wf : GatherDims.WF S4x4096x4096 S4096x2 S4x4096 [0] [1, 2] [] [1, 2] [] 1 ![4, 1, 1]
  dot_S64x5x65x8_S4x4096x5x65_S64x8x4x4096_21_32_03_01_n_n_wf : DotDims.WF S64x5x65x8 S4x4096x5x65 S64x8x4x4096 [2, 1] [3, 2] [0, 3] [0, 1] [] []
  dot_S64x8_S4x64x8_S64x4_1_2_n_0_0_1_wf : DotDims.WF S64x8 S4x64x8 S64x4 [1] [2] [] [0] [0] [1]

variable [Facts₀]

def gather_S4x4096x4096_S4096x2_S4x4096_0_12_n_n_12_1_411 : GatherDims S4x4096x4096 S4096x2 S4x4096 where
  offsetDims := [0]
  collapsedSliceDims := [1, 2]
  operandBatchingDims := []
  startIndicesBatchingDims := []
  startIndexMap := [1, 2]
  indexVectorDim := 1
  sliceSizes := ![4, 1, 1]
  wf := gather_S4x4096x4096_S4096x2_S4x4096_0_12_n_n_12_1_411_wf
def dot_S64x5x65x8_S4x4096x5x65_S64x8x4x4096_21_32_03_01_n_n : DotDims S64x5x65x8 S4x4096x5x65 S64x8x4x4096 where
  lhsContracting := [2, 1]
  rhsContracting := [3, 2]
  lhsNonContracting := [0, 3]
  rhsNonContracting := [0, 1]
  lhsBatch := []
  rhsBatch := []
  wf := dot_S64x5x65x8_S4x4096x5x65_S64x8x4x4096_21_32_03_01_n_n_wf
def dot_S64x8_S4x64x8_S64x4_1_2_n_0_0_1 : DotDims S64x8 S4x64x8 S64x4 where
  lhsContracting := [1]
  rhsContracting := [2]
  lhsNonContracting := []
  rhsNonContracting := [0]
  lhsBatch := [0]
  rhsBatch := [1]
  wf := dot_S64x8_S4x64x8_S64x4_1_2_n_0_0_1_wf

class Facts : Prop extends Facts₀ where

variable [Facts]
-- ==== Proof.SetupB.lean ====
/-
  What every module of this certificate's frame shares for the program `Kernel`, at any float instance `F`: the
  program as the SparseCore launch theorem sees it (its configuration `K`, the body table `D` under it, the loop
  variants), and the ghost state — three independent parts side by side: the rounds of the launch handshakes between
  the TensorCore, the two sequencers and the thirty-two vector subcores; the rounds of the TensorCore pipeline's staging
  cells (one per staging buffer of the nine windows); and the counters of the vector subcores' own copies, which need no
  schedule because each copy is waited for before the next is issued.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«208576_g46445776339566_cont_8to1c4_655_26_alg».proof.Proof.Gen.Kernel
import proofs.«208576_g46445776339566_cont_8to1c4_655_26_alg».proof.Proof.Gen.Kernel.Launch
import proofs.«208576_g46445776339566_cont_8to1c4_655_26_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The launch handshakes' rounds. -/
abbrev UH : Type := URounds (GSem nD τ sig) ℕ
/-- The pipeline's staging cells' rounds. -/
abbrev UP : Type := URounds (GSem nD τ sig) Unit
/-- Handshakes, staging cells, and the counters of copies that need no schedule. -/
abbrev UU : Type := UH × (UP × Counters)

local notation "𝕄" => MT nD τ sig (HIx 1) (Elt F) ℕ UU ℕ

/-- The handshakes' rounds sit in the left factor, -/
abbrev EH : Emb UH (MT nD τ sig (HIx 1) (Elt F) ℕ UU ℕ) := embL
/-- the staging cells' in the left of the right factor; the counters are found by instance in what is left. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

end Cert.Proof.KB

end
-- ==== Proof.MainOpsB.lean ====
/-
  @main of `Kernel` as three straight lines of host operations around its two calls: 90 operations — the folded
  weights, the packed rows, the selector matrix — before the SparseCore call that extracts the diagonal, 1 between it and
  the TensorCore region, 1 after the region. Each list is @main's own operations in @main's order, the bodies of the
  functions it calls written out at the buffers of each call.
-/
import proofs.«208576_g46445776339566_cont_8to1c4_655_26_alg».proof.Kernel
import Idealize.ShloMosaic.Lib.StableHlo.Run
import Idealize.ShloMosaic.Lib.Pipeline.Regions

set_option maxRecDepth 65536

noncomputable section

namespace Cert.Proof.KB

open Cert.Kernel
open Idealize.ShloMosaic Idealize.SL.Sem

variable {F : FTy → Type} [FloatOps F]
-- the side conditions the program states of its shapes (reshapes, slices, broadcasts): taken as the program takes them
variable [Facts]
open Facts₀ Facts

abbrev call0_a0 : StableHlo.TRef sig ⟨S512, .i32⟩ := .of main_v53
abbrev call0_a1 : StableHlo.TRef sig ⟨S_, .i32⟩ := .of main_c
abbrev call1_a0 : StableHlo.TRef sig ⟨S512x64, .i1⟩ := .of main_v60
abbrev call1_a1 : StableHlo.TRef sig ⟨S512x1, .f32⟩ := .of main_v62
abbrev call1_a2 : StableHlo.TRef sig ⟨S_, .f32⟩ := .of main_cst_4

/-- What @main computes on the host before the SparseCore call. -/
def opsPre : List (HloOp τ sig (Elt F)) :=
  [(StableHlo.unary main_arg2 main_v0 ((extractStridedSlice S64x5x64x8 ![0, 0, 0, 0] · slices_S64x5x65x8_S64x5x64x8_0_0_0_0) : (⟨S64x5x65x8, .f32⟩ : BufTy).Contents (Elt F) → (⟨S64x5x64x8, .f32⟩ : BufTy).Contents (Elt F))),
   (StableHlo.unary main_arg2 main_v1 ((extractStridedSlice S64x5x1x8 ![0, 0, 64, 0] · slices_S64x5x65x8_S64x5x1x8_0_0_64_0) : (⟨S64x5x65x8, .f32⟩ : BufTy).Contents (Elt F) → (⟨S64x5x1x8, .f32⟩ : BufTy).Contents (Elt F))),
   (StableHlo.reshape main_v1 main_v2 rfl shapeCasts_S64x5x1x8_S64x5x8),
   (StableHlo.unary main_v0 main_v3 ((extractStridedSlice S64x1x64x8 ![0, 0, 0, 0] · slices_S64x5x64x8_S64x1x64x8_0_0_0_0) : (⟨S64x5x64x8, .f32⟩ : BufTy).Contents (Elt F) → (⟨S64x1x64x8, .f32⟩ : BufTy).Contents (Elt F))),
   (StableHlo.reshape main_v3 main_v4 rfl shapeCasts_S64x1x64x8_S64x64x8),
   (StableHlo.unary main_v0 main_v5 ((extractStridedSlice S64x1x64x8 ![0, 2, 0, 0] · slices_S64x5x64x8_S64x1x64x8_0_2_0_0) : (⟨S64x5x64x8, .f32⟩ : BufTy).Contents (Elt F) → (⟨S64x1x64x8, .f32⟩ : BufTy).Contents (Elt F))),
   (StableHlo.reshape main_v5 main_v6 rfl shapeCasts_S64x1x64x8_S64x64x8),
   (StableHlo.unary main_v0 main_v7 ((extractStridedSlice S64x1x64x8 ![0, 3, 0, 0] · slices_S64x5x64x8_S64x1x64x8_0_3_0_0) : (⟨S64x5x64x8, .f32⟩ : BufTy).Contents (Elt F) → (⟨S64x1x64x8, .f32⟩ : BufTy).Contents (Elt F))),
   (StableHlo.reshape main_v7 main_v8 rfl shapeCasts_S64x1x64x8_S64x64x8),
   (StableHlo.binary main_v6 main_v8 main_v9 (addf : (⟨S64x64x8, .f32⟩ : BufTy).Contents (Elt F) → (⟨S64x64x8, .f32⟩ : BufTy).Contents (Elt F) → (⟨S64x64x8, .f32⟩ : BufTy).Contents (Elt F))),
   (StableHlo.nullary main_cst (constant S_ .f32 0x39800000#32)),
   (StableHlo.unary main_cst main_v10 (broadcastInDim S64x64x8 ![] bcast_S_S64x64x8 : (⟨S_, .f32⟩ : BufTy).Contents (Elt F) → (⟨S64x64x8, .f32⟩ : BufTy).Contents (Elt F))),
   (StableHlo.binary main_v9 main_v10 main_v11 (mulf : (⟨S64x64x8, .f32⟩ : BufTy).Contents (Elt F) → (⟨S64x64x8, .f32⟩ : BufTy).Contents (Elt F) → (⟨S64x64x8, .f32⟩ : BufTy).Contents (Elt F))),
   (StableHlo.binary main_v4 main_v11 main_v12 (addf : (⟨S64x64x8, .f32⟩ : BufTy).Contents (Elt F) → (⟨S64x64x8, .f32⟩ : BufTy).Contents (Elt F) → (⟨S64x64x8, .f32⟩ : BufTy).Contents (Elt F))),
   (StableHlo.unary main_v12 main_v13 ((transpose S64x64x8 [1, 0, 2] · transposes_S64x64x8_S64x64x8_1_0_2) : (⟨S64x64x8, .f32⟩ : BufTy).Contents (Elt F) → (⟨S64x64x8, .f32⟩ : BufTy).Contents (Elt F))),
   (StableHlo.reshape main_v13 main_v14 rfl shapeCasts_S64x64x8_S64x512),
   (StableHlo.unary main_v0 main_v15 ((extractStridedSlice S64x1x64x8 ![0, 1, 0, 0] · slices_S64x5x64x8_S64x1x64x8_0_1_0_0) : (⟨S64x5x64x8, .f32⟩ : BufTy).Contents (Elt F) → (⟨S64x1x64x8, .f32⟩ : BufTy).Contents (Elt F))),
   (StableHlo.reshape main_v15 main_v16 rfl shapeCasts_S64x1x64x8_S64x64x8),
   (StableHlo.nullary main_cst_0 (constant S_ .f32 0x39800000#32)),
   (StableHlo.unary main_cst_0 main_v17 (broadcastInDim S64x64x8 ![] bcast_S_S64x64x8 : (⟨S_, .f32⟩ : BufTy).Contents (Elt F) → (⟨S64x64x8, .f32⟩ : BufTy).Contents (Elt F))),
   (StableHlo.binary main_v16 main_v17 main_v18 (mulf : (⟨S64x64x8, .f32⟩ : BufTy).Contents (Elt F) → (⟨S64x64x8, .f32⟩ : BufTy).Contents (Elt F) → (⟨S64x64x8, .f32⟩ : BufTy).Contents (Elt F))),
   (StableHlo.unary main_v0 main_v19 ((extractStridedSlice S64x1x64x8 ![0, 4, 0, 0] · slices_S64x5x64x8_S64x1x64x8_0_4_0_0) : (⟨S64x5x64x8, .f32⟩ : BufTy).Contents (Elt F) → (⟨S64x1x64x8, .f32⟩ : BufTy).Contents (Elt F))),
   (StableHlo.reshape main_v19 main_v20 rfl shapeCasts_S64x1x64x8_S64x64x8),
   (StableHlo.nullary main_cst_1 (constant S_ .f32 0x33800000#32)),
   (StableHlo.unary main_cst_1 main_v21 (broadcastInDim S64x64x8 ![] bcast_S_S64x64x8 : (⟨S_, .f32⟩ : BufTy).Contents (Elt F) → (⟨S64x64x8, .f32⟩ : BufTy).Contents (Elt F))),
   (StableHlo.binary main_v20 main_v21 main_v22 (mulf : (⟨S64x64x8, .f32⟩ : BufTy).Contents (Elt F) → (⟨S64x64x8, .f32⟩ : BufTy).Contents (Elt F) → (⟨S64x64x8, .f32⟩ : BufTy).Contents (Elt F))),
   (StableHlo.binary main_v18 main_v22 main_v23 (addf : (⟨S64x64x8, .f32⟩ : BufTy).Contents (Elt F) → (⟨S64x64x8, .f32⟩ : BufTy).Contents (Elt F) → (⟨S64x64x8, .f32⟩ : BufTy).Contents (Elt F))),
   (StableHlo.unary main_v23 main_v24 ((transpose S64x64x8 [1, 0, 2] · transposes_S64x64x8_S64x64x8_1_0_2) : (⟨S64x64x8, .f32⟩ : BufTy).Contents (Elt F) → (⟨S64x64x8, .f32⟩ : BufTy).Contents (Elt F))),
   (StableHlo.reshape main_v24 main_v25 rfl shapeCasts_S64x64x8_S64x512),
   (StableHlo.unary main_v2 main_v26 ((extractStridedSlice S64x1x8 ![0, 0, 0] · slices_S64x5x8_S64x1x8_0_0_0) : (⟨S64x5x8, .f32⟩ : BufTy).Contents (Elt F) → (⟨S64x1x8, .f32⟩ : BufTy).Contents (Elt F))),
   (StableHlo.reshape main_v26 main_v27 rfl shapeCasts_S64x1x8_S64x8),
   (StableHlo.reshape main_v27 main_v28 rfl shapeCasts_S64x8_S512),
   (StableHlo.unary main_v2 main_v29 ((extractStridedSlice S64x1x8 ![0, 1, 0] · slices_S64x5x8_S64x1x8_0_1_0) : (⟨S64x5x8, .f32⟩ : BufTy).Contents (Elt F) → (⟨S64x1x8, .f32⟩ : BufTy).Contents (Elt F))),
   (StableHlo.reshape main_v29 main_v30 rfl shapeCasts_S64x1x8_S64x8),
   (StableHlo.reshape main_v30 main_v31 rfl shapeCasts_S64x8_S512),
   (StableHlo.unary main_v2 main_v32 ((extractStridedSlice S64x1x8 ![0, 2, 0] · slices_S64x5x8_S64x1x8_0_2_0) : (⟨S64x5x8, .f32⟩ : BufTy).Contents (Elt F) → (⟨S64x1x8, .f32⟩ : BufTy).Contents (Elt F))),
   (StableHlo.reshape main_v32 main_v33 rfl shapeCasts_S64x1x8_S64x8),
   (StableHlo.reshape main_v33 main_v34 rfl shapeCasts_S64x8_S512),
   (StableHlo.unary main_v2 main_v35 ((extractStridedSlice S64x1x8 ![0, 3, 0] · slices_S64x5x8_S64x1x8_0_3_0) : (⟨S64x5x8, .f32⟩ : BufTy).Contents (Elt F) → (⟨S64x1x8, .f32⟩ : BufTy).Contents (Elt F))),
   (StableHlo.reshape main_v35 main_v36 rfl shapeCasts_S64x1x8_S64x8),
   (StableHlo.reshape main_v36 main_v37 rfl shapeCasts_S64x8_S512),
   (StableHlo.unary main_v2 main_v38 ((extractStridedSlice S64x1x8 ![0, 4, 0] · slices_S64x5x8_S64x1x8_0_4_0) : (⟨S64x5x8, .f32⟩ : BufTy).Contents (Elt F) → (⟨S64x1x8, .f32⟩ : BufTy).Contents (Elt F))),
   (StableHlo.reshape main_v38 main_v39 rfl shapeCasts_S64x1x8_S64x8),
   (StableHlo.reshape main_v39 main_v40 rfl shapeCasts_S64x8_S512),
   (StableHlo.reshape main_arg3 main_v41 rfl shapeCasts_S64x8_S512),
   (StableHlo.nullary main_cst_2 (constant S_ .f32 0x00000000#32)),
   (StableHlo.unary main_cst_2 main_v42 (broadcastInDim S512 ![] bcast_S_S512 : (⟨S_, .f32⟩ : BufTy).Contents (Elt F) → (⟨S512, .f32⟩ : BufTy).Contents (Elt F))),
   (StableHlo.nullary main_cst_3 (constant S_ .f32 0x00000000#32)),
   (StableHlo.unary main_cst_3 main_v43 (broadcastInDim S512 ![] bcast_S_S512 : (⟨S_, .f32⟩ : BufTy).Contents (Elt F) → (⟨S512, .f32⟩ : BufTy).Contents (Elt F))),
   (StableHlo.unary main_v28 main_v44 (broadcastInDim S1x512 ![1] bcast_S512_S1x512_1 : (⟨S512, .f32⟩ : BufTy).Contents (Elt F) → (⟨S1x512, .f32⟩ : BufTy).Contents (Elt F))),
   (StableHlo.unary main_v31 main_v45 (broadcastInDim S1x512 ![1] bcast_S512_S1x512_1 : (⟨S512, .f32⟩ : BufTy).Contents (Elt F) → (⟨S1x512, .f32⟩ : BufTy).Contents (Elt F))),
   (StableHlo.unary main_v34 main_v46 (broadcastInDim S1x512 ![1] bcast_S512_S1x512_1 : (⟨S512, .f32⟩ : BufTy).Contents (Elt F) → (⟨S1x512, .f32⟩ : BufTy).Contents (Elt F))),
   (StableHlo.unary main_v37 main_v47 (broadcastInDim S1x512 ![1] bcast_S512_S1x512_1 : (⟨S512, .f32⟩ : BufTy).Contents (Elt F) → (⟨S1x512, .f32⟩ : BufTy).Contents (Elt F))),
   (StableHlo.unary main_v40 main_v48 (broadcastInDim S1x512 ![1] bcast_S512_S1x512_1 : (⟨S512, .f32⟩ : BufTy).Contents (Elt F) → (⟨S1x512, .f32⟩ : BufTy).Contents (Elt F))),
   (StableHlo.unary main_v41 main_v49 (broadcastInDim S1x512 ![1] bcast_S512_S1x512_1 : (⟨S512, .f32⟩ : BufTy).Contents (Elt F) → (⟨S1x512, .f32⟩ : BufTy).Contents (Elt F))),
   (StableHlo.unary main_v42 main_v50 (broadcastInDim S1x512 ![1] bcast_S512_S1x512_1 : (⟨S512, .f32⟩ : BufTy).Contents (Elt F) → (⟨S1x512, .f32⟩ : BufTy).Contents (Elt F))),
   (StableHlo.unary main_v43 main_v51 (broadcastInDim S1x512 ![1] bcast_S512_S1x512_1 : (⟨S512, .f32⟩ : BufTy).Contents (Elt F) → (⟨S1x512, .f32⟩ : BufTy).Contents (Elt F))),
   (StableHlo.nary ![main_v44, main_v45, main_v46, main_v47, main_v48, main_v49, main_v50, main_v51] main_v52 (fun u => concatenate S8x512 0 [⟨S1x512, u 0⟩, ⟨S1x512, u 1⟩, ⟨S1x512, u 2⟩, ⟨S1x512, u 3⟩, ⟨S1x512, u 4⟩, ⟨S1x512, u 5⟩, ⟨S1x512, u 6⟩, ⟨S1x512, u 7⟩] concatenates_S1x512_S1x512_S1x512_S1x512_S1x512_S1x512_S1x512_S1x512_S8x512_d0)),
   (StableHlo.nullary main_v53 (iotaInDim S512 32 0)),
   (StableHlo.nullary main_c (constantI S_ 32 8#32)),
   (StableHlo.TRef.unary call0_a1 main_call0.v0 id),
   (StableHlo.TRef.unary main_call0.v0 main_call0.v1 (broadcastInDim S512 ![] bcast_S_S512)),
   (StableHlo.TRef.binary call0_a0 main_call0.v1 main_call0.v2 Host.divsi),
   (StableHlo.TRef.unary call0_a0 main_call0.v3 signi),
   (StableHlo.TRef.unary main_call0.v0 main_call0.v4 signi),
   (StableHlo.TRef.unary main_call0.v4 main_call0.v5 (broadcastInDim S512 ![] bcast_S_S512)),
   (StableHlo.TRef.binary main_call0.v3 main_call0.v5 main_call0.v6 (cmpi .ne)),
   (StableHlo.TRef.unary main_call0.v0 main_call0.v7 (broadcastInDim S512 ![] bcast_S_S512)),
   (StableHlo.TRef.binary call0_a0 main_call0.v7 main_call0.v8 Host.remsi),
   (StableHlo.TRef.nullary main_call0.c (constantI S_ 32 0#32)),
   (StableHlo.TRef.unary main_call0.c main_call0.v9 (broadcastInDim S512 ![] bcast_S_S512)),
   (StableHlo.TRef.binary main_call0.v8 main_call0.v9 main_call0.v10 (cmpi .ne)),
   (StableHlo.TRef.binary main_call0.v6 main_call0.v10 main_call0.v11 andi),
   (StableHlo.TRef.nullary main_call0.c_0 (constantI S_ 32 1#32)),
   (StableHlo.TRef.unary main_call0.c_0 main_call0.v12 (broadcastInDim S512 ![] bcast_S_S512)),
   (StableHlo.TRef.binary main_call0.v2 main_call0.v12 main_call0.v13 subi),
   (StableHlo.TRef.ternary main_call0.v11 main_call0.v13 main_call0.v2 main_call0.call0.v0 select),
   (StableHlo.unary main_v54 main_v55 (broadcastInDim S512x1 ![0] bcast_S512_S512x1_0 : (⟨S512, .i32⟩ : BufTy).Contents (Elt F) → (⟨S512x1, .i32⟩ : BufTy).Contents (Elt F))),
   (StableHlo.nullary main_v56 (iotaInDim S64 32 0)),
   (StableHlo.unary main_v56 main_v57 (broadcastInDim S1x64 ![1] bcast_S64_S1x64_1 : (⟨S64, .i32⟩ : BufTy).Contents (Elt F) → (⟨S1x64, .i32⟩ : BufTy).Contents (Elt F))),
   (StableHlo.unary main_v55 main_v58 (broadcastInDim S512x64 ![0, 1] bcast_S512x1_S512x64_0_1 : (⟨S512x1, .i32⟩ : BufTy).Contents (Elt F) → (⟨S512x64, .i32⟩ : BufTy).Contents (Elt F))),
   (StableHlo.unary main_v57 main_v59 (broadcastInDim S512x64 ![0, 1] bcast_S1x64_S512x64_0_1 : (⟨S1x64, .i32⟩ : BufTy).Contents (Elt F) → (⟨S512x64, .i32⟩ : BufTy).Contents (Elt F))),
   (StableHlo.binary main_v58 main_v59 main_v60 (cmpi .eq : (⟨S512x64, .i32⟩ : BufTy).Contents (Elt F) → (⟨S512x64, .i32⟩ : BufTy).Contents (Elt F) → (⟨S512x64, .i1⟩ : BufTy).Contents (Elt F))),
   (StableHlo.reshape main_arg4 main_v61 rfl shapeCasts_S64x8_S512),
   (StableHlo.unary main_v61 main_v62 (broadcastInDim S512x1 ![0] bcast_S512_S512x1_0 : (⟨S512, .f32⟩ : BufTy).Contents (Elt F) → (⟨S512x1, .f32⟩ : BufTy).Contents (Elt F))),
   (StableHlo.nullary main_cst_4 (constant S_ .f32 0x00000000#32)),
   (StableHlo.TRef.unary call1_a2 main_call1.v0 id),
   (StableHlo.TRef.unary call1_a1 main_call1.v1 (broadcastInDim S512x64 ![0, 1] bcast_S512x1_S512x64_0_1)),
   (StableHlo.TRef.unary main_call1.v0 main_call1.v2 (broadcastInDim S512x64 ![] bcast_S_S512x64)),
   (StableHlo.TRef.ternary call1_a0 main_call1.v1 main_call1.v2 main_call1.v3 select)]

/-- Each of them names buffers of the TensorCore only, -/
theorem opsPre_sub : (opsPre : List (HloOp τ sig (Elt F))).Forall fun op => op.bufs ⊆ StableHlo.tcRefs τ sig := by
  unfold opsPre
  exact ⟨StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.reshape_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.unary_bufs_sub .., StableHlo.unary_bufs_sub .., StableHlo.binary_bufs_sub .., StableHlo.reshape_bufs_sub .., StableHlo.unary_bufs_sub .., StableHlo.nullary_bufs_sub .., StableHlo.unary_bufs_sub .., StableHlo.unary_bufs_sub .., StableHlo.unary_bufs_sub .., StableHlo.ternary_bufs_sub ..⟩

/-- and none leaves its result's contents open. -/
theorem opsPre_fresh : (opsPre : List (HloOp τ sig (Elt F))).Forall fun op => op.fresh = ∅ := by
  unfold opsPre
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Between the SparseCore call and the region. -/
def opsMid : List (HloOp τ sig (Elt F)) :=
  [(StableHlo.reshape main_arg5 main_v65 rfl shapeCasts_S64_S1x64)]

/-- Each of them names buffers of the TensorCore only, -/
theorem opsMid_sub : (opsMid : List (HloOp τ sig (Elt F))).Forall fun op => op.bufs ⊆ StableHlo.tcRefs τ sig := by
  unfold opsMid
  exact StableHlo.reshape_bufs_sub ..

/-- and none leaves its result's contents open. -/
theorem opsMid_fresh : (opsMid : List (HloOp τ sig (Elt F))).Forall fun op => op.fresh = ∅ := by
  unfold opsMid
  exact rfl

/-- After the region. -/
def opsPost : List (HloOp τ sig (Elt F)) :=
  [(StableHlo.reshape main_v66 main_v67 rfl shapeCasts_S4x1x64_S4x64)]

/-- Each of them names buffers of the TensorCore only, -/
theorem opsPost_sub : (opsPost : List (HloOp τ sig (Elt F))).Forall fun op => op.bufs ⊆ StableHlo.tcRefs τ sig := by
  unfold opsPost
  exact StableHlo.reshape_bufs_sub ..

/-- and none leaves its result's contents open. -/
theorem opsPost_fresh : (opsPost : List (HloOp τ sig (Elt F))).Forall fun op => op.fresh = ∅ := by
  unfold opsPost
  exact rfl

set_option maxHeartbeats 40000000 in
/-- @main is those three lines in order, the SparseCore call after the first and the kernel region after the second. -/
theorem main_eq (d : Dev nD) :
    main (F := F) d
      = (StableHlo.seq opsPre >>= fun _ => sc.run d 0 >>= fun _ => StableHlo.seq opsMid >>= fun _ =>
          Prog.lift (.customCall (SparseCore.inner (Pipeline.entry 0)) ()) >>= fun _ => StableHlo.seq opsPost >>= fun _ => pure ⟨⟩) := by
  chain_rfl

end Cert.Proof.KB

end
-- ==== Proof.LaunchB.lean ====
/-
  @main on the TensorCore and the launch of the whole program: the host operations before the SparseCore call run as one
  straight line over the device's unscoped arrays; the call takes the adjacency array and the array of diagonals for the two
  SparseCores and brings them back, the diagonals written; the bias is reshaped; the TensorCore region runs from the arrays at
  those contents, the TensorCore owing nothing, and writes its result array; the result is reshaped. What is kernel-specific
  enters as hypotheses: how the call's operands split between the SparseCores and join again, the tile's task, and the
  region's record with the two ends of its thread state. From them every weakly fair execution of the thirty-five threads
  ends, nothing faulting, with each unscoped array of each device at a named final contents.
-/
import proofs.«208576_g46445776339566_cont_8to1c4_655_26_alg».proof.Proof.SetupB
import proofs.«208576_g46445776339566_cont_8to1c4_655_26_alg».proof.Proof.MainOpsB
import Idealize.ShloMosaic.Lib.Pipeline.Frame

set_option maxRecDepth 65536

noncomputable section

namespace Cert.Proof.KB.Launch

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within wp_seq after)
open Idealize.ShloMosaic.Pipeline (ucRefs unscopedBufs_held sub_ucRefs)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

abbrev aRef : DevRef τ sig := Proc.devRef .tc (main_arg1 : Ref sig .tc)
abbrev gRef : DevRef τ sig := Proc.devRef .tc (main_v64 : Ref sig .tc)
abbrev oRef : DevRef τ sig := Proc.devRef .tc (main_v66 : Ref sig .tc)
abbrev rRef : DevRef τ sig := Proc.devRef .tc (main_v67 : Ref sig .tc)
abbrev aLoc (d : Dev nD) : Loc nD τ sig := (SparseCore.T d).loc main_arg1
abbrev gLoc (d : Dev nD) : Loc nD τ sig := (SparseCore.T d).loc main_v64

def V0 (d : Dev nD) : Valuation τ sig (Elt F) := fun b => m (d, b)
def V1 (d : Dev nD) : Valuation τ sig (Elt F) := after (opsPre (F := F)) (V0 m d)
def V2 (d : Dev nD) (f : Buf (Elt F) (gLoc d)) : Valuation τ sig (Elt F) := Function.update (V1 m d) gRef f
def V3 (d : Dev nD) (f : Buf (Elt F) (gLoc d)) : Valuation τ sig (Elt F) := after (opsMid (F := F)) (V2 m d f)

/-! ### The two arrays the SparseCore call takes, out of the held set and back -/

theorem hsubAG : ({aRef, gRef} : Finset (DevRef τ sig)) ⊆ ucRefs τ sig := by decide

omit [FloatOps F] in
theorem held_AG (d : Dev nD) (W : Valuation τ sig (Elt F)) :
    (held (SparseCore.T d) ({aRef, gRef} : Finset (DevRef τ sig)) W : sProp 𝕄)
      = iprop((aLoc d ↦{fullShare} W aRef) ∗ (gLoc d ↦{fullShare} W gRef)) := by
  unfold held
  rw [SparseCore.bigSep_insert' (by decide), bigSep_singleton]

/-- No host operation before the call writes the adjacency array or the array of diagonals. -/
theorem V1_a (d : Dev nD) : V1 m d aRef = m (aLoc d) := by
  unfold V1 opsPre
  after_results
  rfl
theorem V1_g (d : Dev nD) : V1 m d gRef = m (gLoc d) := by
  unfold V1 opsPre
  after_results
  rfl

theorem V2_a (d : Dev nD) (f : Buf (Elt F) (gLoc d)) : V2 m d f aRef = V1 m d aRef :=
  Function.update_of_ne (show aRef ≠ gRef by decide) _ _
theorem V2_g (d : Dev nD) (f : Buf (Elt F) (gLoc d)) : V2 m d f gRef = f := Function.update_self _ _ _

/-- The held set with the diagonals at what the call left. -/
theorem held_V2 (d : Dev nD) (f : Buf (Elt F) (gLoc d)) :
    (held (SparseCore.T d) (ucRefs τ sig) (V2 m d f) : sProp 𝕄)
      = iprop(((aLoc d ↦{fullShare} m (aLoc d)) ∗ (gLoc d ↦{fullShare} f)) ∗ held (SparseCore.T d) (ucRefs τ sig \ {aRef, gRef}) (V1 m d)) := by
  have hrest : (held (SparseCore.T d) (ucRefs τ sig \ {aRef, gRef}) (V2 m d f) : sProp 𝕄)
      = held (SparseCore.T d) (ucRefs τ sig \ {aRef, gRef}) (V1 m d) :=
    held_congr (SparseCore.T d) fun b hb => by
      have hne : b ≠ gRef := by
        intro h; subst h
        exact (Finset.mem_sdiff.mp hb).2 (by decide)
      exact Function.update_of_ne hne _ _
  rw [held_sub_split (SparseCore.T d) hsubAG (V2 m d f), held_AG, V2_a, V2_g, V1_a, hrest]

/-- A program followed by another runs the first to where the second runs. -/
theorem wp_bind_intro {α β : Type} (d : Dev nD) (p : Prog (TpuEff nD τ sig (Elt F) (SparseCore.Sig (ΛP (F := F)) 1) .tc) α)
    (k : α → Prog (TpuEff nD τ sig (Elt F) (SparseCore.Sig (ΛP (F := F)) 1) .tc) β) (Φ : β → sProp 𝕄) :
    wp frame (wpE ((K (F := F)).defs (D (F := F))) 𝒱 (SparseCore.T d) none) Set.univ p
        (fun x => wp frame (wpE ((K (F := F)).defs (D (F := F))) 𝒱 (SparseCore.T d) none) Set.univ (k x) Φ)
      ⊢ wp frame (wpE ((K (F := F)).defs (D (F := F))) 𝒱 (SparseCore.T d) none) Set.univ (p >>= k) Φ := by
  rw [wp_bind]

/-! ### The TensorCore's own state across the region -/

/-- The pairs the TensorCore's waits may have recorded before the region: those at a level no higher than the one call's band. -/
def RecOf (d : Dev nD) : Set (SemLoc sig × HIx 1) := {p | (K (F := F)).lev (SparseCore.T d, p.1) p.2 ≤ 8}

/-- After the one call the TensorCore owes nothing more: what it owes can be taken out of its state for the region and put
    back after it, the recorded pairs still within the band. -/
theorem tcSt_split (d : Dev nD) :
    ((K (F := F)).tcSt EH d 1 : sProp 𝕄)
      ⊢ iprop(Pipeline.owesWithin d (0 : CellTallies nD τ sig (HIx 1)) (RecOf (F := F) d)
          ∗ ((∃ W, ⌜(K (F := F)).WBelow (SparseCore.T d) W 8⌝ ∗ owes (SparseCore.T d) (0 : CellTallies nD τ sig (HIx 1)) W)
              -∗ (K (F := F)).tcSt EH d 1)) := by
  unfold SparseCore.Cfg.tcSt
  rw [(K (F := F)).Otc_end d (le_refl 1)]
  iintro ⟨⟨%W, %hW, HO⟩, Hr⟩
  isplitl [HO]
  · iexists W; isplitr
    · ipureintro; exact fun p hp => hW p (Finset.mem_coe.mp hp)
    · iexact HO
  · iintro HO
    isplitl [HO]; · iexact HO
    iexact Hr

omit [FloatOps F] in
/-- A set of recorded pairs within the band or among the pipeline's own, which sit at level zero, is within the band. -/
theorem wbelow_of_sub (adm : (p : Fin 1) → (pcfgs (F := F) p).Adm) (d : Dev nD) (W : Waits sig (HIx 1))
    (h : (↑W : Set (SemLoc sig × HIx 1)) ⊆ RecOf (F := F) d ∪ (Pipeline.pin (pcfgs (F := F)) adm 0).waitPairs none) :
    (K (F := F)).WBelow (SparseCore.T d) W 8 := fun p hp => by
  rcases h (Finset.mem_coe.mpr hp) with h1 | ⟨w, s, rfl⟩
  · exact h1
  · show (K (F := F)).lev _ none ≤ 8
    rw [SparseCore.Cfg.lev_none]; exact Nat.zero_le _

section Main

-- what the handshakes carry for the diagonal-extraction call, and what its results are known to satisfy
variable (P : (K (F := F)).Pay (nD := nD) (Val := Elt F) (Name := ℕ) (U := UU)) [P.IsStorable]
variable (DiagOK : (d : Dev nD) → Buf (Elt F) (gLoc d) → Prop)

-- the TensorCore region: its proof data and record for any contents at its entry and any bound on the recorded waits
variable (adm : (p : Fin 1) → (pcfgs (F := F) p).Adm)
variable (pdats : (Vr : Dev nD → Valuation τ sig (Elt F)) → (Rec : Set (SemLoc sig × HIx 1)) → (p : Fin 1) → (c : Dev nD)
    → Pipeline.Dat τ (Elt F) (HIx 1) ℕ UU ℕ (Pipeline.pin (pcfgs (F := F)) adm p) c)
variable (RS : ∀ Vr Rec, Pipeline.RegionSeg (pcfgs (F := F)) adm (pdats Vr Rec) (none : HIx 1) defs₀ 𝒱₀ (K (F := F)).L (K (F := F)).lev 0)

/-- What @main's TensorCore holds of the pipeline's ghost state at the launch. -/
abbrev G (d : Dev nD) : sProp 𝕄 :=
  iprop(Pipeline.cellsGhost (Pipeline.pin (pcfgs (F := F)) adm) EP 0 d ∗ Pipeline.toksInit (Pipeline.pin (pcfgs (F := F)) adm) EP 0 d)

-- what the region leaves in its result array, as a function of the contents at its entry; and the record's two ends
variable (outVal : Valuation τ sig (Elt F) → (oRef : DevRef τ sig).ty.Contents (Elt F))

/-- The device's arrays with the region's result, and after the last reshape. -/
def V4 (d : Dev nD) (f : Buf (Elt F) (gLoc d)) : Valuation τ sig (Elt F) := Function.update (V3 m d f) oRef (outVal (V3 m d f))
def V5 (d : Dev nD) (f : Buf (Elt F) (gLoc d)) : Valuation τ sig (Elt F) := after (opsPost (F := F)) (V4 m outVal d f)

/-- What @main leaves the claim: every unscoped array of the device at its final contents, the diagonals known. -/
def FIN (d : Dev nD) : sProp 𝕄 :=
  iprop(∃ f, ⌜DiagOK d f⌝ ∗ held (SparseCore.T d) (ucRefs τ sig) (V5 m outVal d f))

set_option backward.isDefEq.respectTransparency.types false in
theorem hmain
    (hst : ∀ d, (iprop((aLoc d ↦{fullShare} m (aLoc d)) ∗ (gLoc d ↦{fullShare} m (gLoc d))) : sProp 𝕄)
      ⊢ bigSep Finset.univ fun c : Fin ((K (F := F)).nCore 0) => P.st 0 d c)
    (hdn : ∀ d, (bigSep Finset.univ fun c : Fin ((K (F := F)).nCore 0) => P.dn 0 d c : sProp 𝕄)
      ⊢ iprop((aLoc d ↦{fullShare} m (aLoc d)) ∗ ∃ f, ⌜DiagOK d f⌝ ∗ gLoc d ↦{fullShare} f))
    (hpre : ∀ Vr Rec c, (RS Vr Rec).pre c
      = (iprop(unscopedBufs c (fun b => Vr c (Proc.devRef .tc b)) ∗ Pipeline.owesWithin c (0 : CellTallies nD τ sig (HIx 1)) Rec) : sProp 𝕄))
    (hpost : ∀ Vr Rec c, (RS Vr Rec).post c
      = (iprop(unscopedBufs c (fun b => Function.update (Vr c) oRef (outVal (Vr c)) (Proc.devRef .tc b))
          ∗ Pipeline.owesWithin c (0 : CellTallies nD τ sig (HIx 1)) (Rec ∪ (Pipeline.pin (pcfgs (F := F)) adm 0).waitPairs none)) : sProp 𝕄))
    (κ : GSem nD τ sig → ℕ) (d : Dev nD) :
    iprop((K (F := F)).ctx EH P κ ∗ (K (F := F)).tcSt EH d 0 ∗ (K (F := F)).tcRes m ρ d ∗ G adm d)
      ⊢ wp frame (wpE ((K (F := F)).defs (D (F := F))) 𝒱 (SparseCore.T d) none) Set.univ (main d)
          fun _ => iprop((K (F := F)).tcSt EH d 1 ∗ FIN m DiagOK outVal d) := by
  unfold SparseCore.Cfg.tcRes
  rw [main_eq, show unscopedBufs d (fun b => m ((SparseCore.T d).loc b)) = held (SparseCore.T d) (ucRefs τ sig) (V0 m d)
    from unscopedBufs_held (Ix := HIx 1) (Name := ℕ) (U := UU) (Lvl := ℕ) d (V0 m d)]
  iintro ⟨#Hctx, Hst, ⟨Hbd, Hheld, Hsems, Hprng⟩, Hg⟩
  iapply (wp_seq 𝒱 none Set.univ d (ucRefs τ sig) _ (opsPre (F := F))
    (fun op h => sub_ucRefs op (List.forall_iff_forall_mem.mp opsPre_sub op h))
    (fun op h => List.forall_iff_forall_mem.mp opsPre_fresh op h) (V0 m d)) $$ [Hbd Hheld]
  · isplitl [Hbd] <;> iassumption
  iintro ⟨Hbd, Hheld⟩
  -- the SparseCore call: the adjacency array and the diagonals go to the two SparseCores and come back, the diagonals written
  iapply (wp_bind_intro (F := F) d)
  ihave Hh := (Entails.of_eq (held_sub_split (SparseCore.T d) hsubAG (after (opsPre (F := F)) (V0 m d)))) $$ Hheld
  icases Hh with ⟨Hag, Hrest⟩
  ihave Hag' := (Entails.of_eq (held_AG (F := F) d (after (opsPre (F := F)) (V0 m d)))) $$ Hag
  icases Hag' with ⟨Ha, Hgd⟩
  iapply ((K (F := F)).wp_run (D (F := F)) 𝒱 (EH := EH) (P := P) κ d 0) $$ [Hst Ha Hgd Hbd Hrest Hsems Hprng Hg]
  isplitr; · iexact Hctx
  isplitl [Hst]; · iexact Hst
  isplitl [Ha Hgd]
  · iapply (hst d)
    isplitl [Ha]
    · iapply (Entails.of_eq (congrArg (fun v => (aLoc d ↦{fullShare} v : sProp 𝕄)) (V1_a m d))); iexact Ha
    · iapply (Entails.of_eq (congrArg (fun v => (gLoc d ↦{fullShare} v : sProp 𝕄)) (V1_g m d))); iexact Hgd
  iintro ⟨Hst, Hdn⟩
  ihave Hdn' := (hdn d) $$ Hdn
  icases Hdn' with ⟨Ha, %f, %hf, Hgd⟩
  -- the arrays back in the held set, the diagonals at what the call left
  ihave Hheld := (Entails.of_eq (held_V2 (F := F) m d f).symm) $$ [Ha Hgd Hrest]
  · isplitl [Ha Hgd]
    · isplitl [Ha] <;> iassumption
    · iexact Hrest
  -- the reshape of the bias
  iapply (wp_seq 𝒱 none Set.univ d (ucRefs τ sig) _ (opsMid (F := F))
    (fun op h => sub_ucRefs op (List.forall_iff_forall_mem.mp opsMid_sub op h))
    (fun op h => List.forall_iff_forall_mem.mp opsMid_fresh op h) (V2 m d f)) $$ [Hbd Hheld]
  · isplitl [Hbd] <;> iassumption
  iintro ⟨Hbd, Hheld⟩
  -- the region, entered from the unscoped arrays at those contents and the TensorCore owing nothing
  iapply (wp_bind_intro (F := F) d)
  ihave Hst1 := (Entails.of_eq (show ((K (F := F)).tcSt EH d ((0 : Fin 1).val + 1) : sProp 𝕄) = (K (F := F)).tcSt EH d 1 from rfl)) $$ Hst
  ihave Hsp := (tcSt_split (F := F) d) $$ Hst1
  icases Hsp with ⟨HO, Hback⟩
  ihave Hlev := ((K (F := F)).ctx_levAts (EH := EH) (P := P) κ) $$ Hctx
  iapply ((K (F := F)).wp_liftProg (D (F := F)) 𝒱 (SparseCore.T d) Set.univ none
    (Prog.lift (.customCall (Pipeline.entry 0) ())) _)
  iapply (Pipeline.RegionSeg.wp (pcfgs (F := F)) adm (pdats (fun _ => V3 m d f) (RecOf (F := F) d)) (none : HIx 1) Gen.cellOf_inj EP defs₀ 𝒱₀
    (K (F := F)).L (K (F := F)).lev (RS (fun _ => V3 m d f) (RecOf (F := F) d)) d none (fun u h => nomatch h) (fun x => .ret x) _) $$ [Hbd Hheld HO Hback Hlev Hg]
  isplitl [Hback]
  · -- after the region: its result array written, the rest as it was; the last reshape; the TensorCore's state restored
    iintro ⟨Hbd, Hpost⟩
    ihave Hpost' := (Entails.of_eq (hpost (fun _ => V3 m d f) (RecOf (F := F) d) d)) $$ Hpost
    icases Hpost' with ⟨Hub, ⟨%W', %hW', HO⟩⟩
    rw [wp_ret]; imodintro
    ihave Hub' := (Entails.of_eq (show (unscopedBufs d (fun b => Function.update (V3 m d f) oRef (outVal (V3 m d f)) (Proc.devRef .tc b)) : sProp 𝕄)
        = unscopedBufs d (fun b => V4 m outVal d f (Proc.devRef .tc b)) from rfl)) $$ Hub
    ihave Hheld := (Entails.of_eq (unscopedBufs_held (Ix := HIx 1) (Name := ℕ) (U := UU) (Lvl := ℕ) d (V4 m outVal d f))) $$ Hub'
    iapply (wp_seq 𝒱 none Set.univ d (ucRefs τ sig) _ (opsPost (F := F))
      (fun op h => sub_ucRefs op (List.forall_iff_forall_mem.mp opsPost_sub op h))
      (fun op h => List.forall_iff_forall_mem.mp opsPost_fresh op h) (V4 m outVal d f)) $$ [Hbd Hheld]
    · isplitl [Hbd] <;> iassumption
    iintro ⟨Hbd, Hheld⟩
    rw [wp_pure]; imodintro
    isplitl [Hback HO]
    · iapply Hback
      iexists W'; isplitr
      · ipureintro; exact wbelow_of_sub (F := F) adm d W' hW'
      · iexact HO
    · unfold FIN
      iexists f; isplitr
      · ipureintro; exact hf
      · iexact Hheld
  isplitl [Hbd]; · iexact Hbd
  isplitl [Hheld HO]
  · rw [hpre]
    isplitl [Hheld]
    · iapply (Entails.of_eq (unscopedBufs_held (Ix := HIx 1) (Name := ℕ) (U := UU) (Lvl := ℕ) d (V3 m d f)).symm); iexact Hheld
    · iexact HO
  isplitl [Hlev]; · iexact Hlev
  iexact Hg

/-! ### The launch element, the final memory, and the run -/

omit [FloatOps F] in
theorem bigSep_fin1 {M : Type} [URA M] (Φ : Fin 1 → sProp M) : bigSep Finset.univ Φ = Φ 0 := by
  rw [show (Finset.univ : Finset (Fin 1)) = {0} by decide, bigSep_singleton]

omit [FloatOps F] in
theorem bigSep_emp' {I : Type} (s : Finset I) : (bigSep s fun _ => iprop(emp)) = (iprop(emp) : sProp 𝕄) := bigSep_emp_const s

omit [FloatOps F] in
/-- The staging cells' part of the ghost state, reached through the right factor and then its left, is the embedding fixed for it. -/
theorem own_EP (x : UP) :
    (BI.own (((Emb.inl : Emb UP (UP × Counters)).trans (embR : Emb (UP × Counters) 𝕄)) x) : sProp 𝕄) = BI.own ((EP : Emb UP 𝕄) x) := rfl

/-- The launch element: the handshakes' rounds, the staging cells' rounds, and no transfer in flight. -/
def u₀ : UU :=
  (initOf (K (F := F)).hsCells (K (F := F)).hsToks,
    (initOf (Pipeline.cells (Pipeline.pin (pcfgs (F := F)) adm) Gen.cellOf_inj) (Pipeline.launchToks (Pipeline.pin (pcfgs (F := F)) adm) Gen.cellOf_inj), 1))

theorem hu₀ (hx : P.x = fun _ _ => (iprop(emp) : sProp 𝕄)) :
    (ownU (u₀ (F := F) adm) : sProp 𝕄)
      ⊢ |={Set.univ}=> iprop(BI.own (EH (initOf (K (F := F)).hsCells (K (F := F)).hsToks)) ∗ (bigSep Finset.univ fun d : Dev nD => G adm d)
          ∗ bigSep Finset.univ fun thr : Thread nD τ => bigSep Finset.univ fun q : Fin 1 => P.x q thr) := by
  have e1 : (bigSep Finset.univ fun c : Dev nD => bigSep Finset.univ fun p : Fin 1 =>
        Pipeline.cellsGhost (Pipeline.pin (pcfgs (F := F)) adm) EP p c : sProp 𝕄)
      = bigSep Finset.univ fun c : Dev nD => Pipeline.cellsGhost (Pipeline.pin (pcfgs (F := F)) adm) EP 0 c :=
    bigSep_congr fun c _ => bigSep_fin1 _
  have e2 : (bigSep Finset.univ fun c : Dev nD => bigSep Finset.univ fun p : Fin 1 =>
        Pipeline.toksInit (Pipeline.pin (pcfgs (F := F)) adm) EP p c : sProp 𝕄)
      = bigSep Finset.univ fun c : Dev nD => Pipeline.toksInit (Pipeline.pin (pcfgs (F := F)) adm) EP 0 c :=
    bigSep_congr fun c _ => bigSep_fin1 _
  unfold u₀
  iintro Hu
  ihave H := (ownU_pair _ _) $$ Hu
  icases H with ⟨HH, HR⟩
  ihave H2 := (own_pair_emb (embR : Emb (UP × Counters) 𝕄) _ _) $$ HR
  icases H2 with ⟨HP0, -⟩
  ihave HP := (Entails.of_eq (own_EP (F := F) _)) $$ HP0
  imod (Pipeline.fund_ghost (Pipeline.pin (pcfgs (F := F)) adm) EP Gen.cellOf_inj) $$ HP with ⟨Hcg, Htk⟩
  imodintro
  isplitl [HH]; · iexact HH
  isplitl [Hcg Htk]
  · rw [bigSep_sep', ← e1, ← e2]
    isplitl [Hcg] <;> iassumption
  · rw [hx, show (bigSep Finset.univ fun _ : Thread nD τ => bigSep Finset.univ fun _ : Fin 1 => (iprop(emp) : sProp 𝕄)) = iprop(emp) from by
      rw [bigSep_congr fun _ _ => bigSep_emp' _, bigSep_emp']]
    iempintro

/-- What the final memory holds: every unscoped array of each device at its final contents, for diagonals as the kernel
    leaves them. -/
def fq (d : Dev nD) (s' : Phys nD τ sig (Elt F)) : Prop :=
  ∃ f, DiagOK d f ∧ ∀ b ∈ ucRefs τ sig, s'.mem.mem (d, b) = V5 m outVal d f b

theorem hfin (d : Dev nD) (s' : Phys nD τ sig (Elt F)) :
    iprop(FIN m DiagOK outVal d ∗ SI s') ⊢ (⌜fq m DiagOK outVal d s'⌝ : sProp 𝕄) := by
  unfold FIN
  iintro ⟨⟨%f, %hf, Hh⟩, HSI⟩
  ihave Hh' := (Entails.of_eq (show (held (SparseCore.T d) (ucRefs τ sig) (V5 m outVal d f) : sProp 𝕄)
      = bigSep (ucRefs τ sig) fun b => (((d, b) : Loc nD τ sig) ↦{fullShare} V5 m outVal d f b) from rfl)) $$ Hh
  ihave H := (pointsTo_read_all (ucRefs τ sig) (fun b => ((d, b) : Loc nD τ sig)) (V5 m outVal d f) s') $$ [Hh' HSI]
  · isplitl [Hh'] <;> iassumption
  icases H with ⟨%h, -⟩
  ipureintro; exact ⟨f, hf, h⟩

def QC : PUnit × MemSt nD τ sig (Elt F) → Prop :=
  fun r => ∀ d : Dev nD, ∃ f, DiagOK d f ∧ ∀ b ∈ ucRefs τ sig, r.2.mem (d, b) = V5 m outVal d f b

/-- Every weakly fair execution of the program's threads ends, nothing faulting, with every unscoped array of each device at
    its final contents. -/
theorem run_main [∀ e, Nonempty (Elt F e)]
    (hst : ∀ d, (iprop((aLoc d ↦{fullShare} m (aLoc d)) ∗ (gLoc d ↦{fullShare} m (gLoc d))) : sProp 𝕄)
      ⊢ bigSep Finset.univ fun c : Fin ((K (F := F)).nCore 0) => P.st 0 d c)
    (hdn : ∀ d, (bigSep Finset.univ fun c : Fin ((K (F := F)).nCore 0) => P.dn 0 d c : sProp 𝕄)
      ⊢ iprop((aLoc d ↦{fullShare} m (aLoc d)) ∗ ∃ f, ⌜DiagOK d f⌝ ∗ gLoc d ↦{fullShare} f))
    (hpre : ∀ Vr Rec c, (RS Vr Rec).pre c
      = (iprop(unscopedBufs c (fun b => Vr c (Proc.devRef .tc b)) ∗ Pipeline.owesWithin c (0 : CellTallies nD τ sig (HIx 1)) Rec) : sProp 𝕄))
    (hpost : ∀ Vr Rec c, (RS Vr Rec).post c
      = (iprop(unscopedBufs c (fun b => Function.update (Vr c) oRef (outVal (Vr c)) (Proc.devRef .tc b))
          ∗ Pipeline.owesWithin c (0 : CellTallies nD τ sig (HIx 1)) (Rec ∪ (Pipeline.pin (pcfgs (F := F)) adm 0).waitPairs none)) : sProp 𝕄))
    (htile : (K (F := F)).TileObl (D (F := F)) 𝒱 P v₀ 0) (hvec : (K (F := F)).VecSplit' P 0)
    (hx : P.x = fun _ _ => (iprop(emp) : sProp 𝕄)) (hheld : P.held = ∅) :
    θ_run (Cert.Kernel.defs (F := F)) (Cert.Kernel.threads (F := F)) ⟨m, fun _ => 0, ρ⟩ (QC m DiagOK outVal) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (G adm) (FIN m DiagOK outVal) (u₀ (F := F) adm) (sep_elim_left.trans (hu₀ (F := F) P adm hx))
    (hmain m ρ P DiagOK adm pdats RS outVal hst hdn hpre hpost) (fq m DiagOK outVal) (hfin m DiagOK outVal) (QC m DiagOK outVal) (fun _ h => h) hheld

end Main

end Cert.Proof.KB.Launch

end
-- ==== Proof.ArgsB.lean ====
/-
  The program's six argument arrays end as they began: no host operation writes one, the SparseCore call writes only the array
  of diagonals, the region only its result array. And the program's result is the region's result array, reshaped.
-/
import proofs.«208576_g46445776339566_cont_8to1c4_655_26_alg».proof.Proof.LaunchB

set_option maxRecDepth 65536

noncomputable section

namespace Cert.Proof.KB.Launch

open Cert.Kernel Cert.Kernel.Gen
open Idealize.ShloMosaic
open Idealize.ShloMosaic.SparseCore (S V T)
open Idealize.SL Idealize.SL.Sem
open Idealize.ShloMosaic.StableHlo (after)
open Idealize.ShloMosaic.Pipeline (ucRefs)

variable {F : FTy → Type} [FloatOps F]
variable (m : (ℓ : Loc nD τ sig) → Buf (Elt F) ℓ)
variable (outVal : Valuation τ sig (Elt F) → (oRef : DevRef τ sig).ty.Contents (Elt F))

theorem V5_arg0 (d : Dev nD) (f : Buf (Elt F) (gLoc d)) :
    V5 m outVal d f (Proc.devRef .tc (main_arg0 : Ref sig .tc)) = m ((SparseCore.T d).loc main_arg0) := by
  have e1 : V1 m d (Proc.devRef .tc (main_arg0 : Ref sig .tc)) = m ((SparseCore.T d).loc main_arg0) := by
    unfold V1 opsPre
    after_results
    rfl
  have e3 : V3 m d f (Proc.devRef .tc (main_arg0 : Ref sig .tc)) = V2 m d f (Proc.devRef .tc (main_arg0 : Ref sig .tc)) := by
    unfold V3 opsMid
    after_results
  have e5 : V5 m outVal d f (Proc.devRef .tc (main_arg0 : Ref sig .tc)) = V4 m outVal d f (Proc.devRef .tc (main_arg0 : Ref sig .tc)) := by
    unfold V5 opsPost
    after_results
  rw [e5, show V4 m outVal d f (Proc.devRef .tc (main_arg0 : Ref sig .tc)) = V3 m d f (Proc.devRef .tc (main_arg0 : Ref sig .tc)) from
      Function.update_of_ne (show (Proc.devRef .tc (main_arg0 : Ref sig .tc) : DevRef τ sig) ≠ oRef by decide) _ _,
    e3, show V2 m d f (Proc.devRef .tc (main_arg0 : Ref sig .tc)) = V1 m d (Proc.devRef .tc (main_arg0 : Ref sig .tc)) from
      Function.update_of_ne (show (Proc.devRef .tc (main_arg0 : Ref sig .tc) : DevRef τ sig) ≠ gRef by decide) _ _, e1]

theorem V5_arg1 (d : Dev nD) (f : Buf (Elt F) (gLoc d)) :
    V5 m outVal d f (Proc.devRef .tc (main_arg1 : Ref sig .tc)) = m ((SparseCore.T d).loc main_arg1) := by
  have e1 : V1 m d (Proc.devRef .tc (main_arg1 : Ref sig .tc)) = m ((SparseCore.T d).loc main_arg1) := by
    unfold V1 opsPre
    after_results
    rfl
  have e3 : V3 m d f (Proc.devRef .tc (main_arg1 : Ref sig .tc)) = V2 m d f (Proc.devRef .tc (main_arg1 : Ref sig .tc)) := by
    unfold V3 opsMid
    after_results
  have e5 : V5 m outVal d f (Proc.devRef .tc (main_arg1 : Ref sig .tc)) = V4 m outVal d f (Proc.devRef .tc (main_arg1 : Ref sig .tc)) := by
    unfold V5 opsPost
    after_results
  rw [e5, show V4 m outVal d f (Proc.devRef .tc (main_arg1 : Ref sig .tc)) = V3 m d f (Proc.devRef .tc (main_arg1 : Ref sig .tc)) from
      Function.update_of_ne (show (Proc.devRef .tc (main_arg1 : Ref sig .tc) : DevRef τ sig) ≠ oRef by decide) _ _,
    e3, show V2 m d f (Proc.devRef .tc (main_arg1 : Ref sig .tc)) = V1 m d (Proc.devRef .tc (main_arg1 : Ref sig .tc)) from
      Function.update_of_ne (show (Proc.devRef .tc (main_arg1 : Ref sig .tc) : DevRef τ sig) ≠ gRef by decide) _ _, e1]

theorem V5_arg2 (d : Dev nD) (f : Buf (Elt F) (gLoc d)) :
    V5 m outVal d f (Proc.devRef .tc (main_arg2 : Ref sig .tc)) = m ((SparseCore.T d).loc main_arg2) := by
  have e1 : V1 m d (Proc.devRef .tc (main_arg2 : Ref sig .tc)) = m ((SparseCore.T d).loc main_arg2) := by
    unfold V1 opsPre
    after_results
    rfl
  have e3 : V3 m d f (Proc.devRef .tc (main_arg2 : Ref sig .tc)) = V2 m d f (Proc.devRef .tc (main_arg2 : Ref sig .tc)) := by
    unfold V3 opsMid
    after_results
  have e5 : V5 m outVal d f (Proc.devRef .tc (main_arg2 : Ref sig .tc)) = V4 m outVal d f (Proc.devRef .tc (main_arg2 : Ref sig .tc)) := by
    unfold V5 opsPost
    after_results
  rw [e5, show V4 m outVal d f (Proc.devRef .tc (main_arg2 : Ref sig .tc)) = V3 m d f (Proc.devRef .tc (main_arg2 : Ref sig .tc)) from
      Function.update_of_ne (show (Proc.devRef .tc (main_arg2 : Ref sig .tc) : DevRef τ sig) ≠ oRef by decide) _ _,
    e3, show V2 m d f (Proc.devRef .tc (main_arg2 : Ref sig .tc)) = V1 m d (Proc.devRef .tc (main_arg2 : Ref sig .tc)) from
      Function.update_of_ne (show (Proc.devRef .tc (main_arg2 : Ref sig .tc) : DevRef τ sig) ≠ gRef by decide) _ _, e1]

theorem V5_arg3 (d : Dev nD) (f : Buf (Elt F) (gLoc d)) :
    V5 m outVal d f (Proc.devRef .tc (main_arg3 : Ref sig .tc)) = m ((SparseCore.T d).loc main_arg3) := by
  have e1 : V1 m d (Proc.devRef .tc (main_arg3 : Ref sig .tc)) = m ((SparseCore.T d).loc main_arg3) := by
    unfold V1 opsPre
    after_results
    rfl
  have e3 : V3 m d f (Proc.devRef .tc (main_arg3 : Ref sig .tc)) = V2 m d f (Proc.devRef .tc (main_arg3 : Ref sig .tc)) := by
    unfold V3 opsMid
    after_results
  have e5 : V5 m outVal d f (Proc.devRef .tc (main_arg3 : Ref sig .tc)) = V4 m outVal d f (Proc.devRef .tc (main_arg3 : Ref sig .tc)) := by
    unfold V5 opsPost
    after_results
  rw [e5, show V4 m outVal d f (Proc.devRef .tc (main_arg3 : Ref sig .tc)) = V3 m d f (Proc.devRef .tc (main_arg3 : Ref sig .tc)) from
      Function.update_of_ne (show (Proc.devRef .tc (main_arg3 : Ref sig .tc) : DevRef τ sig) ≠ oRef by decide) _ _,
    e3, show V2 m d f (Proc.devRef .tc (main_arg3 : Ref sig .tc)) = V1 m d (Proc.devRef .tc (main_arg3 : Ref sig .tc)) from
      Function.update_of_ne (show (Proc.devRef .tc (main_arg3 : Ref sig .tc) : DevRef τ sig) ≠ gRef by decide) _ _, e1]

theorem V5_arg4 (d : Dev nD) (f : Buf (Elt F) (gLoc d)) :
    V5 m outVal d f (Proc.devRef .tc (main_arg4 : Ref sig .tc)) = m ((SparseCore.T d).loc main_arg4) := by
  have e1 : V1 m d (Proc.devRef .tc (main_arg4 : Ref sig .tc)) = m ((SparseCore.T d).loc main_arg4) := by
    unfold V1 opsPre
    after_results
    rfl
  have e3 : V3 m d f (Proc.devRef .tc (main_arg4 : Ref sig .tc)) = V2 m d f (Proc.devRef .tc (main_arg4 : Ref sig .tc)) := by
    unfold V3 opsMid
    after_results
  have e5 : V5 m outVal d f (Proc.devRef .tc (main_arg4 : Ref sig .tc)) = V4 m outVal d f (Proc.devRef .tc (main_arg4 : Ref sig .tc)) := by
    unfold V5 opsPost
    after_results
  rw [e5, show V4 m outVal d f (Proc.devRef .tc (main_arg4 : Ref sig .tc)) = V3 m d f (Proc.devRef .tc (main_arg4 : Ref sig .tc)) from
      Function.update_of_ne (show (Proc.devRef .tc (main_arg4 : Ref sig .tc) : DevRef τ sig) ≠ oRef by decide) _ _,
    e3, show V2 m d f (Proc.devRef .tc (main_arg4 : Ref sig .tc)) = V1 m d (Proc.devRef .tc (main_arg4 : Ref sig .tc)) from
      Function.update_of_ne (show (Proc.devRef .tc (main_arg4 : Ref sig .tc) : DevRef τ sig) ≠ gRef by decide) _ _, e1]

theorem V5_arg5 (d : Dev nD) (f : Buf (Elt F) (gLoc d)) :
    V5 m outVal d f (Proc.devRef .tc (main_arg5 : Ref sig .tc)) = m ((SparseCore.T d).loc main_arg5) := by
  have e1 : V1 m d (Proc.devRef .tc (main_arg5 : Ref sig .tc)) = m ((SparseCore.T d).loc main_arg5) := by
    unfold V1 opsPre
    after_results
    rfl
  have e3 : V3 m d f (Proc.devRef .tc (main_arg5 : Ref sig .tc)) = V2 m d f (Proc.devRef .tc (main_arg5 : Ref sig .tc)) := by
    unfold V3 opsMid
    after_results
  have e5 : V5 m outVal d f (Proc.devRef .tc (main_arg5 : Ref sig .tc)) = V4 m outVal d f (Proc.devRef .tc (main_arg5 : Ref sig .tc)) := by
    unfold V5 opsPost
    after_results
  rw [e5, show V4 m outVal d f (Proc.devRef .tc (main_arg5 : Ref sig .tc)) = V3 m d f (Proc.devRef .tc (main_arg5 : Ref sig .tc)) from
      Function.update_of_ne (show (Proc.devRef .tc (main_arg5 : Ref sig .tc) : DevRef τ sig) ≠ oRef by decide) _ _,
    e3, show V2 m d f (Proc.devRef .tc (main_arg5 : Ref sig .tc)) = V1 m d (Proc.devRef .tc (main_arg5 : Ref sig .tc)) from
      Function.update_of_ne (show (Proc.devRef .tc (main_arg5 : Ref sig .tc) : DevRef τ sig) ≠ gRef by decide) _ _, e1]

/-- The six argument arrays and the result array are unscoped arrays of the device. -/
theorem args_mem : (∀ r ∈ ([main_arg0, main_arg1, main_arg2, main_arg3, main_arg4, main_arg5, main_v67] : List (Ref sig .tc)),
    (Proc.devRef .tc r : DevRef τ sig) ∈ ucRefs τ sig) := by decide

/-- The program's result array holds the region's result, reshaped. -/
theorem V5_r (d : Dev nD) (f : Buf (Elt F) (gLoc d)) :
    V5 m outVal d f rRef = fun i => shapeCast S4x64 (outVal (V3 m d f)) Facts₀.shapeCasts_S4x1x64_S4x64 i := by
  unfold V5 opsPost
  after_results
  unfold V4
  rw [Function.update_self]
  rfl

/-! ### What the region's operand arrays hold at its entry -/

theorem V3_arg0 (d : Dev nD) (f : Buf (Elt F) (gLoc d)) :
    V3 m d f (Proc.devRef .tc (main_arg0 : Ref sig .tc)) = m ((SparseCore.T d).loc main_arg0) := by
  have e3 : V3 m d f (Proc.devRef .tc (main_arg0 : Ref sig .tc)) = V2 m d f (Proc.devRef .tc (main_arg0 : Ref sig .tc)) := by
    unfold V3 opsMid
    after_results
  rw [e3, show V2 m d f (Proc.devRef .tc (main_arg0 : Ref sig .tc)) = V1 m d (Proc.devRef .tc (main_arg0 : Ref sig .tc)) from
      Function.update_of_ne (show (Proc.devRef .tc (main_arg0 : Ref sig .tc) : DevRef τ sig) ≠ gRef by decide) _ _]
  unfold V1 opsPre
  after_results
  rfl

theorem V3_arg1 (d : Dev nD) (f : Buf (Elt F) (gLoc d)) :
    V3 m d f (Proc.devRef .tc (main_arg1 : Ref sig .tc)) = m ((SparseCore.T d).loc main_arg1) := by
  have e3 : V3 m d f (Proc.devRef .tc (main_arg1 : Ref sig .tc)) = V2 m d f (Proc.devRef .tc (main_arg1 : Ref sig .tc)) := by
    unfold V3 opsMid
    after_results
  rw [e3, show V2 m d f (Proc.devRef .tc (main_arg1 : Ref sig .tc)) = V1 m d (Proc.devRef .tc (main_arg1 : Ref sig .tc)) from
      Function.update_of_ne (show (Proc.devRef .tc (main_arg1 : Ref sig .tc) : DevRef τ sig) ≠ gRef by decide) _ _]
  unfold V1 opsPre
  after_results
  rfl

theorem V3_arg2 (d : Dev nD) (f : Buf (Elt F) (gLoc d)) :
    V3 m d f (Proc.devRef .tc (main_arg2 : Ref sig .tc)) = m ((SparseCore.T d).loc main_arg2) := by
  have e3 : V3 m d f (Proc.devRef .tc (main_arg2 : Ref sig .tc)) = V2 m d f (Proc.devRef .tc (main_arg2 : Ref sig .tc)) := by
    unfold V3 opsMid
    after_results
  rw [e3, show V2 m d f (Proc.devRef .tc (main_arg2 : Ref sig .tc)) = V1 m d (Proc.devRef .tc (main_arg2 : Ref sig .tc)) from
      Function.update_of_ne (show (Proc.devRef .tc (main_arg2 : Ref sig .tc) : DevRef τ sig) ≠ gRef by decide) _ _]
  unfold V1 opsPre
  after_results
  rfl

theorem V3_arg3 (d : Dev nD) (f : Buf (Elt F) (gLoc d)) :
    V3 m d f (Proc.devRef .tc (main_arg3 : Ref sig .tc)) = m ((SparseCore.T d).loc main_arg3) := by
  have e3 : V3 m d f (Proc.devRef .tc (main_arg3 : Ref sig .tc)) = V2 m d f (Proc.devRef .tc (main_arg3 : Ref sig .tc)) := by
    unfold V3 opsMid
    after_results
  rw [e3, show V2 m d f (Proc.devRef .tc (main_arg3 : Ref sig .tc)) = V1 m d (Proc.devRef .tc (main_arg3 : Ref sig .tc)) from
      Function.update_of_ne (show (Proc.devRef .tc (main_arg3 : Ref sig .tc) : DevRef τ sig) ≠ gRef by decide) _ _]
  unfold V1 opsPre
  after_results
  rfl

theorem V3_arg4 (d : Dev nD) (f : Buf (Elt F) (gLoc d)) :
    V3 m d f (Proc.devRef .tc (main_arg4 : Ref sig .tc)) = m ((SparseCore.T d).loc main_arg4) := by
  have e3 : V3 m d f (Proc.devRef .tc (main_arg4 : Ref sig .tc)) = V2 m d f (Proc.devRef .tc (main_arg4 : Ref sig .tc)) := by
    unfold V3 opsMid
    after_results
  rw [e3, show V2 m d f (Proc.devRef .tc (main_arg4 : Ref sig .tc)) = V1 m d (Proc.devRef .tc (main_arg4 : Ref sig .tc)) from
      Function.update_of_ne (show (Proc.devRef .tc (main_arg4 : Ref sig .tc) : DevRef τ sig) ≠ gRef by decide) _ _]
  unfold V1 opsPre
  after_results
  rfl

theorem V3_arg5 (d : Dev nD) (f : Buf (Elt F) (gLoc d)) :
    V3 m d f (Proc.devRef .tc (main_arg5 : Ref sig .tc)) = m ((SparseCore.T d).loc main_arg5) := by
  have e3 : V3 m d f (Proc.devRef .tc (main_arg5 : Ref sig .tc)) = V2 m d f (Proc.devRef .tc (main_arg5 : Ref sig .tc)) := by
    unfold V3 opsMid
    after_results
  rw [e3, show V2 m d f (Proc.devRef .tc (main_arg5 : Ref sig .tc)) = V1 m d (Proc.devRef .tc (main_arg5 : Ref sig .tc)) from
      Function.update_of_ne (show (Proc.devRef .tc (main_arg5 : Ref sig .tc) : DevRef τ sig) ≠ gRef by decide) _ _]
  unfold V1 opsPre
  after_results
  rfl

theorem V3_v14 (d : Dev nD) (f : Buf (Elt F) (gLoc d)) :
    V3 m d f (Proc.devRef .tc (main_v14 : Ref sig .tc)) = after (opsPre (F := F)) (V0 m d) (Proc.devRef .tc (main_v14 : Ref sig .tc)) := by
  have e3 : V3 m d f (Proc.devRef .tc (main_v14 : Ref sig .tc)) = V2 m d f (Proc.devRef .tc (main_v14 : Ref sig .tc)) := by
    unfold V3 opsMid
    after_results
  rw [e3, show V2 m d f (Proc.devRef .tc (main_v14 : Ref sig .tc)) = V1 m d (Proc.devRef .tc (main_v14 : Ref sig .tc)) from
      Function.update_of_ne (show (Proc.devRef .tc (main_v14 : Ref sig .tc) : DevRef τ sig) ≠ gRef by decide) _ _]
  rfl

theorem V3_v25 (d : Dev nD) (f : Buf (Elt F) (gLoc d)) :
    V3 m d f (Proc.devRef .tc (main_v25 : Ref sig .tc)) = after (opsPre (F := F)) (V0 m d) (Proc.devRef .tc (main_v25 : Ref sig .tc)) := by
  have e3 : V3 m d f (Proc.devRef .tc (main_v25 : Ref sig .tc)) = V2 m d f (Proc.devRef .tc (main_v25 : Ref sig .tc)) := by
    unfold V3 opsMid
    after_results
  rw [e3, show V2 m d f (Proc.devRef .tc (main_v25 : Ref sig .tc)) = V1 m d (Proc.devRef .tc (main_v25 : Ref sig .tc)) from
      Function.update_of_ne (show (Proc.devRef .tc (main_v25 : Ref sig .tc) : DevRef τ sig) ≠ gRef by decide) _ _]
  rfl

theorem V3_v52 (d : Dev nD) (f : Buf (Elt F) (gLoc d)) :
    V3 m d f (Proc.devRef .tc (main_v52 : Ref sig .tc)) = after (opsPre (F := F)) (V0 m d) (Proc.devRef .tc (main_v52 : Ref sig .tc)) := by
  have e3 : V3 m d f (Proc.devRef .tc (main_v52 : Ref sig .tc)) = V2 m d f (Proc.devRef .tc (main_v52 : Ref sig .tc)) := by
    unfold V3 opsMid
    after_results
  rw [e3, show V2 m d f (Proc.devRef .tc (main_v52 : Ref sig .tc)) = V1 m d (Proc.devRef .tc (main_v52 : Ref sig .tc)) from
      Function.update_of_ne (show (Proc.devRef .tc (main_v52 : Ref sig .tc) : DevRef τ sig) ≠ gRef by decide) _ _]
  rfl

theorem V3_v63 (d : Dev nD) (f : Buf (Elt F) (gLoc d)) :
    V3 m d f (Proc.devRef .tc (main_v63 : Ref sig .tc)) = after (opsPre (F := F)) (V0 m d) (Proc.devRef .tc (main_v63 : Ref sig .tc)) := by
  have e3 : V3 m d f (Proc.devRef .tc (main_v63 : Ref sig .tc)) = V2 m d f (Proc.devRef .tc (main_v63 : Ref sig .tc)) := by
    unfold V3 opsMid
    after_results
  rw [e3, show V2 m d f (Proc.devRef .tc (main_v63 : Ref sig .tc)) = V1 m d (Proc.devRef .tc (main_v63 : Ref sig .tc)) from
      Function.update_of_ne (show (Proc.devRef .tc (main_v63 : Ref sig .tc) : DevRef τ sig) ≠ gRef by decide) _ _]
  rfl

/-- The diagonals are what the SparseCore call left, -/
theorem V3_g (d : Dev nD) (f : Buf (Elt F) (gLoc d)) : V3 m d f gRef = f := by
  have e3 : V3 m d f gRef = V2 m d f gRef := by
    unfold V3 opsMid
    after_results
  rw [e3, V2_g]

/-- and the reshaped bias is the reshape's result over the contents before it, where the bias is the launch's. -/
theorem V3_v65 (d : Dev nD) (f : Buf (Elt F) (gLoc d)) :
    V3 m d f (Proc.devRef .tc (main_v65 : Ref sig .tc)) = after (opsMid (F := F)) (V2 m d f) (Proc.devRef .tc (main_v65 : Ref sig .tc)) := rfl
theorem V2_arg5 (d : Dev nD) (f : Buf (Elt F) (gLoc d)) :
    V2 m d f (Proc.devRef .tc (main_arg5 : Ref sig .tc)) = m ((SparseCore.T d).loc main_arg5) := by
  rw [show V2 m d f (Proc.devRef .tc (main_arg5 : Ref sig .tc)) = V1 m d (Proc.devRef .tc (main_arg5 : Ref sig .tc)) from
      Function.update_of_ne (show (Proc.devRef .tc (main_arg5 : Ref sig .tc) : DevRef τ sig) ≠ gRef by decide) _ _]
  unfold V1 opsPre
  after_results
  rfl

end Cert.Proof.KB.Launch

end
-- ==== Proof.ScPayB.lean ====
/-
  What the one SparseCore call's handshakes carry, and how the whole arrays split into it and join back out of it.

  The kernel runs on 2 SparseCores × 16 vector subcores. The subcore (c, s) works on the 128 rows and columns
  128·(16c+s) … of each of the four matrices A[b]: it copies that 128×128 diagonal block into its own memory, and for
  each of the eight groups of sixteen rows 16k … 16k+15 accumulates, lane by lane, the row's entry in the lane whose
  number is the row's (and a zero in every other lane), starting from zero; the sixteen lanes of group k are entries
  16k … 16k+15 of the 128 it writes to row 0 of batch b of the result, at columns 128·(16c+s) …. A is only read, so it
  travels as read shares of the whole array; the result is cut by columns, a SparseCore holding the columns
  2048c … and a subcore the 128 of them it writes (with all batches and all eight rows of those columns, most of which
  it never touches). What a subcore leaves is stated entry by entry through the accumulation itself (diagVec), not as
  "the diagonal entry": over a float instance where 0 + x is not x the two differ.
-/
import Idealize.ShloMosaic.Lib.ValueIdx
import proofs.«208576_g46445776339566_cont_8to1c4_655_26_alg».proof.Proof.SetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type}

local notation "𝕄" => MT nD τ sig (HIx 1) (Elt F) ℕ UU ℕ

/-! ## The arrays and the pieces of them a vector subcore touches -/

/-- The matrix batch A (an argument) and the diagonal rows (the kernel's result), as locations of device d. -/
abbrev aLoc (d : Dev nD) : Loc nD τ sig := (SparseCore.T d).loc main_arg1
abbrev gLoc (d : Dev nD) : Loc nD τ sig := (SparseCore.T d).loc main_v64

abbrev aV : Memref sig .scVector .hbm S4x4096x4096 .f32 := Memref.whole main_arg1_scv
abbrev gV : Memref sig .scVector .hbm S4x8x4096 .f32 := Memref.whole main_v64_scv

/-- The 128×128 diagonal block of batch b that the subcore at grid point L copies in: rows and columns
    128·(16·L 0 + L 1) … of A[b], as the program slices it. -/
abbrev aBlkM (L : grid0.Coords) (b : Fin k0_t1_loop.trips) : Memref sig .scVector .hbm S128x128 .f32 :=
  ((aV).slice (Rect.unit (s := S4x4096x4096) (k0_off1 L b) S1x128x128.size (k0_off1_inb L b)) (fun _ => rfl)).squeeze S128x128 squeezes_S1x128x128_S128x128
/-- The 128 entries of row 0 of batch b of the result that the same subcore writes, as the program slices them. -/
abbrev gRowM (L : grid0.Coords) (b : Fin k0_t1_loop.trips) : Memref sig .scVector .hbm S128 .f32 :=
  ((gV).slice (Rect.unit (s := S4x8x4096) (k0_off2 L b) S1x1x128.size (k0_off2_inb L b)) (fun _ => rfl)).squeeze S128 squeezes_S1x1x128_S128

/-! ## The value a subcore stores -/

section Value
variable [FloatOps F]

/-- One step of the lane accumulation: the accumulator plus, in the lane whose number is i, the row's entry, and plus
    zero in every other lane. -/
def accStep (v4 : IVec S16 32) (acc : FVec F S16 .f32) (i : BitVec 32) (row : FVec F S16 .f32) : FVec F S16 .f32 :=
  addf acc (select (cmpi .eq v4 (broadcast S16 i)) row (broadcast S16 (Scalar.ofBits .f32 0x00000000#32)))

/-- Sixteen steps from zero over sixteen rows: lane j ends as 0 + (… + row_j j + …) with a zero added for every
    other row, in the order of the rows. -/
def diagVec (v4 : IVec S16 32) (r : Fin 16 → FVec F S16 .f32) : FVec F S16 .f32 :=
  accStep v4 (accStep v4 (accStep v4 (accStep v4 (accStep v4 (accStep v4 (accStep v4 (accStep v4
  (accStep v4 (accStep v4 (accStep v4 (accStep v4 (accStep v4 (accStep v4 (accStep v4 (accStep v4
    (broadcast S16 (Scalar.ofBits .f32 0x00000000#32))
    0#32 (r 0)) 1#32 (r 1)) 2#32 (r 2)) 3#32 (r 3)) 4#32 (r 4)) 5#32 (r 5)) 6#32 (r 6)) 7#32 (r 7))
    8#32 (r 8)) 9#32 (r 9)) 10#32 (r 10)) 11#32 (r 11)) 12#32 (r 12)) 13#32 (r 13)) 14#32 (r 14)) 15#32 (r 15)

/-- The lane numbers 0 … 15. -/
abbrev lanes : IVec S16 32 := iota .scVector S16 32 [0] iota_S16_d0_w32_scVector

/-- Rows 16k … 16k+15 of a 128×128 block, each cut to its columns 16k … 16k+15. -/
def blkRows (s : S128x128.Idx → F .f32) (k : Fin 8) : Fin 16 → FVec F S16 .f32 :=
  fun i jj => s (ix2 (n0 := 128) (n1 := 128) ⟨16 * k.val + i.val, by omega⟩ ⟨16 * k.val + (jj 0).val, by have h : (jj 0).val < 16 := (jj 0).isLt; omega⟩)

/-- Entry 16k+j of the 128 a subcore writes for one batch. -/
abbrev gAt (k : Fin 8) (j : Fin 16) : S128.Idx := ix1 (n := 128) ⟨16 * k.val + j.val, by omega⟩

variable (m : (ℓ : Loc nD τ sig) → Buf (Elt F) ℓ)

/-- The block of A a subcore reads for batch b, as a function of the block's own row and column. -/
def blkOf (d : Dev nD) (L : grid0.Coords) (b : Fin k0_t1_loop.trips) : S128x128.Idx → F .f32 :=
  fun r => m (aLoc d) ((aBlkM L b).view.emb r)

/-- What the result holds where the subcore at L has written batch b: entry 16k+j is lane j of the accumulation
    over rows 16k … 16k+15 of that subcore's block of A[b]. -/
def RowIs (d : Dev nD) (L : grid0.Coords) (b : Fin k0_t1_loop.trips) (f : Buf (Elt F) (gLoc d)) : Prop :=
  ∀ (k : Fin 8) (j : Fin 16), f ((gRowM L b).view.emb (gAt k j)) = diagVec lanes (blkRows (blkOf m d L b) k) (ix1 j)

/-- The whole result: every subcore's 128 entries of every batch. -/
def DiagIs (d : Dev nD) (f : Buf (Elt F) (gLoc d)) : Prop := ∀ (L : grid0.Coords) (b : Fin k0_t1_loop.trips), RowIs m d L b f

end Value

/-! ## Who holds what

A is only read: each SparseCore holds half of a full share of A whole, each of its sixteen subcores one of sixteen
read tokens of that half. The result is cut by columns: SparseCore c holds the columns 2048c … 2048c+2047 (all
batches, all eight rows), the subcore s of it the columns 128(16c+s) … +127 of those. -/

/-- SparseCore c's share of A: the left half of the full share for c = 0, the right half otherwise. -/
def coreShare (c : ℕ) : PosShare TreeShare := if c = 0 then fullShare.left else fullShare.right
/-- Subcore s's read token of its SparseCore's share. -/
abbrev tileShare (c : ℕ) (s : Fin 16) : PosShare TreeShare := Transfers.shareTok (coreShare c) 16 s

/-- The columns of the result that SparseCore c holds, -/
def coreSet (d : Dev nD) (c : ℕ) : Finset (Idx (gLoc d)) :=
  Finset.univ.filter fun ix : S4x8x4096.Idx => (ix 2).val / 2048 = c
/-- and those its subcore s holds. -/
def tileSet (d : Dev nD) (c s : ℕ) : Finset (Idx (gLoc d)) :=
  Finset.univ.filter fun ix : S4x8x4096.Idx => (ix 2).val / 2048 = c ∧ (ix 2).val / 128 % 16 = s

section Pay
variable [FloatOps F] (m : (ℓ : Loc nD τ sig) → Buf (Elt F) ℓ)

/-- What subcore (c, s) leaves in its columns: its 128 entries of every batch. -/
def TileIs (d : Dev nD) (c s : ℕ) (f : Buf (Elt F) (gLoc d)) : Prop :=
  ∀ (L : grid0.Coords), (L 0).val = c → (L 1).val = s → ∀ b, RowIs m d L b f

abbrev aPts (d : Dev nD) (q : PosShare TreeShare) : sProp 𝕄 := aLoc d ↦{q} m (aLoc d)
abbrev gPts (d : Dev nD) (I : Finset (Idx (gLoc d))) (f : Buf (Elt F) (gLoc d)) : sProp 𝕄 := gLoc d ↦[I]{fullShare} f

/-- A subcore's operands: its read token of A, its columns of the result at whatever they hold; -/
def goP (d : Dev nD) (c : ℕ) (s : Fin 16) : sProp 𝕄 := iprop(aPts m d (tileShare c s) ∗ ∃ f, gPts d (tileSet d c s.val) f)
/-- its results: the token back, its columns written. -/
def tdP (d : Dev nD) (c : ℕ) (s : Fin 16) : sProp 𝕄 :=
  iprop(aPts m d (tileShare c s) ∗ ∃ f, ⌜TileIs m d c s.val f⌝ ∗ gPts d (tileSet d c s.val) f)
/-- A SparseCore's operands: its share of A, its columns of the result at whatever they hold; -/
def stP (d : Dev nD) (c : ℕ) : sProp 𝕄 := iprop(aPts m d (coreShare c) ∗ ∃ f, gPts d (coreSet d c) f)
/-- its results: the share back, each subcore's columns written. -/
def dnP (d : Dev nD) (c : ℕ) : sProp 𝕄 :=
  iprop(aPts m d (coreShare c) ∗ bigSep Finset.univ fun s : Fin 16 => iprop(∃ f, ⌜TileIs m d c s.val f⌝ ∗ gPts d (tileSet d c s.val) f))

/-- What the one call's handshakes carry. -/
def P : (K (F := F)).Pay (nD := nD) (Val := Elt F) (Name := ℕ) (U := UU) where
  st := fun _ d c => stP m d c.val
  dn := fun _ d c => dnP m d c.val
  go := fun q d c i => match q with | 0 => goP m d c.val (Fin.cast nSub_zero i)
  td := fun q d c i => match q with | 0 => tdP m d c.val (Fin.cast nSub_zero i)
  x := fun _ _ => iprop(emp)

theorem P_st (d : Dev nD) (c : Fin ((K (F := F)).nCore 0)) : (P m).st 0 d c = stP m d c.val := rfl
theorem P_dn (d : Dev nD) (c : Fin ((K (F := F)).nCore 0)) : (P m).dn 0 d c = dnP m d c.val := rfl
theorem P_go (d : Dev nD) (c : Fin ((K (F := F)).nCore 0)) (i : Fin ((K (F := F)).nSub 0)) : (P m).go 0 d c i = goP m d c.val (Fin.cast nSub_zero i) := rfl
theorem P_td (d : Dev nD) (c : Fin ((K (F := F)).nCore 0)) (i : Fin ((K (F := F)).nSub 0)) : (P m).td 0 d c i = tdP m d c.val (Fin.cast nSub_zero i) := rfl

instance P_storable : (P (F := F) m).IsStorable where
  st _ d c := by unfold P stP; infer_instance
  dn _ d c := by unfold P dnP; infer_instance
  go q d c i := match q with | 0 => by unfold P goP; infer_instance
  td q d c i := match q with | 0 => by unfold P tdP; infer_instance

end Pay

/-! ## The cuts are partitions -/

section Cuts
variable (d : Dev nD)

theorem coreShare_zero : coreShare 0 = fullShare.left := if_pos rfl
theorem coreShare_one : coreShare 1 = fullShare.right := if_neg Nat.one_ne_zero

theorem mem_coreSet {c : ℕ} {ix : Idx (gLoc d)} : ix ∈ coreSet d c ↔ ((ix : S4x8x4096.Idx) 2).val / 2048 = c := by
  unfold coreSet; exact (Finset.mem_filter.trans (and_iff_right (Finset.mem_univ _)))
theorem mem_tileSet {c s : ℕ} {ix : Idx (gLoc d)} :
    ix ∈ tileSet d c s ↔ ((ix : S4x8x4096.Idx) 2).val / 2048 = c ∧ ((ix : S4x8x4096.Idx) 2).val / 128 % 16 = s := by
  unfold tileSet; exact (Finset.mem_filter.trans (and_iff_right (Finset.mem_univ _)))

theorem col_lt (ix : S4x8x4096.Idx) : (ix 2).val < 4096 := (ix 2).isLt

theorem cores_disjoint : Disjoint (coreSet d 0) (coreSet d 1) :=
  Finset.disjoint_left.mpr fun ix h0 h1 => by
    have h0 := (mem_coreSet d).mp h0; have h1 := (mem_coreSet d).mp h1; omega
theorem cores_cover : coreSet d 0 ∪ coreSet d 1 = Finset.univ :=
  Finset.eq_univ_of_forall fun ix => by
    have h := col_lt ix
    rcases Nat.lt_or_ge ((ix : S4x8x4096.Idx) 2).val 2048 with h' | h'
    · exact Finset.mem_union_left _ ((mem_coreSet d).mpr (by omega))
    · exact Finset.mem_union_right _ ((mem_coreSet d).mpr (by omega))

theorem tiles_disjoint (c : ℕ) : ∀ s ∈ (Finset.univ : Finset (Fin 16)), ∀ s' ∈ (Finset.univ : Finset (Fin 16)), s ≠ s' →
    Disjoint (tileSet d c s.val) (tileSet d c s'.val) :=
  fun s _ s' _ hne => Finset.disjoint_left.mpr fun ix h0 h1 => by
    have h0 := (mem_tileSet d).mp h0; have h1 := (mem_tileSet d).mp h1
    exact hne (Fin.ext (by omega))
theorem tiles_cover (c : ℕ) : (Finset.univ : Finset (Fin 16)).biUnion (fun s => tileSet d c s.val) = coreSet d c := by
  ext ix
  rw [Finset.mem_biUnion, mem_coreSet]
  constructor
  · rintro ⟨s, -, hs⟩; exact ((mem_tileSet d).mp hs).1
  · intro h; exact ⟨⟨((ix : S4x8x4096.Idx) 2).val / 128 % 16, Nat.mod_lt _ (by decide)⟩, Finset.mem_univ _, (mem_tileSet d).mpr ⟨h, rfl⟩⟩

theorem tileSet_subset_coreSet (c s : ℕ) : tileSet d c s ⊆ coreSet d c := fun ix h => (mem_coreSet d).mpr ((mem_tileSet d).mp h).1

/-- The result whole is the two SparseCores' columns; -/
theorem g_cores (f : Buf (Elt F) (gLoc d)) :
    (gLoc d ↦{fullShare} f : sProp 𝕄) = iprop((gLoc d ↦[coreSet d 0]{fullShare} f) ∗ gLoc d ↦[coreSet d 1]{fullShare} f) := by
  have hu : (gLoc d ↦[coreSet d 0 ∪ coreSet d 1]{fullShare} f : sProp 𝕄) ⊣⊢ _ := pointsTo_union (cores_disjoint d)
  rw [← BI.equiv_iff.mp ⟨hu.1, hu.2⟩, cores_cover]
/-- a SparseCore's columns are its sixteen subcores'. -/
theorem g_tiles (c : ℕ) (f : Buf (Elt F) (gLoc d)) :
    (gLoc d ↦[coreSet d c]{fullShare} f : sProp 𝕄) = bigSep Finset.univ fun s : Fin 16 => gLoc d ↦[tileSet d c s.val]{fullShare} f := by
  rw [← pointsTo_biUnion Finset.univ (ℓ := gLoc d) (fun s : Fin 16 => tileSet d c s.val) (tiles_disjoint d c), tiles_cover]

end Cuts

/-! ## Where a subcore's entries sit -/

section Rows
variable (d : Dev nD)

theorem gRow_set (L : grid0.Coords) (b : Fin k0_t1_loop.trips) :
    (gRowM L b).view.set = (Rect.unit (s := S4x8x4096) (k0_off2 L b) S1x1x128.size (k0_off2_inb L b)).set := by
  show (((View.whole (main_v64_scv : Ref sig .scVector)).slice (Rect.unit (s := S4x8x4096) (k0_off2 L b) S1x1x128.size (k0_off2_inb L b))).reshape S128 squeezes_S1x1x128_S128.numel_eq).set = _
  rw [View.set_reshape, View.set_slice]; exact Finset.map_refl

/-- The entries the subcore at L writes for batch b are in batch b, in the columns of its SparseCore and of itself. -/
theorem mem_gRow {L : grid0.Coords} {b : Fin k0_t1_loop.trips} {ix : S4x8x4096.Idx} (h : ix ∈ (gRowM L b).view.set) :
    (ix 0).val = b.val ∧ (ix 2).val / 2048 = (L 0).val ∧ (ix 2).val / 128 % 16 = (L 1).val := by
  rw [gRow_set, Rect.mem_set_unit] at h
  have h0 := h 0; have h2 := h 2
  rw [k0_off2_eq] at h0 h2
  have h0' : b.val ≤ (ix 0).val ∧ (ix 0).val < b.val + 1 := h0
  have h2' : 2048 * (L 0).val + 128 * (L 1).val ≤ (ix 2).val ∧ (ix 2).val < 2048 * (L 0).val + 128 * (L 1).val + 128 := h2
  have hL0 : (L 0).val < 2 := (L 0).isLt
  have hL1 : (L 1).val < 16 := (L 1).isLt
  omega

theorem emb_mem_tileSet (L : grid0.Coords) (b : Fin k0_t1_loop.trips) (x : S128.Idx) :
    (gRowM L b).view.emb x ∈ tileSet d (L 0).val (L 1).val :=
  (mem_tileSet d).mpr (mem_gRow (View.emb_mem_set _ x)).2

theorem gRow_subset (L : grid0.Coords) (b : Fin k0_t1_loop.trips) : (gRowM L b).view.set ⊆ tileSet d (L 0).val (L 1).val :=
  fun ix h => (mem_tileSet d).mpr (mem_gRow h).2

/-- Different batches' entries are different entries. -/
theorem emb_not_mem_gRow (L : grid0.Coords) {b b' : Fin k0_t1_loop.trips} (hne : b' ≠ b) (x : S128.Idx) :
    (gRowM L b').view.emb x ∉ (gRowM L b).view.set := fun h =>
  hne (Fin.ext ((mem_gRow (View.emb_mem_set _ x)).1.symm.trans (mem_gRow h).1))

end Rows

/-! ## The operands split and the results join -/

section Joins
variable [FloatOps F] (m : (ℓ : Loc nD τ sig) → Buf (Elt F) ℓ) (d : Dev nD)

theorem core_join (c : ℕ) :
    (bigSep Finset.univ fun s : Fin 16 => iprop(∃ f, ⌜TileIs m d c s.val f⌝ ∗ gPts d (tileSet d c s.val) f) : sProp 𝕄)
      ⊢ iprop(∃ g, ⌜∀ L : grid0.Coords, (L 0).val = c → ∀ b, RowIs m d L b g⌝ ∗ gPts d (coreSet d c) g) := by
  refine (bigSep_exists_pi Finset.univ (fun (s : Fin 16) (f : Buf (Elt F) (gLoc d)) => iprop(⌜TileIs m d c s.val f⌝ ∗ gPts d (tileSet d c s.val) f))).trans ?_
  iintro ⟨%fs, H⟩
  ihave H' := (bigSep_pure_sep Finset.univ (fun s : Fin 16 => TileIs m d c s.val (fs s)) (fun s => gPts d (tileSet d c s.val) (fs s))) $$ H
  icases H' with ⟨%hT, H⟩
  ihave H'' := (pointsTo_biUnion_join Finset.univ (fun s : Fin 16 => tileSet d c s.val) fs (fs 0) (tiles_disjoint d c)) $$ H
  icases H'' with ⟨%g, %hg, Hg⟩
  rw [tiles_cover]
  iexists g; isplitr
  · ipureintro; intro L h0 b k j
    have hs : (L 1).val < 16 := (L 1).isLt
    have hm := emb_mem_tileSet d L b (gAt k j)
    rw [h0] at hm
    rw [hg ⟨(L 1).val, hs⟩ (Finset.mem_univ _) _ hm]
    exact hT ⟨(L 1).val, hs⟩ (Finset.mem_univ _) L h0 rfl b k j
  · iexact Hg

theorem st_join (g0 : Buf (Elt F) (gLoc d)) :
    iprop((aLoc d ↦{fullShare} m (aLoc d)) ∗ (gLoc d ↦{fullShare} g0))
      ⊢ bigSep Finset.univ fun c : Fin ((K (F := F)).nCore 0) => (P m).st 0 d c := by
  show _ ⊢ bigSep (Finset.univ : Finset (Fin 2)) fun c => stP m d c.val
  rw [bigSep_univ_two]
  show _ ⊢ iprop(stP m d 0 ∗ stP m d 1)
  unfold stP
  rw [coreShare_zero, coreShare_one, g_cores]
  iintro ⟨Ha, Hg0, Hg1⟩
  ihave Ha' := (pointsTo_share (PosShare.mem_left_op_right fullShare)).1 $$ Ha
  icases Ha' with ⟨Ha0, Ha1⟩
  isplitl [Ha0 Hg0]
  · isplitl [Ha0]; · iexact Ha0
    iexists g0; iexact Hg0
  · isplitl [Ha1]; · iexact Ha1
    iexists g0; iexact Hg1

theorem dn_join :
    (bigSep Finset.univ fun c : Fin ((K (F := F)).nCore 0) => (P m).dn 0 d c)
      ⊢ iprop((aLoc d ↦{fullShare} m (aLoc d)) ∗ ∃ f, ⌜DiagIs m d f⌝ ∗ gLoc d ↦{fullShare} f) := by
  show (bigSep (Finset.univ : Finset (Fin 2)) fun c => dnP m d c.val) ⊢ _
  rw [bigSep_univ_two]
  show iprop(dnP m d 0 ∗ dnP m d 1) ⊢ _
  unfold dnP
  rw [coreShare_zero, coreShare_one]
  iintro ⟨⟨Ha0, H0⟩, ⟨Ha1, H1⟩⟩
  isplitl [Ha0 Ha1]
  · iapply (pointsTo_share (PosShare.mem_left_op_right fullShare)).2
    isplitl [Ha0]; · iexact Ha0
    iexact Ha1
  ihave H0' := (core_join m d 0) $$ H0
  icases H0' with ⟨%f0, %h0, Hg0⟩
  ihave H1' := (core_join m d 1) $$ H1
  icases H1' with ⟨%f1, %h1, Hg1⟩
  ihave Hg := (pointsTo_join (cores_disjoint d)) $$ [Hg0 Hg1]
  · isplitl [Hg0]; · iexact Hg0
    iexact Hg1
  rw [cores_cover]
  iexists (coreSet d 1).piecewise f1 f0; isplitr
  · ipureintro; intro L b k j
    have hm := tileSet_subset_coreSet d _ _ (emb_mem_tileSet d L b (gAt k j))
    have hL0 : (L 0).val < 2 := (L 0).isLt
    rcases Nat.lt_or_ge (L 0).val 1 with hl | hl
    · have e0 : (L 0).val = 0 := by omega
      rw [e0] at hm
      rw [Finset.piecewise_eq_of_notMem _ _ _ (Finset.disjoint_left.mp (cores_disjoint d) hm)]
      exact h0 L e0 b k j
    · have e1 : (L 0).val = 1 := by omega
      rw [e1] at hm
      rw [Finset.piecewise_eq_of_mem _ _ _ hm]
      exact h1 L e1 b k j
  · iexact Hg

theorem tiles_some (c : ℕ) (f : Buf (Elt F) (gLoc d)) :
    (bigSep Finset.univ fun s : Fin 16 => gPts d (tileSet d c s.val) f : sProp 𝕄)
      ⊢ bigSep Finset.univ fun s : Fin 16 => iprop(∃ f, gPts d (tileSet d c s.val) f) :=
  bigSep_mono fun s _ => exists_intro (Φ := fun f => gPts d (tileSet d c s.val) f) f

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stP m d c.val ⊢ |={Set.univ}=> iprop((bigSep Finset.univ fun i : Fin ((K (F := F)).nSub 0) => goP m d c.val (Fin.cast nSub_zero i))
    ∗ ((bigSep Finset.univ fun i : Fin ((K (F := F)).nSub 0) => tdP m d c.val (Fin.cast nSub_zero i)) -∗ dnP m d c.val))
  rw [bigSep_tasks (F := F) (fun i => goP m d c.val i), bigSep_tasks (F := F) (fun i => tdP m d c.val i)]
  unfold stP goP tdP dnP
  rw [bigSep_sep', bigSep_sep']
  iintro ⟨Ha, %f, Hg⟩
  ihave Ha' := (Transfers.pointsTo_toks_split (coreShare c.val) 16) $$ Ha
  icases Ha' with ⟨Hdrop, Htoks⟩
  ihave Hg' := (Entails.of_eq (g_tiles d c.val f)) $$ Hg
  imodintro
  isplitl [Htoks Hg']
  · isplitl [Htoks]; · iexact Htoks
    iapply (tiles_some d c.val f); iexact Hg'
  · iintro ⟨Htoks', Hgs⟩
    isplitl [Hdrop Htoks']
    · iapply (Transfers.pointsTo_toks_join (coreShare c.val) 16)
      isplitl [Hdrop]; · iexact Hdrop
      iexact Htoks'
    · iexact Hgs

end Joins

end Cert.Proof.KB

end
-- ==== Proof.ScBodyB.lean ====
/-
  The task of one vector subcore, proved once at a symbolic grid point, and from it the launch theorem's obligation
  for the kernel.

  For each of the four batches b the subcore copies its 128×128 diagonal block of A[b] into its block scratch and waits
  for it; then for each group k of sixteen rows it loads rows 16k … 16k+15 of the scratch at columns 16k … 16k+15,
  accumulates them lane by lane from zero (row i contributes in lane i, a zero elsewhere) and stores the sixteen lanes
  at entries 16k … 16k+15 of its row scratch; then it copies the row scratch to its 128 entries of row 0 of batch b of
  the result and waits for that. Every copy is waited for before its source or destination is touched again, so the two
  semaphores' counters are at zero between the steps and no schedule is needed. The loop's invariant carries the
  value: the batches below the trip are written, each entry the accumulation over the block read from the launch
  contents of A. What the eight stores leave is read back through one function of the entry (G) that every store is a
  piece of; the stores' payloads carry a final cast between equal shapes, which is the identity.
-/
import Idealize.ShloMosaic.Lib.ValueLayout
import Idealize.ShloMosaic.Lib.Writes
import proofs.«208576_g46445776339566_cont_8to1c4_655_26_alg».proof.Proof.ScPayB
import proofs.«208576_g46445776339566_cont_8to1c4_655_26_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## What the stores leave -/

section Values

local notation "s4W" => (Memref.whole Cert.Kernel.cc0_scratch0 : Memref Cert.Kernel.sig Kind.scVector Space.vmem Cert.Kernel.S128x128 EltTy.f32)
local notation "s5W" => (Memref.whole Cert.Kernel.cc0_scratch1 : Memref Cert.Kernel.sig Kind.scVector Space.vmem Cert.Kernel.S128 EltTy.f32)

variable [FloatOps F] {thr : Thread nD τ}

theorem inb_row {r c : ℕ} (hr : r < 128) (hc : c + 16 ≤ 128) : ∀ a, (![r, c] : Fin 2 → Nat) a + S1x16.size a ≤ S128x128.size a := by
  intro a; match a with
  | ⟨0, _⟩ => show r + 1 ≤ 128; omega
  | ⟨1, _⟩ => show c + 16 ≤ 128; omega

/-- Sixteen columns from column c of row r of the block scratch, as the vector a load of them gives. -/
def rowAt (c4 : (s4W).view.ty.Contents (Elt F)) (r c : ℕ) (hr : r < 128) (hc : c + 16 ≤ 128) : FVec F S16 .f32 :=
  shapeCast S16 ((s4W).view.readAt (Elt F) (Rect.unit (s := S128x128) ![r, c] S1x16.size (inb_row hr hc)).toLoadRect c4) shapeCasts_S1x16_S16

/-- The sixteen loads of group k. -/
def rows16 (c4 : (s4W).view.ty.Contents (Elt F)) (k : Fin 8) : Fin 16 → FVec F S16 .f32 :=
  fun i => rowAt c4 (16 * k.val + i.val) (16 * k.val) (by omega) (by omega)

theorem rowAt_apply (c4 : (s4W).view.ty.Contents (Elt F)) (r c : ℕ) (hr : r < 128) (hc : c + 16 ≤ 128) (jj : S16.Idx) :
    rowAt c4 r c hr hc jj = (s4W).view.read (Elt F) c4 (ix2 (n0 := 128) (n1 := 128) ⟨r, hr⟩ ⟨c + (jj 0).val, by have h : (jj 0).val < 16 := (jj 0).isLt; omega⟩) := by
  obtain ⟨a, rfl⟩ : ∃ a : Fin 16, jj = ix1 (n := 16) a := ⟨jj 0, eq_ix1 (n := 16) jj⟩
  unfold rowAt
  rw [shapeCast_1a_a_apply (a := 16), View.readAt_apply]
  congr 1
  funext a
  match a with
  | ⟨0, _⟩ => exact Fin.ext (by simp [LoadRect.idx_apply])
  | ⟨1, _⟩ => exact Fin.ext (by simp [LoadRect.idx_apply])

theorem rows16_eq (c4 : (s4W).view.ty.Contents (Elt F)) (blk : S128x128.Idx → F .f32) (hblk : ∀ r, (s4W).view.read (Elt F) c4 r = blk r) (k : Fin 8) :
    rows16 c4 k = blkRows blk k := by
  funext i jj
  unfold rows16 blkRows
  rw [rowAt_apply, hblk]

/-- The eight stores of one batch, the last first: group k's sixteen lanes at entries 16k … 16k+15. -/
def pcs (c4 : (s4W).view.ty.Contents (Elt F)) : List (View.Piece (Elt F) S128 .f32) :=
  [⟨Rect.unit (s := S128) ![112] S16.size inb_S128_S16_112, shapeCast S16 (diagVec lanes (rows16 c4 7)) shapeCasts_S16_S16⟩,
   ⟨Rect.unit (s := S128) ![96] S16.size inb_S128_S16_96, shapeCast S16 (diagVec lanes (rows16 c4 6)) shapeCasts_S16_S16⟩,
   ⟨Rect.unit (s := S128) ![80] S16.size inb_S128_S16_80, shapeCast S16 (diagVec lanes (rows16 c4 5)) shapeCasts_S16_S16⟩,
   ⟨Rect.unit (s := S128) ![64] S16.size inb_S128_S16_64, shapeCast S16 (diagVec lanes (rows16 c4 4)) shapeCasts_S16_S16⟩,
   ⟨Rect.unit (s := S128) ![48] S16.size inb_S128_S16_48, shapeCast S16 (diagVec lanes (rows16 c4 3)) shapeCasts_S16_S16⟩,
   ⟨Rect.unit (s := S128) ![32] S16.size inb_S128_S16_32, shapeCast S16 (diagVec lanes (rows16 c4 2)) shapeCasts_S16_S16⟩,
   ⟨Rect.unit (s := S128) ![16] S16.size inb_S128_S16_16, shapeCast S16 (diagVec lanes (rows16 c4 1)) shapeCasts_S16_S16⟩,
   ⟨Rect.unit (s := S128) ![0] S16.size inb_S128_S16_0, shapeCast S16 (diagVec lanes (rows16 c4 0)) shapeCasts_S16_S16⟩]

/-- The one function all eight stores are pieces of. -/
def G (blk : S128x128.Idx → F .f32) : S128.Idx → F .f32 := fun y =>
  diagVec lanes (blkRows blk ⟨(y 0).val / 16, by have h : (y 0).val < 128 := (y 0).isLt; omega⟩) (ix1 (n := 16) ⟨(y 0).val % 16, Nat.mod_lt _ (by decide)⟩)

theorem G_gAt (blk : S128x128.Idx → F .f32) (k : Fin 8) (j : Fin 16) : G blk (gAt k j) = diagVec lanes (blkRows blk k) (ix1 j) := by
  unfold G
  have e1 : (⟨((gAt k j) 0).val / 16, by have h : ((gAt k j) 0).val < 128 := ((gAt k j) 0).isLt; omega⟩ : Fin 8) = k :=
    Fin.ext (by show (16 * k.val + j.val) / 16 = k.val; omega)
  have e2 : (⟨((gAt k j) 0).val % 16, Nat.mod_lt _ (by decide)⟩ : Fin 16) = j :=
    Fin.ext (by show (16 * k.val + j.val) % 16 = j.val; omega)
  rw [e1, e2]

theorem piece_agrees (c4 : (s4W).view.ty.Contents (Elt F)) (blk : S128x128.Idx → F .f32) (hblk : ∀ r, (s4W).view.read (Elt F) c4 r = blk r)
    (k : Fin 8) (h : ∀ a, (![16 * k.val] : Fin 1 → Nat) a + S16.size a ≤ S128.size a) (x : S16.Idx) :
    shapeCast S16 (diagVec lanes (rows16 c4 k)) shapeCasts_S16_S16 x = G blk ((Rect.unit (s := S128) ![16 * k.val] S16.size h).emb x) := by
  rw [shapeCast_self]
  have hx : (x 0).val < 16 := (x 0).isLt
  have hy : (((Rect.unit (s := S128) ![16 * k.val] S16.size h).emb x) 0).val = 16 * k.val + (x 0).val := by
    rw [Rect.emb_apply]; show 16 * k.val + 1 * (x 0).val = _; omega
  unfold G
  have e1 : (⟨(((Rect.unit (s := S128) ![16 * k.val] S16.size h).emb x) 0).val / 16,
      by have h' : (((Rect.unit (s := S128) ![16 * k.val] S16.size h).emb x) 0).val < 128 := (((Rect.unit (s := S128) ![16 * k.val] S16.size h).emb x) 0).isLt; omega⟩ : Fin 8) = k :=
    Fin.ext (by show (((Rect.unit (s := S128) ![16 * k.val] S16.size h).emb x) 0).val / 16 = k.val; rw [hy]; omega)
  have e2 : (ix1 (n := 16) ⟨(((Rect.unit (s := S128) ![16 * k.val] S16.size h).emb x) 0).val % 16, Nat.mod_lt _ (by decide)⟩ : S16.Idx) = x := by
    rw [eq_ix1 x]; congr 1; exact Fin.ext (by show (((Rect.unit (s := S128) ![16 * k.val] S16.size h).emb x) 0).val % 16 = (x 0).val; rw [hy]; omega)
  rw [e1, e2, rows16_eq c4 blk hblk]

/-- Read back after the eight stores, entry 16k+j is lane j of group k's accumulation. -/
theorem pieces_read (c4 : (s4W).view.ty.Contents (Elt F)) (f5 : (s5W).view.ty.Contents (Elt F)) (blk : S128x128.Idx → F .f32)
    (hblk : ∀ r, (s4W).view.read (Elt F) c4 r = blk r) (k : Fin 8) (j : Fin 16) :
    (s5W).view.read (Elt F) ((s5W).view.writes (Elt F) f5 (pcs c4)) (gAt k j) = diagVec lanes (blkRows blk k) (ix1 j) := by
  rw [← G_gAt]
  refine View.read_writes_apply_of_pieces (s5W).view f5 (G blk) (pcs c4) ?_ (gAt k j) ?_
  · intro p hp x
    simp only [pcs, List.mem_cons, List.not_mem_nil, or_false] at hp
    rcases hp with rfl | rfl | rfl | rfl | rfl | rfl | rfl | rfl
    · exact piece_agrees c4 blk hblk 7 inb_S128_S16_112 x
    · exact piece_agrees c4 blk hblk 6 inb_S128_S16_96 x
    · exact piece_agrees c4 blk hblk 5 inb_S128_S16_80 x
    · exact piece_agrees c4 blk hblk 4 inb_S128_S16_64 x
    · exact piece_agrees c4 blk hblk 3 inb_S128_S16_48 x
    · exact piece_agrees c4 blk hblk 2 inb_S128_S16_32 x
    · exact piece_agrees c4 blk hblk 1 inb_S128_S16_16 x
    · exact piece_agrees c4 blk hblk 0 inb_S128_S16_0 x
  · have hj : j.val < 16 := j.isLt
    have hmem : ∀ (kk : ℕ) (h : ∀ a, (![16 * kk] : Fin 1 → Nat) a + S16.size a ≤ S128.size a), k.val = kk →
        gAt k j ∈ (Rect.unit (s := S128) ![16 * kk] S16.size h).set := by
      intro kk h e
      rw [Rect.mem_set_unit]; intro a
      obtain rfl : a = 0 := Subsingleton.elim _ _
      show 16 * kk ≤ 16 * k.val + j.val ∧ 16 * k.val + j.val < 16 * kk + 16
      omega
    unfold pcs
    match k with
    | ⟨7, _⟩ => exact ⟨_, List.mem_cons_self, hmem 7 inb_S128_S16_112 rfl⟩
    | ⟨6, _⟩ => exact ⟨_, List.mem_cons_of_mem _ List.mem_cons_self, hmem 6 inb_S128_S16_96 rfl⟩
    | ⟨5, _⟩ => exact ⟨_, List.mem_cons_of_mem _ (List.mem_cons_of_mem _ List.mem_cons_self), hmem 5 inb_S128_S16_80 rfl⟩
    | ⟨4, _⟩ => exact ⟨_, List.mem_cons_of_mem _ (List.mem_cons_of_mem _ (List.mem_cons_of_mem _ List.mem_cons_self)), hmem 4 inb_S128_S16_64 rfl⟩
    | ⟨3, _⟩ => exact ⟨_, List.mem_cons_of_mem _ (List.mem_cons_of_mem _ (List.mem_cons_of_mem _ (List.mem_cons_of_mem _ List.mem_cons_self))), hmem 3 inb_S128_S16_48 rfl⟩
    | ⟨2, _⟩ => exact ⟨_, List.mem_cons_of_mem _ (List.mem_cons_of_mem _ (List.mem_cons_of_mem _ (List.mem_cons_of_mem _ (List.mem_cons_of_mem _ List.mem_cons_self)))), hmem 2 inb_S128_S16_32 rfl⟩
    | ⟨1, _⟩ => exact ⟨_, List.mem_cons_of_mem _ (List.mem_cons_of_mem _ (List.mem_cons_of_mem _ (List.mem_cons_of_mem _ (List.mem_cons_of_mem _ (List.mem_cons_of_mem _ List.mem_cons_self))))), hmem 1 inb_S128_S16_16 rfl⟩
    | ⟨0, _⟩ => exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), hmem 0 inb_S128_S16_0 rfl⟩

end Values

section Step
variable [FloatOps F] (m : (ℓ : Loc nD τ sig) → Buf (Elt F) ℓ) (d : Dev nD) (L : grid0.Coords)

omit [FloatOps F] in
/-- Off the 128 entries written, the copy-out changes nothing; -/
theorem writes_off (k : Fin k0_t1_loop.trips) (f : Buf (Elt F) (gLoc d)) (vals : S128.Idx → Elt F .f32)
    {i : Idx (gLoc d)} (hi : i ∉ (gRowM L k).view.set) :
    (gRowM L k).view.writes (Elt F) f [⟨Rect.whole S128, vals⟩] i = f i :=
  View.writes_apply_of_forall_ne (gRowM L k).view f _ fun y e => hi (e ▸ View.emb_mem_set _ y)

omit [FloatOps F] in
/-- on them it leaves what was copied. -/
theorem writes_on (k : Fin k0_t1_loop.trips) (f : Buf (Elt F) (gLoc d)) (vals : S128.Idx → Elt F .f32) (y : S128.Idx) :
    (gRowM L k).view.writes (Elt F) f [⟨Rect.whole S128, vals⟩] ((gRowM L k).view.emb y) = vals y := by
  have h := View.read_writes_cons_emb (gRowM L k).view f (Rect.whole S128) vals [] y
  rw [Rect.emb_whole_apply] at h
  exact ((View.read_apply _ _).trans (cast_eq _ _)).symm.trans h

/-- One more batch written: the batches below stay, the new one is the copied values. -/
theorem rowIs_step (k : Fin k0_t1_loop.trips) (f : Buf (Elt F) (gLoc d)) (vals : S128.Idx → Elt F .f32)
    (hf : ∀ b : Fin k0_t1_loop.trips, b.val < k.val → RowIs m d L b f)
    (hv : ∀ (kk : Fin 8) (j : Fin 16), vals (gAt kk j) = diagVec lanes (blkRows (blkOf m d L k) kk) (ix1 j)) :
    ∀ b : Fin k0_t1_loop.trips, b.val < k.val + 1 → RowIs m d L b ((gRowM L k).view.writes (Elt F) f [⟨Rect.whole S128, vals⟩]) := by
  intro b hb kk j
  by_cases hbk : b = k
  · subst hbk
    rw [writes_on]; exact hv kk j
  · have hlt : b.val < k.val := by
      have : b.val ≠ k.val := fun e => hbk (Fin.ext e)
      omega
    rw [writes_off d L k f vals (emb_not_mem_gRow L hbk _)]
    exact hf b hlt kk j

end Step

/-! ## The task of one vector subcore -/

open Idealize.ShloMosaic.Tactic

section Tile

local notation "aW" => (Memref.whole Cert.Kernel.main_arg1_scv : Memref Cert.Kernel.sig Kind.scVector Space.hbm Cert.Kernel.S4x4096x4096 EltTy.f32)
local notation "gW" => (Memref.whole Cert.Kernel.main_v64_scv : Memref Cert.Kernel.sig Kind.scVector Space.hbm Cert.Kernel.S4x8x4096 EltTy.f32)
local notation "s4W" => (Memref.whole Cert.Kernel.cc0_scratch0 : Memref Cert.Kernel.sig Kind.scVector Space.vmem Cert.Kernel.S128x128 EltTy.f32)
local notation "s5W" => (Memref.whole Cert.Kernel.cc0_scratch1 : Memref Cert.Kernel.sig Kind.scVector Space.vmem Cert.Kernel.S128 EltTy.f32)

variable [FloatOps F] (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
abbrev jL (L : grid0.Coords) : Fin 16 := ⟨(L 1).val, (L 1).isLt⟩

/-- The subcore's two semaphores: the copy-in's and the copy-out's. -/
abbrev c6cell (d : Dev nD) (L : grid0.Coords) : GSem nD τ sig := (V d (cV L) (jV L), .dma cc0_scratch2.sem)
abbrev c7cell (d : Dev nD) (L : grid0.Coords) : GSem nD τ sig := (V d (cV L) (jV L), .dma cc0_scoped0.sem)

omit [FloatOps F] in
theorem ownSems0_V :
    (ownSems0 (V d (cV L) (jV L)) : sProp 𝕄)
      = iprop(semVal (c6cell d L) 0 ∗ semVal (c7cell d L) 0
          ∗ bigSep (((ownCells (V d (cV L) (jV L))).erase (c6cell d L)).erase (c7cell d L)) fun g => semVal g 0) := by
  unfold SparseCore.Cfg.ownSems0
  rw [SparseCore.bigSep_erase' ((mem_ownCells (g := c6cell d L)).mpr ⟨rfl, by
      show (SemLoc.dma cc0_scratch2.sem : SemLoc sig).isScoped .scVector = true; decide⟩),
    SparseCore.bigSep_erase' (Finset.mem_erase.mpr ⟨by simp [c6cell, c7cell]; decide, (mem_ownCells (g := c7cell d L)).mpr ⟨rfl, by
      show (SemLoc.dma cc0_scoped0.sem : SemLoc sig).isScoped .scVector = true; decide⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_a (q : PosShare TreeShare) (f : Buf (Elt F) (aLoc d)) :
    ((aW).view.loc (V d (cV L) (jV L)) ↦{q} f : sProp 𝕄) = aLoc d ↦{q} f := rfl
omit [FloatOps F] in
theorem pts_s4 (f : Buf (Elt F) ((V d (cV L) (jV L)).loc cc0_scratch0)) :
    ((s4W).view.loc (V d (cV L) (jV L)) ↦{fullShare} f : sProp 𝕄) = (V d (cV L) (jV L)).loc cc0_scratch0 ↦{fullShare} f := rfl
omit [FloatOps F] in
theorem pts_s5 (f : Buf (Elt F) ((V d (cV L) (jV L)).loc cc0_scratch1)) :
    ((s5W).view.loc (V d (cV L) (jV L)) ↦{fullShare} f : sProp 𝕄) = (V d (cV L) (jV L)).loc cc0_scratch1 ↦{fullShare} f := rfl
omit [FloatOps F] in
theorem pts_gRow (b : Fin k0_t1_loop.trips) (f : Buf (Elt F) (gLoc d)) :
    ((gRowM L b).view.loc (V d (cV L) (jV L)) ↦[(gRowM L b).view.set]{fullShare} f : sProp 𝕄) = gLoc d ↦[(gRowM L b).view.set]{fullShare} f := rfl

/-- The loop's invariant before batch k: the read token of A, the subcore's columns of the result with the batches
    below k written, the two scratch buffers at some contents, both semaphores' counters at zero. -/
def inv (O : CellTallies nD τ sig (HIx 1)) (W : Waits sig (HIx 1)) (k : Nat) (_ : PUnit) : sProp 𝕄 :=
  iprop(Transfers.MayWaits (V d (cV L) (jV L)) (none : HIx 1) O
    ∗ ((aW).view.loc (V d (cV L) (jV L)) ↦{tileShare (L 0).val (jL L)} m (aLoc d))
    ∗ (∃ f, ⌜∀ b : Fin k0_t1_loop.trips, b.val < k → RowIs m d L b f⌝ ∗ gLoc d ↦[tileSet d (L 0).val (L 1).val]{fullShare} f)
    ∗ (∃ f, (s4W).view.loc (V d (cV L) (jV L)) ↦{fullShare} f)
    ∗ (∃ f, (s5W).view.loc (V d (cV L) (jV L)) ↦{fullShare} f)
    ∗ semVal (c6cell d L) 0 ∗ semVal (c7cell d L) 0
    ∗ ∃ W', ⌜∀ p ∈ W', p ∈ W ∨ p.2 = none⌝ ∗ owes (V d (cV L) (jV L)) O W')

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ goP m d (L 0).val (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_diag_body L aW (Memref.isWhole_whole _) gW (Memref.isWhole_whole _) s4W (Memref.isWhole_whole _) s5W (Memref.isWhole_whole _) cc0_scratch2 cc0_scoped0)
          fun _ => iprop(tdP m d (L 0).val (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_diag_body_eq_skeleton]; unfold cc0__sc_diag_body_skel
  rw [(K (F := F)).scopedBufs_V hF d (cV L) (jV L), SparseCore.Cfg.scopedSems0_V (Val := Elt F) d (cV L) (jV L), ownSems0_V, ownBufs_V]
  unfold goP
  iintro ⟨#Hlv, -, ⟨Ha, %g0, Hg⟩, ⟨⟨%f4, H4⟩, ⟨%f5, H5⟩, Hbufs⟩, ⟨Hsem6, Hsem7, Hsems⟩, HO⟩
  ihave Hmw := ((K (F := F)).mayWaits_none (thr := V d (cV L) (jV L)) hO) $$ Hlv
  ihave Ha' := (Entails.of_eq (pts_a (F := F) d L _ _).symm) $$ Ha
  ihave H4' := (Entails.of_eq (pts_s4 (F := F) d L _).symm) $$ H4
  ihave H5' := (Entails.of_eq (pts_s5 (F := F) d L _).symm) $$ H5
  sl_exec
  sl_for (inv m d L O W) $$ [Hmw Ha' Hg H4' H5' Hsem6 Hsem7 HO]
  case region =>
    intro k _
    unfold inv
    iintro ⟨Hmw, Ha, ⟨%f, %hf, Hg⟩, ⟨%f4, H4⟩, ⟨%f5, H5⟩, Hsem6, Hsem7, %W', %hW', HO⟩
    ihave Hsp := (pointsTo_split_subset (gRow_subset d L k)).1 $$ Hg
    icases Hsp with ⟨Hrow, Hrest⟩
    ihave Hrow' := (Entails.of_eq (pts_gRow (F := F) d L k f).symm) $$ Hrow
    sl_exec_parts
    -- the block scratch holds the subcore's block of A[k]
    have hblk : ∀ r, (s4W).view.read (Elt F) (View.write (Elt F) (s4W).view f4 (tile_body.sl.dma0 m d L k) Finset.univ) r = blkOf m d L k r := by
      intro r
      show (View.whole cc0_scratch0).read (Elt F) ((View.whole cc0_scratch0).write (Elt F) f4 (tile_body.sl.dma0 m d L k) Finset.univ) r = _
      rw [View.write_whole_univ]
      exact ((View.read_apply _ _).trans (cast_eq _ _)).trans ((View.read_apply _ _).trans (cast_eq _ _))
    -- the eight stores, read back: entry 16kk+j of what is copied out is lane j of group kk's accumulation
    have hval : ∀ (kk : Fin 8) (j : Fin 16), tile_body.sl.dma144 m d L k f4 f5 (gAt kk j) = diagVec lanes (blkRows (blkOf m d L k) kk) (ix1 j) :=
      pieces_read (View.write (Elt F) (s4W).view f4 (tile_body.sl.dma0 m d L k) Finset.univ) f5 (blkOf m d L k) hblk
    sl_step
    isplitl [Hmw]; · iexact Hmw
    isplitl [Ha]; · iexact Ha
    isplitl [Hrow' Hrest]
    · iexists ((gRowM L k).view.writes (Elt F) f [⟨Rect.whole S128, tile_body.sl.dma144 m d L k f4 f5⟩])
      isplitr
      · ipureintro; exact rowIs_step m d L k f _ hf hval
      · ihave Hrow := (Entails.of_eq (pts_gRow (F := F) d L k _)) $$ Hrow'
        ihave Hrest' := (Entails.of_eq (pointsTo_congr (q := fullShare) (ℓ := gLoc d)
            (I := tileSet d (L 0).val (L 1).val \ (gRowM L k).view.set) (f := f)
            (g := (gRowM L k).view.writes (Elt F) f [⟨Rect.whole S128, tile_body.sl.dma144 m d L k f4 f5⟩])
            fun i hi => (writes_off d L k f _ (Finset.mem_sdiff.mp hi).2).symm)) $$ Hrest
        iapply (pointsTo_split_subset (gRow_subset d L k)).2
        isplitl [Hrow]; · iexact Hrow
        iexact Hrest'
    isplitl [H4]; · iexists _; iexact H4
    isplitl [H5]; · iexists _; iexact H5
    isplitl [Hsem6]; · iexact Hsem6
    isplitl [Hsem7]; · iexact Hsem7
    iexists (insert (SemLoc.dma cc0_scoped0.sem, (default : HIx 1)) (insert (SemLoc.dma cc0_scratch2.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold inv
    isplitl [Hmw]; · iexact Hmw
    isplitl [Ha']; · iexact Ha'
    isplitl [Hg]
    · iexists g0; isplitr
      · ipureintro; intro b hb; exact absurd hb (Nat.not_lt_zero _)
      · iexact Hg
    isplitl [H4']; · iexists _; iexact H4'
    isplitl [H5']; · iexists _; iexact H5'
    isplitl [Hsem6]; · iexact Hsem6
    isplitl [Hsem7]; · iexact Hsem7
    iexists W; isplitr
    · ipureintro; exact fun p hp => .inl hp
    · iexact HO
  iintro %_ HI
  unfold inv
  icases HI with ⟨-, Ha, ⟨%f, %hf, Hg⟩, ⟨%f4, H4⟩, ⟨%f5, H5⟩, Hsem6, Hsem7, %W', %hW', HO⟩
  sl_exec
  sl_step
  unfold tdP
  isplitl [Ha Hg]
  · isplitl [Ha]; · iapply (Entails.of_eq (pts_a (F := F) d L _ _)); iexact Ha
    iexists f; isplitr
    · ipureintro; intro L' h0 h1 b
      have hL : L' = L := by
        funext a
        match a with
        | ⟨0, _⟩ => exact Fin.ext h0
        | ⟨1, _⟩ => exact Fin.ext h1
      subst hL
      exact hf b b.isLt
    · iexact Hg
  isplitl [H4 H5 Hbufs]
  · isplitl [H4]; · iexists _; iapply (Entails.of_eq (pts_s4 (F := F) d L _)); iexact H4
    isplitl [H5]; · iexists _; iapply (Entails.of_eq (pts_s5 (F := F) d L _)); iexact H5
    iexact Hbufs
  isplitl [Hsem6 Hsem7 Hsems]
  · isplitl [Hsem6]; · iexact Hsem6
    isplitl [Hsem7]; · iexact Hsem7
    iexact Hsems
  iexists W'; isplitr
  · ipureintro; exact hW'
  · iexact HO

end Tile

/-! ## The launch theorem's obligation -/

section Obl

local notation "aW" => (Memref.whole Cert.Kernel.main_arg1_scv : Memref Cert.Kernel.sig Kind.scVector Space.hbm Cert.Kernel.S4x4096x4096 EltTy.f32)
local notation "gW" => (Memref.whole Cert.Kernel.main_v64_scv : Memref Cert.Kernel.sig Kind.scVector Space.hbm Cert.Kernel.S4x8x4096 EltTy.f32)
local notation "s4W" => (Memref.whole Cert.Kernel.cc0_scratch0 : Memref Cert.Kernel.sig Kind.scVector Space.vmem Cert.Kernel.S128x128 EltTy.f32)
local notation "s5W" => (Memref.whole Cert.Kernel.cc0_scratch1 : Memref Cert.Kernel.sig Kind.scVector Space.vmem Cert.Kernel.S128 EltTy.f32)

variable [FloatOps F] (m : (ℓ : Loc nD τ sig) → Buf (Elt F) ℓ)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_diag_body (coordsV c s)
          aW (Memref.isWhole_whole _) gW (Memref.isWhole_whole _) s4W (Memref.isWhole_whole _) s5W (Memref.isWhole_whole _) cc0_scratch2 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

end Obl

end Cert.Proof.KB

end
-- ==== Proof.ScratchColsI.lean ====
/-
  A 4096 × 8 buffer after the stores of one grid point: a 1024 × 1 piece at rows [o, o + 1024) of column 1 laid over a
  4096 × 1 piece on column 0 (and, at the first point of a batch, over a second one under it). Read index by index:
  column 0 holds the newest column-0 piece, rows [o, o + 1024) of column 1 the row piece, every other index what the
  buffer held before. Newest store first, as the stores are listed.
-/
import Idealize.ShloMosaic.Lib.WritesUnit
import Idealize.ShloMosaic.Lib.ValueIdx
import Idealize.ShloMosaic.Lib.Pipeline.FrameBody

noncomputable section

namespace Cert.Proof.ScratchCols

open Idealize.ShloMosaic

variable {sig : RefSig} {κ : Kind} {sp : Space} {e : EltTy} {Val : EltTy → Type}

/-- The buffer's shape and the two pieces' shapes. -/
abbrev SB : Shape := ⟨2, ![4096, 8]⟩
abbrev SC : Shape := ⟨2, ![4096, 1]⟩
abbrev SR : Shape := ⟨2, ![1024, 1]⟩

variable (v : View sig κ sp SB e) (f : v.ty.Contents Val)

/-- An index of column 0 misses a piece that lies in column 1, -/
theorem read_col0_skip_row {off : Fin 2 → ℕ} {o : ℕ} (inb : ∀ a, off a + SR.size a ≤ SB.size a)
    (w : (Rect.unit (s := SB) off SR.size inb).shape.Idx → Val e) (L : List (View.Piece Val SB e)) (y : SB.Idx)
    (hoff : off = ![o, 1]) (hy : (y 1).val = 0) :
    v.read Val (v.writes Val f ((⟨Rect.unit (s := SB) off SR.size inb, w⟩ : View.Piece Val SB e) :: L)) y
      = v.read Val (v.writes Val f L) y :=
  View.read_writes_cons_unit_of_not_mem v f inb w L y hoff (1 : Fin 2) (Or.inl (by
    show (y 1).val < (![o, 1] : Fin 2 → ℕ) 1
    rw [hy]; exact Nat.zero_lt_one))

/-- and reads the newest column-0 piece at its row. -/
theorem read_col0_hit (inb : ∀ a, (![0, 0] : Fin 2 → ℕ) a + SC.size a ≤ SB.size a)
    (w : (Rect.unit (s := SB) ![0, 0] SC.size inb).shape.Idx → Val e) (L : List (View.Piece Val SB e)) (y : SB.Idx)
    (x : (Rect.unit (s := SB) ![0, 0] SC.size inb).shape.Idx) (hx0 : (y 0).val = (x 0).val) (hx1 : (y 1).val = (x 1).val) :
    v.read Val (v.writes Val f ((⟨Rect.unit (s := SB) ![0, 0] SC.size inb, w⟩ : View.Piece Val SB e) :: L)) y = w x :=
  View.read_writes_cons_unit_of_mem v f inb w L y x rfl (Fin.forall_fin_two.mpr
    ⟨by show (y 0).val = 0 + (x 0).val; omega, by show (y 1).val = 0 + (x 1).val; omega⟩)

/-- An index of column 1 misses a piece that lies in column 0. -/
theorem read_col1_skip_col0 (inb : ∀ a, (![0, 0] : Fin 2 → ℕ) a + SC.size a ≤ SB.size a)
    (w : (Rect.unit (s := SB) ![0, 0] SC.size inb).shape.Idx → Val e) (L : List (View.Piece Val SB e)) (y : SB.Idx)
    (hy : (y 1).val = 1) :
    v.read Val (v.writes Val f ((⟨Rect.unit (s := SB) ![0, 0] SC.size inb, w⟩ : View.Piece Val SB e) :: L)) y
      = v.read Val (v.writes Val f L) y :=
  View.read_writes_cons_unit_of_not_mem v f inb w L y rfl (1 : Fin 2) (Or.inr (by
    show (![0, 0] : Fin 2 → ℕ) 1 + SC.size 1 ≤ (y 1).val
    rw [hy]; exact Nat.le_refl 1))

/-- Column 1, a row inside the row piece: the piece's payload at the row's offset in it. -/
theorem read_col1_hit {off : Fin 2 → ℕ} {o : ℕ} (inb : ∀ a, off a + SR.size a ≤ SB.size a)
    (w : (Rect.unit (s := SB) off SR.size inb).shape.Idx → Val e) (L : List (View.Piece Val SB e)) (y : SB.Idx)
    (x : (Rect.unit (s := SB) off SR.size inb).shape.Idx) (hoff : off = ![o, 1]) (hy : (y 1).val = 1)
    (hx0 : (y 0).val = o + (x 0).val) (hx1 : (x 1).val = 0) :
    v.read Val (v.writes Val f ((⟨Rect.unit (s := SB) off SR.size inb, w⟩ : View.Piece Val SB e) :: L)) y = w x :=
  View.read_writes_cons_unit_of_mem v f inb w L y x hoff (Fin.forall_fin_two.mpr
    ⟨hx0, by show (y 1).val = 1 + (x 1).val; omega⟩)

/-- Column 1, a row outside the row piece: what the stores under it left. -/
theorem read_col1_skip_row {off : Fin 2 → ℕ} {o : ℕ} (inb : ∀ a, off a + SR.size a ≤ SB.size a)
    (w : (Rect.unit (s := SB) off SR.size inb).shape.Idx → Val e) (L : List (View.Piece Val SB e)) (y : SB.Idx)
    (hoff : off = ![o, 1]) (hrow : (y 0).val < o ∨ o + 1024 ≤ (y 0).val) :
    v.read Val (v.writes Val f ((⟨Rect.unit (s := SB) off SR.size inb, w⟩ : View.Piece Val SB e) :: L)) y
      = v.read Val (v.writes Val f L) y :=
  View.read_writes_cons_unit_of_not_mem v f inb w L y hoff (0 : Fin 2) (by
    show (y 0).val < (![o, 1] : Fin 2 → ℕ) 0 ∨ (![o, 1] : Fin 2 → ℕ) 0 + SR.size 0 ≤ (y 0).val
    exact hrow)

end Cert.Proof.ScratchCols

end
-- ==== Proof.TcRunsB.lean ====
/-
  The TensorCore kernel's body, run once per control path, on any whole staging memrefs.

  At grid point (b, r) the body takes one of three paths. For r = 0 it loads the block of adjacency rows, zeroes column 0
  of the scratch, adds the block's column sums to it and stores the block's row sums into rows [0, 1024) of column 1.
  For 0 < r < 4 it does the same without the zeroing, the row sums going to rows [1024 r, 1024 r + 1024). For r = 4 it
  reads the features' block, the weights, columns 0 and 1 of the scratch and row 0 of the diagonal's block, and stores
  the 64 results into the result's staging buffer, whole. Each run states what the scratch, or the result's buffer,
  holds afterwards as a pure term of what the body loaded.
-/
import proofs.«208576_g46445776339566_cont_8to1c4_655_26_alg».proof.Proof.SetupB
import proofs.«208576_g46445776339566_cont_8to1c4_655_26_alg».proof.Proof.ScratchColsI
import proofs.«208576_g46445776339566_cont_8to1c4_655_26_alg».proof.Proof.Gen.Kernel.Skeleton
import Idealize.ShloMosaic.Lib.Pipeline.FrameBody
import Idealize.ShloMosaic.Lib.Pipeline.Value
import Idealize.ShloMosaic.Lib.Ring
import Idealize.ShloMosaic.Lib.WritesUnit
import Idealize.ShloMosaic.Lib.ValueIdx
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's branch conditions, in closed form over the grid -/

/-- The inner condition of the first branch: the second grid coordinate is zero. -/
abbrev cond0 (i : grid1.Coords) : Prop :=
  (Scalar.cmpi .ne (Scalar.extui (Scalar.cmpi .eq (BitVec.ofNat 32 (i 1).val) 0#32)) 0#32) = 1#1

/-- The first branch is taken at the points whose second coordinate is below 4, -/
theorem hcond1 : ∀ t : Fin cfg1.N, k1_cond1 (grid1.coords t) = 1#1 ↔ t.val % 5 < 4 :=
  (by decide +kernel : ∀ t : Fin grid1.N, k1_cond1 (grid1.coords t) = 1#1 ↔ t.val % 5 < 4)
/-- its inner branch where that coordinate is 0, -/
theorem hcond0 : ∀ t : Fin cfg1.N, cond0 (grid1.coords t) ↔ t.val % 5 = 0 :=
  (by decide +kernel : ∀ t : Fin grid1.N, cond0 (grid1.coords t) ↔ t.val % 5 = 0)
/-- and the second branch where it is 4. -/
theorem hcond3 : ∀ t : Fin cfg1.N, k1_cond3 (grid1.coords t) = 1#1 ↔ t.val % 5 = 4 :=
  (by decide +kernel : ∀ t : Fin grid1.N, k1_cond3 (grid1.coords t) = 1#1 ↔ t.val % 5 = 4)

/-! ## The scratch's two columns, and what one point's stores do to it -/

/-- Columns 0 and 1 of the scratch, as rectangles of it. -/
abbrev R0 : Rect S4096x8 := Rect.unit (s := S4096x8) ![0, 0] S4096x1.size inb_S4096x8_S4096x1_0_0
abbrev R1 : Rect S4096x8 := Rect.unit (s := S4096x8) ![0, 1] S4096x1.size inb_S4096x8_S4096x1_0_1
/-- Row 0 of the diagonal's block. -/
abbrev Rd : Rect S1x8x4096 := Rect.unit (s := S1x8x4096) ![0, 0, 0] S1x1x4096.size inb_S1x8x4096_S1x1x4096_0_0_0

/-- What the stores of a point with second coordinate below 4 do to the scratch, read index by index: column 0
    becomes `c0`; rows [o, o + 1024) of column 1 become the block's row sums; the other rows of column 1 stay. -/
def StepA (o : ℕ) (x0 : Vec F S1x1024x4096 .f32) (c0 : FVec F S4096x1 .f32) (xs xs' : Vec F S4096x8 .f32) : Prop :=
  View.ld xs' R0 = c0
    ∧ (∀ (y : S4096x8.Idx) (x : S1024x1.Idx), (y 1).val = 1 → (y 0).val = o + (x 0).val → xs' y = k1_pay4 x0 x)
    ∧ (∀ y : S4096x8.Idx, (y 1).val = 1 → ((y 0).val < o ∨ o + 1024 ≤ (y 0).val) → xs' y = xs y)

theorem hz2 : (![0, 0] : Fin 2 → ℕ) = fun _ => 0 := funext fun a => by fin_cases a <;> rfl
theorem hz3 : (![0, 0, 0] : Fin 3 → ℕ) = fun _ => 0 := funext fun a => by fin_cases a <;> rfl

/-- A load of a whole staging memref through the whole-shape rectangle reads its contents. -/
theorem readAt_whole_unread {S : Shape} {m : Memref sig .tc .vmem S .f32} (h : m.IsWhole) {off : Fin S.rank → ℕ}
    (hz : off = fun _ => 0) (inb : ∀ a, off a + S.size a ≤ S.size a) (X : S.Idx → Elt F .f32) :
    View.readAt (Elt F) m.view (Rect.unit off S.size inb).toLoadRect (h.unread X) = X := by
  rw [View.readAt_eq_ld, h.read_unread]; exact View.ld_unit_zero hz inb X

/-- A load of a whole staging memref through a rectangle reads its contents there. -/
theorem readAt_unread {S : Shape} {m : Memref sig .tc .vmem S .f32} (h : m.IsWhole) (r : Rect S) (X : S.Idx → Elt F .f32) :
    View.readAt (Elt F) m.view r.toLoadRect (h.unread X) = View.ld X r := by
  rw [View.readAt_eq_ld, h.read_unread]

set_option maxHeartbeats 1000000 in
/-- Second coordinate 0: column 0 of the scratch is zeroed, then the block's column sums are added to it and its row sums
    stored into rows [0, 1024) of column 1. The scratch is held at contents `xs`, the adjacency block at `x0`; nothing
    else is touched. -/
theorem kernelRunA0 (c : Dev nD) (i : grid1.Coords) (arg2 : Memref sig .tc .vmem S1x1024x4096 .f32) (harg2 : arg2.IsWhole) (arg3 : Memref sig .tc .vmem S1x4096x64 .f32) (harg3 : arg3.IsWhole) (arg4 : Memref sig .tc .vmem S1x8x4096 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S8x512 .f32) (harg7 : arg7.IsWhole) (arg8 : Memref sig .tc .vmem S512x64 .f32) (harg8 : arg8.IsWhole) (arg9 : Memref sig .tc .vmem S1x64 .f32) (harg9 : arg9.IsWhole) (arg10 : Memref sig .tc .vmem S1x1x64 .f32) (harg10 : arg10.IsWhole) (arg11 : Memref sig .tc .vmem S4096x8 .f32) (harg11 : arg11.IsWhole)
    (hc1 : k1_cond1 i = 1#1) (hc0 : cond0 i) (hc3 : ¬ k1_cond3 i = 1#1)
    (x0 : Vec F S1x1024x4096 .f32) (xs : Vec F S4096x8 .f32) (E : Set ℕ) (K : PUnit → sProp 𝕄) :
    iprop(owns (c : Thread nD τ) arg2 fullShare x0 ∗ owns (c : Thread nD τ) arg11 fullShare xs
        ∗ (iprop(owns (c : Thread nD τ) arg2 fullShare x0
            ∗ (∃ xs' : Vec F S4096x8 .f32, owns (c : Thread nD τ) arg11 fullShare xs'
                ∗ ⌜StepA (1024 * (i 1).val) x0 (k1_pay3 x0 (k1_pay2 (F := F))) xs xs'⌝)) -∗ K ⟨⟩))
      ⊢ wp frame (wpE (defs₀ (F := F)) 𝒱₀ c none) E (cc1__fused_body i arg2 harg2 arg3 harg3 arg4 harg4 arg5 harg5 arg6 harg6 arg7 harg7 arg8 harg8 arg9 harg9 arg10 harg10 arg11 harg11) K := by
  simp only [cc1__fused_body_eq_skeleton]; unfold cc1__fused_body_skel
  unfold owns
  iintro ⟨⟨%f0, %hf0, H0⟩, ⟨%fs, %hfs, Hs⟩, Hk⟩
  obtain rfl := harg2.eq_unread hf0; obtain rfl := harg11.eq_unread hfs
  sl_exec (disch := first | exact hc1 | exact hc0 | exact hc3)
  sl_step
  iapply Hk
  isplitl [H0]
  · iexists _; isplitr; · ipureintro; exact harg2.read_unread _
    iexact H0
  iexists _
  isplitl [Hs]
  · iexists _; isplitr; swap; · iexact Hs
    ipureintro; rfl
  ipureintro
  sl_unfold_run_names
  rw [readAt_whole_unread harg2 hz3, View.readCov_cons_toLoadRect]
  have hoff := k1_off1_eq i
  refine ⟨funext fun x => ?_, fun y x hy1 hy0 => ?_, fun y hy1 hrow => ?_⟩
  · have hx1 : (x 1).val < 1 := (x 1).isLt
    show View.read (Elt F) arg11.view _ (R0.idx x) = _
    rw [ScratchCols.read_col0_skip_row arg11.view _ _ _ _ (R0.idx x) hoff (by show 0 + 1 * (x 1).val = 0; omega),
      ScratchCols.read_col0_hit arg11.view _ _ _ _ (R0.idx x) x (by show 0 + 1 * (x 0).val = (x 0).val; omega)
        (by show 0 + 1 * (x 1).val = (x 1).val; omega)]
  · have hx1 : (x 1).val < 1 := (x 1).isLt
    exact ScratchCols.read_col1_hit arg11.view _ _ _ _ y x hoff hy1 hy0 (by omega)
  · rw [ScratchCols.read_col1_skip_row arg11.view _ _ _ _ y hoff hrow,
      ScratchCols.read_col1_skip_col0 arg11.view _ _ _ _ y hy1,
      ScratchCols.read_col1_skip_col0 arg11.view _ _ _ _ y hy1, View.writes_nil]
    exact congrFun (harg11.read_unread xs) y

set_option maxHeartbeats 1000000 in
/-- Second coordinate 1, 2 or 3: the same without the zeroing; the column sums are added to what column 0 held. -/
theorem kernelRunA (c : Dev nD) (i : grid1.Coords) (arg2 : Memref sig .tc .vmem S1x1024x4096 .f32) (harg2 : arg2.IsWhole) (arg3 : Memref sig .tc .vmem S1x4096x64 .f32) (harg3 : arg3.IsWhole) (arg4 : Memref sig .tc .vmem S1x8x4096 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S8x512 .f32) (harg7 : arg7.IsWhole) (arg8 : Memref sig .tc .vmem S512x64 .f32) (harg8 : arg8.IsWhole) (arg9 : Memref sig .tc .vmem S1x64 .f32) (harg9 : arg9.IsWhole) (arg10 : Memref sig .tc .vmem S1x1x64 .f32) (harg10 : arg10.IsWhole) (arg11 : Memref sig .tc .vmem S4096x8 .f32) (harg11 : arg11.IsWhole)
    (hc1 : k1_cond1 i = 1#1) (hc0 : ¬ cond0 i) (hc3 : ¬ k1_cond3 i = 1#1)
    (x0 : Vec F S1x1024x4096 .f32) (xs : Vec F S4096x8 .f32) (E : Set ℕ) (K : PUnit → sProp 𝕄) :
    iprop(owns (c : Thread nD τ) arg2 fullShare x0 ∗ owns (c : Thread nD τ) arg11 fullShare xs
        ∗ (iprop(owns (c : Thread nD τ) arg2 fullShare x0
            ∗ (∃ xs' : Vec F S4096x8 .f32, owns (c : Thread nD τ) arg11 fullShare xs'
                ∗ ⌜StepA (1024 * (i 1).val) x0 (k1_pay3 x0 (View.ld xs R0)) xs xs'⌝)) -∗ K ⟨⟩))
      ⊢ wp frame (wpE (defs₀ (F := F)) 𝒱₀ c none) E (cc1__fused_body i arg2 harg2 arg3 harg3 arg4 harg4 arg5 harg5 arg6 harg6 arg7 harg7 arg8 harg8 arg9 harg9 arg10 harg10 arg11 harg11) K := by
  simp only [cc1__fused_body_eq_skeleton]; unfold cc1__fused_body_skel
  unfold owns
  iintro ⟨⟨%f0, %hf0, H0⟩, ⟨%fs, %hfs, Hs⟩, Hk⟩
  obtain rfl := harg2.eq_unread hf0; obtain rfl := harg11.eq_unread hfs
  sl_exec (disch := first | exact hc1 | exact hc0 | exact hc3)
  sl_step
  iapply Hk
  isplitl [H0]
  · iexists _; isplitr; · ipureintro; exact harg2.read_unread _
    iexact H0
  iexists _
  isplitl [Hs]
  · iexists _; isplitr; swap; · iexact Hs
    ipureintro; rfl
  ipureintro
  rw [readAt_whole_unread harg2 hz3]
  rw [readAt_unread harg11 R0]
  have hoff := k1_off1_eq i
  refine ⟨funext fun x => ?_, fun y x hy1 hy0 => ?_, fun y hy1 hrow => ?_⟩
  · have hx1 : (x 1).val < 1 := (x 1).isLt
    show View.read (Elt F) arg11.view _ (R0.idx x) = _
    rw [ScratchCols.read_col0_skip_row arg11.view _ _ _ _ (R0.idx x) hoff (by show 0 + 1 * (x 1).val = 0; omega),
      ScratchCols.read_col0_hit arg11.view _ _ _ _ (R0.idx x) x (by show 0 + 1 * (x 0).val = (x 0).val; omega)
        (by show 0 + 1 * (x 1).val = (x 1).val; omega)]
  · have hx1 : (x 1).val < 1 := (x 1).isLt
    exact ScratchCols.read_col1_hit arg11.view _ _ _ _ y x hoff hy1 hy0 (by omega)
  · rw [ScratchCols.read_col1_skip_row arg11.view _ _ _ _ y hoff hrow,
      ScratchCols.read_col1_skip_col0 arg11.view _ _ _ _ y hy1, View.writes_nil]
    exact congrFun (harg11.read_unread xs) y

/-- What the body stores into the result's staging buffer at second coordinate 4, from the blocks it loads. -/
def outOf (x1 : Vec F S1x4096x64 .f32) (x2 : Vec F S1x8x4096 .f32) (x3 : Vec F S64x512 .f32) (x4 : Vec F S64x512 .f32)
    (x5 : Vec F S8x512 .f32) (x6 : Vec F S512x64 .f32) (x7 : Vec F S1x64 .f32) (xs : Vec F S4096x8 .f32) : FVec F S1x1x64 .f32 :=
  k1_pay5 (k1_pay7 x1 x3) (View.ld xs R0) (View.ld xs R1) (k1_pay8 (View.ld x2 Rd)) (k1_pay9 x5)
      (k1_pay10 x1 x4 (View.ld xs R1) (View.ld x2 Rd) x5) x6 x7

set_option maxHeartbeats 2000000 in
/-- Second coordinate 4: the features' block is held at `x1`, the diagonal's at `x2`, the five weight arrays at
    `x3 … x7`, the scratch at `xs`, the result's buffer at anything; the body leaves `outOf` of them in the result's
    buffer and hands everything else back as it was. -/
theorem kernelRunB (c : Dev nD) (i : grid1.Coords) (arg2 : Memref sig .tc .vmem S1x1024x4096 .f32) (harg2 : arg2.IsWhole) (arg3 : Memref sig .tc .vmem S1x4096x64 .f32) (harg3 : arg3.IsWhole) (arg4 : Memref sig .tc .vmem S1x8x4096 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S8x512 .f32) (harg7 : arg7.IsWhole) (arg8 : Memref sig .tc .vmem S512x64 .f32) (harg8 : arg8.IsWhole) (arg9 : Memref sig .tc .vmem S1x64 .f32) (harg9 : arg9.IsWhole) (arg10 : Memref sig .tc .vmem S1x1x64 .f32) (harg10 : arg10.IsWhole) (arg11 : Memref sig .tc .vmem S4096x8 .f32) (harg11 : arg11.IsWhole)
    (hc1 : ¬ k1_cond1 i = 1#1) (hc3 : k1_cond3 i = 1#1)
    (x1 : Vec F S1x4096x64 .f32) (x2 : Vec F S1x8x4096 .f32) (x3 : Vec F S64x512 .f32) (x4 : Vec F S64x512 .f32)
    (x5 : Vec F S8x512 .f32) (x6 : Vec F S512x64 .f32) (x7 : Vec F S1x64 .f32) (xs : Vec F S4096x8 .f32)
    (E : Set ℕ) (K : PUnit → sProp 𝕄) :
    iprop(owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare x5 ∗ owns (c : Thread nD τ) arg8 fullShare x6
        ∗ owns (c : Thread nD τ) arg9 fullShare x7 ∗ (∃ d, owns (c : Thread nD τ) arg10 fullShare d)
        ∗ owns (c : Thread nD τ) arg11 fullShare xs
        ∗ (iprop(owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare x5 ∗ owns (c : Thread nD τ) arg8 fullShare x6
            ∗ owns (c : Thread nD τ) arg9 fullShare x7
            ∗ owns (c : Thread nD τ) arg10 fullShare (outOf x1 x2 x3 x4 x5 x6 x7 xs)
            ∗ owns (c : Thread nD τ) arg11 fullShare xs) -∗ K ⟨⟩))
      ⊢ wp frame (wpE (defs₀ (F := F)) 𝒱₀ c none) E (cc1__fused_body i arg2 harg2 arg3 harg3 arg4 harg4 arg5 harg5 arg6 harg6 arg7 harg7 arg8 harg8 arg9 harg9 arg10 harg10 arg11 harg11) K := by
  simp only [cc1__fused_body_eq_skeleton]; unfold cc1__fused_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, Hs⟩, Hk⟩
  obtain rfl := harg3.eq_unread hf1; obtain rfl := harg4.eq_unread hf2; obtain rfl := harg5.eq_unread hf3
  obtain rfl := harg6.eq_unread hf4; obtain rfl := harg7.eq_unread hf5; obtain rfl := harg8.eq_unread hf6
  obtain rfl := harg9.eq_unread hf7; obtain rfl := harg11.eq_unread hfs
  sl_exec (disch := first | exact hc1 | exact hc3)
  sl_step
  iapply Hk
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (View.read_writes_eq_canon _ _ _ (fun y => ⟨_, List.mem_singleton_self _,
      View.mem_set_unit_zero (S := S1x1x64) hz3 inb_S1x1x64_S1x1x64_0_0_0 y⟩)).trans ?_
    refine (View.canon_unit_zero (S := S1x1x64) hz3 inb_S1x1x64_S1x1x64_0_0_0 _).trans ?_
    dsimp only
    simp only [readAt_whole_unread harg3 hz3, readAt_whole_unread harg5 hz2, readAt_whole_unread harg6 hz2,
      readAt_whole_unread harg7 hz2, readAt_whole_unread harg8 hz2, readAt_whole_unread harg9 hz2,
      readAt_unread harg11 R0, readAt_unread harg11 R1, readAt_unread harg4 Rd]
    rfl
  iexists _; isplitr; · ipureintro; exact harg11.read_unread _
  iexact Hs

end Cert.Proof.KB

end
-- ==== Proof.TcDatB.lean ====
/-
  The TensorCore pipeline's proof data.

  The region is entered with every TensorCore buffer of core `c` at a valuation `Vr c`. Grid point `t` is (b, r) with
  b = t / 5 and r = t % 5. Window 0 hands the body the block (b, min r 3) of 1024 rows of the adjacency array, windows 1
  and 2 the features' and the diagonal's block b, windows 3 to 7 five weight arrays whole, window 8 is the result's
  block b. The scratch is carried across points: after the point (b, r), r < 4, its column 0 holds the sums over the
  rows of blocks (b, 0 … r) of each of the 4096 columns, accumulated in that order from zero, and rows [0, 1024 (r + 1))
  of its column 1 hold the row sums of those blocks. At (b, 4) the body reads both columns and stores the result's block.
-/
import proofs.«208576_g46445776339566_cont_8to1c4_655_26_alg».proof.Proof.TcRunsB
import Idealize.ShloMosaic.Lib.ValueIdx
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- No prefetched table: the one admissible contents. -/
abbrev adm : (p : Fin 1) → (pcfgs (F := F) p).Adm := fun p => (cfgs p).toPCfg_adm

/-! ## The windows' blocks, over a valuation of the device's buffers -/

/-- Window `w`'s array under the valuation `V`. -/
abbrev arrV (V : Valuation τ sig (Elt F)) (w : Fin cfg1.W) : (Proc.devRef (τ := τ) .tc (Pipeline.arrRef spec1 w)).ty.Contents (Elt F) :=
  V (Proc.devRef .tc (Pipeline.arrRef spec1 w))

/-- Window `w`'s block at point `t`, read off its array. -/
def blkV (V : Valuation τ sig (Elt F)) (w : Fin cfg1.W) (t : Fin cfg1.N) :
    ((cfg1.win w).xblock (cfg1.grid.coords t)).Idx → Elt F (cfg1.win w).elt :=
  ((cfg1.win w).blk t).view.read (Elt F) (arrV V w)

/-- The point of number `n` (numbers past the grid wrap around: only numbers below 20 are ever meant). -/
def ptOf (n : ℕ) : Fin cfg1.N := ⟨n % 20, lt_of_lt_of_eq (Nat.mod_lt _ (by decide)) N_1.symm⟩

theorem ptOf_val (t : Fin cfg1.N) : ptOf t.val = t :=
  Fin.ext (Nat.mod_eq_of_lt (lt_of_lt_of_eq t.isLt N_1))

/-- The block of adjacency rows window 0 holds at point `t`. -/
abbrev blkA (V : Valuation τ sig (Elt F)) (t : Fin cfg1.N) : Vec F S1x1024x4096 .f32 := blkV V 0 t
/-- The features' block, -/
abbrev blkX (V : Valuation τ sig (Elt F)) (t : Fin cfg1.N) : Vec F S1x4096x64 .f32 := blkV V 1 t
/-- the diagonal's block, -/
abbrev blkD (V : Valuation τ sig (Elt F)) (t : Fin cfg1.N) : Vec F S1x8x4096 .f32 := blkV V 2 t
/-- and the five weight arrays, whole at every point. -/
abbrev blkW3 (V : Valuation τ sig (Elt F)) (t : Fin cfg1.N) : Vec F S64x512 .f32 := blkV V 3 t
abbrev blkW4 (V : Valuation τ sig (Elt F)) (t : Fin cfg1.N) : Vec F S64x512 .f32 := blkV V 4 t
abbrev blkW5 (V : Valuation τ sig (Elt F)) (t : Fin cfg1.N) : Vec F S8x512 .f32 := blkV V 5 t
abbrev blkW6 (V : Valuation τ sig (Elt F)) (t : Fin cfg1.N) : Vec F S512x64 .f32 := blkV V 6 t
abbrev blkW7 (V : Valuation τ sig (Elt F)) (t : Fin cfg1.N) : Vec F S1x64 .f32 := blkV V 7 t

/-! ## What the scratch and the result's block hold, as pure terms -/

/-- Column 0 of the scratch after the points (b, 0 … r): the column sums of the blocks, accumulated from zero. -/
def colAcc (V : Valuation τ sig (Elt F)) (b : ℕ) : ℕ → FVec F S4096x1 .f32
  | 0 => k1_pay3 (blkA V (ptOf (5 * b))) (k1_pay2 (F := F))
  | r + 1 => k1_pay3 (blkA V (ptOf (5 * b + (r + 1)))) (colAcc V b r)

/-- Rows of column 1 of the scratch: row `j` holds the sum of row `j % 1024` of the block (b, j / 1024). -/
def rowSum (V : Valuation τ sig (Elt F)) (b : ℕ) (j : Fin 4096) : F .f32 :=
  k1_pay4 (blkA V (ptOf (5 * b + j.val / 1024))) (ix2 (⟨j.val % 1024, Nat.mod_lt _ (by decide)⟩ : Fin 1024) (0 : Fin 1))

/-- Column 1 of the scratch once the four blocks' row sums are in. -/
def col1 (V : Valuation τ sig (Elt F)) (b : ℕ) : Vec F S4096x1 .f32 := fun x => rowSum V b (x 0)

/-- Row 0 of the diagonal's block. -/
def diagRow (V : Valuation τ sig (Elt F)) (t : Fin cfg1.N) : Vec F S1x1x4096 .f32 :=
  View.ld (blkD V t) Rd

/-- THE RESULT'S BLOCK b: what the body stores at the point (b, 4). -/
def outBlk (V : Valuation τ sig (Elt F)) (b : ℕ) : FVec F S1x1x64 .f32 :=
  k1_pay5 (k1_pay7 (blkX V (ptOf (5 * b + 4))) (blkW3 V (ptOf (5 * b + 4)))) (colAcc V b 3) (col1 V b)
    (k1_pay8 (diagRow V (ptOf (5 * b + 4)))) (k1_pay9 (blkW5 V (ptOf (5 * b + 4))))
    (k1_pay10 (blkX V (ptOf (5 * b + 4))) (blkW4 V (ptOf (5 * b + 4))) (col1 V b) (diagRow V (ptOf (5 * b + 4))) (blkW5 V (ptOf (5 * b + 4))))
    (blkW6 V (ptOf (5 * b + 4))) (blkW7 V (ptOf (5 * b + 4)))

/-- THE RESULT ARRAY the region leaves: its block b is `outBlk V b`. -/
def outVal (V : Valuation τ sig (Elt F)) : (Proc.devRef (τ := τ) .tc main_v66).ty.Contents (Elt F) :=
  fun y => outBlk V (y 0).val (ix3 (0 : Fin 1) (0 : Fin 1) (y 2))

/-- The entry valuation with the result array replaced. -/
def Vout (V : Valuation τ sig (Elt F)) : Valuation τ sig (Elt F) :=
  Function.update V (Proc.devRef .tc main_v66) (outVal V)

/-! ## The scratch between points -/

/-- What the scratch holds after the point of number `n`, (b, r) = (n / 5, n % 5), when r < 4: column 0 the accumulated
    column sums, rows below 1024 (r + 1) of column 1 the row sums. Nothing is said after a point with r = 4: the next
    point zeroes column 0 and overwrites column 1 before reading it. -/
def ScrAfter (V : Valuation τ sig (Elt F)) (n : ℕ) (xs : Vec F S4096x8 .f32) : Prop :=
  n % 5 < 4 → View.ld xs R0 = colAcc V (n / 5) (n % 5)
    ∧ ∀ y : S4096x8.Idx, (y 1).val = 1 → (y 0).val < 1024 * (n % 5 + 1) → xs y = rowSum V (n / 5) (y 0)

/-- What it holds before the point of number `n`: nothing at the first point, else what the point before left. -/
def ScrBefore (V : Valuation τ sig (Elt F)) : ℕ → Vec F S4096x8 .f32 → Prop
  | 0, _ => True
  | n + 1, xs => ScrAfter V n xs

/-! ## The proof data -/

variable (Vr : Dev nD → Valuation τ sig (Elt F)) (Rec : Set (SemLoc sig × HIx 1))

/-- Core `c`'s TensorCore buffers when the region is entered, by reference. -/
abbrev Vc (c : Dev nD) (b : Ref sig .tc) : Buf (Elt F) ((c.tc : Thread nD τ).loc b) := Vr c (Proc.devRef .tc b)

/-- The proof data of the pipeline on core `c`: the arrays as the region finds them; after the body each input's
    buffer at its block and the result's at its block; between points the scratch at some contents with the
    columns' invariant; nothing owed, the recorded pairs within `Rec`; full shares. -/
def pdats (_ : Fin 1) (c : Dev nD) : Dat τ (Elt F) (HIx 1) ℕ UU ℕ cfg1 c where
  A w := Vc Vr c (Pipeline.arrRef spec1 w)
  after w t := match w with
    | ⟨0, _⟩ => blkV (Vr c) 0 t
    | ⟨1, _⟩ => blkV (Vr c) 1 t
    | ⟨2, _⟩ => blkV (Vr c) 2 t
    | ⟨3, _⟩ => blkV (Vr c) 3 t
    | ⟨4, _⟩ => blkV (Vr c) 4 t
    | ⟨5, _⟩ => blkV (Vr c) 5 t
    | ⟨6, _⟩ => blkV (Vr c) 6 t
    | ⟨7, _⟩ => blkV (Vr c) 7 t
    | ⟨8, _⟩ => outBlk (Vr c) (t.val / 5)
  Φ k := iprop(∃ xs : Vec F S4096x8 .f32, owns (c : Thread nD τ) (Memref.whole cc1_scratch0) fullShare xs ∗ ⌜ScrBefore (Vr c) k.val xs⌝)
  q _ := fullShare
  owed _ := 0
  recorded _ := Rec

theorem A_eq (c : Dev nD) (w : Fin cfg1.W) : (pdats Vr Rec 0 c).A w = Vc Vr c (Pipeline.arrRef spec1 w) := by
  dsimp only [pdats]

theorem after1_0 (c : Dev nD) (t : Fin cfg1.N) : (pdats Vr Rec 0 c).after 0 t = blkV (Vr c) 0 t := by dsimp only [pdats]
theorem after1_1 (c : Dev nD) (t : Fin cfg1.N) : (pdats Vr Rec 0 c).after 1 t = blkV (Vr c) 1 t := by dsimp only [pdats]
theorem after1_2 (c : Dev nD) (t : Fin cfg1.N) : (pdats Vr Rec 0 c).after 2 t = blkV (Vr c) 2 t := by dsimp only [pdats]
theorem after1_3 (c : Dev nD) (t : Fin cfg1.N) : (pdats Vr Rec 0 c).after 3 t = blkV (Vr c) 3 t := by dsimp only [pdats]
theorem after1_4 (c : Dev nD) (t : Fin cfg1.N) : (pdats Vr Rec 0 c).after 4 t = blkV (Vr c) 4 t := by dsimp only [pdats]
theorem after1_5 (c : Dev nD) (t : Fin cfg1.N) : (pdats Vr Rec 0 c).after 5 t = blkV (Vr c) 5 t := by dsimp only [pdats]
theorem after1_6 (c : Dev nD) (t : Fin cfg1.N) : (pdats Vr Rec 0 c).after 6 t = blkV (Vr c) 6 t := by dsimp only [pdats]
theorem after1_7 (c : Dev nD) (t : Fin cfg1.N) : (pdats Vr Rec 0 c).after 7 t = blkV (Vr c) 7 t := by dsimp only [pdats]
theorem after1_8 (c : Dev nD) (t : Fin cfg1.N) : (pdats Vr Rec 0 c).after 8 t = outBlk (Vr c) (t.val / 5) := by dsimp only [pdats]

/-- Window 0's current staging buffer holds its block at every point, fetched there or not. -/
theorem before1_0 (c : Dev nD) (t : Fin cfg1.N) (d) : (pdats Vr Rec 0 c).before 0 t d = blkV (Vr c) 0 t :=
  ((pdats Vr Rec 0 c).before_in_eq_fetched 0 rfl (fun _ => rfl) (fun _ _ _ => rfl)
      (fun t => by rw [after1_0]; unfold Dat.blockOf blkV; rw [A_eq]) t d).trans
    (by unfold Dat.fetched Dat.blockOf blkV; rw [A_eq]; try rfl)

/-- Window 1's current staging buffer holds its block at every point, fetched there or not. -/
theorem before1_1 (c : Dev nD) (t : Fin cfg1.N) (d) : (pdats Vr Rec 0 c).before 1 t d = blkV (Vr c) 1 t :=
  ((pdats Vr Rec 0 c).before_in_eq_fetched 1 rfl (fun _ => rfl) (fun _ _ _ => rfl)
      (fun t => by rw [after1_1]; unfold Dat.blockOf blkV; rw [A_eq]) t d).trans
    (by unfold Dat.fetched Dat.blockOf blkV; rw [A_eq]; try rfl)

/-- Window 2's current staging buffer holds its block at every point, fetched there or not. -/
theorem before1_2 (c : Dev nD) (t : Fin cfg1.N) (d) : (pdats Vr Rec 0 c).before 2 t d = blkV (Vr c) 2 t :=
  ((pdats Vr Rec 0 c).before_in_eq_fetched 2 rfl (fun _ => rfl) (fun _ _ _ => rfl)
      (fun t => by rw [after1_2]; unfold Dat.blockOf blkV; rw [A_eq]) t d).trans
    (by unfold Dat.fetched Dat.blockOf blkV; rw [A_eq]; try rfl)

/-- Window 3's current staging buffer holds its block at every point, fetched there or not. -/
theorem before1_3 (c : Dev nD) (t : Fin cfg1.N) (d) : (pdats Vr Rec 0 c).before 3 t d = blkV (Vr c) 3 t :=
  ((pdats Vr Rec 0 c).before_in_eq_fetched 3 rfl (fun _ => rfl) (fun _ _ _ => rfl)
      (fun t => by rw [after1_3]; unfold Dat.blockOf blkV; rw [A_eq]) t d).trans
    (by unfold Dat.fetched Dat.blockOf blkV; rw [A_eq]; try rfl)

/-- Window 4's current staging buffer holds its block at every point, fetched there or not. -/
theorem before1_4 (c : Dev nD) (t : Fin cfg1.N) (d) : (pdats Vr Rec 0 c).before 4 t d = blkV (Vr c) 4 t :=
  ((pdats Vr Rec 0 c).before_in_eq_fetched 4 rfl (fun _ => rfl) (fun _ _ _ => rfl)
      (fun t => by rw [after1_4]; unfold Dat.blockOf blkV; rw [A_eq]) t d).trans
    (by unfold Dat.fetched Dat.blockOf blkV; rw [A_eq]; try rfl)

/-- Window 5's current staging buffer holds its block at every point, fetched there or not. -/
theorem before1_5 (c : Dev nD) (t : Fin cfg1.N) (d) : (pdats Vr Rec 0 c).before 5 t d = blkV (Vr c) 5 t :=
  ((pdats Vr Rec 0 c).before_in_eq_fetched 5 rfl (fun _ => rfl) (fun _ _ _ => rfl)
      (fun t => by rw [after1_5]; unfold Dat.blockOf blkV; rw [A_eq]) t d).trans
    (by unfold Dat.fetched Dat.blockOf blkV; rw [A_eq]; try rfl)

/-- Window 6's current staging buffer holds its block at every point, fetched there or not. -/
theorem before1_6 (c : Dev nD) (t : Fin cfg1.N) (d) : (pdats Vr Rec 0 c).before 6 t d = blkV (Vr c) 6 t :=
  ((pdats Vr Rec 0 c).before_in_eq_fetched 6 rfl (fun _ => rfl) (fun _ _ _ => rfl)
      (fun t => by rw [after1_6]; unfold Dat.blockOf blkV; rw [A_eq]) t d).trans
    (by unfold Dat.fetched Dat.blockOf blkV; rw [A_eq]; try rfl)

/-- Window 7's current staging buffer holds its block at every point, fetched there or not. -/
theorem before1_7 (c : Dev nD) (t : Fin cfg1.N) (d) : (pdats Vr Rec 0 c).before 7 t d = blkV (Vr c) 7 t :=
  ((pdats Vr Rec 0 c).before_in_eq_fetched 7 rfl (fun _ => rfl) (fun _ _ _ => rfl)
      (fun t => by rw [after1_7]; unfold Dat.blockOf blkV; rw [A_eq]) t d).trans
    (by unfold Dat.fetched Dat.blockOf blkV; rw [A_eq]; try rfl)

/-! ## One point's stores, and the invariant across them -/

/-- The grid's second coordinate is the point's number modulo 5, its first the quotient: decided over the grid. -/
theorem hcoord : ∀ t : Fin cfg1.N, (grid1.coords t 1).val = t.val % 5 ∧ (grid1.coords t 0).val = t.val / 5 :=
  (by decide +kernel : ∀ t : Fin grid1.N, (grid1.coords t 1).val = t.val % 5 ∧ (grid1.coords t 0).val = t.val / 5)

theorem ptOf_split (t : Fin cfg1.N) : ptOf (5 * (t.val / 5) + t.val % 5) = t := by
  rw [Nat.div_add_mod]; exact ptOf_val t

/-- The rows of column 1 after a point's stores. -/
theorem rows_after (V : Valuation τ sig (Elt F)) (t : Fin cfg1.N) (c0 : FVec F S4096x1 .f32) (xs xs' : Vec F S4096x8 .f32)
    (hr : t.val % 5 < 4)
    (hold : ∀ y : S4096x8.Idx, (y 1).val = 1 → (y 0).val < 1024 * (t.val % 5) → xs y = rowSum V (t.val / 5) (y 0))
    (hs : StepA (1024 * (t.val % 5)) (blkA V t) c0 xs xs') :
    ∀ y : S4096x8.Idx, (y 1).val = 1 → (y 0).val < 1024 * (t.val % 5 + 1) → xs' y = rowSum V (t.val / 5) (y 0) := by
  intro y hy1 hy0
  by_cases hlo : (y 0).val < 1024 * (t.val % 5)
  · rw [hs.2.2 y hy1 (Or.inl hlo)]; exact hold y hy1 hlo
  · have hdiv : (y 0).val / 1024 = t.val % 5 := by omega
    have hmod : (y 0).val = 1024 * (t.val % 5) + (y 0).val % 1024 := by omega
    rw [hs.2.1 y (ix2 (⟨(y 0).val % 1024, Nat.mod_lt _ (by decide)⟩ : Fin 1024) (0 : Fin 1)) hy1 hmod]
    unfold rowSum
    rw [hdiv, ptOf_split]

/-- The invariant after a point with second coordinate 0, -/
theorem scrAfter_first (V : Valuation τ sig (Elt F)) (t : Fin cfg1.N) (xs xs' : Vec F S4096x8 .f32) (h0 : t.val % 5 = 0)
    (hs : StepA (1024 * (t.val % 5)) (blkA V t) (k1_pay3 (blkA V t) (k1_pay2 (F := F))) xs xs') : ScrAfter V t.val xs' := by
  intro hr
  refine ⟨?_, rows_after V t _ xs xs' hr (fun y _ hy => absurd hy (by rw [h0]; omega)) hs⟩
  rw [hs.1, h0]
  show _ = k1_pay3 (blkA V (ptOf (5 * (t.val / 5)))) (k1_pay2 (F := F))
  have : ptOf (5 * (t.val / 5)) = t := by
    have := ptOf_split t; rw [h0, Nat.add_zero] at this; exact this
  rw [this]

/-- and after one with second coordinate 1, 2 or 3, from the invariant after the point before. -/
theorem scrAfter_next (V : Valuation τ sig (Elt F)) (t : Fin cfg1.N) (xs xs' : Vec F S4096x8 .f32) (h0 : t.val % 5 ≠ 0)
    (hr : t.val % 5 < 4) (hb : ScrAfter V (t.val - 1) xs)
    (hs : StepA (1024 * (t.val % 5)) (blkA V t) (k1_pay3 (blkA V t) (View.ld xs R0)) xs xs') : ScrAfter V t.val xs' := by
  have hm : (t.val - 1) % 5 = t.val % 5 - 1 := by omega
  have hd : (t.val - 1) / 5 = t.val / 5 := by omega
  obtain ⟨hc, hrows⟩ := hb (by omega)
  rw [hm, hd] at hc hrows
  intro _
  refine ⟨?_, rows_after V t _ xs xs' hr (fun y hy1 hy0 => hrows y hy1 (by omega)) hs⟩
  rw [hs.1, hc]
  obtain ⟨k, hk⟩ : ∃ k, t.val % 5 = k + 1 := ⟨t.val % 5 - 1, by omega⟩
  rw [hk, Nat.add_sub_cancel]
  show _ = k1_pay3 (blkA V (ptOf (5 * (t.val / 5) + (k + 1)))) (colAcc V (t.val / 5) k)
  rw [← hk, ptOf_split]

/-- Before the point with second coordinate 4 the two columns are complete. -/
theorem cols_complete (V : Valuation τ sig (Elt F)) (t : Fin cfg1.N) (xs : Vec F S4096x8 .f32) (h4 : t.val % 5 = 4)
    (hb : ScrAfter V (t.val - 1) xs) : View.ld xs R0 = colAcc V (t.val / 5) 3 ∧ View.ld xs R1 = col1 V (t.val / 5) := by
  have hm : (t.val - 1) % 5 = 3 := by omega
  have hd : (t.val - 1) / 5 = t.val / 5 := by omega
  obtain ⟨hc, hrows⟩ := hb (by omega)
  rw [hm, hd] at hc hrows
  refine ⟨hc, funext fun x => ?_⟩
  have hx : (x 0).val < 4096 := (x 0).isLt
  have hx1 : (x 1).val < 1 := (x 1).isLt
  show xs (R1.idx x) = rowSum V (t.val / 5) (x 0)
  have e0 : ((R1 : Rect S4096x8).idx x 0) = x 0 := Fin.ext (by show 0 + 1 * (x 0).val = (x 0).val; omega)
  rw [hrows (R1.idx x) (by show 1 + 1 * (x 1).val = 1; omega) (by rw [e0]; omega), e0]

/-! ## The result array after the region -/

/-- The result window's block index at point `t` is (t / 5, 0, 0): decided over the grid. -/
theorem idx8 : ∀ t : Fin cfg1.N, win1_8.index t (0 : Fin 3) = t.val / 5 ∧ win1_8.index t (1 : Fin 3) = 0
    ∧ win1_8.index t (2 : Fin 3) = 0 :=
  (by decide +kernel : ∀ t : Fin grid1.N, win1_8.index t (0 : Fin 3) = t.val / 5 ∧ win1_8.index t (1 : Fin 3) = 0
    ∧ win1_8.index t (2 : Fin 3) = 0)

/-- What a point writes back is its block of `outVal`. -/
theorem flushed8_eq (c : Dev nD) (t : Fin cfg1.N) :
    (pdats Vr Rec 0 c).flushed 8 t = ((cfg1.win 8).blk t).view.read (Elt F) (outVal (Vr c)) := by
  show (cfg1.win 8).cut (grid1.coords t) ((pdats Vr Rec 0 c).after 8 t) = _
  rw [after1_8]
  obtain ⟨e0, e1, e2⟩ := idx8 t
  funext j
  show outBlk (Vr c) (t.val / 5) j = outVal (Vr c) (((cfg1.win 8).blk t).view.emb j)
  unfold outVal
  have hj0 : (j 0).val < 1 := (j 0).isLt
  have hj1 : (j 1).val < 1 := (j 1).isLt
  have h0 : ((((cfg1.win 8).blk t).view.emb j) 0).val = t.val / 5 := by
    show win1_8.index t (0 : Fin 3) * 1 + 1 * (j 0).val = _
    omega
  have h2 : ix3 (0 : Fin 1) (0 : Fin 1) ((((cfg1.win 8).blk t).view.emb j) 2) = j := by
    funext a; apply Fin.ext
    match a with
    | ⟨0, _⟩ => show 0 = (j 0).val; omega
    | ⟨1, _⟩ => show 0 = (j 1).val; omega
    | ⟨2, _⟩ => show win1_8.index t (2 : Fin 3) * 64 + 1 * (j 2).val = (j 2).val; omega
  show _ = outBlk (Vr c) ((((cfg1.win 8).blk t).view.emb j) 0).val (ix3 (0 : Fin 1) (0 : Fin 1) ((((cfg1.win 8).blk t).view.emb j) 2))
  rw [h0]
  exact congrArg (outBlk (Vr c) (t.val / 5)) h2.symm

/-- An index of the result array lies in point `t`'s block iff each coordinate lies in the block's range. -/
theorem mem_blk8 (t : Fin cfg1.N) (i : S4x1x64.Idx) :
    i ∈ ((cfg1.win 8).blk t).view.set ↔ ∀ a : Fin 3, win1_8.index t a * S1x1x64.size a ≤ (i a).val
      ∧ (i a).val < win1_8.index t a * S1x1x64.size a + S1x1x64.size a := by
  show i ∈ ((View.whole main_v66).slice (win1_8.rect t)).set ↔ _
  rw [View.set_slice_whole, Rect.mem_set_unit]
  exact Iff.rfl

/-- Every index of the result array is in the block of a point that writes back: row b in that of (b, 4). -/
theorem cover8 (i : S4x1x64.Idx) :
    ∃ t : Fin cfg1.N, (cfg1.win 8).flush t = true ∧ i ∈ ((cfg1.win 8).blk t).view.set := by
  have hi0 : (i 0).val < 4 := (i 0).isLt
  have hi1 : (i 1).val < 1 := (i 1).isLt
  have hi2 : (i 2).val < 64 := (i 2).isLt
  have hv : (ptOf (5 * (i 0).val + 4)).val = 5 * (i 0).val + 4 := Nat.mod_eq_of_lt (by omega)
  refine ⟨ptOf (5 * (i 0).val + 4), (flush1_8 _).mpr (by rw [hv]; omega), ?_⟩
  rw [mem_blk8]
  obtain ⟨e0, e1, e2⟩ := idx8 (ptOf (5 * (i 0).val + 4))
  rw [hv] at e0
  intro a
  match a with
  | ⟨0, _⟩ =>
    show win1_8.index (ptOf (5 * (i 0).val + 4)) (0 : Fin 3) * 1 ≤ (i 0).val ∧ (i 0).val < win1_8.index (ptOf (5 * (i 0).val + 4)) (0 : Fin 3) * 1 + 1
    omega
  | ⟨1, _⟩ =>
    show win1_8.index (ptOf (5 * (i 0).val + 4)) (1 : Fin 3) * 1 ≤ (i 1).val ∧ (i 1).val < win1_8.index (ptOf (5 * (i 0).val + 4)) (1 : Fin 3) * 1 + 1
    omega
  | ⟨2, _⟩ =>
    show win1_8.index (ptOf (5 * (i 0).val + 4)) (2 : Fin 3) * 64 ≤ (i 2).val ∧ (i 2).val < win1_8.index (ptOf (5 * (i 0).val + 4)) (2 : Fin 3) * 64 + 64
    omega

/-- THE RESULT ARRAY after the region is `outVal` of the entry valuation. -/
theorem arrAt_out (c : Dev nD) : (pdats Vr Rec 0 c).arrAt 8 cfg1.N = outVal (Vr c) :=
  (pdats Vr Rec 0 c).arrAt_eq_of_cover 8 (outVal (Vr c)) (fun t _ => flushed8_eq Vr Rec c t) cover8

/-- Every other window's array is an input's: it ends as the region found it. -/
theorem isOut_in : ∀ w : Fin 9, w ≠ 8 → (cfg1.win w).isOut = false := by decide
theorem arrAt_in (c : Dev nD) (w : Fin cfg1.W) (hw : w ≠ 8) :
    (pdats Vr Rec 0 c).arrAt w cfg1.N = Vc Vr c (Pipeline.arrRef spec1 w) :=
  ((pdats Vr Rec 0 c).arrAt_in w (isOut_in w hw) _).trans (A_eq Vr Rec c w)

/-! ## The body obligation -/

variable (ι : HIx 1)

/-- What the body is called with at point `t`, the windows one by one, -/
def bodyPre (c : Dev nD) (t : Fin cfg1.N) : sProp 𝕄 :=
  iprop((pdats Vr Rec 0 c).Φ t.castSucc ∗ (pdats Vr Rec 0 c).owesAt ι t.castSucc
    ∗ (∃ d, owns (c : Thread nD τ) (st1_0 t) fullShare ((pdats Vr Rec 0 c).before 0 t d))
    ∗ (∃ d, owns (c : Thread nD τ) (st1_1 t) fullShare ((pdats Vr Rec 0 c).before 1 t d))
    ∗ (∃ d, owns (c : Thread nD τ) (st1_2 t) fullShare ((pdats Vr Rec 0 c).before 2 t d))
    ∗ (∃ d, owns (c : Thread nD τ) (st1_3 t) fullShare ((pdats Vr Rec 0 c).before 3 t d))
    ∗ (∃ d, owns (c : Thread nD τ) (st1_4 t) fullShare ((pdats Vr Rec 0 c).before 4 t d))
    ∗ (∃ d, owns (c : Thread nD τ) (st1_5 t) fullShare ((pdats Vr Rec 0 c).before 5 t d))
    ∗ (∃ d, owns (c : Thread nD τ) (st1_6 t) fullShare ((pdats Vr Rec 0 c).before 6 t d))
    ∗ (∃ d, owns (c : Thread nD τ) (st1_7 t) fullShare ((pdats Vr Rec 0 c).before 7 t d))
    ∗ (∃ d, owns (c : Thread nD τ) (st1_8 t) fullShare ((pdats Vr Rec 0 c).before 8 t d)))

/-- and what it returns: the result's window as the library states it (handed back as found where the point stores
    nothing into it, at its block where it does). -/
def bodyPost (c : Dev nD) (t : Fin cfg1.N) : sProp 𝕄 :=
  iprop((pdats Vr Rec 0 c).Φ t.succ ∗ (pdats Vr Rec 0 c).owesAt ι t.succ
    ∗ owns (c : Thread nD τ) (st1_0 t) fullShare ((pdats Vr Rec 0 c).after 0 t)
    ∗ owns (c : Thread nD τ) (st1_1 t) fullShare ((pdats Vr Rec 0 c).after 1 t)
    ∗ owns (c : Thread nD τ) (st1_2 t) fullShare ((pdats Vr Rec 0 c).after 2 t)
    ∗ owns (c : Thread nD τ) (st1_3 t) fullShare ((pdats Vr Rec 0 c).after 3 t)
    ∗ owns (c : Thread nD τ) (st1_4 t) fullShare ((pdats Vr Rec 0 c).after 4 t)
    ∗ owns (c : Thread nD τ) (st1_5 t) fullShare ((pdats Vr Rec 0 c).after 5 t)
    ∗ owns (c : Thread nD τ) (st1_6 t) fullShare ((pdats Vr Rec 0 c).after 6 t)
    ∗ owns (c : Thread nD τ) (st1_7 t) fullShare ((pdats Vr Rec 0 c).after 7 t)
    ∗ (pdats Vr Rec 0 c).leaves 8 t)

/-- The result's window is idle exactly where the second branch is not taken. -/
theorem idle8 (t : Fin cfg1.N) (h : ¬ k1_cond3 (grid1.coords t) = 1#1) : cfg1.idle 8 (cfg1.grid.coords t) = true := by
  show (!(k1_cond3 (grid1.coords t) == 1#1)) = true
  simp [h]
theorem live8 (t : Fin cfg1.N) (h : k1_cond3 (grid1.coords t) = 1#1) : cfg1.idle 8 (cfg1.grid.coords t) = false := by
  show (!(k1_cond3 (grid1.coords t) == 1#1)) = false
  simp [h]

theorem leaves8_idle (c : Dev nD) (t : Fin cfg1.N) (h : ¬ t.val % 5 = 4) :
    (pdats Vr Rec 0 c).leaves 8 t = iprop(∃ d, owns (c : Thread nD τ) (st1_8 t) fullShare ((pdats Vr Rec 0 c).before 8 t d)) :=
  (pdats Vr Rec 0 c).leaves_idle 8 t (idle8 t fun hc => h ((hcond3 t).mp hc))
    (Bool.eq_false_iff.mpr fun hf => h ((flush1_8 t).mp hf))

theorem leaves8_live (c : Dev nD) (t : Fin cfg1.N) (h : t.val % 5 = 4) :
    (pdats Vr Rec 0 c).leaves 8 t = owns (c : Thread nD τ) (st1_8 t) fullShare ((pdats Vr Rec 0 c).after 8 t) := by
  unfold Dat.leaves; rw [live8 t ((hcond3 t).mpr h)]

/-- Before a point other than the first the scratch is as the point before left it. -/
theorem scrBefore_pos (V : Valuation τ sig (Elt F)) (n : ℕ) (xs : Vec F S4096x8 .f32) (h : n ≠ 0) :
    ScrBefore V n xs → ScrAfter V (n - 1) xs := by
  cases n with
  | zero => exact absurd rfl h
  | succ n => exact id

/-- The result's block b is what the body stores at (b, 4), the scratch's two columns being complete there. -/
theorem outBlk_at (V : Valuation τ sig (Elt F)) (t : Fin cfg1.N) (xs : Vec F S4096x8 .f32) (h4 : t.val % 5 = 4)
    (e0 : View.ld xs R0 = colAcc V (t.val / 5) 3) (e1 : View.ld xs R1 = col1 V (t.val / 5)) :
    outBlk V (t.val / 5) = outOf (blkX V t) (blkD V t) (blkW3 V t) (blkW4 V t) (blkW5 V t) (blkW6 V t) (blkW7 V t) xs := by
  have hp : ptOf (5 * (t.val / 5) + 4) = t := by
    have := ptOf_split t; rwa [h4] at this
  unfold outBlk outOf diagRow
  rw [e0, e1, hp]

set_option maxHeartbeats 1600000 in
/-- The body at any point: the inputs' buffers hold their blocks; the point's second coordinate says which path the body
    takes; the scratch's invariant passes from before the point to after it; the core owes nothing throughout. -/
theorem sound_body (c : Dev nD) (t : Fin cfg1.N) :
    bodyPre Vr Rec ι c t ⊢ wp frame (wpE (defs₀ (F := F)) 𝒱₀ c none) Set.univ (bodyAt1 t) (fun _ => bodyPost Vr Rec ι c t) := by
  unfold bodyPre bodyPost bodyAt1
  simp only [before1_0 Vr Rec c t, before1_1 Vr Rec c t, before1_2 Vr Rec c t, before1_3 Vr Rec c t, before1_4 Vr Rec c t, before1_5 Vr Rec c t, before1_6 Vr Rec c t, before1_7 Vr Rec c t]
  rw [after1_0, after1_1, after1_2, after1_3, after1_4, after1_5, after1_6, after1_7,
    show (pdats Vr Rec 0 c).owesAt ι t.succ = (pdats Vr Rec 0 c).owesAt ι t.castSucc from rfl,
    show (pdats Vr Rec 0 c).Φ t.castSucc = iprop(∃ xs : Vec F S4096x8 .f32, owns (c : Thread nD τ) (Memref.whole cc1_scratch0) fullShare xs ∗ ⌜ScrBefore (Vr c) t.val xs⌝) from rfl,
    show (pdats Vr Rec 0 c).Φ t.succ = iprop(∃ xs : Vec F S4096x8 .f32, owns (c : Thread nD τ) (Memref.whole cc1_scratch0) fullShare xs ∗ ⌜ScrAfter (Vr c) t.val xs⌝) from rfl]
  have hN : t.val < 20 := lt_of_lt_of_eq t.isLt N_1
  obtain ⟨hco1, -⟩ := hcoord t
  by_cases h4 : t.val % 5 = 4
  · have hc1 : ¬ k1_cond1 (grid1.coords t) = 1#1 := fun h => by have := (hcond1 t).mp h; omega
    have hc3 := (hcond3 t).mpr h4
    rw [leaves8_live Vr Rec c t h4, after1_8]
    iintro ⟨⟨%xs, Hs, %hb⟩, Ho, H0, ⟨%d1, H1⟩, ⟨%d2, H2⟩, ⟨%d3, H3⟩, ⟨%d4, H4⟩, ⟨%d5, H5⟩, ⟨%d6, H6⟩, ⟨%d7, H7⟩, ⟨%d8, H8⟩⟩
    obtain ⟨e0, e1⟩ := cols_complete (Vr c) t xs h4 (scrBefore_pos _ _ _ (by omega) hb)
    rw [outBlk_at (Vr c) t xs h4 e0 e1]
    iapply (kernelRunB c (grid1.coords t) _ _ _ _ _ _ _ _ _ _ _ _ _ _ _ _ _ _ _ _ hc1 hc3 (blkX (Vr c) t) (blkD (Vr c) t) (blkW3 (Vr c) t) (blkW4 (Vr c) t)
      (blkW5 (Vr c) t) (blkW6 (Vr c) t) (blkW7 (Vr c) t) xs Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [Hs]; · iexact Hs
    iintro ⟨H1, H2, H3, H4, H5, H6, H7, H8, Hs⟩
    isplitl [Hs]
    · iexists xs; isplitl [Hs]; · iexact Hs
      ipureintro; exact fun h => absurd h (by omega)
    isplitl [Ho]; · iexact Ho
    isplitl [H0]; · icases H0 with ⟨%d0, H0⟩; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 := (hcond1 t).mpr (by omega)
    have hc3 : ¬ k1_cond3 (grid1.coords t) = 1#1 := fun h => h4 ((hcond3 t).mp h)
    rw [leaves8_idle Vr Rec c t h4]
    by_cases h0 : t.val % 5 = 0
    · have hc0 := (hcond0 t).mpr h0
      iintro ⟨⟨%xs, Hs, -⟩, Ho, ⟨%d0, H0⟩, H1, H2, H3, H4, H5, H6, H7, H8⟩
      iapply (kernelRunA0 c (grid1.coords t) _ _ _ _ _ _ _ _ _ _ _ _ _ _ _ _ _ _ _ _ hc1 hc0 hc3 (blkA (Vr c) t) xs Set.univ _)
      isplitl [H0]; · iexact H0
      isplitl [Hs]; · iexact Hs
      iintro ⟨H0, ⟨%xs', Hs, %hstep⟩⟩
      rw [hco1] at hstep
      isplitl [Hs]
      · iexists xs'; isplitl [Hs]; · iexact Hs
        ipureintro; exact scrAfter_first (Vr c) t xs xs' h0 hstep
      isplitl [Ho]; · iexact Ho
      isplitl [H0]; · iexact H0
      isplitl [H1]; · icases H1 with ⟨%d1, H1⟩; iexact H1
      isplitl [H2]; · icases H2 with ⟨%d2, H2⟩; iexact H2
      isplitl [H3]; · icases H3 with ⟨%d3, H3⟩; iexact H3
      isplitl [H4]; · icases H4 with ⟨%d4, H4⟩; iexact H4
      isplitl [H5]; · icases H5 with ⟨%d5, H5⟩; iexact H5
      isplitl [H6]; · icases H6 with ⟨%d6, H6⟩; iexact H6
      isplitl [H7]; · icases H7 with ⟨%d7, H7⟩; iexact H7
      iexact H8
    · have hc0 : ¬ cond0 (grid1.coords t) := fun h => h0 ((hcond0 t).mp h)
      iintro ⟨⟨%xs, Hs, %hb⟩, Ho, ⟨%d0, H0⟩, H1, H2, H3, H4, H5, H6, H7, H8⟩
      iapply (kernelRunA c (grid1.coords t) _ _ _ _ _ _ _ _ _ _ _ _ _ _ _ _ _ _ _ _ hc1 hc0 hc3 (blkA (Vr c) t) xs Set.univ _)
      isplitl [H0]; · iexact H0
      isplitl [Hs]; · iexact Hs
      iintro ⟨H0, ⟨%xs', Hs, %hstep⟩⟩
      rw [hco1] at hstep
      isplitl [Hs]
      · iexists xs'; isplitl [Hs]; · iexact Hs
        ipureintro
        exact scrAfter_next (Vr c) t xs xs' h0 (by omega) (scrBefore_pos _ _ _ (by omega) hb) hstep
      isplitl [Ho]; · iexact Ho
      isplitl [H0]; · iexact H0
      isplitl [H1]; · icases H1 with ⟨%d1, H1⟩; iexact H1
      isplitl [H2]; · icases H2 with ⟨%d2, H2⟩; iexact H2
      isplitl [H3]; · icases H3 with ⟨%d3, H3⟩; iexact H3
      isplitl [H4]; · icases H4 with ⟨%d4, H4⟩; iexact H4
      isplitl [H5]; · icases H5 with ⟨%d5, H5⟩; iexact H5
      isplitl [H6]; · icases H6 with ⟨%d6, H6⟩; iexact H6
      isplitl [H7]; · icases H7 with ⟨%d7, H7⟩; iexact H7
      iexact H8

/-- The library's body obligation, at every point. -/
theorem body_obligation (c : Dev nD) : Pipeline.BodyObligationLoose (pdats Vr Rec 0 c) (defs₀ (F := F)) 𝒱₀ ι Set.univ := fun t => by
  rw [bigSep_W1, bigSep_W1]
  exact sound_body Vr Rec ι c t

end Cert.Proof.KB

end
-- ==== Proof.TcRegionB.lean ====
/-
  The TensorCore region as one segment of @main.

  The region is entered holding every unscoped TensorCore buffer of the core whole at the valuation `Vr c` and the
  core owing nothing, its recorded waits within `Rec`. The nine windows' arrays go to the pipeline, the other unscoped
  buffers bypass it, the scratch enters the pipeline's invariant from the region boundary. It is left holding the same
  buffers at the same contents but for the result array, which holds `outVal (Vr c)`; the recorded waits have grown by
  the pipeline's own.
-/
import proofs.«208576_g46445776339566_cont_8to1c4_655_26_alg».proof.Proof.TcDatB
import Idealize.ShloMosaic.Lib.Pipeline.Regions

set_option maxRecDepth 16384

noncomputable section

namespace Cert.Proof.KB

open Cert.Kernel Cert.Kernel.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vr : Dev nD → Valuation τ sig (Elt F)) (Rec : Set (SemLoc sig × HIx 1))
variable (ι : HIx 1) (L : GSem nD τ sig → Finset (HIx 1)) (lv : GSem nD τ sig → HIx 1 → ℕ)

/-- The thread state the region is entered from, -/
def regionPre (c : Dev nD) : sProp 𝕄 :=
  iprop(unscopedBufs c (Vc Vr c) ∗ Pipeline.owesWithin c (0 : CellTallies nD τ sig (HIx 1)) Rec)

/-- and the one it leaves. -/
def regionPost (c : Dev nD) : sProp 𝕄 :=
  iprop(unscopedBufs c (Vc (fun c => Vout (Vr c)) c)
    ∗ Pipeline.owesWithin c (0 : CellTallies nD τ sig (HIx 1)) (Rec ∪ (Pipeline.pin (pcfgs (F := F)) adm 0).waitPairs ι))

/-- The result's array is window 8's and no other window's. -/
theorem arrRef_ne_out : ∀ w : Fin 9, w ≠ 8 → Pipeline.arrRef spec1 w ≠ main_v66 := by decide

/-- Every window's array after the region is what the exit valuation says. -/
theorem arrAt_Vout (c : Dev nD) (w : Fin cfg1.W) :
    (pdats Vr Rec 0 c).arrAt w cfg1.N = Vc (fun c => Vout (Vr c)) c (Pipeline.arrRef spec1 w) := by
  by_cases hw : w = 8
  · subst hw
    rw [arrAt_out]
    show outVal (Vr c) = Vout (Vr c) (Proc.devRef .tc main_v66)
    unfold Vout
    rw [Function.update_self]
  · rw [arrAt_in Vr Rec c w hw]
    exact (Function.update_of_ne (fun h => arrRef_ne_out w hw (Proc.devRef_injective _ h)) _ _).symm

set_option backward.isDefEq.respectTransparency.types false in
/-- THE REGION. -/
def regionSeg : Pipeline.RegionSeg (pcfgs (F := F)) adm (pdats Vr Rec) ι defs₀ 𝒱₀ L lv 0 where
  win := launch1.win.to₀
  block_pos := launch1.block_pos
  stage_whole := launch1.stage_whole
  K := PEmpty
  osem := fun k => k.elim
  ho := Pipeline.OwnSemFacts.none _
  hbody c := body_obligation Vr Rec ι c
  hwaits := Pipeline.hwaits_of_owed_zero _ _ _ _ L lv 0 fun _ _ => rfl
  pre := regionPre Vr Rec
  post := regionPost Vr Rec ι
  X _ := iprop(emp)
  Y _ := iprop(emp)
  Z c := Pipeline.unscopedRest spec1 c (Vc Vr c)
  hentry c := by
    unfold regionPre
    have hsplit := Pipeline.arrays_of_unscopedBufs (pcfgs (F := F)) adm (pdats Vr Rec) launch1.win launch1.arr_whole c
      ((pdats Vr Rec 0 c).share_full fun _ => rfl) (Vc Vr c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left)) $$ HO
    isplitr; · iempintro
    iexact Hr
  hin c := by
    rw [show (pdats Vr Rec 0 c).Φ 0 = iprop(∃ xs : Vec F S4096x8 .f32, owns (c : Thread nD τ) (Memref.whole cc1_scratch0) fullShare xs ∗ ⌜ScrBefore (Vr c) 0 xs⌝) from rfl,
      scopedRest1_eq]
    simp only [owns_whole]
    iintro ⟨-, -, ⟨%f, Hf⟩⟩
    iexists f
    isplitl [Hf]
    · iexact Hf
    ipureintro; trivial
  hout c := by
    rw [Pipeline.ownSems0_none, scopedRest1_eq,
      show (pdats Vr Rec 0 c).Φ (Fin.last cfg1.N) = iprop(∃ xs : Vec F S4096x8 .f32, owns (c : Thread nD τ) (Memref.whole cc1_scratch0) fullShare xs ∗ ⌜ScrBefore (Vr c) (Fin.last cfg1.N).val xs⌝) from rfl]
    simp only [owns_whole]
    iintro ⟨%xs, Hs, -⟩
    isplitr; · iempintro
    isplitr; · iempintro
    iexists xs
    iexact Hs
  hexit c := by
    unfold regionPost
    have hjoin : iprop((pdats Vr Rec 0 c).arrays ((pdats Vr Rec 0 c).arrAt · cfg1.N) ∗ Pipeline.unscopedRest spec1 c (Vc Vr c))
        ⊢ (unscopedBufs c (Vc (fun c => Vout (Vr c)) c) : sProp 𝕄) := by
      rw [Pipeline.unscopedBufs_split (Pipeline.pin (pcfgs (F := F)) adm) 0 launch1.win.arr_unscoped launch1.win.arr_inj c (Vc (fun c => Vout (Vr c)) c),
        Pipeline.arrays_eq (Pipeline.pin (pcfgs (F := F)) adm) (pdats Vr Rec) 0 c launch1.arr_whole ((pdats Vr Rec 0 c).share_full fun _ => rfl)]
      refine sep_mono (Entails.of_eq (bigSep_congr fun w _ => by rw [arrAt_Vout])) (Entails.of_eq ?_)
      unfold Pipeline.unscopedRest
      exact bigSep_congr fun b hb => by
        have hb' : b ≠ main_v66 := fun h =>
          (Finset.mem_sdiff.mp hb).2 (Finset.mem_image.mpr ⟨(8 : Fin 9), Finset.mem_univ _, h.symm ▸ rfl⟩)
        rw [show Vc (fun c => Vout (Vr c)) c b = Vc Vr c b from
          Function.update_of_ne (fun h => hb' (Proc.devRef_injective _ h)) _ _]
    iintro ⟨Ha, HO, -, HZ⟩
    imodintro
    isplitr [HO]
    · iapply hjoin
      isplitl [Ha] <;> iassumption
    · iexact HO

theorem regionSeg_pre (c : Dev nD) : (regionSeg Vr Rec ι L lv).pre c = regionPre Vr Rec c := rfl
theorem regionSeg_post (c : Dev nD) : (regionSeg Vr Rec ι L lv).post c = regionPost Vr Rec ι c := rfl

end Cert.Proof.KB

end
-- ==== Proof.FrameB.lean ====
/-
  The program's run, assembled: the launch (@main on the TensorCore, the handshakes, the ghost state) applied to the
  SparseCore kernel's task and split and to the TensorCore region's record. Every weakly fair execution of the thirty-five
  threads ends, nothing faulting; each device's six argument arrays end as they began, and its result array holds the region's
  result, reshaped, for an array of diagonals as the SparseCore kernel leaves it.
-/
import proofs.«208576_g46445776339566_cont_8to1c4_655_26_alg».proof.Proof.ArgsB
import proofs.«208576_g46445776339566_cont_8to1c4_655_26_alg».proof.Proof.ScBodyB
import proofs.«208576_g46445776339566_cont_8to1c4_655_26_alg».proof.Proof.TcRegionB

noncomputable section

namespace Cert.Proof.KB

open Cert.Kernel Cert.Kernel.Gen
open Idealize.ShloMosaic
open Idealize.ShloMosaic.SparseCore (S V T)
open Idealize.SL Idealize.SL.Sem
open Idealize.ShloMosaic.Pipeline (ucRefs)

variable {F : FTy → Type} [FloatOps F] [∀ e, Nonempty (Elt F e)]
variable (m : (ℓ : Loc nD τ sig) → Buf (Elt F) ℓ) (ρ : Dev nD → PrngReg)

/-- The run of the whole program from a memory with every semaphore at zero. -/
theorem run_all :
    θ_run (Cert.Kernel.defs (F := F)) (Cert.Kernel.threads (F := F)) ⟨m, fun _ => 0, ρ⟩ (Launch.QC m (DiagIs m) outVal) :=
  Launch.run_main m ρ (P m) (DiagIs m) adm (fun Vr Rec => pdats Vr Rec)
    (fun Vr Rec => regionSeg Vr Rec (none : SparseCore.Cfg.HIx 1) (K (F := F)).L (K (F := F)).lev) outVal
    (fun d => st_join m d (m (gLoc d))) (dn_join m) (fun _ _ _ => rfl) (fun _ _ _ => rfl)
    (tileObl m) (vecSplit m) rfl rfl

/-- The frame: the run, with only the argument arrays read off the final memory. -/
theorem frame_all :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.Kernel.defs (F := F)) _ _).mono (fun r h c => by
    obtain ⟨f, -, hb⟩ := h c
    have hm := Launch.args_mem
    exact ⟨(hb _ (hm main_arg0 (by decide))).trans (Launch.V5_arg0 m outVal c f),
      (hb _ (hm main_arg1 (by decide))).trans (Launch.V5_arg1 m outVal c f),
      (hb _ (hm main_arg2 (by decide))).trans (Launch.V5_arg2 m outVal c f),
      (hb _ (hm main_arg3 (by decide))).trans (Launch.V5_arg3 m outVal c f),
      (hb _ (hm main_arg4 (by decide))).trans (Launch.V5_arg4 m outVal c f),
      (hb _ (hm main_arg5 (by decide))).trans (Launch.V5_arg5 m outVal c f)⟩) (run_all m ρ)

end Cert.Proof.KB

end
-- ==== Proof.SetupI.lean ====
/-
  What every module of this certificate's frame shares for the program `KernelIdeal`, at any float instance `F`: the
  program as the SparseCore launch theorem sees it (its configuration `K`, the body table `D` under it, the loop
  variants), and the ghost state — three independent parts side by side: the rounds of the launch handshakes between
  the TensorCore, the two sequencers and the thirty-two vector subcores; the rounds of the TensorCore pipeline's staging
  cells (one per staging buffer of the nine windows); and the counters of the vector subcores' own copies, which need no
  schedule because each copy is waited for before the next is issued.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«208576_g46445776339566_cont_8to1c4_655_26_alg».proof.Proof.Gen.KernelIdeal
import proofs.«208576_g46445776339566_cont_8to1c4_655_26_alg».proof.Proof.Gen.KernelIdeal.Launch
import proofs.«208576_g46445776339566_cont_8to1c4_655_26_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The launch handshakes' rounds. -/
abbrev UH : Type := URounds (GSem nD τ sig) ℕ
/-- The pipeline's staging cells' rounds. -/
abbrev UP : Type := URounds (GSem nD τ sig) Unit
/-- Handshakes, staging cells, and the counters of copies that need no schedule. -/
abbrev UU : Type := UH × (UP × Counters)

local notation "𝕄" => MT nD τ sig (HIx 1) (Elt F) ℕ UU ℕ

/-- The handshakes' rounds sit in the left factor, -/
abbrev EH : Emb UH (MT nD τ sig (HIx 1) (Elt F) ℕ UU ℕ) := embL
/-- the staging cells' in the left of the right factor; the counters are found by instance in what is left. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

end Cert.Proof.KI

end
-- ==== Proof.MainOpsI.lean ====
/-
  @main of `KernelIdeal` as three straight lines of host operations around its two calls: 90 operations — the folded
  weights, the packed rows, the selector matrix — before the SparseCore call that extracts the diagonal, 1 between it and
  the TensorCore region, 1 after the region. Each list is @main's own operations in @main's order, the bodies of the
  functions it calls written out at the buffers of each call.
-/
import proofs.«208576_g46445776339566_cont_8to1c4_655_26_alg».proof.KernelIdeal
import Idealize.ShloMosaic.Lib.StableHlo.Run
import Idealize.ShloMosaic.Lib.Pipeline.Regions

set_option maxRecDepth 65536

noncomputable section

namespace Cert.Proof.KI

open Cert.KernelIdeal
open Idealize.ShloMosaic Idealize.SL.Sem

variable {F : FTy → Type} [FloatOps F]
-- the side conditions the program states of its shapes (reshapes, slices, broadcasts): taken as the program takes them
variable [Facts]
open Facts₀ Facts

abbrev call0_a0 : StableHlo.TRef sig ⟨S512, .i32⟩ := .of main_v53
abbrev call0_a1 : StableHlo.TRef sig ⟨S_, .i32⟩ := .of main_c
abbrev call1_a0 : StableHlo.TRef sig ⟨S512x64, .i1⟩ := .of main_v60
abbrev call1_a1 : StableHlo.TRef sig ⟨S512x1, .f32⟩ := .of main_v62
abbrev call1_a2 : StableHlo.TRef sig ⟨S_, .f32⟩ := .of main_cst_4

/-- What @main computes on the host before the SparseCore call. -/
def opsPre : List (HloOp τ sig (Elt F)) :=
  [(StableHlo.unary main_arg2 main_v0 ((extractStridedSlice S64x5x64x8 ![0, 0, 0, 0] · slices_S64x5x65x8_S64x5x64x8_0_0_0_0) : (⟨S64x5x65x8, .f32⟩ : BufTy).Contents (Elt F) → (⟨S64x5x64x8, .f32⟩ : BufTy).Contents (Elt F))),
   (StableHlo.unary main_arg2 main_v1 ((extractStridedSlice S64x5x1x8 ![0, 0, 64, 0] · slices_S64x5x65x8_S64x5x1x8_0_0_64_0) : (⟨S64x5x65x8, .f32⟩ : BufTy).Contents (Elt F) → (⟨S64x5x1x8, .f32⟩ : BufTy).Contents (Elt F))),
   (StableHlo.reshape main_v1 main_v2 rfl shapeCasts_S64x5x1x8_S64x5x8),
   (StableHlo.unary main_v0 main_v3 ((extractStridedSlice S64x1x64x8 ![0, 0, 0, 0] · slices_S64x5x64x8_S64x1x64x8_0_0_0_0) : (⟨S64x5x64x8, .f32⟩ : BufTy).Contents (Elt F) → (⟨S64x1x64x8, .f32⟩ : BufTy).Contents (Elt F))),
   (StableHlo.reshape main_v3 main_v4 rfl shapeCasts_S64x1x64x8_S64x64x8),
   (StableHlo.unary main_v0 main_v5 ((extractStridedSlice S64x1x64x8 ![0, 2, 0, 0] · slices_S64x5x64x8_S64x1x64x8_0_2_0_0) : (⟨S64x5x64x8, .f32⟩ : BufTy).Contents (Elt F) → (⟨S64x1x64x8, .f32⟩ : BufTy).Contents (Elt F))),
   (StableHlo.reshape main_v5 main_v6 rfl shapeCasts_S64x1x64x8_S64x64x8),
   (StableHlo.unary main_v0 main_v7 ((extractStridedSlice S64x1x64x8 ![0, 3, 0, 0] · slices_S64x5x64x8_S64x1x64x8_0_3_0_0) : (⟨S64x5x64x8, .f32⟩ : BufTy).Contents (Elt F) → (⟨S64x1x64x8, .f32⟩ : BufTy).Contents (Elt F))),
   (StableHlo.reshape main_v7 main_v8 rfl shapeCasts_S64x1x64x8_S64x64x8),
   (StableHlo.binary main_v6 main_v8 main_v9 (addf : (⟨S64x64x8, .f32⟩ : BufTy).Contents (Elt F) → (⟨S64x64x8, .f32⟩ : BufTy).Contents (Elt F) → (⟨S64x64x8, .f32⟩ : BufTy).Contents (Elt F))),
   (StableHlo.nullary main_cst (constant S_ .f32 0x39800000#32)),
   (StableHlo.unary main_cst main_v10 (broadcastInDim S64x64x8 ![] bcast_S_S64x64x8 : (⟨S_, .f32⟩ : BufTy).Contents (Elt F) → (⟨S64x64x8, .f32⟩ : BufTy).Contents (Elt F))),
   (StableHlo.binary main_v9 main_v10 main_v11 (mulf : (⟨S64x64x8, .f32⟩ : BufTy).Contents (Elt F) → (⟨S64x64x8, .f32⟩ : BufTy).Contents (Elt F) → (⟨S64x64x8, .f32⟩ : BufTy).Contents (Elt F))),
   (StableHlo.binary main_v4 main_v11 main_v12 (addf : (⟨S64x64x8, .f32⟩ : BufTy).Contents (Elt F) → (⟨S64x64x8, .f32⟩ : BufTy).Contents (Elt F) → (⟨S64x64x8, .f32⟩ : BufTy).Contents (Elt F))),
   (StableHlo.unary main_v12 main_v13 ((transpose S64x64x8 [1, 0, 2] · transposes_S64x64x8_S64x64x8_1_0_2) : (⟨S64x64x8, .f32⟩ : BufTy).Contents (Elt F) → (⟨S64x64x8, .f32⟩ : BufTy).Contents (Elt F))),
   (StableHlo.reshape main_v13 main_v14 rfl shapeCasts_S64x64x8_S64x512),
   (StableHlo.unary main_v0 main_v15 ((extractStridedSlice S64x1x64x8 ![0, 1, 0, 0] · slices_S64x5x64x8_S64x1x64x8_0_1_0_0) : (⟨S64x5x64x8, .f32⟩ : BufTy).Contents (Elt F) → (⟨S64x1x64x8, .f32⟩ : BufTy).Contents (Elt F))),
   (StableHlo.reshape main_v15 main_v16 rfl shapeCasts_S64x1x64x8_S64x64x8),
   (StableHlo.nullary main_cst_0 (constant S_ .f32 0x39800000#32)),
   (StableHlo.unary main_cst_0 main_v17 (broadcastInDim S64x64x8 ![] bcast_S_S64x64x8 : (⟨S_, .f32⟩ : BufTy).Contents (Elt F) → (⟨S64x64x8, .f32⟩ : BufTy).Contents (Elt F))),
   (StableHlo.binary main_v16 main_v17 main_v18 (mulf : (⟨S64x64x8, .f32⟩ : BufTy).Contents (Elt F) → (⟨S64x64x8, .f32⟩ : BufTy).Contents (Elt F) → (⟨S64x64x8, .f32⟩ : BufTy).Contents (Elt F))),
   (StableHlo.unary main_v0 main_v19 ((extractStridedSlice S64x1x64x8 ![0, 4, 0, 0] · slices_S64x5x64x8_S64x1x64x8_0_4_0_0) : (⟨S64x5x64x8, .f32⟩ : BufTy).Contents (Elt F) → (⟨S64x1x64x8, .f32⟩ : BufTy).Contents (Elt F))),
   (StableHlo.reshape main_v19 main_v20 rfl shapeCasts_S64x1x64x8_S64x64x8),
   (StableHlo.nullary main_cst_1 (constant S_ .f32 0x33800000#32)),
   (StableHlo.unary main_cst_1 main_v21 (broadcastInDim S64x64x8 ![] bcast_S_S64x64x8 : (⟨S_, .f32⟩ : BufTy).Contents (Elt F) → (⟨S64x64x8, .f32⟩ : BufTy).Contents (Elt F))),
   (StableHlo.binary main_v20 main_v21 main_v22 (mulf : (⟨S64x64x8, .f32⟩ : BufTy).Contents (Elt F) → (⟨S64x64x8, .f32⟩ : BufTy).Contents (Elt F) → (⟨S64x64x8, .f32⟩ : BufTy).Contents (Elt F))),
   (StableHlo.binary main_v18 main_v22 main_v23 (addf : (⟨S64x64x8, .f32⟩ : BufTy).Contents (Elt F) → (⟨S64x64x8, .f32⟩ : BufTy).Contents (Elt F) → (⟨S64x64x8, .f32⟩ : BufTy).Contents (Elt F))),
   (StableHlo.unary main_v23 main_v24 ((transpose S64x64x8 [1, 0, 2] · transposes_S64x64x8_S64x64x8_1_0_2) : (⟨S64x64x8, .f32⟩ : BufTy).Contents (Elt F) → (⟨S64x64x8, .f32⟩ : BufTy).Contents (Elt F))),
   (StableHlo.reshape main_v24 main_v25 rfl shapeCasts_S64x64x8_S64x512),
   (StableHlo.unary main_v2 main_v26 ((extractStridedSlice S64x1x8 ![0, 0, 0] · slices_S64x5x8_S64x1x8_0_0_0) : (⟨S64x5x8, .f32⟩ : BufTy).Contents (Elt F) → (⟨S64x1x8, .f32⟩ : BufTy).Contents (Elt F))),
   (StableHlo.reshape main_v26 main_v27 rfl shapeCasts_S64x1x8_S64x8),
   (StableHlo.reshape main_v27 main_v28 rfl shapeCasts_S64x8_S512),
   (StableHlo.unary main_v2 main_v29 ((extractStridedSlice S64x1x8 ![0, 1, 0] · slices_S64x5x8_S64x1x8_0_1_0) : (⟨S64x5x8, .f32⟩ : BufTy).Contents (Elt F) → (⟨S64x1x8, .f32⟩ : BufTy).Contents (Elt F))),
   (StableHlo.reshape main_v29 main_v30 rfl shapeCasts_S64x1x8_S64x8),
   (StableHlo.reshape main_v30 main_v31 rfl shapeCasts_S64x8_S512),
   (StableHlo.unary main_v2 main_v32 ((extractStridedSlice S64x1x8 ![0, 2, 0] · slices_S64x5x8_S64x1x8_0_2_0) : (⟨S64x5x8, .f32⟩ : BufTy).Contents (Elt F) → (⟨S64x1x8, .f32⟩ : BufTy).Contents (Elt F))),
   (StableHlo.reshape main_v32 main_v33 rfl shapeCasts_S64x1x8_S64x8),
   (StableHlo.reshape main_v33 main_v34 rfl shapeCasts_S64x8_S512),
   (StableHlo.unary main_v2 main_v35 ((extractStridedSlice S64x1x8 ![0, 3, 0] · slices_S64x5x8_S64x1x8_0_3_0) : (⟨S64x5x8, .f32⟩ : BufTy).Contents (Elt F) → (⟨S64x1x8, .f32⟩ : BufTy).Contents (Elt F))),
   (StableHlo.reshape main_v35 main_v36 rfl shapeCasts_S64x1x8_S64x8),
   (StableHlo.reshape main_v36 main_v37 rfl shapeCasts_S64x8_S512),
   (StableHlo.unary main_v2 main_v38 ((extractStridedSlice S64x1x8 ![0, 4, 0] · slices_S64x5x8_S64x1x8_0_4_0) : (⟨S64x5x8, .f32⟩ : BufTy).Contents (Elt F) → (⟨S64x1x8, .f32⟩ : BufTy).Contents (Elt F))),
   (StableHlo.reshape main_v38 main_v39 rfl shapeCasts_S64x1x8_S64x8),
   (StableHlo.reshape main_v39 main_v40 rfl shapeCasts_S64x8_S512),
   (StableHlo.reshape main_arg3 main_v41 rfl shapeCasts_S64x8_S512),
   (StableHlo.nullary main_cst_2 (constant S_ .f32 0x00000000#32)),
   (StableHlo.unary main_cst_2 main_v42 (broadcastInDim S512 ![] bcast_S_S512 : (⟨S_, .f32⟩ : BufTy).Contents (Elt F) → (⟨S512, .f32⟩ : BufTy).Contents (Elt F))),
   (StableHlo.nullary main_cst_3 (constant S_ .f32 0x00000000#32)),
   (StableHlo.unary main_cst_3 main_v43 (broadcastInDim S512 ![] bcast_S_S512 : (⟨S_, .f32⟩ : BufTy).Contents (Elt F) → (⟨S512, .f32⟩ : BufTy).Contents (Elt F))),
   (StableHlo.unary main_v28 main_v44 (broadcastInDim S1x512 ![1] bcast_S512_S1x512_1 : (⟨S512, .f32⟩ : BufTy).Contents (Elt F) → (⟨S1x512, .f32⟩ : BufTy).Contents (Elt F))),
   (StableHlo.unary main_v31 main_v45 (broadcastInDim S1x512 ![1] bcast_S512_S1x512_1 : (⟨S512, .f32⟩ : BufTy).Contents (Elt F) → (⟨S1x512, .f32⟩ : BufTy).Contents (Elt F))),
   (StableHlo.unary main_v34 main_v46 (broadcastInDim S1x512 ![1] bcast_S512_S1x512_1 : (⟨S512, .f32⟩ : BufTy).Contents (Elt F) → (⟨S1x512, .f32⟩ : BufTy).Contents (Elt F))),
   (StableHlo.unary main_v37 main_v47 (broadcastInDim S1x512 ![1] bcast_S512_S1x512_1 : (⟨S512, .f32⟩ : BufTy).Contents (Elt F) → (⟨S1x512, .f32⟩ : BufTy).Contents (Elt F))),
   (StableHlo.unary main_v40 main_v48 (broadcastInDim S1x512 ![1] bcast_S512_S1x512_1 : (⟨S512, .f32⟩ : BufTy).Contents (Elt F) → (⟨S1x512, .f32⟩ : BufTy).Contents (Elt F))),
   (StableHlo.unary main_v41 main_v49 (broadcastInDim S1x512 ![1] bcast_S512_S1x512_1 : (⟨S512, .f32⟩ : BufTy).Contents (Elt F) → (⟨S1x512, .f32⟩ : BufTy).Contents (Elt F))),
   (StableHlo.unary main_v42 main_v50 (broadcastInDim S1x512 ![1] bcast_S512_S1x512_1 : (⟨S512, .f32⟩ : BufTy).Contents (Elt F) → (⟨S1x512, .f32⟩ : BufTy).Contents (Elt F))),
   (StableHlo.unary main_v43 main_v51 (broadcastInDim S1x512 ![1] bcast_S512_S1x512_1 : (⟨S512, .f32⟩ : BufTy).Contents (Elt F) → (⟨S1x512, .f32⟩ : BufTy).Contents (Elt F))),
   (StableHlo.nary ![main_v44, main_v45, main_v46, main_v47, main_v48, main_v49, main_v50, main_v51] main_v52 (fun u => concatenate S8x512 0 [⟨S1x512, u 0⟩, ⟨S1x512, u 1⟩, ⟨S1x512, u 2⟩, ⟨S1x512, u 3⟩, ⟨S1x512, u 4⟩, ⟨S1x512, u 5⟩, ⟨S1x512, u 6⟩, ⟨S1x512, u 7⟩] concatenates_S1x512_S1x512_S1x512_S1x512_S1x512_S1x512_S1x512_S1x512_S8x512_d0)),
   (StableHlo.nullary main_v53 (iotaInDim S512 32 0)),
   (StableHlo.nullary main_c (constantI S_ 32 8#32)),
   (StableHlo.TRef.unary call0_a1 main_call0.v0 id),
   (StableHlo.TRef.unary main_call0.v0 main_call0.v1 (broadcastInDim S512 ![] bcast_S_S512)),
   (StableHlo.TRef.binary call0_a0 main_call0.v1 main_call0.v2 Host.divsi),
   (StableHlo.TRef.unary call0_a0 main_call0.v3 signi),
   (StableHlo.TRef.unary main_call0.v0 main_call0.v4 signi),
   (StableHlo.TRef.unary main_call0.v4 main_call0.v5 (broadcastInDim S512 ![] bcast_S_S512)),
   (StableHlo.TRef.binary main_call0.v3 main_call0.v5 main_call0.v6 (cmpi .ne)),
   (StableHlo.TRef.unary main_call0.v0 main_call0.v7 (broadcastInDim S512 ![] bcast_S_S512)),
   (StableHlo.TRef.binary call0_a0 main_call0.v7 main_call0.v8 Host.remsi),
   (StableHlo.TRef.nullary main_call0.c (constantI S_ 32 0#32)),
   (StableHlo.TRef.unary main_call0.c main_call0.v9 (broadcastInDim S512 ![] bcast_S_S512)),
   (StableHlo.TRef.binary main_call0.v8 main_call0.v9 main_call0.v10 (cmpi .ne)),
   (StableHlo.TRef.binary main_call0.v6 main_call0.v10 main_call0.v11 andi),
   (StableHlo.TRef.nullary main_call0.c_0 (constantI S_ 32 1#32)),
   (StableHlo.TRef.unary main_call0.c_0 main_call0.v12 (broadcastInDim S512 ![] bcast_S_S512)),
   (StableHlo.TRef.binary main_call0.v2 main_call0.v12 main_call0.v13 subi),
   (StableHlo.TRef.ternary main_call0.v11 main_call0.v13 main_call0.v2 main_call0.call0.v0 select),
   (StableHlo.unary main_v54 main_v55 (broadcastInDim S512x1 ![0] bcast_S512_S512x1_0 : (⟨S512, .i32⟩ : BufTy).Contents (Elt F) → (⟨S512x1, .i32⟩ : BufTy).Contents (Elt F))),
   (StableHlo.nullary main_v56 (iotaInDim S64 32 0)),
   (StableHlo.unary main_v56 main_v57 (broadcastInDim S1x64 ![1] bcast_S64_S1x64_1 : (⟨S64, .i32⟩ : BufTy).Contents (Elt F) → (⟨S1x64, .i32⟩ : BufTy).Contents (Elt F))),
   (StableHlo.unary main_v55 main_v58 (broadcastInDim S512x64 ![0, 1] bcast_S512x1_S512x64_0_1 : (⟨S512x1, .i32⟩ : BufTy).Contents (Elt F) → (⟨S512x64, .i32⟩ : BufTy).Contents (Elt F))),
   (StableHlo.unary main_v57 main_v59 (broadcastInDim S512x64 ![0, 1] bcast_S1x64_S512x64_0_1 : (⟨S1x64, .i32⟩ : BufTy).Contents (Elt F) → (⟨S512x64, .i32⟩ : BufTy).Contents (Elt F))),
   (StableHlo.binary main_v58 main_v59 main_v60 (cmpi .eq : (⟨S512x64, .i32⟩ : BufTy).Contents (Elt F) → (⟨S512x64, .i32⟩ : BufTy).Contents (Elt F) → (⟨S512x64, .i1⟩ : BufTy).Contents (Elt F))),
   (StableHlo.reshape main_arg4 main_v61 rfl shapeCasts_S64x8_S512),
   (StableHlo.unary main_v61 main_v62 (broadcastInDim S512x1 ![0] bcast_S512_S512x1_0 : (⟨S512, .f32⟩ : BufTy).Contents (Elt F) → (⟨S512x1, .f32⟩ : BufTy).Contents (Elt F))),
   (StableHlo.nullary main_cst_4 (constant S_ .f32 0x00000000#32)),
   (StableHlo.TRef.unary call1_a2 main_call1.v0 id),
   (StableHlo.TRef.unary call1_a1 main_call1.v1 (broadcastInDim S512x64 ![0, 1] bcast_S512x1_S512x64_0_1)),
   (StableHlo.TRef.unary main_call1.v0 main_call1.v2 (broadcastInDim S512x64 ![] bcast_S_S512x64)),
   (StableHlo.TRef.ternary call1_a0 main_call1.v1 main_call1.v2 main_call1.v3 select)]

/-- Each of them names buffers of the TensorCore only, -/
theorem opsPre_sub : (opsPre : List (HloOp τ sig (Elt F))).Forall fun op => op.bufs ⊆ StableHlo.tcRefs τ sig := by
  unfold opsPre
  exact ⟨StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.reshape_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.unary_bufs_sub .., StableHlo.unary_bufs_sub .., StableHlo.binary_bufs_sub .., StableHlo.reshape_bufs_sub .., StableHlo.unary_bufs_sub .., StableHlo.nullary_bufs_sub .., StableHlo.unary_bufs_sub .., StableHlo.unary_bufs_sub .., StableHlo.unary_bufs_sub .., StableHlo.ternary_bufs_sub ..⟩

/-- and none leaves its result's contents open. -/
theorem opsPre_fresh : (opsPre : List (HloOp τ sig (Elt F))).Forall fun op => op.fresh = ∅ := by
  unfold opsPre
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Between the SparseCore call and the region. -/
def opsMid : List (HloOp τ sig (Elt F)) :=
  [(StableHlo.reshape main_arg5 main_v65 rfl shapeCasts_S64_S1x64)]

/-- Each of them names buffers of the TensorCore only, -/
theorem opsMid_sub : (opsMid : List (HloOp τ sig (Elt F))).Forall fun op => op.bufs ⊆ StableHlo.tcRefs τ sig := by
  unfold opsMid
  exact StableHlo.reshape_bufs_sub ..

/-- and none leaves its result's contents open. -/
theorem opsMid_fresh : (opsMid : List (HloOp τ sig (Elt F))).Forall fun op => op.fresh = ∅ := by
  unfold opsMid
  exact rfl

/-- After the region. -/
def opsPost : List (HloOp τ sig (Elt F)) :=
  [(StableHlo.reshape main_v66 main_v67 rfl shapeCasts_S4x1x64_S4x64)]

/-- Each of them names buffers of the TensorCore only, -/
theorem opsPost_sub : (opsPost : List (HloOp τ sig (Elt F))).Forall fun op => op.bufs ⊆ StableHlo.tcRefs τ sig := by
  unfold opsPost
  exact StableHlo.reshape_bufs_sub ..

/-- and none leaves its result's contents open. -/
theorem opsPost_fresh : (opsPost : List (HloOp τ sig (Elt F))).Forall fun op => op.fresh = ∅ := by
  unfold opsPost
  exact rfl

set_option maxHeartbeats 40000000 in
/-- @main is those three lines in order, the SparseCore call after the first and the kernel region after the second. -/
theorem main_eq (d : Dev nD) :
    main (F := F) d
      = (StableHlo.seq opsPre >>= fun _ => sc.run d 0 >>= fun _ => StableHlo.seq opsMid >>= fun _ =>
          Prog.lift (.customCall (SparseCore.inner (Pipeline.entry 0)) ()) >>= fun _ => StableHlo.seq opsPost >>= fun _ => pure ⟨⟩) := by
  chain_rfl

end Cert.Proof.KI

end
-- ==== Proof.LaunchI.lean ====
/-
  @main on the TensorCore and the launch of the whole program: the host operations before the SparseCore call run as one
  straight line over the device's unscoped arrays; the call takes the adjacency array and the array of diagonals for the two
  SparseCores and brings them back, the diagonals written; the bias is reshaped; the TensorCore region runs from the arrays at
  those contents, the TensorCore owing nothing, and writes its result array; the result is reshaped. What is kernel-specific
  enters as hypotheses: how the call's operands split between the SparseCores and join again, the tile's task, and the
  region's record with the two ends of its thread state. From them every weakly fair execution of the thirty-five threads
  ends, nothing faulting, with each unscoped array of each device at a named final contents.
-/
import proofs.«208576_g46445776339566_cont_8to1c4_655_26_alg».proof.Proof.SetupI
import proofs.«208576_g46445776339566_cont_8to1c4_655_26_alg».proof.Proof.MainOpsI
import Idealize.ShloMosaic.Lib.Pipeline.Frame

set_option maxRecDepth 65536

noncomputable section

namespace Cert.Proof.KI.Launch

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within wp_seq after)
open Idealize.ShloMosaic.Pipeline (ucRefs unscopedBufs_held sub_ucRefs)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

abbrev aRef : DevRef τ sig := Proc.devRef .tc (main_arg1 : Ref sig .tc)
abbrev gRef : DevRef τ sig := Proc.devRef .tc (main_v64 : Ref sig .tc)
abbrev oRef : DevRef τ sig := Proc.devRef .tc (main_v66 : Ref sig .tc)
abbrev rRef : DevRef τ sig := Proc.devRef .tc (main_v67 : Ref sig .tc)
abbrev aLoc (d : Dev nD) : Loc nD τ sig := (SparseCore.T d).loc main_arg1
abbrev gLoc (d : Dev nD) : Loc nD τ sig := (SparseCore.T d).loc main_v64

def V0 (d : Dev nD) : Valuation τ sig (Elt F) := fun b => m (d, b)
def V1 (d : Dev nD) : Valuation τ sig (Elt F) := after (opsPre (F := F)) (V0 m d)
def V2 (d : Dev nD) (f : Buf (Elt F) (gLoc d)) : Valuation τ sig (Elt F) := Function.update (V1 m d) gRef f
def V3 (d : Dev nD) (f : Buf (Elt F) (gLoc d)) : Valuation τ sig (Elt F) := after (opsMid (F := F)) (V2 m d f)

/-! ### The two arrays the SparseCore call takes, out of the held set and back -/

theorem hsubAG : ({aRef, gRef} : Finset (DevRef τ sig)) ⊆ ucRefs τ sig := by decide

omit [FloatOps F] in
theorem held_AG (d : Dev nD) (W : Valuation τ sig (Elt F)) :
    (held (SparseCore.T d) ({aRef, gRef} : Finset (DevRef τ sig)) W : sProp 𝕄)
      = iprop((aLoc d ↦{fullShare} W aRef) ∗ (gLoc d ↦{fullShare} W gRef)) := by
  unfold held
  rw [SparseCore.bigSep_insert' (by decide), bigSep_singleton]

/-- No host operation before the call writes the adjacency array or the array of diagonals. -/
theorem V1_a (d : Dev nD) : V1 m d aRef = m (aLoc d) := by
  unfold V1 opsPre
  after_results
  rfl
theorem V1_g (d : Dev nD) : V1 m d gRef = m (gLoc d) := by
  unfold V1 opsPre
  after_results
  rfl

theorem V2_a (d : Dev nD) (f : Buf (Elt F) (gLoc d)) : V2 m d f aRef = V1 m d aRef :=
  Function.update_of_ne (show aRef ≠ gRef by decide) _ _
theorem V2_g (d : Dev nD) (f : Buf (Elt F) (gLoc d)) : V2 m d f gRef = f := Function.update_self _ _ _

/-- The held set with the diagonals at what the call left. -/
theorem held_V2 (d : Dev nD) (f : Buf (Elt F) (gLoc d)) :
    (held (SparseCore.T d) (ucRefs τ sig) (V2 m d f) : sProp 𝕄)
      = iprop(((aLoc d ↦{fullShare} m (aLoc d)) ∗ (gLoc d ↦{fullShare} f)) ∗ held (SparseCore.T d) (ucRefs τ sig \ {aRef, gRef}) (V1 m d)) := by
  have hrest : (held (SparseCore.T d) (ucRefs τ sig \ {aRef, gRef}) (V2 m d f) : sProp 𝕄)
      = held (SparseCore.T d) (ucRefs τ sig \ {aRef, gRef}) (V1 m d) :=
    held_congr (SparseCore.T d) fun b hb => by
      have hne : b ≠ gRef := by
        intro h; subst h
        exact (Finset.mem_sdiff.mp hb).2 (by decide)
      exact Function.update_of_ne hne _ _
  rw [held_sub_split (SparseCore.T d) hsubAG (V2 m d f), held_AG, V2_a, V2_g, V1_a, hrest]

/-- A program followed by another runs the first to where the second runs. -/
theorem wp_bind_intro {α β : Type} (d : Dev nD) (p : Prog (TpuEff nD τ sig (Elt F) (SparseCore.Sig (ΛP (F := F)) 1) .tc) α)
    (k : α → Prog (TpuEff nD τ sig (Elt F) (SparseCore.Sig (ΛP (F := F)) 1) .tc) β) (Φ : β → sProp 𝕄) :
    wp frame (wpE ((K (F := F)).defs (D (F := F))) 𝒱 (SparseCore.T d) none) Set.univ p
        (fun x => wp frame (wpE ((K (F := F)).defs (D (F := F))) 𝒱 (SparseCore.T d) none) Set.univ (k x) Φ)
      ⊢ wp frame (wpE ((K (F := F)).defs (D (F := F))) 𝒱 (SparseCore.T d) none) Set.univ (p >>= k) Φ := by
  rw [wp_bind]

/-! ### The TensorCore's own state across the region -/

/-- The pairs the TensorCore's waits may have recorded before the region: those at a level no higher than the one call's band. -/
def RecOf (d : Dev nD) : Set (SemLoc sig × HIx 1) := {p | (K (F := F)).lev (SparseCore.T d, p.1) p.2 ≤ 8}

/-- After the one call the TensorCore owes nothing more: what it owes can be taken out of its state for the region and put
    back after it, the recorded pairs still within the band. -/
theorem tcSt_split (d : Dev nD) :
    ((K (F := F)).tcSt EH d 1 : sProp 𝕄)
      ⊢ iprop(Pipeline.owesWithin d (0 : CellTallies nD τ sig (HIx 1)) (RecOf (F := F) d)
          ∗ ((∃ W, ⌜(K (F := F)).WBelow (SparseCore.T d) W 8⌝ ∗ owes (SparseCore.T d) (0 : CellTallies nD τ sig (HIx 1)) W)
              -∗ (K (F := F)).tcSt EH d 1)) := by
  unfold SparseCore.Cfg.tcSt
  rw [(K (F := F)).Otc_end d (le_refl 1)]
  iintro ⟨⟨%W, %hW, HO⟩, Hr⟩
  isplitl [HO]
  · iexists W; isplitr
    · ipureintro; exact fun p hp => hW p (Finset.mem_coe.mp hp)
    · iexact HO
  · iintro HO
    isplitl [HO]; · iexact HO
    iexact Hr

omit [FloatOps F] in
/-- A set of recorded pairs within the band or among the pipeline's own, which sit at level zero, is within the band. -/
theorem wbelow_of_sub (adm : (p : Fin 1) → (pcfgs (F := F) p).Adm) (d : Dev nD) (W : Waits sig (HIx 1))
    (h : (↑W : Set (SemLoc sig × HIx 1)) ⊆ RecOf (F := F) d ∪ (Pipeline.pin (pcfgs (F := F)) adm 0).waitPairs none) :
    (K (F := F)).WBelow (SparseCore.T d) W 8 := fun p hp => by
  rcases h (Finset.mem_coe.mpr hp) with h1 | ⟨w, s, rfl⟩
  · exact h1
  · show (K (F := F)).lev _ none ≤ 8
    rw [SparseCore.Cfg.lev_none]; exact Nat.zero_le _

section Main

-- what the handshakes carry for the diagonal-extraction call, and what its results are known to satisfy
variable (P : (K (F := F)).Pay (nD := nD) (Val := Elt F) (Name := ℕ) (U := UU)) [P.IsStorable]
variable (DiagOK : (d : Dev nD) → Buf (Elt F) (gLoc d) → Prop)

-- the TensorCore region: its proof data and record for any contents at its entry and any bound on the recorded waits
variable (adm : (p : Fin 1) → (pcfgs (F := F) p).Adm)
variable (pdats : (Vr : Dev nD → Valuation τ sig (Elt F)) → (Rec : Set (SemLoc sig × HIx 1)) → (p : Fin 1) → (c : Dev nD)
    → Pipeline.Dat τ (Elt F) (HIx 1) ℕ UU ℕ (Pipeline.pin (pcfgs (F := F)) adm p) c)
variable (RS : ∀ Vr Rec, Pipeline.RegionSeg (pcfgs (F := F)) adm (pdats Vr Rec) (none : HIx 1) defs₀ 𝒱₀ (K (F := F)).L (K (F := F)).lev 0)

/-- What @main's TensorCore holds of the pipeline's ghost state at the launch. -/
abbrev G (d : Dev nD) : sProp 𝕄 :=
  iprop(Pipeline.cellsGhost (Pipeline.pin (pcfgs (F := F)) adm) EP 0 d ∗ Pipeline.toksInit (Pipeline.pin (pcfgs (F := F)) adm) EP 0 d)

-- what the region leaves in its result array, as a function of the contents at its entry; and the record's two ends
variable (outVal : Valuation τ sig (Elt F) → (oRef : DevRef τ sig).ty.Contents (Elt F))

/-- The device's arrays with the region's result, and after the last reshape. -/
def V4 (d : Dev nD) (f : Buf (Elt F) (gLoc d)) : Valuation τ sig (Elt F) := Function.update (V3 m d f) oRef (outVal (V3 m d f))
def V5 (d : Dev nD) (f : Buf (Elt F) (gLoc d)) : Valuation τ sig (Elt F) := after (opsPost (F := F)) (V4 m outVal d f)

/-- What @main leaves the claim: every unscoped array of the device at its final contents, the diagonals known. -/
def FIN (d : Dev nD) : sProp 𝕄 :=
  iprop(∃ f, ⌜DiagOK d f⌝ ∗ held (SparseCore.T d) (ucRefs τ sig) (V5 m outVal d f))

set_option backward.isDefEq.respectTransparency.types false in
theorem hmain
    (hst : ∀ d, (iprop((aLoc d ↦{fullShare} m (aLoc d)) ∗ (gLoc d ↦{fullShare} m (gLoc d))) : sProp 𝕄)
      ⊢ bigSep Finset.univ fun c : Fin ((K (F := F)).nCore 0) => P.st 0 d c)
    (hdn : ∀ d, (bigSep Finset.univ fun c : Fin ((K (F := F)).nCore 0) => P.dn 0 d c : sProp 𝕄)
      ⊢ iprop((aLoc d ↦{fullShare} m (aLoc d)) ∗ ∃ f, ⌜DiagOK d f⌝ ∗ gLoc d ↦{fullShare} f))
    (hpre : ∀ Vr Rec c, (RS Vr Rec).pre c
      = (iprop(unscopedBufs c (fun b => Vr c (Proc.devRef .tc b)) ∗ Pipeline.owesWithin c (0 : CellTallies nD τ sig (HIx 1)) Rec) : sProp 𝕄))
    (hpost : ∀ Vr Rec c, (RS Vr Rec).post c
      = (iprop(unscopedBufs c (fun b => Function.update (Vr c) oRef (outVal (Vr c)) (Proc.devRef .tc b))
          ∗ Pipeline.owesWithin c (0 : CellTallies nD τ sig (HIx 1)) (Rec ∪ (Pipeline.pin (pcfgs (F := F)) adm 0).waitPairs none)) : sProp 𝕄))
    (κ : GSem nD τ sig → ℕ) (d : Dev nD) :
    iprop((K (F := F)).ctx EH P κ ∗ (K (F := F)).tcSt EH d 0 ∗ (K (F := F)).tcRes m ρ d ∗ G adm d)
      ⊢ wp frame (wpE ((K (F := F)).defs (D (F := F))) 𝒱 (SparseCore.T d) none) Set.univ (main d)
          fun _ => iprop((K (F := F)).tcSt EH d 1 ∗ FIN m DiagOK outVal d) := by
  unfold SparseCore.Cfg.tcRes
  rw [main_eq, show unscopedBufs d (fun b => m ((SparseCore.T d).loc b)) = held (SparseCore.T d) (ucRefs τ sig) (V0 m d)
    from unscopedBufs_held (Ix := HIx 1) (Name := ℕ) (U := UU) (Lvl := ℕ) d (V0 m d)]
  iintro ⟨#Hctx, Hst, ⟨Hbd, Hheld, Hsems, Hprng⟩, Hg⟩
  iapply (wp_seq 𝒱 none Set.univ d (ucRefs τ sig) _ (opsPre (F := F))
    (fun op h => sub_ucRefs op (List.forall_iff_forall_mem.mp opsPre_sub op h))
    (fun op h => List.forall_iff_forall_mem.mp opsPre_fresh op h) (V0 m d)) $$ [Hbd Hheld]
  · isplitl [Hbd] <;> iassumption
  iintro ⟨Hbd, Hheld⟩
  -- the SparseCore call: the adjacency array and the diagonals go to the two SparseCores and come back, the diagonals written
  iapply (wp_bind_intro (F := F) d)
  ihave Hh := (Entails.of_eq (held_sub_split (SparseCore.T d) hsubAG (after (opsPre (F := F)) (V0 m d)))) $$ Hheld
  icases Hh with ⟨Hag, Hrest⟩
  ihave Hag' := (Entails.of_eq (held_AG (F := F) d (after (opsPre (F := F)) (V0 m d)))) $$ Hag
  icases Hag' with ⟨Ha, Hgd⟩
  iapply ((K (F := F)).wp_run (D (F := F)) 𝒱 (EH := EH) (P := P) κ d 0) $$ [Hst Ha Hgd Hbd Hrest Hsems Hprng Hg]
  isplitr; · iexact Hctx
  isplitl [Hst]; · iexact Hst
  isplitl [Ha Hgd]
  · iapply (hst d)
    isplitl [Ha]
    · iapply (Entails.of_eq (congrArg (fun v => (aLoc d ↦{fullShare} v : sProp 𝕄)) (V1_a m d))); iexact Ha
    · iapply (Entails.of_eq (congrArg (fun v => (gLoc d ↦{fullShare} v : sProp 𝕄)) (V1_g m d))); iexact Hgd
  iintro ⟨Hst, Hdn⟩
  ihave Hdn' := (hdn d) $$ Hdn
  icases Hdn' with ⟨Ha, %f, %hf, Hgd⟩
  -- the arrays back in the held set, the diagonals at what the call left
  ihave Hheld := (Entails.of_eq (held_V2 (F := F) m d f).symm) $$ [Ha Hgd Hrest]
  · isplitl [Ha Hgd]
    · isplitl [Ha] <;> iassumption
    · iexact Hrest
  -- the reshape of the bias
  iapply (wp_seq 𝒱 none Set.univ d (ucRefs τ sig) _ (opsMid (F := F))
    (fun op h => sub_ucRefs op (List.forall_iff_forall_mem.mp opsMid_sub op h))
    (fun op h => List.forall_iff_forall_mem.mp opsMid_fresh op h) (V2 m d f)) $$ [Hbd Hheld]
  · isplitl [Hbd] <;> iassumption
  iintro ⟨Hbd, Hheld⟩
  -- the region, entered from the unscoped arrays at those contents and the TensorCore owing nothing
  iapply (wp_bind_intro (F := F) d)
  ihave Hst1 := (Entails.of_eq (show ((K (F := F)).tcSt EH d ((0 : Fin 1).val + 1) : sProp 𝕄) = (K (F := F)).tcSt EH d 1 from rfl)) $$ Hst
  ihave Hsp := (tcSt_split (F := F) d) $$ Hst1
  icases Hsp with ⟨HO, Hback⟩
  ihave Hlev := ((K (F := F)).ctx_levAts (EH := EH) (P := P) κ) $$ Hctx
  iapply ((K (F := F)).wp_liftProg (D (F := F)) 𝒱 (SparseCore.T d) Set.univ none
    (Prog.lift (.customCall (Pipeline.entry 0) ())) _)
  iapply (Pipeline.RegionSeg.wp (pcfgs (F := F)) adm (pdats (fun _ => V3 m d f) (RecOf (F := F) d)) (none : HIx 1) Gen.cellOf_inj EP defs₀ 𝒱₀
    (K (F := F)).L (K (F := F)).lev (RS (fun _ => V3 m d f) (RecOf (F := F) d)) d none (fun u h => nomatch h) (fun x => .ret x) _) $$ [Hbd Hheld HO Hback Hlev Hg]
  isplitl [Hback]
  · -- after the region: its result array written, the rest as it was; the last reshape; the TensorCore's state restored
    iintro ⟨Hbd, Hpost⟩
    ihave Hpost' := (Entails.of_eq (hpost (fun _ => V3 m d f) (RecOf (F := F) d) d)) $$ Hpost
    icases Hpost' with ⟨Hub, ⟨%W', %hW', HO⟩⟩
    rw [wp_ret]; imodintro
    ihave Hub' := (Entails.of_eq (show (unscopedBufs d (fun b => Function.update (V3 m d f) oRef (outVal (V3 m d f)) (Proc.devRef .tc b)) : sProp 𝕄)
        = unscopedBufs d (fun b => V4 m outVal d f (Proc.devRef .tc b)) from rfl)) $$ Hub
    ihave Hheld := (Entails.of_eq (unscopedBufs_held (Ix := HIx 1) (Name := ℕ) (U := UU) (Lvl := ℕ) d (V4 m outVal d f))) $$ Hub'
    iapply (wp_seq 𝒱 none Set.univ d (ucRefs τ sig) _ (opsPost (F := F))
      (fun op h => sub_ucRefs op (List.forall_iff_forall_mem.mp opsPost_sub op h))
      (fun op h => List.forall_iff_forall_mem.mp opsPost_fresh op h) (V4 m outVal d f)) $$ [Hbd Hheld]
    · isplitl [Hbd] <;> iassumption
    iintro ⟨Hbd, Hheld⟩
    rw [wp_pure]; imodintro
    isplitl [Hback HO]
    · iapply Hback
      iexists W'; isplitr
      · ipureintro; exact wbelow_of_sub (F := F) adm d W' hW'
      · iexact HO
    · unfold FIN
      iexists f; isplitr
      · ipureintro; exact hf
      · iexact Hheld
  isplitl [Hbd]; · iexact Hbd
  isplitl [Hheld HO]
  · rw [hpre]
    isplitl [Hheld]
    · iapply (Entails.of_eq (unscopedBufs_held (Ix := HIx 1) (Name := ℕ) (U := UU) (Lvl := ℕ) d (V3 m d f)).symm); iexact Hheld
    · iexact HO
  isplitl [Hlev]; · iexact Hlev
  iexact Hg

/-! ### The launch element, the final memory, and the run -/

omit [FloatOps F] in
theorem bigSep_fin1 {M : Type} [URA M] (Φ : Fin 1 → sProp M) : bigSep Finset.univ Φ = Φ 0 := by
  rw [show (Finset.univ : Finset (Fin 1)) = {0} by decide, bigSep_singleton]

omit [FloatOps F] in
theorem bigSep_emp' {I : Type} (s : Finset I) : (bigSep s fun _ => iprop(emp)) = (iprop(emp) : sProp 𝕄) := bigSep_emp_const s

omit [FloatOps F] in
/-- The staging cells' part of the ghost state, reached through the right factor and then its left, is the embedding fixed for it. -/
theorem own_EP (x : UP) :
    (BI.own (((Emb.inl : Emb UP (UP × Counters)).trans (embR : Emb (UP × Counters) 𝕄)) x) : sProp 𝕄) = BI.own ((EP : Emb UP 𝕄) x) := rfl

/-- The launch element: the handshakes' rounds, the staging cells' rounds, and no transfer in flight. -/
def u₀ : UU :=
  (initOf (K (F := F)).hsCells (K (F := F)).hsToks,
    (initOf (Pipeline.cells (Pipeline.pin (pcfgs (F := F)) adm) Gen.cellOf_inj) (Pipeline.launchToks (Pipeline.pin (pcfgs (F := F)) adm) Gen.cellOf_inj), 1))

theorem hu₀ (hx : P.x = fun _ _ => (iprop(emp) : sProp 𝕄)) :
    (ownU (u₀ (F := F) adm) : sProp 𝕄)
      ⊢ |={Set.univ}=> iprop(BI.own (EH (initOf (K (F := F)).hsCells (K (F := F)).hsToks)) ∗ (bigSep Finset.univ fun d : Dev nD => G adm d)
          ∗ bigSep Finset.univ fun thr : Thread nD τ => bigSep Finset.univ fun q : Fin 1 => P.x q thr) := by
  have e1 : (bigSep Finset.univ fun c : Dev nD => bigSep Finset.univ fun p : Fin 1 =>
        Pipeline.cellsGhost (Pipeline.pin (pcfgs (F := F)) adm) EP p c : sProp 𝕄)
      = bigSep Finset.univ fun c : Dev nD => Pipeline.cellsGhost (Pipeline.pin (pcfgs (F := F)) adm) EP 0 c :=
    bigSep_congr fun c _ => bigSep_fin1 _
  have e2 : (bigSep Finset.univ fun c : Dev nD => bigSep Finset.univ fun p : Fin 1 =>
        Pipeline.toksInit (Pipeline.pin (pcfgs (F := F)) adm) EP p c : sProp 𝕄)
      = bigSep Finset.univ fun c : Dev nD => Pipeline.toksInit (Pipeline.pin (pcfgs (F := F)) adm) EP 0 c :=
    bigSep_congr fun c _ => bigSep_fin1 _
  unfold u₀
  iintro Hu
  ihave H := (ownU_pair _ _) $$ Hu
  icases H with ⟨HH, HR⟩
  ihave H2 := (own_pair_emb (embR : Emb (UP × Counters) 𝕄) _ _) $$ HR
  icases H2 with ⟨HP0, -⟩
  ihave HP := (Entails.of_eq (own_EP (F := F) _)) $$ HP0
  imod (Pipeline.fund_ghost (Pipeline.pin (pcfgs (F := F)) adm) EP Gen.cellOf_inj) $$ HP with ⟨Hcg, Htk⟩
  imodintro
  isplitl [HH]; · iexact HH
  isplitl [Hcg Htk]
  · rw [bigSep_sep', ← e1, ← e2]
    isplitl [Hcg] <;> iassumption
  · rw [hx, show (bigSep Finset.univ fun _ : Thread nD τ => bigSep Finset.univ fun _ : Fin 1 => (iprop(emp) : sProp 𝕄)) = iprop(emp) from by
      rw [bigSep_congr fun _ _ => bigSep_emp' _, bigSep_emp']]
    iempintro

/-- What the final memory holds: every unscoped array of each device at its final contents, for diagonals as the kernel
    leaves them. -/
def fq (d : Dev nD) (s' : Phys nD τ sig (Elt F)) : Prop :=
  ∃ f, DiagOK d f ∧ ∀ b ∈ ucRefs τ sig, s'.mem.mem (d, b) = V5 m outVal d f b

theorem hfin (d : Dev nD) (s' : Phys nD τ sig (Elt F)) :
    iprop(FIN m DiagOK outVal d ∗ SI s') ⊢ (⌜fq m DiagOK outVal d s'⌝ : sProp 𝕄) := by
  unfold FIN
  iintro ⟨⟨%f, %hf, Hh⟩, HSI⟩
  ihave Hh' := (Entails.of_eq (show (held (SparseCore.T d) (ucRefs τ sig) (V5 m outVal d f) : sProp 𝕄)
      = bigSep (ucRefs τ sig) fun b => (((d, b) : Loc nD τ sig) ↦{fullShare} V5 m outVal d f b) from rfl)) $$ Hh
  ihave H := (pointsTo_read_all (ucRefs τ sig) (fun b => ((d, b) : Loc nD τ sig)) (V5 m outVal d f) s') $$ [Hh' HSI]
  · isplitl [Hh'] <;> iassumption
  icases H with ⟨%h, -⟩
  ipureintro; exact ⟨f, hf, h⟩

def QC : PUnit × MemSt nD τ sig (Elt F) → Prop :=
  fun r => ∀ d : Dev nD, ∃ f, DiagOK d f ∧ ∀ b ∈ ucRefs τ sig, r.2.mem (d, b) = V5 m outVal d f b

/-- Every weakly fair execution of the program's threads ends, nothing faulting, with every unscoped array of each device at
    its final contents. -/
theorem run_main [∀ e, Nonempty (Elt F e)]
    (hst : ∀ d, (iprop((aLoc d ↦{fullShare} m (aLoc d)) ∗ (gLoc d ↦{fullShare} m (gLoc d))) : sProp 𝕄)
      ⊢ bigSep Finset.univ fun c : Fin ((K (F := F)).nCore 0) => P.st 0 d c)
    (hdn : ∀ d, (bigSep Finset.univ fun c : Fin ((K (F := F)).nCore 0) => P.dn 0 d c : sProp 𝕄)
      ⊢ iprop((aLoc d ↦{fullShare} m (aLoc d)) ∗ ∃ f, ⌜DiagOK d f⌝ ∗ gLoc d ↦{fullShare} f))
    (hpre : ∀ Vr Rec c, (RS Vr Rec).pre c
      = (iprop(unscopedBufs c (fun b => Vr c (Proc.devRef .tc b)) ∗ Pipeline.owesWithin c (0 : CellTallies nD τ sig (HIx 1)) Rec) : sProp 𝕄))
    (hpost : ∀ Vr Rec c, (RS Vr Rec).post c
      = (iprop(unscopedBufs c (fun b => Function.update (Vr c) oRef (outVal (Vr c)) (Proc.devRef .tc b))
          ∗ Pipeline.owesWithin c (0 : CellTallies nD τ sig (HIx 1)) (Rec ∪ (Pipeline.pin (pcfgs (F := F)) adm 0).waitPairs none)) : sProp 𝕄))
    (htile : (K (F := F)).TileObl (D (F := F)) 𝒱 P v₀ 0) (hvec : (K (F := F)).VecSplit' P 0)
    (hx : P.x = fun _ _ => (iprop(emp) : sProp 𝕄)) (hheld : P.held = ∅) :
    θ_run (Cert.KernelIdeal.defs (F := F)) (Cert.KernelIdeal.threads (F := F)) ⟨m, fun _ => 0, ρ⟩ (QC m DiagOK outVal) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (G adm) (FIN m DiagOK outVal) (u₀ (F := F) adm) (sep_elim_left.trans (hu₀ (F := F) P adm hx))
    (hmain m ρ P DiagOK adm pdats RS outVal hst hdn hpre hpost) (fq m DiagOK outVal) (hfin m DiagOK outVal) (QC m DiagOK outVal) (fun _ h => h) hheld

end Main

end Cert.Proof.KI.Launch

end
-- ==== Proof.ArgsI.lean ====
/-
  The program's six argument arrays end as they began: no host operation writes one, the SparseCore call writes only the array
  of diagonals, the region only its result array. And the program's result is the region's result array, reshaped.
-/
import proofs.«208576_g46445776339566_cont_8to1c4_655_26_alg».proof.Proof.LaunchI

set_option maxRecDepth 65536

noncomputable section

namespace Cert.Proof.KI.Launch

open Cert.KernelIdeal Cert.KernelIdeal.Gen
open Idealize.ShloMosaic
open Idealize.ShloMosaic.SparseCore (S V T)
open Idealize.SL Idealize.SL.Sem
open Idealize.ShloMosaic.StableHlo (after)
open Idealize.ShloMosaic.Pipeline (ucRefs)

variable {F : FTy → Type} [FloatOps F]
variable (m : (ℓ : Loc nD τ sig) → Buf (Elt F) ℓ)
variable (outVal : Valuation τ sig (Elt F) → (oRef : DevRef τ sig).ty.Contents (Elt F))

theorem V5_arg0 (d : Dev nD) (f : Buf (Elt F) (gLoc d)) :
    V5 m outVal d f (Proc.devRef .tc (main_arg0 : Ref sig .tc)) = m ((SparseCore.T d).loc main_arg0) := by
  have e1 : V1 m d (Proc.devRef .tc (main_arg0 : Ref sig .tc)) = m ((SparseCore.T d).loc main_arg0) := by
    unfold V1 opsPre
    after_results
    rfl
  have e3 : V3 m d f (Proc.devRef .tc (main_arg0 : Ref sig .tc)) = V2 m d f (Proc.devRef .tc (main_arg0 : Ref sig .tc)) := by
    unfold V3 opsMid
    after_results
  have e5 : V5 m outVal d f (Proc.devRef .tc (main_arg0 : Ref sig .tc)) = V4 m outVal d f (Proc.devRef .tc (main_arg0 : Ref sig .tc)) := by
    unfold V5 opsPost
    after_results
  rw [e5, show V4 m outVal d f (Proc.devRef .tc (main_arg0 : Ref sig .tc)) = V3 m d f (Proc.devRef .tc (main_arg0 : Ref sig .tc)) from
      Function.update_of_ne (show (Proc.devRef .tc (main_arg0 : Ref sig .tc) : DevRef τ sig) ≠ oRef by decide) _ _,
    e3, show V2 m d f (Proc.devRef .tc (main_arg0 : Ref sig .tc)) = V1 m d (Proc.devRef .tc (main_arg0 : Ref sig .tc)) from
      Function.update_of_ne (show (Proc.devRef .tc (main_arg0 : Ref sig .tc) : DevRef τ sig) ≠ gRef by decide) _ _, e1]

theorem V5_arg1 (d : Dev nD) (f : Buf (Elt F) (gLoc d)) :
    V5 m outVal d f (Proc.devRef .tc (main_arg1 : Ref sig .tc)) = m ((SparseCore.T d).loc main_arg1) := by
  have e1 : V1 m d (Proc.devRef .tc (main_arg1 : Ref sig .tc)) = m ((SparseCore.T d).loc main_arg1) := by
    unfold V1 opsPre
    after_results
    rfl
  have e3 : V3 m d f (Proc.devRef .tc (main_arg1 : Ref sig .tc)) = V2 m d f (Proc.devRef .tc (main_arg1 : Ref sig .tc)) := by
    unfold V3 opsMid
    after_results
  have e5 : V5 m outVal d f (Proc.devRef .tc (main_arg1 : Ref sig .tc)) = V4 m outVal d f (Proc.devRef .tc (main_arg1 : Ref sig .tc)) := by
    unfold V5 opsPost
    after_results
  rw [e5, show V4 m outVal d f (Proc.devRef .tc (main_arg1 : Ref sig .tc)) = V3 m d f (Proc.devRef .tc (main_arg1 : Ref sig .tc)) from
      Function.update_of_ne (show (Proc.devRef .tc (main_arg1 : Ref sig .tc) : DevRef τ sig) ≠ oRef by decide) _ _,
    e3, show V2 m d f (Proc.devRef .tc (main_arg1 : Ref sig .tc)) = V1 m d (Proc.devRef .tc (main_arg1 : Ref sig .tc)) from
      Function.update_of_ne (show (Proc.devRef .tc (main_arg1 : Ref sig .tc) : DevRef τ sig) ≠ gRef by decide) _ _, e1]

theorem V5_arg2 (d : Dev nD) (f : Buf (Elt F) (gLoc d)) :
    V5 m outVal d f (Proc.devRef .tc (main_arg2 : Ref sig .tc)) = m ((SparseCore.T d).loc main_arg2) := by
  have e1 : V1 m d (Proc.devRef .tc (main_arg2 : Ref sig .tc)) = m ((SparseCore.T d).loc main_arg2) := by
    unfold V1 opsPre
    after_results
    rfl
  have e3 : V3 m d f (Proc.devRef .tc (main_arg2 : Ref sig .tc)) = V2 m d f (Proc.devRef .tc (main_arg2 : Ref sig .tc)) := by
    unfold V3 opsMid
    after_results
  have e5 : V5 m outVal d f (Proc.devRef .tc (main_arg2 : Ref sig .tc)) = V4 m outVal d f (Proc.devRef .tc (main_arg2 : Ref sig .tc)) := by
    unfold V5 opsPost
    after_results
  rw [e5, show V4 m outVal d f (Proc.devRef .tc (main_arg2 : Ref sig .tc)) = V3 m d f (Proc.devRef .tc (main_arg2 : Ref sig .tc)) from
      Function.update_of_ne (show (Proc.devRef .tc (main_arg2 : Ref sig .tc) : DevRef τ sig) ≠ oRef by decide) _ _,
    e3, show V2 m d f (Proc.devRef .tc (main_arg2 : Ref sig .tc)) = V1 m d (Proc.devRef .tc (main_arg2 : Ref sig .tc)) from
      Function.update_of_ne (show (Proc.devRef .tc (main_arg2 : Ref sig .tc) : DevRef τ sig) ≠ gRef by decide) _ _, e1]

theorem V5_arg3 (d : Dev nD) (f : Buf (Elt F) (gLoc d)) :
    V5 m outVal d f (Proc.devRef .tc (main_arg3 : Ref sig .tc)) = m ((SparseCore.T d).loc main_arg3) := by
  have e1 : V1 m d (Proc.devRef .tc (main_arg3 : Ref sig .tc)) = m ((SparseCore.T d).loc main_arg3) := by
    unfold V1 opsPre
    after_results
    rfl
  have e3 : V3 m d f (Proc.devRef .tc (main_arg3 : Ref sig .tc)) = V2 m d f (Proc.devRef .tc (main_arg3 : Ref sig .tc)) := by
    unfold V3 opsMid
    after_results
  have e5 : V5 m outVal d f (Proc.devRef .tc (main_arg3 : Ref sig .tc)) = V4 m outVal d f (Proc.devRef .tc (main_arg3 : Ref sig .tc)) := by
    unfold V5 opsPost
    after_results
  rw [e5, show V4 m outVal d f (Proc.devRef .tc (main_arg3 : Ref sig .tc)) = V3 m d f (Proc.devRef .tc (main_arg3 : Ref sig .tc)) from
      Function.update_of_ne (show (Proc.devRef .tc (main_arg3 : Ref sig .tc) : DevRef τ sig) ≠ oRef by decide) _ _,
    e3, show V2 m d f (Proc.devRef .tc (main_arg3 : Ref sig .tc)) = V1 m d (Proc.devRef .tc (main_arg3 : Ref sig .tc)) from
      Function.update_of_ne (show (Proc.devRef .tc (main_arg3 : Ref sig .tc) : DevRef τ sig) ≠ gRef by decide) _ _, e1]

theorem V5_arg4 (d : Dev nD) (f : Buf (Elt F) (gLoc d)) :
    V5 m outVal d f (Proc.devRef .tc (main_arg4 : Ref sig .tc)) = m ((SparseCore.T d).loc main_arg4) := by
  have e1 : V1 m d (Proc.devRef .tc (main_arg4 : Ref sig .tc)) = m ((SparseCore.T d).loc main_arg4) := by
    unfold V1 opsPre
    after_results
    rfl
  have e3 : V3 m d f (Proc.devRef .tc (main_arg4 : Ref sig .tc)) = V2 m d f (Proc.devRef .tc (main_arg4 : Ref sig .tc)) := by
    unfold V3 opsMid
    after_results
  have e5 : V5 m outVal d f (Proc.devRef .tc (main_arg4 : Ref sig .tc)) = V4 m outVal d f (Proc.devRef .tc (main_arg4 : Ref sig .tc)) := by
    unfold V5 opsPost
    after_results
  rw [e5, show V4 m outVal d f (Proc.devRef .tc (main_arg4 : Ref sig .tc)) = V3 m d f (Proc.devRef .tc (main_arg4 : Ref sig .tc)) from
      Function.update_of_ne (show (Proc.devRef .tc (main_arg4 : Ref sig .tc) : DevRef τ sig) ≠ oRef by decide) _ _,
    e3, show V2 m d f (Proc.devRef .tc (main_arg4 : Ref sig .tc)) = V1 m d (Proc.devRef .tc (main_arg4 : Ref sig .tc)) from
      Function.update_of_ne (show (Proc.devRef .tc (main_arg4 : Ref sig .tc) : DevRef τ sig) ≠ gRef by decide) _ _, e1]

theorem V5_arg5 (d : Dev nD) (f : Buf (Elt F) (gLoc d)) :
    V5 m outVal d f (Proc.devRef .tc (main_arg5 : Ref sig .tc)) = m ((SparseCore.T d).loc main_arg5) := by
  have e1 : V1 m d (Proc.devRef .tc (main_arg5 : Ref sig .tc)) = m ((SparseCore.T d).loc main_arg5) := by
    unfold V1 opsPre
    after_results
    rfl
  have e3 : V3 m d f (Proc.devRef .tc (main_arg5 : Ref sig .tc)) = V2 m d f (Proc.devRef .tc (main_arg5 : Ref sig .tc)) := by
    unfold V3 opsMid
    after_results
  have e5 : V5 m outVal d f (Proc.devRef .tc (main_arg5 : Ref sig .tc)) = V4 m outVal d f (Proc.devRef .tc (main_arg5 : Ref sig .tc)) := by
    unfold V5 opsPost
    after_results
  rw [e5, show V4 m outVal d f (Proc.devRef .tc (main_arg5 : Ref sig .tc)) = V3 m d f (Proc.devRef .tc (main_arg5 : Ref sig .tc)) from
      Function.update_of_ne (show (Proc.devRef .tc (main_arg5 : Ref sig .tc) : DevRef τ sig) ≠ oRef by decide) _ _,
    e3, show V2 m d f (Proc.devRef .tc (main_arg5 : Ref sig .tc)) = V1 m d (Proc.devRef .tc (main_arg5 : Ref sig .tc)) from
      Function.update_of_ne (show (Proc.devRef .tc (main_arg5 : Ref sig .tc) : DevRef τ sig) ≠ gRef by decide) _ _, e1]

/-- The six argument arrays and the result array are unscoped arrays of the device. -/
theorem args_mem : (∀ r ∈ ([main_arg0, main_arg1, main_arg2, main_arg3, main_arg4, main_arg5, main_v67] : List (Ref sig .tc)),
    (Proc.devRef .tc r : DevRef τ sig) ∈ ucRefs τ sig) := by decide

/-- The program's result array holds the region's result, reshaped. -/
theorem V5_r (d : Dev nD) (f : Buf (Elt F) (gLoc d)) :
    V5 m outVal d f rRef = fun i => shapeCast S4x64 (outVal (V3 m d f)) Facts₀.shapeCasts_S4x1x64_S4x64 i := by
  unfold V5 opsPost
  after_results
  unfold V4
  rw [Function.update_self]
  rfl

/-! ### What the region's operand arrays hold at its entry -/

theorem V3_arg0 (d : Dev nD) (f : Buf (Elt F) (gLoc d)) :
    V3 m d f (Proc.devRef .tc (main_arg0 : Ref sig .tc)) = m ((SparseCore.T d).loc main_arg0) := by
  have e3 : V3 m d f (Proc.devRef .tc (main_arg0 : Ref sig .tc)) = V2 m d f (Proc.devRef .tc (main_arg0 : Ref sig .tc)) := by
    unfold V3 opsMid
    after_results
  rw [e3, show V2 m d f (Proc.devRef .tc (main_arg0 : Ref sig .tc)) = V1 m d (Proc.devRef .tc (main_arg0 : Ref sig .tc)) from
      Function.update_of_ne (show (Proc.devRef .tc (main_arg0 : Ref sig .tc) : DevRef τ sig) ≠ gRef by decide) _ _]
  unfold V1 opsPre
  after_results
  rfl

theorem V3_arg1 (d : Dev nD) (f : Buf (Elt F) (gLoc d)) :
    V3 m d f (Proc.devRef .tc (main_arg1 : Ref sig .tc)) = m ((SparseCore.T d).loc main_arg1) := by
  have e3 : V3 m d f (Proc.devRef .tc (main_arg1 : Ref sig .tc)) = V2 m d f (Proc.devRef .tc (main_arg1 : Ref sig .tc)) := by
    unfold V3 opsMid
    after_results
  rw [e3, show V2 m d f (Proc.devRef .tc (main_arg1 : Ref sig .tc)) = V1 m d (Proc.devRef .tc (main_arg1 : Ref sig .tc)) from
      Function.update_of_ne (show (Proc.devRef .tc (main_arg1 : Ref sig .tc) : DevRef τ sig) ≠ gRef by decide) _ _]
  unfold V1 opsPre
  after_results
  rfl

theorem V3_arg2 (d : Dev nD) (f : Buf (Elt F) (gLoc d)) :
    V3 m d f (Proc.devRef .tc (main_arg2 : Ref sig .tc)) = m ((SparseCore.T d).loc main_arg2) := by
  have e3 : V3 m d f (Proc.devRef .tc (main_arg2 : Ref sig .tc)) = V2 m d f (Proc.devRef .tc (main_arg2 : Ref sig .tc)) := by
    unfold V3 opsMid
    after_results
  rw [e3, show V2 m d f (Proc.devRef .tc (main_arg2 : Ref sig .tc)) = V1 m d (Proc.devRef .tc (main_arg2 : Ref sig .tc)) from
      Function.update_of_ne (show (Proc.devRef .tc (main_arg2 : Ref sig .tc) : DevRef τ sig) ≠ gRef by decide) _ _]
  unfold V1 opsPre
  after_results
  rfl

theorem V3_arg3 (d : Dev nD) (f : Buf (Elt F) (gLoc d)) :
    V3 m d f (Proc.devRef .tc (main_arg3 : Ref sig .tc)) = m ((SparseCore.T d).loc main_arg3) := by
  have e3 : V3 m d f (Proc.devRef .tc (main_arg3 : Ref sig .tc)) = V2 m d f (Proc.devRef .tc (main_arg3 : Ref sig .tc)) := by
    unfold V3 opsMid
    after_results
  rw [e3, show V2 m d f (Proc.devRef .tc (main_arg3 : Ref sig .tc)) = V1 m d (Proc.devRef .tc (main_arg3 : Ref sig .tc)) from
      Function.update_of_ne (show (Proc.devRef .tc (main_arg3 : Ref sig .tc) : DevRef τ sig) ≠ gRef by decide) _ _]
  unfold V1 opsPre
  after_results
  rfl

theorem V3_arg4 (d : Dev nD) (f : Buf (Elt F) (gLoc d)) :
    V3 m d f (Proc.devRef .tc (main_arg4 : Ref sig .tc)) = m ((SparseCore.T d).loc main_arg4) := by
  have e3 : V3 m d f (Proc.devRef .tc (main_arg4 : Ref sig .tc)) = V2 m d f (Proc.devRef .tc (main_arg4 : Ref sig .tc)) := by
    unfold V3 opsMid
    after_results
  rw [e3, show V2 m d f (Proc.devRef .tc (main_arg4 : Ref sig .tc)) = V1 m d (Proc.devRef .tc (main_arg4 : Ref sig .tc)) from
      Function.update_of_ne (show (Proc.devRef .tc (main_arg4 : Ref sig .tc) : DevRef τ sig) ≠ gRef by decide) _ _]
  unfold V1 opsPre
  after_results
  rfl

theorem V3_arg5 (d : Dev nD) (f : Buf (Elt F) (gLoc d)) :
    V3 m d f (Proc.devRef .tc (main_arg5 : Ref sig .tc)) = m ((SparseCore.T d).loc main_arg5) := by
  have e3 : V3 m d f (Proc.devRef .tc (main_arg5 : Ref sig .tc)) = V2 m d f (Proc.devRef .tc (main_arg5 : Ref sig .tc)) := by
    unfold V3 opsMid
    after_results
  rw [e3, show V2 m d f (Proc.devRef .tc (main_arg5 : Ref sig .tc)) = V1 m d (Proc.devRef .tc (main_arg5 : Ref sig .tc)) from
      Function.update_of_ne (show (Proc.devRef .tc (main_arg5 : Ref sig .tc) : DevRef τ sig) ≠ gRef by decide) _ _]
  unfold V1 opsPre
  after_results
  rfl

theorem V3_v14 (d : Dev nD) (f : Buf (Elt F) (gLoc d)) :
    V3 m d f (Proc.devRef .tc (main_v14 : Ref sig .tc)) = after (opsPre (F := F)) (V0 m d) (Proc.devRef .tc (main_v14 : Ref sig .tc)) := by
  have e3 : V3 m d f (Proc.devRef .tc (main_v14 : Ref sig .tc)) = V2 m d f (Proc.devRef .tc (main_v14 : Ref sig .tc)) := by
    unfold V3 opsMid
    after_results
  rw [e3, show V2 m d f (Proc.devRef .tc (main_v14 : Ref sig .tc)) = V1 m d (Proc.devRef .tc (main_v14 : Ref sig .tc)) from
      Function.update_of_ne (show (Proc.devRef .tc (main_v14 : Ref sig .tc) : DevRef τ sig) ≠ gRef by decide) _ _]
  rfl

theorem V3_v25 (d : Dev nD) (f : Buf (Elt F) (gLoc d)) :
    V3 m d f (Proc.devRef .tc (main_v25 : Ref sig .tc)) = after (opsPre (F := F)) (V0 m d) (Proc.devRef .tc (main_v25 : Ref sig .tc)) := by
  have e3 : V3 m d f (Proc.devRef .tc (main_v25 : Ref sig .tc)) = V2 m d f (Proc.devRef .tc (main_v25 : Ref sig .tc)) := by
    unfold V3 opsMid
    after_results
  rw [e3, show V2 m d f (Proc.devRef .tc (main_v25 : Ref sig .tc)) = V1 m d (Proc.devRef .tc (main_v25 : Ref sig .tc)) from
      Function.update_of_ne (show (Proc.devRef .tc (main_v25 : Ref sig .tc) : DevRef τ sig) ≠ gRef by decide) _ _]
  rfl

theorem V3_v52 (d : Dev nD) (f : Buf (Elt F) (gLoc d)) :
    V3 m d f (Proc.devRef .tc (main_v52 : Ref sig .tc)) = after (opsPre (F := F)) (V0 m d) (Proc.devRef .tc (main_v52 : Ref sig .tc)) := by
  have e3 : V3 m d f (Proc.devRef .tc (main_v52 : Ref sig .tc)) = V2 m d f (Proc.devRef .tc (main_v52 : Ref sig .tc)) := by
    unfold V3 opsMid
    after_results
  rw [e3, show V2 m d f (Proc.devRef .tc (main_v52 : Ref sig .tc)) = V1 m d (Proc.devRef .tc (main_v52 : Ref sig .tc)) from
      Function.update_of_ne (show (Proc.devRef .tc (main_v52 : Ref sig .tc) : DevRef τ sig) ≠ gRef by decide) _ _]
  rfl

theorem V3_v63 (d : Dev nD) (f : Buf (Elt F) (gLoc d)) :
    V3 m d f (Proc.devRef .tc (main_v63 : Ref sig .tc)) = after (opsPre (F := F)) (V0 m d) (Proc.devRef .tc (main_v63 : Ref sig .tc)) := by
  have e3 : V3 m d f (Proc.devRef .tc (main_v63 : Ref sig .tc)) = V2 m d f (Proc.devRef .tc (main_v63 : Ref sig .tc)) := by
    unfold V3 opsMid
    after_results
  rw [e3, show V2 m d f (Proc.devRef .tc (main_v63 : Ref sig .tc)) = V1 m d (Proc.devRef .tc (main_v63 : Ref sig .tc)) from
      Function.update_of_ne (show (Proc.devRef .tc (main_v63 : Ref sig .tc) : DevRef τ sig) ≠ gRef by decide) _ _]
  rfl

/-- The diagonals are what the SparseCore call left, -/
theorem V3_g (d : Dev nD) (f : Buf (Elt F) (gLoc d)) : V3 m d f gRef = f := by
  have e3 : V3 m d f gRef = V2 m d f gRef := by
    unfold V3 opsMid
    after_results
  rw [e3, V2_g]

/-- and the reshaped bias is the reshape's result over the contents before it, where the bias is the launch's. -/
theorem V3_v65 (d : Dev nD) (f : Buf (Elt F) (gLoc d)) :
    V3 m d f (Proc.devRef .tc (main_v65 : Ref sig .tc)) = after (opsMid (F := F)) (V2 m d f) (Proc.devRef .tc (main_v65 : Ref sig .tc)) := rfl
theorem V2_arg5 (d : Dev nD) (f : Buf (Elt F) (gLoc d)) :
    V2 m d f (Proc.devRef .tc (main_arg5 : Ref sig .tc)) = m ((SparseCore.T d).loc main_arg5) := by
  rw [show V2 m d f (Proc.devRef .tc (main_arg5 : Ref sig .tc)) = V1 m d (Proc.devRef .tc (main_arg5 : Ref sig .tc)) from
      Function.update_of_ne (show (Proc.devRef .tc (main_arg5 : Ref sig .tc) : DevRef τ sig) ≠ gRef by decide) _ _]
  unfold V1 opsPre
  after_results
  rfl

end Cert.Proof.KI.Launch

end
-- ==== Proof.ScPayI.lean ====
/-
  What the one SparseCore call's handshakes carry, and how the whole arrays split into it and join back out of it.

  The kernel runs on 2 SparseCores × 16 vector subcores. The subcore (c, s) works on the 128 rows and columns
  128·(16c+s) … of each of the four matrices A[b]: it copies that 128×128 diagonal block into its own memory, and for
  each of the eight groups of sixteen rows 16k … 16k+15 accumulates, lane by lane, the row's entry in the lane whose
  number is the row's (and a zero in every other lane), starting from zero; the sixteen lanes of group k are entries
  16k … 16k+15 of the 128 it writes to row 0 of batch b of the result, at columns 128·(16c+s) …. A is only read, so it
  travels as read shares of the whole array; the result is cut by columns, a SparseCore holding the columns
  2048c … and a subcore the 128 of them it writes (with all batches and all eight rows of those columns, most of which
  it never touches). What a subcore leaves is stated entry by entry through the accumulation itself (diagVec), not as
  "the diagonal entry": over a float instance where 0 + x is not x the two differ.
-/
import Idealize.ShloMosaic.Lib.ValueIdx
import proofs.«208576_g46445776339566_cont_8to1c4_655_26_alg».proof.Proof.SetupI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type}

local notation "𝕄" => MT nD τ sig (HIx 1) (Elt F) ℕ UU ℕ

/-! ## The arrays and the pieces of them a vector subcore touches -/

/-- The matrix batch A (an argument) and the diagonal rows (the kernel's result), as locations of device d. -/
abbrev aLoc (d : Dev nD) : Loc nD τ sig := (SparseCore.T d).loc main_arg1
abbrev gLoc (d : Dev nD) : Loc nD τ sig := (SparseCore.T d).loc main_v64

abbrev aV : Memref sig .scVector .hbm S4x4096x4096 .f32 := Memref.whole main_arg1_scv
abbrev gV : Memref sig .scVector .hbm S4x8x4096 .f32 := Memref.whole main_v64_scv

/-- The 128×128 diagonal block of batch b that the subcore at grid point L copies in: rows and columns
    128·(16·L 0 + L 1) … of A[b], as the program slices it. -/
abbrev aBlkM (L : grid0.Coords) (b : Fin k0_t1_loop.trips) : Memref sig .scVector .hbm S128x128 .f32 :=
  ((aV).slice (Rect.unit (s := S4x4096x4096) (k0_off1 L b) S1x128x128.size (k0_off1_inb L b)) (fun _ => rfl)).squeeze S128x128 squeezes_S1x128x128_S128x128
/-- The 128 entries of row 0 of batch b of the result that the same subcore writes, as the program slices them. -/
abbrev gRowM (L : grid0.Coords) (b : Fin k0_t1_loop.trips) : Memref sig .scVector .hbm S128 .f32 :=
  ((gV).slice (Rect.unit (s := S4x8x4096) (k0_off2 L b) S1x1x128.size (k0_off2_inb L b)) (fun _ => rfl)).squeeze S128 squeezes_S1x1x128_S128

/-! ## The value a subcore stores -/

section Value
variable [FloatOps F]

/-- One step of the lane accumulation: the accumulator plus, in the lane whose number is i, the row's entry, and plus
    zero in every other lane. -/
def accStep (v4 : IVec S16 32) (acc : FVec F S16 .f32) (i : BitVec 32) (row : FVec F S16 .f32) : FVec F S16 .f32 :=
  addf acc (select (cmpi .eq v4 (broadcast S16 i)) row (broadcast S16 (Scalar.ofBits .f32 0x00000000#32)))

/-- Sixteen steps from zero over sixteen rows: lane j ends as 0 + (… + row_j j + …) with a zero added for every
    other row, in the order of the rows. -/
def diagVec (v4 : IVec S16 32) (r : Fin 16 → FVec F S16 .f32) : FVec F S16 .f32 :=
  accStep v4 (accStep v4 (accStep v4 (accStep v4 (accStep v4 (accStep v4 (accStep v4 (accStep v4
  (accStep v4 (accStep v4 (accStep v4 (accStep v4 (accStep v4 (accStep v4 (accStep v4 (accStep v4
    (broadcast S16 (Scalar.ofBits .f32 0x00000000#32))
    0#32 (r 0)) 1#32 (r 1)) 2#32 (r 2)) 3#32 (r 3)) 4#32 (r 4)) 5#32 (r 5)) 6#32 (r 6)) 7#32 (r 7))
    8#32 (r 8)) 9#32 (r 9)) 10#32 (r 10)) 11#32 (r 11)) 12#32 (r 12)) 13#32 (r 13)) 14#32 (r 14)) 15#32 (r 15)

/-- The lane numbers 0 … 15. -/
abbrev lanes : IVec S16 32 := iota .scVector S16 32 [0] iota_S16_d0_w32_scVector

/-- Rows 16k … 16k+15 of a 128×128 block, each cut to its columns 16k … 16k+15. -/
def blkRows (s : S128x128.Idx → F .f32) (k : Fin 8) : Fin 16 → FVec F S16 .f32 :=
  fun i jj => s (ix2 (n0 := 128) (n1 := 128) ⟨16 * k.val + i.val, by omega⟩ ⟨16 * k.val + (jj 0).val, by have h : (jj 0).val < 16 := (jj 0).isLt; omega⟩)

/-- Entry 16k+j of the 128 a subcore writes for one batch. -/
abbrev gAt (k : Fin 8) (j : Fin 16) : S128.Idx := ix1 (n := 128) ⟨16 * k.val + j.val, by omega⟩

variable (m : (ℓ : Loc nD τ sig) → Buf (Elt F) ℓ)

/-- The block of A a subcore reads for batch b, as a function of the block's own row and column. -/
def blkOf (d : Dev nD) (L : grid0.Coords) (b : Fin k0_t1_loop.trips) : S128x128.Idx → F .f32 :=
  fun r => m (aLoc d) ((aBlkM L b).view.emb r)

/-- What the result holds where the subcore at L has written batch b: entry 16k+j is lane j of the accumulation
    over rows 16k … 16k+15 of that subcore's block of A[b]. -/
def RowIs (d : Dev nD) (L : grid0.Coords) (b : Fin k0_t1_loop.trips) (f : Buf (Elt F) (gLoc d)) : Prop :=
  ∀ (k : Fin 8) (j : Fin 16), f ((gRowM L b).view.emb (gAt k j)) = diagVec lanes (blkRows (blkOf m d L b) k) (ix1 j)

/-- The whole result: every subcore's 128 entries of every batch. -/
def DiagIs (d : Dev nD) (f : Buf (Elt F) (gLoc d)) : Prop := ∀ (L : grid0.Coords) (b : Fin k0_t1_loop.trips), RowIs m d L b f

end Value

/-! ## Who holds what

A is only read: each SparseCore holds half of a full share of A whole, each of its sixteen subcores one of sixteen
read tokens of that half. The result is cut by columns: SparseCore c holds the columns 2048c … 2048c+2047 (all
batches, all eight rows), the subcore s of it the columns 128(16c+s) … +127 of those. -/

/-- SparseCore c's share of A: the left half of the full share for c = 0, the right half otherwise. -/
def coreShare (c : ℕ) : PosShare TreeShare := if c = 0 then fullShare.left else fullShare.right
/-- Subcore s's read token of its SparseCore's share. -/
abbrev tileShare (c : ℕ) (s : Fin 16) : PosShare TreeShare := Transfers.shareTok (coreShare c) 16 s

/-- The columns of the result that SparseCore c holds, -/
def coreSet (d : Dev nD) (c : ℕ) : Finset (Idx (gLoc d)) :=
  Finset.univ.filter fun ix : S4x8x4096.Idx => (ix 2).val / 2048 = c
/-- and those its subcore s holds. -/
def tileSet (d : Dev nD) (c s : ℕ) : Finset (Idx (gLoc d)) :=
  Finset.univ.filter fun ix : S4x8x4096.Idx => (ix 2).val / 2048 = c ∧ (ix 2).val / 128 % 16 = s

section Pay
variable [FloatOps F] (m : (ℓ : Loc nD τ sig) → Buf (Elt F) ℓ)

/-- What subcore (c, s) leaves in its columns: its 128 entries of every batch. -/
def TileIs (d : Dev nD) (c s : ℕ) (f : Buf (Elt F) (gLoc d)) : Prop :=
  ∀ (L : grid0.Coords), (L 0).val = c → (L 1).val = s → ∀ b, RowIs m d L b f

abbrev aPts (d : Dev nD) (q : PosShare TreeShare) : sProp 𝕄 := aLoc d ↦{q} m (aLoc d)
abbrev gPts (d : Dev nD) (I : Finset (Idx (gLoc d))) (f : Buf (Elt F) (gLoc d)) : sProp 𝕄 := gLoc d ↦[I]{fullShare} f

/-- A subcore's operands: its read token of A, its columns of the result at whatever they hold; -/
def goP (d : Dev nD) (c : ℕ) (s : Fin 16) : sProp 𝕄 := iprop(aPts m d (tileShare c s) ∗ ∃ f, gPts d (tileSet d c s.val) f)
/-- its results: the token back, its columns written. -/
def tdP (d : Dev nD) (c : ℕ) (s : Fin 16) : sProp 𝕄 :=
  iprop(aPts m d (tileShare c s) ∗ ∃ f, ⌜TileIs m d c s.val f⌝ ∗ gPts d (tileSet d c s.val) f)
/-- A SparseCore's operands: its share of A, its columns of the result at whatever they hold; -/
def stP (d : Dev nD) (c : ℕ) : sProp 𝕄 := iprop(aPts m d (coreShare c) ∗ ∃ f, gPts d (coreSet d c) f)
/-- its results: the share back, each subcore's columns written. -/
def dnP (d : Dev nD) (c : ℕ) : sProp 𝕄 :=
  iprop(aPts m d (coreShare c) ∗ bigSep Finset.univ fun s : Fin 16 => iprop(∃ f, ⌜TileIs m d c s.val f⌝ ∗ gPts d (tileSet d c s.val) f))

/-- What the one call's handshakes carry. -/
def P : (K (F := F)).Pay (nD := nD) (Val := Elt F) (Name := ℕ) (U := UU) where
  st := fun _ d c => stP m d c.val
  dn := fun _ d c => dnP m d c.val
  go := fun q d c i => match q with | 0 => goP m d c.val (Fin.cast nSub_zero i)
  td := fun q d c i => match q with | 0 => tdP m d c.val (Fin.cast nSub_zero i)
  x := fun _ _ => iprop(emp)

theorem P_st (d : Dev nD) (c : Fin ((K (F := F)).nCore 0)) : (P m).st 0 d c = stP m d c.val := rfl
theorem P_dn (d : Dev nD) (c : Fin ((K (F := F)).nCore 0)) : (P m).dn 0 d c = dnP m d c.val := rfl
theorem P_go (d : Dev nD) (c : Fin ((K (F := F)).nCore 0)) (i : Fin ((K (F := F)).nSub 0)) : (P m).go 0 d c i = goP m d c.val (Fin.cast nSub_zero i) := rfl
theorem P_td (d : Dev nD) (c : Fin ((K (F := F)).nCore 0)) (i : Fin ((K (F := F)).nSub 0)) : (P m).td 0 d c i = tdP m d c.val (Fin.cast nSub_zero i) := rfl

instance P_storable : (P (F := F) m).IsStorable where
  st _ d c := by unfold P stP; infer_instance
  dn _ d c := by unfold P dnP; infer_instance
  go q d c i := match q with | 0 => by unfold P goP; infer_instance
  td q d c i := match q with | 0 => by unfold P tdP; infer_instance

end Pay

/-! ## The cuts are partitions -/

section Cuts
variable (d : Dev nD)

theorem coreShare_zero : coreShare 0 = fullShare.left := if_pos rfl
theorem coreShare_one : coreShare 1 = fullShare.right := if_neg Nat.one_ne_zero

theorem mem_coreSet {c : ℕ} {ix : Idx (gLoc d)} : ix ∈ coreSet d c ↔ ((ix : S4x8x4096.Idx) 2).val / 2048 = c := by
  unfold coreSet; exact (Finset.mem_filter.trans (and_iff_right (Finset.mem_univ _)))
theorem mem_tileSet {c s : ℕ} {ix : Idx (gLoc d)} :
    ix ∈ tileSet d c s ↔ ((ix : S4x8x4096.Idx) 2).val / 2048 = c ∧ ((ix : S4x8x4096.Idx) 2).val / 128 % 16 = s := by
  unfold tileSet; exact (Finset.mem_filter.trans (and_iff_right (Finset.mem_univ _)))

theorem col_lt (ix : S4x8x4096.Idx) : (ix 2).val < 4096 := (ix 2).isLt

theorem cores_disjoint : Disjoint (coreSet d 0) (coreSet d 1) :=
  Finset.disjoint_left.mpr fun ix h0 h1 => by
    have h0 := (mem_coreSet d).mp h0; have h1 := (mem_coreSet d).mp h1; omega
theorem cores_cover : coreSet d 0 ∪ coreSet d 1 = Finset.univ :=
  Finset.eq_univ_of_forall fun ix => by
    have h := col_lt ix
    rcases Nat.lt_or_ge ((ix : S4x8x4096.Idx) 2).val 2048 with h' | h'
    · exact Finset.mem_union_left _ ((mem_coreSet d).mpr (by omega))
    · exact Finset.mem_union_right _ ((mem_coreSet d).mpr (by omega))

theorem tiles_disjoint (c : ℕ) : ∀ s ∈ (Finset.univ : Finset (Fin 16)), ∀ s' ∈ (Finset.univ : Finset (Fin 16)), s ≠ s' →
    Disjoint (tileSet d c s.val) (tileSet d c s'.val) :=
  fun s _ s' _ hne => Finset.disjoint_left.mpr fun ix h0 h1 => by
    have h0 := (mem_tileSet d).mp h0; have h1 := (mem_tileSet d).mp h1
    exact hne (Fin.ext (by omega))
theorem tiles_cover (c : ℕ) : (Finset.univ : Finset (Fin 16)).biUnion (fun s => tileSet d c s.val) = coreSet d c := by
  ext ix
  rw [Finset.mem_biUnion, mem_coreSet]
  constructor
  · rintro ⟨s, -, hs⟩; exact ((mem_tileSet d).mp hs).1
  · intro h; exact ⟨⟨((ix : S4x8x4096.Idx) 2).val / 128 % 16, Nat.mod_lt _ (by decide)⟩, Finset.mem_univ _, (mem_tileSet d).mpr ⟨h, rfl⟩⟩

theorem tileSet_subset_coreSet (c s : ℕ) : tileSet d c s ⊆ coreSet d c := fun ix h => (mem_coreSet d).mpr ((mem_tileSet d).mp h).1

/-- The result whole is the two SparseCores' columns; -/
theorem g_cores (f : Buf (Elt F) (gLoc d)) :
    (gLoc d ↦{fullShare} f : sProp 𝕄) = iprop((gLoc d ↦[coreSet d 0]{fullShare} f) ∗ gLoc d ↦[coreSet d 1]{fullShare} f) := by
  have hu : (gLoc d ↦[coreSet d 0 ∪ coreSet d 1]{fullShare} f : sProp 𝕄) ⊣⊢ _ := pointsTo_union (cores_disjoint d)
  rw [← BI.equiv_iff.mp ⟨hu.1, hu.2⟩, cores_cover]
/-- a SparseCore's columns are its sixteen subcores'. -/
theorem g_tiles (c : ℕ) (f : Buf (Elt F) (gLoc d)) :
    (gLoc d ↦[coreSet d c]{fullShare} f : sProp 𝕄) = bigSep Finset.univ fun s : Fin 16 => gLoc d ↦[tileSet d c s.val]{fullShare} f := by
  rw [← pointsTo_biUnion Finset.univ (ℓ := gLoc d) (fun s : Fin 16 => tileSet d c s.val) (tiles_disjoint d c), tiles_cover]

end Cuts

/-! ## Where a subcore's entries sit -/

section Rows
variable (d : Dev nD)

theorem gRow_set (L : grid0.Coords) (b : Fin k0_t1_loop.trips) :
    (gRowM L b).view.set = (Rect.unit (s := S4x8x4096) (k0_off2 L b) S1x1x128.size (k0_off2_inb L b)).set := by
  show (((View.whole (main_v64_scv : Ref sig .scVector)).slice (Rect.unit (s := S4x8x4096) (k0_off2 L b) S1x1x128.size (k0_off2_inb L b))).reshape S128 squeezes_S1x1x128_S128.numel_eq).set = _
  rw [View.set_reshape, View.set_slice]; exact Finset.map_refl

/-- The entries the subcore at L writes for batch b are in batch b, in the columns of its SparseCore and of itself. -/
theorem mem_gRow {L : grid0.Coords} {b : Fin k0_t1_loop.trips} {ix : S4x8x4096.Idx} (h : ix ∈ (gRowM L b).view.set) :
    (ix 0).val = b.val ∧ (ix 2).val / 2048 = (L 0).val ∧ (ix 2).val / 128 % 16 = (L 1).val := by
  rw [gRow_set, Rect.mem_set_unit] at h
  have h0 := h 0; have h2 := h 2
  rw [k0_off2_eq] at h0 h2
  have h0' : b.val ≤ (ix 0).val ∧ (ix 0).val < b.val + 1 := h0
  have h2' : 2048 * (L 0).val + 128 * (L 1).val ≤ (ix 2).val ∧ (ix 2).val < 2048 * (L 0).val + 128 * (L 1).val + 128 := h2
  have hL0 : (L 0).val < 2 := (L 0).isLt
  have hL1 : (L 1).val < 16 := (L 1).isLt
  omega

theorem emb_mem_tileSet (L : grid0.Coords) (b : Fin k0_t1_loop.trips) (x : S128.Idx) :
    (gRowM L b).view.emb x ∈ tileSet d (L 0).val (L 1).val :=
  (mem_tileSet d).mpr (mem_gRow (View.emb_mem_set _ x)).2

theorem gRow_subset (L : grid0.Coords) (b : Fin k0_t1_loop.trips) : (gRowM L b).view.set ⊆ tileSet d (L 0).val (L 1).val :=
  fun ix h => (mem_tileSet d).mpr (mem_gRow h).2

/-- Different batches' entries are different entries. -/
theorem emb_not_mem_gRow (L : grid0.Coords) {b b' : Fin k0_t1_loop.trips} (hne : b' ≠ b) (x : S128.Idx) :
    (gRowM L b').view.emb x ∉ (gRowM L b).view.set := fun h =>
  hne (Fin.ext ((mem_gRow (View.emb_mem_set _ x)).1.symm.trans (mem_gRow h).1))

end Rows

/-! ## The operands split and the results join -/

section Joins
variable [FloatOps F] (m : (ℓ : Loc nD τ sig) → Buf (Elt F) ℓ) (d : Dev nD)

theorem core_join (c : ℕ) :
    (bigSep Finset.univ fun s : Fin 16 => iprop(∃ f, ⌜TileIs m d c s.val f⌝ ∗ gPts d (tileSet d c s.val) f) : sProp 𝕄)
      ⊢ iprop(∃ g, ⌜∀ L : grid0.Coords, (L 0).val = c → ∀ b, RowIs m d L b g⌝ ∗ gPts d (coreSet d c) g) := by
  refine (bigSep_exists_pi Finset.univ (fun (s : Fin 16) (f : Buf (Elt F) (gLoc d)) => iprop(⌜TileIs m d c s.val f⌝ ∗ gPts d (tileSet d c s.val) f))).trans ?_
  iintro ⟨%fs, H⟩
  ihave H' := (bigSep_pure_sep Finset.univ (fun s : Fin 16 => TileIs m d c s.val (fs s)) (fun s => gPts d (tileSet d c s.val) (fs s))) $$ H
  icases H' with ⟨%hT, H⟩
  ihave H'' := (pointsTo_biUnion_join Finset.univ (fun s : Fin 16 => tileSet d c s.val) fs (fs 0) (tiles_disjoint d c)) $$ H
  icases H'' with ⟨%g, %hg, Hg⟩
  rw [tiles_cover]
  iexists g; isplitr
  · ipureintro; intro L h0 b k j
    have hs : (L 1).val < 16 := (L 1).isLt
    have hm := emb_mem_tileSet d L b (gAt k j)
    rw [h0] at hm
    rw [hg ⟨(L 1).val, hs⟩ (Finset.mem_univ _) _ hm]
    exact hT ⟨(L 1).val, hs⟩ (Finset.mem_univ _) L h0 rfl b k j
  · iexact Hg

theorem st_join (g0 : Buf (Elt F) (gLoc d)) :
    iprop((aLoc d ↦{fullShare} m (aLoc d)) ∗ (gLoc d ↦{fullShare} g0))
      ⊢ bigSep Finset.univ fun c : Fin ((K (F := F)).nCore 0) => (P m).st 0 d c := by
  show _ ⊢ bigSep (Finset.univ : Finset (Fin 2)) fun c => stP m d c.val
  rw [bigSep_univ_two]
  show _ ⊢ iprop(stP m d 0 ∗ stP m d 1)
  unfold stP
  rw [coreShare_zero, coreShare_one, g_cores]
  iintro ⟨Ha, Hg0, Hg1⟩
  ihave Ha' := (pointsTo_share (PosShare.mem_left_op_right fullShare)).1 $$ Ha
  icases Ha' with ⟨Ha0, Ha1⟩
  isplitl [Ha0 Hg0]
  · isplitl [Ha0]; · iexact Ha0
    iexists g0; iexact Hg0
  · isplitl [Ha1]; · iexact Ha1
    iexists g0; iexact Hg1

theorem dn_join :
    (bigSep Finset.univ fun c : Fin ((K (F := F)).nCore 0) => (P m).dn 0 d c)
      ⊢ iprop((aLoc d ↦{fullShare} m (aLoc d)) ∗ ∃ f, ⌜DiagIs m d f⌝ ∗ gLoc d ↦{fullShare} f) := by
  show (bigSep (Finset.univ : Finset (Fin 2)) fun c => dnP m d c.val) ⊢ _
  rw [bigSep_univ_two]
  show iprop(dnP m d 0 ∗ dnP m d 1) ⊢ _
  unfold dnP
  rw [coreShare_zero, coreShare_one]
  iintro ⟨⟨Ha0, H0⟩, ⟨Ha1, H1⟩⟩
  isplitl [Ha0 Ha1]
  · iapply (pointsTo_share (PosShare.mem_left_op_right fullShare)).2
    isplitl [Ha0]; · iexact Ha0
    iexact Ha1
  ihave H0' := (core_join m d 0) $$ H0
  icases H0' with ⟨%f0, %h0, Hg0⟩
  ihave H1' := (core_join m d 1) $$ H1
  icases H1' with ⟨%f1, %h1, Hg1⟩
  ihave Hg := (pointsTo_join (cores_disjoint d)) $$ [Hg0 Hg1]
  · isplitl [Hg0]; · iexact Hg0
    iexact Hg1
  rw [cores_cover]
  iexists (coreSet d 1).piecewise f1 f0; isplitr
  · ipureintro; intro L b k j
    have hm := tileSet_subset_coreSet d _ _ (emb_mem_tileSet d L b (gAt k j))
    have hL0 : (L 0).val < 2 := (L 0).isLt
    rcases Nat.lt_or_ge (L 0).val 1 with hl | hl
    · have e0 : (L 0).val = 0 := by omega
      rw [e0] at hm
      rw [Finset.piecewise_eq_of_notMem _ _ _ (Finset.disjoint_left.mp (cores_disjoint d) hm)]
      exact h0 L e0 b k j
    · have e1 : (L 0).val = 1 := by omega
      rw [e1] at hm
      rw [Finset.piecewise_eq_of_mem _ _ _ hm]
      exact h1 L e1 b k j
  · iexact Hg

theorem tiles_some (c : ℕ) (f : Buf (Elt F) (gLoc d)) :
    (bigSep Finset.univ fun s : Fin 16 => gPts d (tileSet d c s.val) f : sProp 𝕄)
      ⊢ bigSep Finset.univ fun s : Fin 16 => iprop(∃ f, gPts d (tileSet d c s.val) f) :=
  bigSep_mono fun s _ => exists_intro (Φ := fun f => gPts d (tileSet d c s.val) f) f

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stP m d c.val ⊢ |={Set.univ}=> iprop((bigSep Finset.univ fun i : Fin ((K (F := F)).nSub 0) => goP m d c.val (Fin.cast nSub_zero i))
    ∗ ((bigSep Finset.univ fun i : Fin ((K (F := F)).nSub 0) => tdP m d c.val (Fin.cast nSub_zero i)) -∗ dnP m d c.val))
  rw [bigSep_tasks (F := F) (fun i => goP m d c.val i), bigSep_tasks (F := F) (fun i => tdP m d c.val i)]
  unfold stP goP tdP dnP
  rw [bigSep_sep', bigSep_sep']
  iintro ⟨Ha, %f, Hg⟩
  ihave Ha' := (Transfers.pointsTo_toks_split (coreShare c.val) 16) $$ Ha
  icases Ha' with ⟨Hdrop, Htoks⟩
  ihave Hg' := (Entails.of_eq (g_tiles d c.val f)) $$ Hg
  imodintro
  isplitl [Htoks Hg']
  · isplitl [Htoks]; · iexact Htoks
    iapply (tiles_some d c.val f); iexact Hg'
  · iintro ⟨Htoks', Hgs⟩
    isplitl [Hdrop Htoks']
    · iapply (Transfers.pointsTo_toks_join (coreShare c.val) 16)
      isplitl [Hdrop]; · iexact Hdrop
      iexact Htoks'
    · iexact Hgs

end Joins

end Cert.Proof.KI

end
-- ==== Proof.ScBodyI.lean ====
/-
  The task of one vector subcore, proved once at a symbolic grid point, and from it the launch theorem's obligation
  for the kernel.

  For each of the four batches b the subcore copies its 128×128 diagonal block of A[b] into its block scratch and waits
  for it; then for each group k of sixteen rows it loads rows 16k … 16k+15 of the scratch at columns 16k … 16k+15,
  accumulates them lane by lane from zero (row i contributes in lane i, a zero elsewhere) and stores the sixteen lanes
  at entries 16k … 16k+15 of its row scratch; then it copies the row scratch to its 128 entries of row 0 of batch b of
  the result and waits for that. Every copy is waited for before its source or destination is touched again, so the two
  semaphores' counters are at zero between the steps and no schedule is needed. The loop's invariant carries the
  value: the batches below the trip are written, each entry the accumulation over the block read from the launch
  contents of A. What the eight stores leave is read back through one function of the entry (G) that every store is a
  piece of; the stores' payloads carry a final cast between equal shapes, which is the identity.
-/
import Idealize.ShloMosaic.Lib.ValueLayout
import Idealize.ShloMosaic.Lib.Writes
import proofs.«208576_g46445776339566_cont_8to1c4_655_26_alg».proof.Proof.ScPayI
import proofs.«208576_g46445776339566_cont_8to1c4_655_26_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## What the stores leave -/

section Values

local notation "s4W" => (Memref.whole Cert.KernelIdeal.cc0_scratch0 : Memref Cert.KernelIdeal.sig Kind.scVector Space.vmem Cert.KernelIdeal.S128x128 EltTy.f32)
local notation "s5W" => (Memref.whole Cert.KernelIdeal.cc0_scratch1 : Memref Cert.KernelIdeal.sig Kind.scVector Space.vmem Cert.KernelIdeal.S128 EltTy.f32)

variable [FloatOps F] {thr : Thread nD τ}

theorem inb_row {r c : ℕ} (hr : r < 128) (hc : c + 16 ≤ 128) : ∀ a, (![r, c] : Fin 2 → Nat) a + S1x16.size a ≤ S128x128.size a := by
  intro a; match a with
  | ⟨0, _⟩ => show r + 1 ≤ 128; omega
  | ⟨1, _⟩ => show c + 16 ≤ 128; omega

/-- Sixteen columns from column c of row r of the block scratch, as the vector a load of them gives. -/
def rowAt (c4 : (s4W).view.ty.Contents (Elt F)) (r c : ℕ) (hr : r < 128) (hc : c + 16 ≤ 128) : FVec F S16 .f32 :=
  shapeCast S16 ((s4W).view.readAt (Elt F) (Rect.unit (s := S128x128) ![r, c] S1x16.size (inb_row hr hc)).toLoadRect c4) shapeCasts_S1x16_S16

/-- The sixteen loads of group k. -/
def rows16 (c4 : (s4W).view.ty.Contents (Elt F)) (k : Fin 8) : Fin 16 → FVec F S16 .f32 :=
  fun i => rowAt c4 (16 * k.val + i.val) (16 * k.val) (by omega) (by omega)

theorem rowAt_apply (c4 : (s4W).view.ty.Contents (Elt F)) (r c : ℕ) (hr : r < 128) (hc : c + 16 ≤ 128) (jj : S16.Idx) :
    rowAt c4 r c hr hc jj = (s4W).view.read (Elt F) c4 (ix2 (n0 := 128) (n1 := 128) ⟨r, hr⟩ ⟨c + (jj 0).val, by have h : (jj 0).val < 16 := (jj 0).isLt; omega⟩) := by
  obtain ⟨a, rfl⟩ : ∃ a : Fin 16, jj = ix1 (n := 16) a := ⟨jj 0, eq_ix1 (n := 16) jj⟩
  unfold rowAt
  rw [shapeCast_1a_a_apply (a := 16), View.readAt_apply]
  congr 1
  funext a
  match a with
  | ⟨0, _⟩ => exact Fin.ext (by simp [LoadRect.idx_apply])
  | ⟨1, _⟩ => exact Fin.ext (by simp [LoadRect.idx_apply])

theorem rows16_eq (c4 : (s4W).view.ty.Contents (Elt F)) (blk : S128x128.Idx → F .f32) (hblk : ∀ r, (s4W).view.read (Elt F) c4 r = blk r) (k : Fin 8) :
    rows16 c4 k = blkRows blk k := by
  funext i jj
  unfold rows16 blkRows
  rw [rowAt_apply, hblk]

/-- The eight stores of one batch, the last first: group k's sixteen lanes at entries 16k … 16k+15. -/
def pcs (c4 : (s4W).view.ty.Contents (Elt F)) : List (View.Piece (Elt F) S128 .f32) :=
  [⟨Rect.unit (s := S128) ![112] S16.size inb_S128_S16_112, shapeCast S16 (diagVec lanes (rows16 c4 7)) shapeCasts_S16_S16⟩,
   ⟨Rect.unit (s := S128) ![96] S16.size inb_S128_S16_96, shapeCast S16 (diagVec lanes (rows16 c4 6)) shapeCasts_S16_S16⟩,
   ⟨Rect.unit (s := S128) ![80] S16.size inb_S128_S16_80, shapeCast S16 (diagVec lanes (rows16 c4 5)) shapeCasts_S16_S16⟩,
   ⟨Rect.unit (s := S128) ![64] S16.size inb_S128_S16_64, shapeCast S16 (diagVec lanes (rows16 c4 4)) shapeCasts_S16_S16⟩,
   ⟨Rect.unit (s := S128) ![48] S16.size inb_S128_S16_48, shapeCast S16 (diagVec lanes (rows16 c4 3)) shapeCasts_S16_S16⟩,
   ⟨Rect.unit (s := S128) ![32] S16.size inb_S128_S16_32, shapeCast S16 (diagVec lanes (rows16 c4 2)) shapeCasts_S16_S16⟩,
   ⟨Rect.unit (s := S128) ![16] S16.size inb_S128_S16_16, shapeCast S16 (diagVec lanes (rows16 c4 1)) shapeCasts_S16_S16⟩,
   ⟨Rect.unit (s := S128) ![0] S16.size inb_S128_S16_0, shapeCast S16 (diagVec lanes (rows16 c4 0)) shapeCasts_S16_S16⟩]

/-- The one function all eight stores are pieces of. -/
def G (blk : S128x128.Idx → F .f32) : S128.Idx → F .f32 := fun y =>
  diagVec lanes (blkRows blk ⟨(y 0).val / 16, by have h : (y 0).val < 128 := (y 0).isLt; omega⟩) (ix1 (n := 16) ⟨(y 0).val % 16, Nat.mod_lt _ (by decide)⟩)

theorem G_gAt (blk : S128x128.Idx → F .f32) (k : Fin 8) (j : Fin 16) : G blk (gAt k j) = diagVec lanes (blkRows blk k) (ix1 j) := by
  unfold G
  have e1 : (⟨((gAt k j) 0).val / 16, by have h : ((gAt k j) 0).val < 128 := ((gAt k j) 0).isLt; omega⟩ : Fin 8) = k :=
    Fin.ext (by show (16 * k.val + j.val) / 16 = k.val; omega)
  have e2 : (⟨((gAt k j) 0).val % 16, Nat.mod_lt _ (by decide)⟩ : Fin 16) = j :=
    Fin.ext (by show (16 * k.val + j.val) % 16 = j.val; omega)
  rw [e1, e2]

theorem piece_agrees (c4 : (s4W).view.ty.Contents (Elt F)) (blk : S128x128.Idx → F .f32) (hblk : ∀ r, (s4W).view.read (Elt F) c4 r = blk r)
    (k : Fin 8) (h : ∀ a, (![16 * k.val] : Fin 1 → Nat) a + S16.size a ≤ S128.size a) (x : S16.Idx) :
    shapeCast S16 (diagVec lanes (rows16 c4 k)) shapeCasts_S16_S16 x = G blk ((Rect.unit (s := S128) ![16 * k.val] S16.size h).emb x) := by
  rw [shapeCast_self]
  have hx : (x 0).val < 16 := (x 0).isLt
  have hy : (((Rect.unit (s := S128) ![16 * k.val] S16.size h).emb x) 0).val = 16 * k.val + (x 0).val := by
    rw [Rect.emb_apply]; show 16 * k.val + 1 * (x 0).val = _; omega
  unfold G
  have e1 : (⟨(((Rect.unit (s := S128) ![16 * k.val] S16.size h).emb x) 0).val / 16,
      by have h' : (((Rect.unit (s := S128) ![16 * k.val] S16.size h).emb x) 0).val < 128 := (((Rect.unit (s := S128) ![16 * k.val] S16.size h).emb x) 0).isLt; omega⟩ : Fin 8) = k :=
    Fin.ext (by show (((Rect.unit (s := S128) ![16 * k.val] S16.size h).emb x) 0).val / 16 = k.val; rw [hy]; omega)
  have e2 : (ix1 (n := 16) ⟨(((Rect.unit (s := S128) ![16 * k.val] S16.size h).emb x) 0).val % 16, Nat.mod_lt _ (by decide)⟩ : S16.Idx) = x := by
    rw [eq_ix1 x]; congr 1; exact Fin.ext (by show (((Rect.unit (s := S128) ![16 * k.val] S16.size h).emb x) 0).val % 16 = (x 0).val; rw [hy]; omega)
  rw [e1, e2, rows16_eq c4 blk hblk]

/-- Read back after the eight stores, entry 16k+j is lane j of group k's accumulation. -/
theorem pieces_read (c4 : (s4W).view.ty.Contents (Elt F)) (f5 : (s5W).view.ty.Contents (Elt F)) (blk : S128x128.Idx → F .f32)
    (hblk : ∀ r, (s4W).view.read (Elt F) c4 r = blk r) (k : Fin 8) (j : Fin 16) :
    (s5W).view.read (Elt F) ((s5W).view.writes (Elt F) f5 (pcs c4)) (gAt k j) = diagVec lanes (blkRows blk k) (ix1 j) := by
  rw [← G_gAt]
  refine View.read_writes_apply_of_pieces (s5W).view f5 (G blk) (pcs c4) ?_ (gAt k j) ?_
  · intro p hp x
    simp only [pcs, List.mem_cons, List.not_mem_nil, or_false] at hp
    rcases hp with rfl | rfl | rfl | rfl | rfl | rfl | rfl | rfl
    · exact piece_agrees c4 blk hblk 7 inb_S128_S16_112 x
    · exact piece_agrees c4 blk hblk 6 inb_S128_S16_96 x
    · exact piece_agrees c4 blk hblk 5 inb_S128_S16_80 x
    · exact piece_agrees c4 blk hblk 4 inb_S128_S16_64 x
    · exact piece_agrees c4 blk hblk 3 inb_S128_S16_48 x
    · exact piece_agrees c4 blk hblk 2 inb_S128_S16_32 x
    · exact piece_agrees c4 blk hblk 1 inb_S128_S16_16 x
    · exact piece_agrees c4 blk hblk 0 inb_S128_S16_0 x
  · have hj : j.val < 16 := j.isLt
    have hmem : ∀ (kk : ℕ) (h : ∀ a, (![16 * kk] : Fin 1 → Nat) a + S16.size a ≤ S128.size a), k.val = kk →
        gAt k j ∈ (Rect.unit (s := S128) ![16 * kk] S16.size h).set := by
      intro kk h e
      rw [Rect.mem_set_unit]; intro a
      obtain rfl : a = 0 := Subsingleton.elim _ _
      show 16 * kk ≤ 16 * k.val + j.val ∧ 16 * k.val + j.val < 16 * kk + 16
      omega
    unfold pcs
    match k with
    | ⟨7, _⟩ => exact ⟨_, List.mem_cons_self, hmem 7 inb_S128_S16_112 rfl⟩
    | ⟨6, _⟩ => exact ⟨_, List.mem_cons_of_mem _ List.mem_cons_self, hmem 6 inb_S128_S16_96 rfl⟩
    | ⟨5, _⟩ => exact ⟨_, List.mem_cons_of_mem _ (List.mem_cons_of_mem _ List.mem_cons_self), hmem 5 inb_S128_S16_80 rfl⟩
    | ⟨4, _⟩ => exact ⟨_, List.mem_cons_of_mem _ (List.mem_cons_of_mem _ (List.mem_cons_of_mem _ List.mem_cons_self)), hmem 4 inb_S128_S16_64 rfl⟩
    | ⟨3, _⟩ => exact ⟨_, List.mem_cons_of_mem _ (List.mem_cons_of_mem _ (List.mem_cons_of_mem _ (List.mem_cons_of_mem _ List.mem_cons_self))), hmem 3 inb_S128_S16_48 rfl⟩
    | ⟨2, _⟩ => exact ⟨_, List.mem_cons_of_mem _ (List.mem_cons_of_mem _ (List.mem_cons_of_mem _ (List.mem_cons_of_mem _ (List.mem_cons_of_mem _ List.mem_cons_self)))), hmem 2 inb_S128_S16_32 rfl⟩
    | ⟨1, _⟩ => exact ⟨_, List.mem_cons_of_mem _ (List.mem_cons_of_mem _ (List.mem_cons_of_mem _ (List.mem_cons_of_mem _ (List.mem_cons_of_mem _ (List.mem_cons_of_mem _ List.mem_cons_self))))), hmem 1 inb_S128_S16_16 rfl⟩
    | ⟨0, _⟩ => exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), hmem 0 inb_S128_S16_0 rfl⟩

end Values

section Step
variable [FloatOps F] (m : (ℓ : Loc nD τ sig) → Buf (Elt F) ℓ) (d : Dev nD) (L : grid0.Coords)

omit [FloatOps F] in
/-- Off the 128 entries written, the copy-out changes nothing; -/
theorem writes_off (k : Fin k0_t1_loop.trips) (f : Buf (Elt F) (gLoc d)) (vals : S128.Idx → Elt F .f32)
    {i : Idx (gLoc d)} (hi : i ∉ (gRowM L k).view.set) :
    (gRowM L k).view.writes (Elt F) f [⟨Rect.whole S128, vals⟩] i = f i :=
  View.writes_apply_of_forall_ne (gRowM L k).view f _ fun y e => hi (e ▸ View.emb_mem_set _ y)

omit [FloatOps F] in
/-- on them it leaves what was copied. -/
theorem writes_on (k : Fin k0_t1_loop.trips) (f : Buf (Elt F) (gLoc d)) (vals : S128.Idx → Elt F .f32) (y : S128.Idx) :
    (gRowM L k).view.writes (Elt F) f [⟨Rect.whole S128, vals⟩] ((gRowM L k).view.emb y) = vals y := by
  have h := View.read_writes_cons_emb (gRowM L k).view f (Rect.whole S128) vals [] y
  rw [Rect.emb_whole_apply] at h
  exact ((View.read_apply _ _).trans (cast_eq _ _)).symm.trans h

/-- One more batch written: the batches below stay, the new one is the copied values. -/
theorem rowIs_step (k : Fin k0_t1_loop.trips) (f : Buf (Elt F) (gLoc d)) (vals : S128.Idx → Elt F .f32)
    (hf : ∀ b : Fin k0_t1_loop.trips, b.val < k.val → RowIs m d L b f)
    (hv : ∀ (kk : Fin 8) (j : Fin 16), vals (gAt kk j) = diagVec lanes (blkRows (blkOf m d L k) kk) (ix1 j)) :
    ∀ b : Fin k0_t1_loop.trips, b.val < k.val + 1 → RowIs m d L b ((gRowM L k).view.writes (Elt F) f [⟨Rect.whole S128, vals⟩]) := by
  intro b hb kk j
  by_cases hbk : b = k
  · subst hbk
    rw [writes_on]; exact hv kk j
  · have hlt : b.val < k.val := by
      have : b.val ≠ k.val := fun e => hbk (Fin.ext e)
      omega
    rw [writes_off d L k f vals (emb_not_mem_gRow L hbk _)]
    exact hf b hlt kk j

end Step

/-! ## The task of one vector subcore -/

open Idealize.ShloMosaic.Tactic

section Tile

local notation "aW" => (Memref.whole Cert.KernelIdeal.main_arg1_scv : Memref Cert.KernelIdeal.sig Kind.scVector Space.hbm Cert.KernelIdeal.S4x4096x4096 EltTy.f32)
local notation "gW" => (Memref.whole Cert.KernelIdeal.main_v64_scv : Memref Cert.KernelIdeal.sig Kind.scVector Space.hbm Cert.KernelIdeal.S4x8x4096 EltTy.f32)
local notation "s4W" => (Memref.whole Cert.KernelIdeal.cc0_scratch0 : Memref Cert.KernelIdeal.sig Kind.scVector Space.vmem Cert.KernelIdeal.S128x128 EltTy.f32)
local notation "s5W" => (Memref.whole Cert.KernelIdeal.cc0_scratch1 : Memref Cert.KernelIdeal.sig Kind.scVector Space.vmem Cert.KernelIdeal.S128 EltTy.f32)

variable [FloatOps F] (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
abbrev jL (L : grid0.Coords) : Fin 16 := ⟨(L 1).val, (L 1).isLt⟩

/-- The subcore's two semaphores: the copy-in's and the copy-out's. -/
abbrev c6cell (d : Dev nD) (L : grid0.Coords) : GSem nD τ sig := (V d (cV L) (jV L), .dma cc0_scratch2.sem)
abbrev c7cell (d : Dev nD) (L : grid0.Coords) : GSem nD τ sig := (V d (cV L) (jV L), .dma cc0_scoped0.sem)

omit [FloatOps F] in
theorem ownSems0_V :
    (ownSems0 (V d (cV L) (jV L)) : sProp 𝕄)
      = iprop(semVal (c6cell d L) 0 ∗ semVal (c7cell d L) 0
          ∗ bigSep (((ownCells (V d (cV L) (jV L))).erase (c6cell d L)).erase (c7cell d L)) fun g => semVal g 0) := by
  unfold SparseCore.Cfg.ownSems0
  rw [SparseCore.bigSep_erase' ((mem_ownCells (g := c6cell d L)).mpr ⟨rfl, by
      show (SemLoc.dma cc0_scratch2.sem : SemLoc sig).isScoped .scVector = true; decide⟩),
    SparseCore.bigSep_erase' (Finset.mem_erase.mpr ⟨by simp [c6cell, c7cell]; decide, (mem_ownCells (g := c7cell d L)).mpr ⟨rfl, by
      show (SemLoc.dma cc0_scoped0.sem : SemLoc sig).isScoped .scVector = true; decide⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_a (q : PosShare TreeShare) (f : Buf (Elt F) (aLoc d)) :
    ((aW).view.loc (V d (cV L) (jV L)) ↦{q} f : sProp 𝕄) = aLoc d ↦{q} f := rfl
omit [FloatOps F] in
theorem pts_s4 (f : Buf (Elt F) ((V d (cV L) (jV L)).loc cc0_scratch0)) :
    ((s4W).view.loc (V d (cV L) (jV L)) ↦{fullShare} f : sProp 𝕄) = (V d (cV L) (jV L)).loc cc0_scratch0 ↦{fullShare} f := rfl
omit [FloatOps F] in
theorem pts_s5 (f : Buf (Elt F) ((V d (cV L) (jV L)).loc cc0_scratch1)) :
    ((s5W).view.loc (V d (cV L) (jV L)) ↦{fullShare} f : sProp 𝕄) = (V d (cV L) (jV L)).loc cc0_scratch1 ↦{fullShare} f := rfl
omit [FloatOps F] in
theorem pts_gRow (b : Fin k0_t1_loop.trips) (f : Buf (Elt F) (gLoc d)) :
    ((gRowM L b).view.loc (V d (cV L) (jV L)) ↦[(gRowM L b).view.set]{fullShare} f : sProp 𝕄) = gLoc d ↦[(gRowM L b).view.set]{fullShare} f := rfl

/-- The loop's invariant before batch k: the read token of A, the subcore's columns of the result with the batches
    below k written, the two scratch buffers at some contents, both semaphores' counters at zero. -/
def inv (O : CellTallies nD τ sig (HIx 1)) (W : Waits sig (HIx 1)) (k : Nat) (_ : PUnit) : sProp 𝕄 :=
  iprop(Transfers.MayWaits (V d (cV L) (jV L)) (none : HIx 1) O
    ∗ ((aW).view.loc (V d (cV L) (jV L)) ↦{tileShare (L 0).val (jL L)} m (aLoc d))
    ∗ (∃ f, ⌜∀ b : Fin k0_t1_loop.trips, b.val < k → RowIs m d L b f⌝ ∗ gLoc d ↦[tileSet d (L 0).val (L 1).val]{fullShare} f)
    ∗ (∃ f, (s4W).view.loc (V d (cV L) (jV L)) ↦{fullShare} f)
    ∗ (∃ f, (s5W).view.loc (V d (cV L) (jV L)) ↦{fullShare} f)
    ∗ semVal (c6cell d L) 0 ∗ semVal (c7cell d L) 0
    ∗ ∃ W', ⌜∀ p ∈ W', p ∈ W ∨ p.2 = none⌝ ∗ owes (V d (cV L) (jV L)) O W')

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ goP m d (L 0).val (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_diag_body L aW (Memref.isWhole_whole _) gW (Memref.isWhole_whole _) s4W (Memref.isWhole_whole _) s5W (Memref.isWhole_whole _) cc0_scratch2 cc0_scoped0)
          fun _ => iprop(tdP m d (L 0).val (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_diag_body_eq_skeleton]; unfold cc0__sc_diag_body_skel
  rw [(K (F := F)).scopedBufs_V hF d (cV L) (jV L), SparseCore.Cfg.scopedSems0_V (Val := Elt F) d (cV L) (jV L), ownSems0_V, ownBufs_V]
  unfold goP
  iintro ⟨#Hlv, -, ⟨Ha, %g0, Hg⟩, ⟨⟨%f4, H4⟩, ⟨%f5, H5⟩, Hbufs⟩, ⟨Hsem6, Hsem7, Hsems⟩, HO⟩
  ihave Hmw := ((K (F := F)).mayWaits_none (thr := V d (cV L) (jV L)) hO) $$ Hlv
  ihave Ha' := (Entails.of_eq (pts_a (F := F) d L _ _).symm) $$ Ha
  ihave H4' := (Entails.of_eq (pts_s4 (F := F) d L _).symm) $$ H4
  ihave H5' := (Entails.of_eq (pts_s5 (F := F) d L _).symm) $$ H5
  sl_exec
  sl_for (inv m d L O W) $$ [Hmw Ha' Hg H4' H5' Hsem6 Hsem7 HO]
  case region =>
    intro k _
    unfold inv
    iintro ⟨Hmw, Ha, ⟨%f, %hf, Hg⟩, ⟨%f4, H4⟩, ⟨%f5, H5⟩, Hsem6, Hsem7, %W', %hW', HO⟩
    ihave Hsp := (pointsTo_split_subset (gRow_subset d L k)).1 $$ Hg
    icases Hsp with ⟨Hrow, Hrest⟩
    ihave Hrow' := (Entails.of_eq (pts_gRow (F := F) d L k f).symm) $$ Hrow
    sl_exec_parts
    -- the block scratch holds the subcore's block of A[k]
    have hblk : ∀ r, (s4W).view.read (Elt F) (View.write (Elt F) (s4W).view f4 (tile_body.sl.dma0 m d L k) Finset.univ) r = blkOf m d L k r := by
      intro r
      show (View.whole cc0_scratch0).read (Elt F) ((View.whole cc0_scratch0).write (Elt F) f4 (tile_body.sl.dma0 m d L k) Finset.univ) r = _
      rw [View.write_whole_univ]
      exact ((View.read_apply _ _).trans (cast_eq _ _)).trans ((View.read_apply _ _).trans (cast_eq _ _))
    -- the eight stores, read back: entry 16kk+j of what is copied out is lane j of group kk's accumulation
    have hval : ∀ (kk : Fin 8) (j : Fin 16), tile_body.sl.dma144 m d L k f4 f5 (gAt kk j) = diagVec lanes (blkRows (blkOf m d L k) kk) (ix1 j) :=
      pieces_read (View.write (Elt F) (s4W).view f4 (tile_body.sl.dma0 m d L k) Finset.univ) f5 (blkOf m d L k) hblk
    sl_step
    isplitl [Hmw]; · iexact Hmw
    isplitl [Ha]; · iexact Ha
    isplitl [Hrow' Hrest]
    · iexists ((gRowM L k).view.writes (Elt F) f [⟨Rect.whole S128, tile_body.sl.dma144 m d L k f4 f5⟩])
      isplitr
      · ipureintro; exact rowIs_step m d L k f _ hf hval
      · ihave Hrow := (Entails.of_eq (pts_gRow (F := F) d L k _)) $$ Hrow'
        ihave Hrest' := (Entails.of_eq (pointsTo_congr (q := fullShare) (ℓ := gLoc d)
            (I := tileSet d (L 0).val (L 1).val \ (gRowM L k).view.set) (f := f)
            (g := (gRowM L k).view.writes (Elt F) f [⟨Rect.whole S128, tile_body.sl.dma144 m d L k f4 f5⟩])
            fun i hi => (writes_off d L k f _ (Finset.mem_sdiff.mp hi).2).symm)) $$ Hrest
        iapply (pointsTo_split_subset (gRow_subset d L k)).2
        isplitl [Hrow]; · iexact Hrow
        iexact Hrest'
    isplitl [H4]; · iexists _; iexact H4
    isplitl [H5]; · iexists _; iexact H5
    isplitl [Hsem6]; · iexact Hsem6
    isplitl [Hsem7]; · iexact Hsem7
    iexists (insert (SemLoc.dma cc0_scoped0.sem, (default : HIx 1)) (insert (SemLoc.dma cc0_scratch2.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold inv
    isplitl [Hmw]; · iexact Hmw
    isplitl [Ha']; · iexact Ha'
    isplitl [Hg]
    · iexists g0; isplitr
      · ipureintro; intro b hb; exact absurd hb (Nat.not_lt_zero _)
      · iexact Hg
    isplitl [H4']; · iexists _; iexact H4'
    isplitl [H5']; · iexists _; iexact H5'
    isplitl [Hsem6]; · iexact Hsem6
    isplitl [Hsem7]; · iexact Hsem7
    iexists W; isplitr
    · ipureintro; exact fun p hp => .inl hp
    · iexact HO
  iintro %_ HI
  unfold inv
  icases HI with ⟨-, Ha, ⟨%f, %hf, Hg⟩, ⟨%f4, H4⟩, ⟨%f5, H5⟩, Hsem6, Hsem7, %W', %hW', HO⟩
  sl_exec
  sl_step
  unfold tdP
  isplitl [Ha Hg]
  · isplitl [Ha]; · iapply (Entails.of_eq (pts_a (F := F) d L _ _)); iexact Ha
    iexists f; isplitr
    · ipureintro; intro L' h0 h1 b
      have hL : L' = L := by
        funext a
        match a with
        | ⟨0, _⟩ => exact Fin.ext h0
        | ⟨1, _⟩ => exact Fin.ext h1
      subst hL
      exact hf b b.isLt
    · iexact Hg
  isplitl [H4 H5 Hbufs]
  · isplitl [H4]; · iexists _; iapply (Entails.of_eq (pts_s4 (F := F) d L _)); iexact H4
    isplitl [H5]; · iexists _; iapply (Entails.of_eq (pts_s5 (F := F) d L _)); iexact H5
    iexact Hbufs
  isplitl [Hsem6 Hsem7 Hsems]
  · isplitl [Hsem6]; · iexact Hsem6
    isplitl [Hsem7]; · iexact Hsem7
    iexact Hsems
  iexists W'; isplitr
  · ipureintro; exact hW'
  · iexact HO

end Tile

/-! ## The launch theorem's obligation -/

section Obl

local notation "aW" => (Memref.whole Cert.KernelIdeal.main_arg1_scv : Memref Cert.KernelIdeal.sig Kind.scVector Space.hbm Cert.KernelIdeal.S4x4096x4096 EltTy.f32)
local notation "gW" => (Memref.whole Cert.KernelIdeal.main_v64_scv : Memref Cert.KernelIdeal.sig Kind.scVector Space.hbm Cert.KernelIdeal.S4x8x4096 EltTy.f32)
local notation "s4W" => (Memref.whole Cert.KernelIdeal.cc0_scratch0 : Memref Cert.KernelIdeal.sig Kind.scVector Space.vmem Cert.KernelIdeal.S128x128 EltTy.f32)
local notation "s5W" => (Memref.whole Cert.KernelIdeal.cc0_scratch1 : Memref Cert.KernelIdeal.sig Kind.scVector Space.vmem Cert.KernelIdeal.S128 EltTy.f32)

variable [FloatOps F] (m : (ℓ : Loc nD τ sig) → Buf (Elt F) ℓ)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_diag_body (coordsV c s)
          aW (Memref.isWhole_whole _) gW (Memref.isWhole_whole _) s4W (Memref.isWhole_whole _) s5W (Memref.isWhole_whole _) cc0_scratch2 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

end Obl

end Cert.Proof.KI

end
-- ==== Proof.TcRunsI.lean ====
/-
  The TensorCore kernel's body, run once per control path, on any whole staging memrefs.

  At grid point (b, r) the body takes one of three paths. For r = 0 it loads the block of adjacency rows, zeroes column 0
  of the scratch, adds the block's column sums to it and stores the block's row sums into rows [0, 1024) of column 1.
  For 0 < r < 4 it does the same without the zeroing, the row sums going to rows [1024 r, 1024 r + 1024). For r = 4 it
  reads the features' block, the weights, columns 0 and 1 of the scratch and row 0 of the diagonal's block, and stores
  the 64 results into the result's staging buffer, whole. Each run states what the scratch, or the result's buffer,
  holds afterwards as a pure term of what the body loaded.
-/
import proofs.«208576_g46445776339566_cont_8to1c4_655_26_alg».proof.Proof.SetupI
import proofs.«208576_g46445776339566_cont_8to1c4_655_26_alg».proof.Proof.ScratchColsI
import proofs.«208576_g46445776339566_cont_8to1c4_655_26_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.WritesUnit
import Idealize.ShloMosaic.Lib.ValueIdx
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's branch conditions, in closed form over the grid -/

/-- The inner condition of the first branch: the second grid coordinate is zero. -/
abbrev cond0 (i : grid1.Coords) : Prop :=
  (Scalar.cmpi .ne (Scalar.extui (Scalar.cmpi .eq (BitVec.ofNat 32 (i 1).val) 0#32)) 0#32) = 1#1

/-- The first branch is taken at the points whose second coordinate is below 4, -/
theorem hcond1 : ∀ t : Fin cfg1.N, k1_cond1 (grid1.coords t) = 1#1 ↔ t.val % 5 < 4 :=
  (by decide +kernel : ∀ t : Fin grid1.N, k1_cond1 (grid1.coords t) = 1#1 ↔ t.val % 5 < 4)
/-- its inner branch where that coordinate is 0, -/
theorem hcond0 : ∀ t : Fin cfg1.N, cond0 (grid1.coords t) ↔ t.val % 5 = 0 :=
  (by decide +kernel : ∀ t : Fin grid1.N, cond0 (grid1.coords t) ↔ t.val % 5 = 0)
/-- and the second branch where it is 4. -/
theorem hcond3 : ∀ t : Fin cfg1.N, k1_cond3 (grid1.coords t) = 1#1 ↔ t.val % 5 = 4 :=
  (by decide +kernel : ∀ t : Fin grid1.N, k1_cond3 (grid1.coords t) = 1#1 ↔ t.val % 5 = 4)

/-! ## The scratch's two columns, and what one point's stores do to it -/

/-- Columns 0 and 1 of the scratch, as rectangles of it. -/
abbrev R0 : Rect S4096x8 := Rect.unit (s := S4096x8) ![0, 0] S4096x1.size inb_S4096x8_S4096x1_0_0
abbrev R1 : Rect S4096x8 := Rect.unit (s := S4096x8) ![0, 1] S4096x1.size inb_S4096x8_S4096x1_0_1
/-- Row 0 of the diagonal's block. -/
abbrev Rd : Rect S1x8x4096 := Rect.unit (s := S1x8x4096) ![0, 0, 0] S1x1x4096.size inb_S1x8x4096_S1x1x4096_0_0_0

/-- What the stores of a point with second coordinate below 4 do to the scratch, read index by index: column 0
    becomes `c0`; rows [o, o + 1024) of column 1 become the block's row sums; the other rows of column 1 stay. -/
def StepA (o : ℕ) (x0 : Vec F S1x1024x4096 .f32) (c0 : FVec F S4096x1 .f32) (xs xs' : Vec F S4096x8 .f32) : Prop :=
  View.ld xs' R0 = c0
    ∧ (∀ (y : S4096x8.Idx) (x : S1024x1.Idx), (y 1).val = 1 → (y 0).val = o + (x 0).val → xs' y = k1_pay4 x0 x)
    ∧ (∀ y : S4096x8.Idx, (y 1).val = 1 → ((y 0).val < o ∨ o + 1024 ≤ (y 0).val) → xs' y = xs y)

theorem hz2 : (![0, 0] : Fin 2 → ℕ) = fun _ => 0 := funext fun a => by fin_cases a <;> rfl
theorem hz3 : (![0, 0, 0] : Fin 3 → ℕ) = fun _ => 0 := funext fun a => by fin_cases a <;> rfl

/-- A load of a whole staging memref through the whole-shape rectangle reads its contents. -/
theorem readAt_whole_unread {S : Shape} {m : Memref sig .tc .vmem S .f32} (h : m.IsWhole) {off : Fin S.rank → ℕ}
    (hz : off = fun _ => 0) (inb : ∀ a, off a + S.size a ≤ S.size a) (X : S.Idx → Elt F .f32) :
    View.readAt (Elt F) m.view (Rect.unit off S.size inb).toLoadRect (h.unread X) = X := by
  rw [View.readAt_eq_ld, h.read_unread]; exact View.ld_unit_zero hz inb X

/-- A load of a whole staging memref through a rectangle reads its contents there. -/
theorem readAt_unread {S : Shape} {m : Memref sig .tc .vmem S .f32} (h : m.IsWhole) (r : Rect S) (X : S.Idx → Elt F .f32) :
    View.readAt (Elt F) m.view r.toLoadRect (h.unread X) = View.ld X r := by
  rw [View.readAt_eq_ld, h.read_unread]

set_option maxHeartbeats 1000000 in
/-- Second coordinate 0: column 0 of the scratch is zeroed, then the block's column sums are added to it and its row sums
    stored into rows [0, 1024) of column 1. The scratch is held at contents `xs`, the adjacency block at `x0`; nothing
    else is touched. -/
theorem kernelRunA0 (c : Dev nD) (i : grid1.Coords) (arg2 : Memref sig .tc .vmem S1x1024x4096 .f32) (harg2 : arg2.IsWhole) (arg3 : Memref sig .tc .vmem S1x4096x64 .f32) (harg3 : arg3.IsWhole) (arg4 : Memref sig .tc .vmem S1x8x4096 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S8x512 .f32) (harg7 : arg7.IsWhole) (arg8 : Memref sig .tc .vmem S512x64 .f32) (harg8 : arg8.IsWhole) (arg9 : Memref sig .tc .vmem S1x64 .f32) (harg9 : arg9.IsWhole) (arg10 : Memref sig .tc .vmem S1x1x64 .f32) (harg10 : arg10.IsWhole) (arg11 : Memref sig .tc .vmem S4096x8 .f32) (harg11 : arg11.IsWhole)
    (hc1 : k1_cond1 i = 1#1) (hc0 : cond0 i) (hc3 : ¬ k1_cond3 i = 1#1)
    (x0 : Vec F S1x1024x4096 .f32) (xs : Vec F S4096x8 .f32) (E : Set ℕ) (K : PUnit → sProp 𝕄) :
    iprop(owns (c : Thread nD τ) arg2 fullShare x0 ∗ owns (c : Thread nD τ) arg11 fullShare xs
        ∗ (iprop(owns (c : Thread nD τ) arg2 fullShare x0
            ∗ (∃ xs' : Vec F S4096x8 .f32, owns (c : Thread nD τ) arg11 fullShare xs'
                ∗ ⌜StepA (1024 * (i 1).val) x0 (k1_pay3 x0 (k1_pay2 (F := F))) xs xs'⌝)) -∗ K ⟨⟩))
      ⊢ wp frame (wpE (defs₀ (F := F)) 𝒱₀ c none) E (cc1__fused_body i arg2 harg2 arg3 harg3 arg4 harg4 arg5 harg5 arg6 harg6 arg7 harg7 arg8 harg8 arg9 harg9 arg10 harg10 arg11 harg11) K := by
  simp only [cc1__fused_body_eq_skeleton]; unfold cc1__fused_body_skel
  unfold owns
  iintro ⟨⟨%f0, %hf0, H0⟩, ⟨%fs, %hfs, Hs⟩, Hk⟩
  obtain rfl := harg2.eq_unread hf0; obtain rfl := harg11.eq_unread hfs
  sl_exec (disch := first | exact hc1 | exact hc0 | exact hc3)
  sl_step
  iapply Hk
  isplitl [H0]
  · iexists _; isplitr; · ipureintro; exact harg2.read_unread _
    iexact H0
  iexists _
  isplitl [Hs]
  · iexists _; isplitr; swap; · iexact Hs
    ipureintro; rfl
  ipureintro
  sl_unfold_run_names
  rw [readAt_whole_unread harg2 hz3, View.readCov_cons_toLoadRect]
  have hoff := k1_off1_eq i
  refine ⟨funext fun x => ?_, fun y x hy1 hy0 => ?_, fun y hy1 hrow => ?_⟩
  · have hx1 : (x 1).val < 1 := (x 1).isLt
    show View.read (Elt F) arg11.view _ (R0.idx x) = _
    rw [ScratchCols.read_col0_skip_row arg11.view _ _ _ _ (R0.idx x) hoff (by show 0 + 1 * (x 1).val = 0; omega),
      ScratchCols.read_col0_hit arg11.view _ _ _ _ (R0.idx x) x (by show 0 + 1 * (x 0).val = (x 0).val; omega)
        (by show 0 + 1 * (x 1).val = (x 1).val; omega)]
  · have hx1 : (x 1).val < 1 := (x 1).isLt
    exact ScratchCols.read_col1_hit arg11.view _ _ _ _ y x hoff hy1 hy0 (by omega)
  · rw [ScratchCols.read_col1_skip_row arg11.view _ _ _ _ y hoff hrow,
      ScratchCols.read_col1_skip_col0 arg11.view _ _ _ _ y hy1,
      ScratchCols.read_col1_skip_col0 arg11.view _ _ _ _ y hy1, View.writes_nil]
    exact congrFun (harg11.read_unread xs) y

set_option maxHeartbeats 1000000 in
/-- Second coordinate 1, 2 or 3: the same without the zeroing; the column sums are added to what column 0 held. -/
theorem kernelRunA (c : Dev nD) (i : grid1.Coords) (arg2 : Memref sig .tc .vmem S1x1024x4096 .f32) (harg2 : arg2.IsWhole) (arg3 : Memref sig .tc .vmem S1x4096x64 .f32) (harg3 : arg3.IsWhole) (arg4 : Memref sig .tc .vmem S1x8x4096 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S8x512 .f32) (harg7 : arg7.IsWhole) (arg8 : Memref sig .tc .vmem S512x64 .f32) (harg8 : arg8.IsWhole) (arg9 : Memref sig .tc .vmem S1x64 .f32) (harg9 : arg9.IsWhole) (arg10 : Memref sig .tc .vmem S1x1x64 .f32) (harg10 : arg10.IsWhole) (arg11 : Memref sig .tc .vmem S4096x8 .f32) (harg11 : arg11.IsWhole)
    (hc1 : k1_cond1 i = 1#1) (hc0 : ¬ cond0 i) (hc3 : ¬ k1_cond3 i = 1#1)
    (x0 : Vec F S1x1024x4096 .f32) (xs : Vec F S4096x8 .f32) (E : Set ℕ) (K : PUnit → sProp 𝕄) :
    iprop(owns (c : Thread nD τ) arg2 fullShare x0 ∗ owns (c : Thread nD τ) arg11 fullShare xs
        ∗ (iprop(owns (c : Thread nD τ) arg2 fullShare x0
            ∗ (∃ xs' : Vec F S4096x8 .f32, owns (c : Thread nD τ) arg11 fullShare xs'
                ∗ ⌜StepA (1024 * (i 1).val) x0 (k1_pay3 x0 (View.ld xs R0)) xs xs'⌝)) -∗ K ⟨⟩))
      ⊢ wp frame (wpE (defs₀ (F := F)) 𝒱₀ c none) E (cc1__fused_body i arg2 harg2 arg3 harg3 arg4 harg4 arg5 harg5 arg6 harg6 arg7 harg7 arg8 harg8 arg9 harg9 arg10 harg10 arg11 harg11) K := by
  simp only [cc1__fused_body_eq_skeleton]; unfold cc1__fused_body_skel
  unfold owns
  iintro ⟨⟨%f0, %hf0, H0⟩, ⟨%fs, %hfs, Hs⟩, Hk⟩
  obtain rfl := harg2.eq_unread hf0; obtain rfl := harg11.eq_unread hfs
  sl_exec (disch := first | exact hc1 | exact hc0 | exact hc3)
  sl_step
  iapply Hk
  isplitl [H0]
  · iexists _; isplitr; · ipureintro; exact harg2.read_unread _
    iexact H0
  iexists _
  isplitl [Hs]
  · iexists _; isplitr; swap; · iexact Hs
    ipureintro; rfl
  ipureintro
  rw [readAt_whole_unread harg2 hz3]
  rw [readAt_unread harg11 R0]
  have hoff := k1_off1_eq i
  refine ⟨funext fun x => ?_, fun y x hy1 hy0 => ?_, fun y hy1 hrow => ?_⟩
  · have hx1 : (x 1).val < 1 := (x 1).isLt
    show View.read (Elt F) arg11.view _ (R0.idx x) = _
    rw [ScratchCols.read_col0_skip_row arg11.view _ _ _ _ (R0.idx x) hoff (by show 0 + 1 * (x 1).val = 0; omega),
      ScratchCols.read_col0_hit arg11.view _ _ _ _ (R0.idx x) x (by show 0 + 1 * (x 0).val = (x 0).val; omega)
        (by show 0 + 1 * (x 1).val = (x 1).val; omega)]
  · have hx1 : (x 1).val < 1 := (x 1).isLt
    exact ScratchCols.read_col1_hit arg11.view _ _ _ _ y x hoff hy1 hy0 (by omega)
  · rw [ScratchCols.read_col1_skip_row arg11.view _ _ _ _ y hoff hrow,
      ScratchCols.read_col1_skip_col0 arg11.view _ _ _ _ y hy1, View.writes_nil]
    exact congrFun (harg11.read_unread xs) y

/-- What the body stores into the result's staging buffer at second coordinate 4, from the blocks it loads. -/
def outOf (x1 : Vec F S1x4096x64 .f32) (x2 : Vec F S1x8x4096 .f32) (x3 : Vec F S64x512 .f32) (x4 : Vec F S64x512 .f32)
    (x5 : Vec F S8x512 .f32) (x6 : Vec F S512x64 .f32) (x7 : Vec F S1x64 .f32) (xs : Vec F S4096x8 .f32) : FVec F S1x1x64 .f32 :=
  k1_pay5 (k1_pay7 x1 x3) (View.ld xs R0) (View.ld xs R1) (k1_pay8 (View.ld x2 Rd)) (k1_pay9 x5)
      (k1_pay10 x1 x4 (View.ld xs R1) (View.ld x2 Rd) x5) x6 x7

set_option maxHeartbeats 2000000 in
/-- Second coordinate 4: the features' block is held at `x1`, the diagonal's at `x2`, the five weight arrays at
    `x3 … x7`, the scratch at `xs`, the result's buffer at anything; the body leaves `outOf` of them in the result's
    buffer and hands everything else back as it was. -/
theorem kernelRunB (c : Dev nD) (i : grid1.Coords) (arg2 : Memref sig .tc .vmem S1x1024x4096 .f32) (harg2 : arg2.IsWhole) (arg3 : Memref sig .tc .vmem S1x4096x64 .f32) (harg3 : arg3.IsWhole) (arg4 : Memref sig .tc .vmem S1x8x4096 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S8x512 .f32) (harg7 : arg7.IsWhole) (arg8 : Memref sig .tc .vmem S512x64 .f32) (harg8 : arg8.IsWhole) (arg9 : Memref sig .tc .vmem S1x64 .f32) (harg9 : arg9.IsWhole) (arg10 : Memref sig .tc .vmem S1x1x64 .f32) (harg10 : arg10.IsWhole) (arg11 : Memref sig .tc .vmem S4096x8 .f32) (harg11 : arg11.IsWhole)
    (hc1 : ¬ k1_cond1 i = 1#1) (hc3 : k1_cond3 i = 1#1)
    (x1 : Vec F S1x4096x64 .f32) (x2 : Vec F S1x8x4096 .f32) (x3 : Vec F S64x512 .f32) (x4 : Vec F S64x512 .f32)
    (x5 : Vec F S8x512 .f32) (x6 : Vec F S512x64 .f32) (x7 : Vec F S1x64 .f32) (xs : Vec F S4096x8 .f32)
    (E : Set ℕ) (K : PUnit → sProp 𝕄) :
    iprop(owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare x5 ∗ owns (c : Thread nD τ) arg8 fullShare x6
        ∗ owns (c : Thread nD τ) arg9 fullShare x7 ∗ (∃ d, owns (c : Thread nD τ) arg10 fullShare d)
        ∗ owns (c : Thread nD τ) arg11 fullShare xs
        ∗ (iprop(owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare x5 ∗ owns (c : Thread nD τ) arg8 fullShare x6
            ∗ owns (c : Thread nD τ) arg9 fullShare x7
            ∗ owns (c : Thread nD τ) arg10 fullShare (outOf x1 x2 x3 x4 x5 x6 x7 xs)
            ∗ owns (c : Thread nD τ) arg11 fullShare xs) -∗ K ⟨⟩))
      ⊢ wp frame (wpE (defs₀ (F := F)) 𝒱₀ c none) E (cc1__fused_body i arg2 harg2 arg3 harg3 arg4 harg4 arg5 harg5 arg6 harg6 arg7 harg7 arg8 harg8 arg9 harg9 arg10 harg10 arg11 harg11) K := by
  simp only [cc1__fused_body_eq_skeleton]; unfold cc1__fused_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, Hs⟩, Hk⟩
  obtain rfl := harg3.eq_unread hf1; obtain rfl := harg4.eq_unread hf2; obtain rfl := harg5.eq_unread hf3
  obtain rfl := harg6.eq_unread hf4; obtain rfl := harg7.eq_unread hf5; obtain rfl := harg8.eq_unread hf6
  obtain rfl := harg9.eq_unread hf7; obtain rfl := harg11.eq_unread hfs
  sl_exec (disch := first | exact hc1 | exact hc3)
  sl_step
  iapply Hk
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (View.read_writes_eq_canon _ _ _ (fun y => ⟨_, List.mem_singleton_self _,
      View.mem_set_unit_zero (S := S1x1x64) hz3 inb_S1x1x64_S1x1x64_0_0_0 y⟩)).trans ?_
    refine (View.canon_unit_zero (S := S1x1x64) hz3 inb_S1x1x64_S1x1x64_0_0_0 _).trans ?_
    dsimp only
    simp only [readAt_whole_unread harg3 hz3, readAt_whole_unread harg5 hz2, readAt_whole_unread harg6 hz2,
      readAt_whole_unread harg7 hz2, readAt_whole_unread harg8 hz2, readAt_whole_unread harg9 hz2,
      readAt_unread harg11 R0, readAt_unread harg11 R1, readAt_unread harg4 Rd]
    rfl
  iexists _; isplitr; · ipureintro; exact harg11.read_unread _
  iexact Hs

end Cert.Proof.KI

end
-- ==== Proof.TcDatI.lean ====
/-
  The TensorCore pipeline's proof data.

  The region is entered with every TensorCore buffer of core `c` at a valuation `Vr c`. Grid point `t` is (b, r) with
  b = t / 5 and r = t % 5. Window 0 hands the body the block (b, min r 3) of 1024 rows of the adjacency array, windows 1
  and 2 the features' and the diagonal's block b, windows 3 to 7 five weight arrays whole, window 8 is the result's
  block b. The scratch is carried across points: after the point (b, r), r < 4, its column 0 holds the sums over the
  rows of blocks (b, 0 … r) of each of the 4096 columns, accumulated in that order from zero, and rows [0, 1024 (r + 1))
  of its column 1 hold the row sums of those blocks. At (b, 4) the body reads both columns and stores the result's block.
-/
import proofs.«208576_g46445776339566_cont_8to1c4_655_26_alg».proof.Proof.TcRunsI
import Idealize.ShloMosaic.Lib.ValueIdx
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- No prefetched table: the one admissible contents. -/
abbrev adm : (p : Fin 1) → (pcfgs (F := F) p).Adm := fun p => (cfgs p).toPCfg_adm

/-! ## The windows' blocks, over a valuation of the device's buffers -/

/-- Window `w`'s array under the valuation `V`. -/
abbrev arrV (V : Valuation τ sig (Elt F)) (w : Fin cfg1.W) : (Proc.devRef (τ := τ) .tc (Pipeline.arrRef spec1 w)).ty.Contents (Elt F) :=
  V (Proc.devRef .tc (Pipeline.arrRef spec1 w))

/-- Window `w`'s block at point `t`, read off its array. -/
def blkV (V : Valuation τ sig (Elt F)) (w : Fin cfg1.W) (t : Fin cfg1.N) :
    ((cfg1.win w).xblock (cfg1.grid.coords t)).Idx → Elt F (cfg1.win w).elt :=
  ((cfg1.win w).blk t).view.read (Elt F) (arrV V w)

/-- The point of number `n` (numbers past the grid wrap around: only numbers below 20 are ever meant). -/
def ptOf (n : ℕ) : Fin cfg1.N := ⟨n % 20, lt_of_lt_of_eq (Nat.mod_lt _ (by decide)) N_1.symm⟩

theorem ptOf_val (t : Fin cfg1.N) : ptOf t.val = t :=
  Fin.ext (Nat.mod_eq_of_lt (lt_of_lt_of_eq t.isLt N_1))

/-- The block of adjacency rows window 0 holds at point `t`. -/
abbrev blkA (V : Valuation τ sig (Elt F)) (t : Fin cfg1.N) : Vec F S1x1024x4096 .f32 := blkV V 0 t
/-- The features' block, -/
abbrev blkX (V : Valuation τ sig (Elt F)) (t : Fin cfg1.N) : Vec F S1x4096x64 .f32 := blkV V 1 t
/-- the diagonal's block, -/
abbrev blkD (V : Valuation τ sig (Elt F)) (t : Fin cfg1.N) : Vec F S1x8x4096 .f32 := blkV V 2 t
/-- and the five weight arrays, whole at every point. -/
abbrev blkW3 (V : Valuation τ sig (Elt F)) (t : Fin cfg1.N) : Vec F S64x512 .f32 := blkV V 3 t
abbrev blkW4 (V : Valuation τ sig (Elt F)) (t : Fin cfg1.N) : Vec F S64x512 .f32 := blkV V 4 t
abbrev blkW5 (V : Valuation τ sig (Elt F)) (t : Fin cfg1.N) : Vec F S8x512 .f32 := blkV V 5 t
abbrev blkW6 (V : Valuation τ sig (Elt F)) (t : Fin cfg1.N) : Vec F S512x64 .f32 := blkV V 6 t
abbrev blkW7 (V : Valuation τ sig (Elt F)) (t : Fin cfg1.N) : Vec F S1x64 .f32 := blkV V 7 t

/-! ## What the scratch and the result's block hold, as pure terms -/

/-- Column 0 of the scratch after the points (b, 0 … r): the column sums of the blocks, accumulated from zero. -/
def colAcc (V : Valuation τ sig (Elt F)) (b : ℕ) : ℕ → FVec F S4096x1 .f32
  | 0 => k1_pay3 (blkA V (ptOf (5 * b))) (k1_pay2 (F := F))
  | r + 1 => k1_pay3 (blkA V (ptOf (5 * b + (r + 1)))) (colAcc V b r)

/-- Rows of column 1 of the scratch: row `j` holds the sum of row `j % 1024` of the block (b, j / 1024). -/
def rowSum (V : Valuation τ sig (Elt F)) (b : ℕ) (j : Fin 4096) : F .f32 :=
  k1_pay4 (blkA V (ptOf (5 * b + j.val / 1024))) (ix2 (⟨j.val % 1024, Nat.mod_lt _ (by decide)⟩ : Fin 1024) (0 : Fin 1))

/-- Column 1 of the scratch once the four blocks' row sums are in. -/
def col1 (V : Valuation τ sig (Elt F)) (b : ℕ) : Vec F S4096x1 .f32 := fun x => rowSum V b (x 0)

/-- Row 0 of the diagonal's block. -/
def diagRow (V : Valuation τ sig (Elt F)) (t : Fin cfg1.N) : Vec F S1x1x4096 .f32 :=
  View.ld (blkD V t) Rd

/-- THE RESULT'S BLOCK b: what the body stores at the point (b, 4). -/
def outBlk (V : Valuation τ sig (Elt F)) (b : ℕ) : FVec F S1x1x64 .f32 :=
  k1_pay5 (k1_pay7 (blkX V (ptOf (5 * b + 4))) (blkW3 V (ptOf (5 * b + 4)))) (colAcc V b 3) (col1 V b)
    (k1_pay8 (diagRow V (ptOf (5 * b + 4)))) (k1_pay9 (blkW5 V (ptOf (5 * b + 4))))
    (k1_pay10 (blkX V (ptOf (5 * b + 4))) (blkW4 V (ptOf (5 * b + 4))) (col1 V b) (diagRow V (ptOf (5 * b + 4))) (blkW5 V (ptOf (5 * b + 4))))
    (blkW6 V (ptOf (5 * b + 4))) (blkW7 V (ptOf (5 * b + 4)))

/-- THE RESULT ARRAY the region leaves: its block b is `outBlk V b`. -/
def outVal (V : Valuation τ sig (Elt F)) : (Proc.devRef (τ := τ) .tc main_v66).ty.Contents (Elt F) :=
  fun y => outBlk V (y 0).val (ix3 (0 : Fin 1) (0 : Fin 1) (y 2))

/-- The entry valuation with the result array replaced. -/
def Vout (V : Valuation τ sig (Elt F)) : Valuation τ sig (Elt F) :=
  Function.update V (Proc.devRef .tc main_v66) (outVal V)

/-! ## The scratch between points -/

/-- What the scratch holds after the point of number `n`, (b, r) = (n / 5, n % 5), when r < 4: column 0 the accumulated
    column sums, rows below 1024 (r + 1) of column 1 the row sums. Nothing is said after a point with r = 4: the next
    point zeroes column 0 and overwrites column 1 before reading it. -/
def ScrAfter (V : Valuation τ sig (Elt F)) (n : ℕ) (xs : Vec F S4096x8 .f32) : Prop :=
  n % 5 < 4 → View.ld xs R0 = colAcc V (n / 5) (n % 5)
    ∧ ∀ y : S4096x8.Idx, (y 1).val = 1 → (y 0).val < 1024 * (n % 5 + 1) → xs y = rowSum V (n / 5) (y 0)

/-- What it holds before the point of number `n`: nothing at the first point, else what the point before left. -/
def ScrBefore (V : Valuation τ sig (Elt F)) : ℕ → Vec F S4096x8 .f32 → Prop
  | 0, _ => True
  | n + 1, xs => ScrAfter V n xs

/-! ## The proof data -/

variable (Vr : Dev nD → Valuation τ sig (Elt F)) (Rec : Set (SemLoc sig × HIx 1))

/-- Core `c`'s TensorCore buffers when the region is entered, by reference. -/
abbrev Vc (c : Dev nD) (b : Ref sig .tc) : Buf (Elt F) ((c.tc : Thread nD τ).loc b) := Vr c (Proc.devRef .tc b)

/-- The proof data of the pipeline on core `c`: the arrays as the region finds them; after the body each input's
    buffer at its block and the result's at its block; between points the scratch at some contents with the
    columns' invariant; nothing owed, the recorded pairs within `Rec`; full shares. -/
def pdats (_ : Fin 1) (c : Dev nD) : Dat τ (Elt F) (HIx 1) ℕ UU ℕ cfg1 c where
  A w := Vc Vr c (Pipeline.arrRef spec1 w)
  after w t := match w with
    | ⟨0, _⟩ => blkV (Vr c) 0 t
    | ⟨1, _⟩ => blkV (Vr c) 1 t
    | ⟨2, _⟩ => blkV (Vr c) 2 t
    | ⟨3, _⟩ => blkV (Vr c) 3 t
    | ⟨4, _⟩ => blkV (Vr c) 4 t
    | ⟨5, _⟩ => blkV (Vr c) 5 t
    | ⟨6, _⟩ => blkV (Vr c) 6 t
    | ⟨7, _⟩ => blkV (Vr c) 7 t
    | ⟨8, _⟩ => outBlk (Vr c) (t.val / 5)
  Φ k := iprop(∃ xs : Vec F S4096x8 .f32, owns (c : Thread nD τ) (Memref.whole cc1_scratch0) fullShare xs ∗ ⌜ScrBefore (Vr c) k.val xs⌝)
  q _ := fullShare
  owed _ := 0
  recorded _ := Rec

theorem A_eq (c : Dev nD) (w : Fin cfg1.W) : (pdats Vr Rec 0 c).A w = Vc Vr c (Pipeline.arrRef spec1 w) := by
  dsimp only [pdats]

theorem after1_0 (c : Dev nD) (t : Fin cfg1.N) : (pdats Vr Rec 0 c).after 0 t = blkV (Vr c) 0 t := by dsimp only [pdats]
theorem after1_1 (c : Dev nD) (t : Fin cfg1.N) : (pdats Vr Rec 0 c).after 1 t = blkV (Vr c) 1 t := by dsimp only [pdats]
theorem after1_2 (c : Dev nD) (t : Fin cfg1.N) : (pdats Vr Rec 0 c).after 2 t = blkV (Vr c) 2 t := by dsimp only [pdats]
theorem after1_3 (c : Dev nD) (t : Fin cfg1.N) : (pdats Vr Rec 0 c).after 3 t = blkV (Vr c) 3 t := by dsimp only [pdats]
theorem after1_4 (c : Dev nD) (t : Fin cfg1.N) : (pdats Vr Rec 0 c).after 4 t = blkV (Vr c) 4 t := by dsimp only [pdats]
theorem after1_5 (c : Dev nD) (t : Fin cfg1.N) : (pdats Vr Rec 0 c).after 5 t = blkV (Vr c) 5 t := by dsimp only [pdats]
theorem after1_6 (c : Dev nD) (t : Fin cfg1.N) : (pdats Vr Rec 0 c).after 6 t = blkV (Vr c) 6 t := by dsimp only [pdats]
theorem after1_7 (c : Dev nD) (t : Fin cfg1.N) : (pdats Vr Rec 0 c).after 7 t = blkV (Vr c) 7 t := by dsimp only [pdats]
theorem after1_8 (c : Dev nD) (t : Fin cfg1.N) : (pdats Vr Rec 0 c).after 8 t = outBlk (Vr c) (t.val / 5) := by dsimp only [pdats]

/-- Window 0's current staging buffer holds its block at every point, fetched there or not. -/
theorem before1_0 (c : Dev nD) (t : Fin cfg1.N) (d) : (pdats Vr Rec 0 c).before 0 t d = blkV (Vr c) 0 t :=
  ((pdats Vr Rec 0 c).before_in_eq_fetched 0 rfl (fun _ => rfl) (fun _ _ _ => rfl)
      (fun t => by rw [after1_0]; unfold Dat.blockOf blkV; rw [A_eq]) t d).trans
    (by unfold Dat.fetched Dat.blockOf blkV; rw [A_eq]; try rfl)

/-- Window 1's current staging buffer holds its block at every point, fetched there or not. -/
theorem before1_1 (c : Dev nD) (t : Fin cfg1.N) (d) : (pdats Vr Rec 0 c).before 1 t d = blkV (Vr c) 1 t :=
  ((pdats Vr Rec 0 c).before_in_eq_fetched 1 rfl (fun _ => rfl) (fun _ _ _ => rfl)
      (fun t => by rw [after1_1]; unfold Dat.blockOf blkV; rw [A_eq]) t d).trans
    (by unfold Dat.fetched Dat.blockOf blkV; rw [A_eq]; try rfl)

/-- Window 2's current staging buffer holds its block at every point, fetched there or not. -/
theorem before1_2 (c : Dev nD) (t : Fin cfg1.N) (d) : (pdats Vr Rec 0 c).before 2 t d = blkV (Vr c) 2 t :=
  ((pdats Vr Rec 0 c).before_in_eq_fetched 2 rfl (fun _ => rfl) (fun _ _ _ => rfl)
      (fun t => by rw [after1_2]; unfold Dat.blockOf blkV; rw [A_eq]) t d).trans
    (by unfold Dat.fetched Dat.blockOf blkV; rw [A_eq]; try rfl)

/-- Window 3's current staging buffer holds its block at every point, fetched there or not. -/
theorem before1_3 (c : Dev nD) (t : Fin cfg1.N) (d) : (pdats Vr Rec 0 c).before 3 t d = blkV (Vr c) 3 t :=
  ((pdats Vr Rec 0 c).before_in_eq_fetched 3 rfl (fun _ => rfl) (fun _ _ _ => rfl)
      (fun t => by rw [after1_3]; unfold Dat.blockOf blkV; rw [A_eq]) t d).trans
    (by unfold Dat.fetched Dat.blockOf blkV; rw [A_eq]; try rfl)

/-- Window 4's current staging buffer holds its block at every point, fetched there or not. -/
theorem before1_4 (c : Dev nD) (t : Fin cfg1.N) (d) : (pdats Vr Rec 0 c).before 4 t d = blkV (Vr c) 4 t :=
  ((pdats Vr Rec 0 c).before_in_eq_fetched 4 rfl (fun _ => rfl) (fun _ _ _ => rfl)
      (fun t => by rw [after1_4]; unfold Dat.blockOf blkV; rw [A_eq]) t d).trans
    (by unfold Dat.fetched Dat.blockOf blkV; rw [A_eq]; try rfl)

/-- Window 5's current staging buffer holds its block at every point, fetched there or not. -/
theorem before1_5 (c : Dev nD) (t : Fin cfg1.N) (d) : (pdats Vr Rec 0 c).before 5 t d = blkV (Vr c) 5 t :=
  ((pdats Vr Rec 0 c).before_in_eq_fetched 5 rfl (fun _ => rfl) (fun _ _ _ => rfl)
      (fun t => by rw [after1_5]; unfold Dat.blockOf blkV; rw [A_eq]) t d).trans
    (by unfold Dat.fetched Dat.blockOf blkV; rw [A_eq]; try rfl)

/-- Window 6's current staging buffer holds its block at every point, fetched there or not. -/
theorem before1_6 (c : Dev nD) (t : Fin cfg1.N) (d) : (pdats Vr Rec 0 c).before 6 t d = blkV (Vr c) 6 t :=
  ((pdats Vr Rec 0 c).before_in_eq_fetched 6 rfl (fun _ => rfl) (fun _ _ _ => rfl)
      (fun t => by rw [after1_6]; unfold Dat.blockOf blkV; rw [A_eq]) t d).trans
    (by unfold Dat.fetched Dat.blockOf blkV; rw [A_eq]; try rfl)

/-- Window 7's current staging buffer holds its block at every point, fetched there or not. -/
theorem before1_7 (c : Dev nD) (t : Fin cfg1.N) (d) : (pdats Vr Rec 0 c).before 7 t d = blkV (Vr c) 7 t :=
  ((pdats Vr Rec 0 c).before_in_eq_fetched 7 rfl (fun _ => rfl) (fun _ _ _ => rfl)
      (fun t => by rw [after1_7]; unfold Dat.blockOf blkV; rw [A_eq]) t d).trans
    (by unfold Dat.fetched Dat.blockOf blkV; rw [A_eq]; try rfl)

/-! ## One point's stores, and the invariant across them -/

/-- The grid's second coordinate is the point's number modulo 5, its first the quotient: decided over the grid. -/
theorem hcoord : ∀ t : Fin cfg1.N, (grid1.coords t 1).val = t.val % 5 ∧ (grid1.coords t 0).val = t.val / 5 :=
  (by decide +kernel : ∀ t : Fin grid1.N, (grid1.coords t 1).val = t.val % 5 ∧ (grid1.coords t 0).val = t.val / 5)

theorem ptOf_split (t : Fin cfg1.N) : ptOf (5 * (t.val / 5) + t.val % 5) = t := by
  rw [Nat.div_add_mod]; exact ptOf_val t

/-- The rows of column 1 after a point's stores. -/
theorem rows_after (V : Valuation τ sig (Elt F)) (t : Fin cfg1.N) (c0 : FVec F S4096x1 .f32) (xs xs' : Vec F S4096x8 .f32)
    (hr : t.val % 5 < 4)
    (hold : ∀ y : S4096x8.Idx, (y 1).val = 1 → (y 0).val < 1024 * (t.val % 5) → xs y = rowSum V (t.val / 5) (y 0))
    (hs : StepA (1024 * (t.val % 5)) (blkA V t) c0 xs xs') :
    ∀ y : S4096x8.Idx, (y 1).val = 1 → (y 0).val < 1024 * (t.val % 5 + 1) → xs' y = rowSum V (t.val / 5) (y 0) := by
  intro y hy1 hy0
  by_cases hlo : (y 0).val < 1024 * (t.val % 5)
  · rw [hs.2.2 y hy1 (Or.inl hlo)]; exact hold y hy1 hlo
  · have hdiv : (y 0).val / 1024 = t.val % 5 := by omega
    have hmod : (y 0).val = 1024 * (t.val % 5) + (y 0).val % 1024 := by omega
    rw [hs.2.1 y (ix2 (⟨(y 0).val % 1024, Nat.mod_lt _ (by decide)⟩ : Fin 1024) (0 : Fin 1)) hy1 hmod]
    unfold rowSum
    rw [hdiv, ptOf_split]

/-- The invariant after a point with second coordinate 0, -/
theorem scrAfter_first (V : Valuation τ sig (Elt F)) (t : Fin cfg1.N) (xs xs' : Vec F S4096x8 .f32) (h0 : t.val % 5 = 0)
    (hs : StepA (1024 * (t.val % 5)) (blkA V t) (k1_pay3 (blkA V t) (k1_pay2 (F := F))) xs xs') : ScrAfter V t.val xs' := by
  intro hr
  refine ⟨?_, rows_after V t _ xs xs' hr (fun y _ hy => absurd hy (by rw [h0]; omega)) hs⟩
  rw [hs.1, h0]
  show _ = k1_pay3 (blkA V (ptOf (5 * (t.val / 5)))) (k1_pay2 (F := F))
  have : ptOf (5 * (t.val / 5)) = t := by
    have := ptOf_split t; rw [h0, Nat.add_zero] at this; exact this
  rw [this]

/-- and after one with second coordinate 1, 2 or 3, from the invariant after the point before. -/
theorem scrAfter_next (V : Valuation τ sig (Elt F)) (t : Fin cfg1.N) (xs xs' : Vec F S4096x8 .f32) (h0 : t.val % 5 ≠ 0)
    (hr : t.val % 5 < 4) (hb : ScrAfter V (t.val - 1) xs)
    (hs : StepA (1024 * (t.val % 5)) (blkA V t) (k1_pay3 (blkA V t) (View.ld xs R0)) xs xs') : ScrAfter V t.val xs' := by
  have hm : (t.val - 1) % 5 = t.val % 5 - 1 := by omega
  have hd : (t.val - 1) / 5 = t.val / 5 := by omega
  obtain ⟨hc, hrows⟩ := hb (by omega)
  rw [hm, hd] at hc hrows
  intro _
  refine ⟨?_, rows_after V t _ xs xs' hr (fun y hy1 hy0 => hrows y hy1 (by omega)) hs⟩
  rw [hs.1, hc]
  obtain ⟨k, hk⟩ : ∃ k, t.val % 5 = k + 1 := ⟨t.val % 5 - 1, by omega⟩
  rw [hk, Nat.add_sub_cancel]
  show _ = k1_pay3 (blkA V (ptOf (5 * (t.val / 5) + (k + 1)))) (colAcc V (t.val / 5) k)
  rw [← hk, ptOf_split]

/-- Before the point with second coordinate 4 the two columns are complete. -/
theorem cols_complete (V : Valuation τ sig (Elt F)) (t : Fin cfg1.N) (xs : Vec F S4096x8 .f32) (h4 : t.val % 5 = 4)
    (hb : ScrAfter V (t.val - 1) xs) : View.ld xs R0 = colAcc V (t.val / 5) 3 ∧ View.ld xs R1 = col1 V (t.val / 5) := by
  have hm : (t.val - 1) % 5 = 3 := by omega
  have hd : (t.val - 1) / 5 = t.val / 5 := by omega
  obtain ⟨hc, hrows⟩ := hb (by omega)
  rw [hm, hd] at hc hrows
  refine ⟨hc, funext fun x => ?_⟩
  have hx : (x 0).val < 4096 := (x 0).isLt
  have hx1 : (x 1).val < 1 := (x 1).isLt
  show xs (R1.idx x) = rowSum V (t.val / 5) (x 0)
  have e0 : ((R1 : Rect S4096x8).idx x 0) = x 0 := Fin.ext (by show 0 + 1 * (x 0).val = (x 0).val; omega)
  rw [hrows (R1.idx x) (by show 1 + 1 * (x 1).val = 1; omega) (by rw [e0]; omega), e0]

/-! ## The result array after the region -/

/-- The result window's block index at point `t` is (t / 5, 0, 0): decided over the grid. -/
theorem idx8 : ∀ t : Fin cfg1.N, win1_8.index t (0 : Fin 3) = t.val / 5 ∧ win1_8.index t (1 : Fin 3) = 0
    ∧ win1_8.index t (2 : Fin 3) = 0 :=
  (by decide +kernel : ∀ t : Fin grid1.N, win1_8.index t (0 : Fin 3) = t.val / 5 ∧ win1_8.index t (1 : Fin 3) = 0
    ∧ win1_8.index t (2 : Fin 3) = 0)

/-- What a point writes back is its block of `outVal`. -/
theorem flushed8_eq (c : Dev nD) (t : Fin cfg1.N) :
    (pdats Vr Rec 0 c).flushed 8 t = ((cfg1.win 8).blk t).view.read (Elt F) (outVal (Vr c)) := by
  show (cfg1.win 8).cut (grid1.coords t) ((pdats Vr Rec 0 c).after 8 t) = _
  rw [after1_8]
  obtain ⟨e0, e1, e2⟩ := idx8 t
  funext j
  show outBlk (Vr c) (t.val / 5) j = outVal (Vr c) (((cfg1.win 8).blk t).view.emb j)
  unfold outVal
  have hj0 : (j 0).val < 1 := (j 0).isLt
  have hj1 : (j 1).val < 1 := (j 1).isLt
  have h0 : ((((cfg1.win 8).blk t).view.emb j) 0).val = t.val / 5 := by
    show win1_8.index t (0 : Fin 3) * 1 + 1 * (j 0).val = _
    omega
  have h2 : ix3 (0 : Fin 1) (0 : Fin 1) ((((cfg1.win 8).blk t).view.emb j) 2) = j := by
    funext a; apply Fin.ext
    match a with
    | ⟨0, _⟩ => show 0 = (j 0).val; omega
    | ⟨1, _⟩ => show 0 = (j 1).val; omega
    | ⟨2, _⟩ => show win1_8.index t (2 : Fin 3) * 64 + 1 * (j 2).val = (j 2).val; omega
  show _ = outBlk (Vr c) ((((cfg1.win 8).blk t).view.emb j) 0).val (ix3 (0 : Fin 1) (0 : Fin 1) ((((cfg1.win 8).blk t).view.emb j) 2))
  rw [h0]
  exact congrArg (outBlk (Vr c) (t.val / 5)) h2.symm

/-- An index of the result array lies in point `t`'s block iff each coordinate lies in the block's range. -/
theorem mem_blk8 (t : Fin cfg1.N) (i : S4x1x64.Idx) :
    i ∈ ((cfg1.win 8).blk t).view.set ↔ ∀ a : Fin 3, win1_8.index t a * S1x1x64.size a ≤ (i a).val
      ∧ (i a).val < win1_8.index t a * S1x1x64.size a + S1x1x64.size a := by
  show i ∈ ((View.whole main_v66).slice (win1_8.rect t)).set ↔ _
  rw [View.set_slice_whole, Rect.mem_set_unit]
  exact Iff.rfl

/-- Every index of the result array is in the block of a point that writes back: row b in that of (b, 4). -/
theorem cover8 (i : S4x1x64.Idx) :
    ∃ t : Fin cfg1.N, (cfg1.win 8).flush t = true ∧ i ∈ ((cfg1.win 8).blk t).view.set := by
  have hi0 : (i 0).val < 4 := (i 0).isLt
  have hi1 : (i 1).val < 1 := (i 1).isLt
  have hi2 : (i 2).val < 64 := (i 2).isLt
  have hv : (ptOf (5 * (i 0).val + 4)).val = 5 * (i 0).val + 4 := Nat.mod_eq_of_lt (by omega)
  refine ⟨ptOf (5 * (i 0).val + 4), (flush1_8 _).mpr (by rw [hv]; omega), ?_⟩
  rw [mem_blk8]
  obtain ⟨e0, e1, e2⟩ := idx8 (ptOf (5 * (i 0).val + 4))
  rw [hv] at e0
  intro a
  match a with
  | ⟨0, _⟩ =>
    show win1_8.index (ptOf (5 * (i 0).val + 4)) (0 : Fin 3) * 1 ≤ (i 0).val ∧ (i 0).val < win1_8.index (ptOf (5 * (i 0).val + 4)) (0 : Fin 3) * 1 + 1
    omega
  | ⟨1, _⟩ =>
    show win1_8.index (ptOf (5 * (i 0).val + 4)) (1 : Fin 3) * 1 ≤ (i 1).val ∧ (i 1).val < win1_8.index (ptOf (5 * (i 0).val + 4)) (1 : Fin 3) * 1 + 1
    omega
  | ⟨2, _⟩ =>
    show win1_8.index (ptOf (5 * (i 0).val + 4)) (2 : Fin 3) * 64 ≤ (i 2).val ∧ (i 2).val < win1_8.index (ptOf (5 * (i 0).val + 4)) (2 : Fin 3) * 64 + 64
    omega

/-- THE RESULT ARRAY after the region is `outVal` of the entry valuation. -/
theorem arrAt_out (c : Dev nD) : (pdats Vr Rec 0 c).arrAt 8 cfg1.N = outVal (Vr c) :=
  (pdats Vr Rec 0 c).arrAt_eq_of_cover 8 (outVal (Vr c)) (fun t _ => flushed8_eq Vr Rec c t) cover8

/-- Every other window's array is an input's: it ends as the region found it. -/
theorem isOut_in : ∀ w : Fin 9, w ≠ 8 → (cfg1.win w).isOut = false := by decide
theorem arrAt_in (c : Dev nD) (w : Fin cfg1.W) (hw : w ≠ 8) :
    (pdats Vr Rec 0 c).arrAt w cfg1.N = Vc Vr c (Pipeline.arrRef spec1 w) :=
  ((pdats Vr Rec 0 c).arrAt_in w (isOut_in w hw) _).trans (A_eq Vr Rec c w)

/-! ## The body obligation -/

variable (ι : HIx 1)

/-- What the body is called with at point `t`, the windows one by one, -/
def bodyPre (c : Dev nD) (t : Fin cfg1.N) : sProp 𝕄 :=
  iprop((pdats Vr Rec 0 c).Φ t.castSucc ∗ (pdats Vr Rec 0 c).owesAt ι t.castSucc
    ∗ (∃ d, owns (c : Thread nD τ) (st1_0 t) fullShare ((pdats Vr Rec 0 c).before 0 t d))
    ∗ (∃ d, owns (c : Thread nD τ) (st1_1 t) fullShare ((pdats Vr Rec 0 c).before 1 t d))
    ∗ (∃ d, owns (c : Thread nD τ) (st1_2 t) fullShare ((pdats Vr Rec 0 c).before 2 t d))
    ∗ (∃ d, owns (c : Thread nD τ) (st1_3 t) fullShare ((pdats Vr Rec 0 c).before 3 t d))
    ∗ (∃ d, owns (c : Thread nD τ) (st1_4 t) fullShare ((pdats Vr Rec 0 c).before 4 t d))
    ∗ (∃ d, owns (c : Thread nD τ) (st1_5 t) fullShare ((pdats Vr Rec 0 c).before 5 t d))
    ∗ (∃ d, owns (c : Thread nD τ) (st1_6 t) fullShare ((pdats Vr Rec 0 c).before 6 t d))
    ∗ (∃ d, owns (c : Thread nD τ) (st1_7 t) fullShare ((pdats Vr Rec 0 c).before 7 t d))
    ∗ (∃ d, owns (c : Thread nD τ) (st1_8 t) fullShare ((pdats Vr Rec 0 c).before 8 t d)))

/-- and what it returns: the result's window as the library states it (handed back as found where the point stores
    nothing into it, at its block where it does). -/
def bodyPost (c : Dev nD) (t : Fin cfg1.N) : sProp 𝕄 :=
  iprop((pdats Vr Rec 0 c).Φ t.succ ∗ (pdats Vr Rec 0 c).owesAt ι t.succ
    ∗ owns (c : Thread nD τ) (st1_0 t) fullShare ((pdats Vr Rec 0 c).after 0 t)
    ∗ owns (c : Thread nD τ) (st1_1 t) fullShare ((pdats Vr Rec 0 c).after 1 t)
    ∗ owns (c : Thread nD τ) (st1_2 t) fullShare ((pdats Vr Rec 0 c).after 2 t)
    ∗ owns (c : Thread nD τ) (st1_3 t) fullShare ((pdats Vr Rec 0 c).after 3 t)
    ∗ owns (c : Thread nD τ) (st1_4 t) fullShare ((pdats Vr Rec 0 c).after 4 t)
    ∗ owns (c : Thread nD τ) (st1_5 t) fullShare ((pdats Vr Rec 0 c).after 5 t)
    ∗ owns (c : Thread nD τ) (st1_6 t) fullShare ((pdats Vr Rec 0 c).after 6 t)
    ∗ owns (c : Thread nD τ) (st1_7 t) fullShare ((pdats Vr Rec 0 c).after 7 t)
    ∗ (pdats Vr Rec 0 c).leaves 8 t)

/-- The result's window is idle exactly where the second branch is not taken. -/
theorem idle8 (t : Fin cfg1.N) (h : ¬ k1_cond3 (grid1.coords t) = 1#1) : cfg1.idle 8 (cfg1.grid.coords t) = true := by
  show (!(k1_cond3 (grid1.coords t) == 1#1)) = true
  simp [h]
theorem live8 (t : Fin cfg1.N) (h : k1_cond3 (grid1.coords t) = 1#1) : cfg1.idle 8 (cfg1.grid.coords t) = false := by
  show (!(k1_cond3 (grid1.coords t) == 1#1)) = false
  simp [h]

theorem leaves8_idle (c : Dev nD) (t : Fin cfg1.N) (h : ¬ t.val % 5 = 4) :
    (pdats Vr Rec 0 c).leaves 8 t = iprop(∃ d, owns (c : Thread nD τ) (st1_8 t) fullShare ((pdats Vr Rec 0 c).before 8 t d)) :=
  (pdats Vr Rec 0 c).leaves_idle 8 t (idle8 t fun hc => h ((hcond3 t).mp hc))
    (Bool.eq_false_iff.mpr fun hf => h ((flush1_8 t).mp hf))

theorem leaves8_live (c : Dev nD) (t : Fin cfg1.N) (h : t.val % 5 = 4) :
    (pdats Vr Rec 0 c).leaves 8 t = owns (c : Thread nD τ) (st1_8 t) fullShare ((pdats Vr Rec 0 c).after 8 t) := by
  unfold Dat.leaves; rw [live8 t ((hcond3 t).mpr h)]

/-- Before a point other than the first the scratch is as the point before left it. -/
theorem scrBefore_pos (V : Valuation τ sig (Elt F)) (n : ℕ) (xs : Vec F S4096x8 .f32) (h : n ≠ 0) :
    ScrBefore V n xs → ScrAfter V (n - 1) xs := by
  cases n with
  | zero => exact absurd rfl h
  | succ n => exact id

/-- The result's block b is what the body stores at (b, 4), the scratch's two columns being complete there. -/
theorem outBlk_at (V : Valuation τ sig (Elt F)) (t : Fin cfg1.N) (xs : Vec F S4096x8 .f32) (h4 : t.val % 5 = 4)
    (e0 : View.ld xs R0 = colAcc V (t.val / 5) 3) (e1 : View.ld xs R1 = col1 V (t.val / 5)) :
    outBlk V (t.val / 5) = outOf (blkX V t) (blkD V t) (blkW3 V t) (blkW4 V t) (blkW5 V t) (blkW6 V t) (blkW7 V t) xs := by
  have hp : ptOf (5 * (t.val / 5) + 4) = t := by
    have := ptOf_split t; rwa [h4] at this
  unfold outBlk outOf diagRow
  rw [e0, e1, hp]

set_option maxHeartbeats 1600000 in
/-- The body at any point: the inputs' buffers hold their blocks; the point's second coordinate says which path the body
    takes; the scratch's invariant passes from before the point to after it; the core owes nothing throughout. -/
theorem sound_body (c : Dev nD) (t : Fin cfg1.N) :
    bodyPre Vr Rec ι c t ⊢ wp frame (wpE (defs₀ (F := F)) 𝒱₀ c none) Set.univ (bodyAt1 t) (fun _ => bodyPost Vr Rec ι c t) := by
  unfold bodyPre bodyPost bodyAt1
  simp only [before1_0 Vr Rec c t, before1_1 Vr Rec c t, before1_2 Vr Rec c t, before1_3 Vr Rec c t, before1_4 Vr Rec c t, before1_5 Vr Rec c t, before1_6 Vr Rec c t, before1_7 Vr Rec c t]
  rw [after1_0, after1_1, after1_2, after1_3, after1_4, after1_5, after1_6, after1_7,
    show (pdats Vr Rec 0 c).owesAt ι t.succ = (pdats Vr Rec 0 c).owesAt ι t.castSucc from rfl,
    show (pdats Vr Rec 0 c).Φ t.castSucc = iprop(∃ xs : Vec F S4096x8 .f32, owns (c : Thread nD τ) (Memref.whole cc1_scratch0) fullShare xs ∗ ⌜ScrBefore (Vr c) t.val xs⌝) from rfl,
    show (pdats Vr Rec 0 c).Φ t.succ = iprop(∃ xs : Vec F S4096x8 .f32, owns (c : Thread nD τ) (Memref.whole cc1_scratch0) fullShare xs ∗ ⌜ScrAfter (Vr c) t.val xs⌝) from rfl]
  have hN : t.val < 20 := lt_of_lt_of_eq t.isLt N_1
  obtain ⟨hco1, -⟩ := hcoord t
  by_cases h4 : t.val % 5 = 4
  · have hc1 : ¬ k1_cond1 (grid1.coords t) = 1#1 := fun h => by have := (hcond1 t).mp h; omega
    have hc3 := (hcond3 t).mpr h4
    rw [leaves8_live Vr Rec c t h4, after1_8]
    iintro ⟨⟨%xs, Hs, %hb⟩, Ho, H0, ⟨%d1, H1⟩, ⟨%d2, H2⟩, ⟨%d3, H3⟩, ⟨%d4, H4⟩, ⟨%d5, H5⟩, ⟨%d6, H6⟩, ⟨%d7, H7⟩, ⟨%d8, H8⟩⟩
    obtain ⟨e0, e1⟩ := cols_complete (Vr c) t xs h4 (scrBefore_pos _ _ _ (by omega) hb)
    rw [outBlk_at (Vr c) t xs h4 e0 e1]
    iapply (kernelRunB c (grid1.coords t) _ _ _ _ _ _ _ _ _ _ _ _ _ _ _ _ _ _ _ _ hc1 hc3 (blkX (Vr c) t) (blkD (Vr c) t) (blkW3 (Vr c) t) (blkW4 (Vr c) t)
      (blkW5 (Vr c) t) (blkW6 (Vr c) t) (blkW7 (Vr c) t) xs Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [Hs]; · iexact Hs
    iintro ⟨H1, H2, H3, H4, H5, H6, H7, H8, Hs⟩
    isplitl [Hs]
    · iexists xs; isplitl [Hs]; · iexact Hs
      ipureintro; exact fun h => absurd h (by omega)
    isplitl [Ho]; · iexact Ho
    isplitl [H0]; · icases H0 with ⟨%d0, H0⟩; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 := (hcond1 t).mpr (by omega)
    have hc3 : ¬ k1_cond3 (grid1.coords t) = 1#1 := fun h => h4 ((hcond3 t).mp h)
    rw [leaves8_idle Vr Rec c t h4]
    by_cases h0 : t.val % 5 = 0
    · have hc0 := (hcond0 t).mpr h0
      iintro ⟨⟨%xs, Hs, -⟩, Ho, ⟨%d0, H0⟩, H1, H2, H3, H4, H5, H6, H7, H8⟩
      iapply (kernelRunA0 c (grid1.coords t) _ _ _ _ _ _ _ _ _ _ _ _ _ _ _ _ _ _ _ _ hc1 hc0 hc3 (blkA (Vr c) t) xs Set.univ _)
      isplitl [H0]; · iexact H0
      isplitl [Hs]; · iexact Hs
      iintro ⟨H0, ⟨%xs', Hs, %hstep⟩⟩
      rw [hco1] at hstep
      isplitl [Hs]
      · iexists xs'; isplitl [Hs]; · iexact Hs
        ipureintro; exact scrAfter_first (Vr c) t xs xs' h0 hstep
      isplitl [Ho]; · iexact Ho
      isplitl [H0]; · iexact H0
      isplitl [H1]; · icases H1 with ⟨%d1, H1⟩; iexact H1
      isplitl [H2]; · icases H2 with ⟨%d2, H2⟩; iexact H2
      isplitl [H3]; · icases H3 with ⟨%d3, H3⟩; iexact H3
      isplitl [H4]; · icases H4 with ⟨%d4, H4⟩; iexact H4
      isplitl [H5]; · icases H5 with ⟨%d5, H5⟩; iexact H5
      isplitl [H6]; · icases H6 with ⟨%d6, H6⟩; iexact H6
      isplitl [H7]; · icases H7 with ⟨%d7, H7⟩; iexact H7
      iexact H8
    · have hc0 : ¬ cond0 (grid1.coords t) := fun h => h0 ((hcond0 t).mp h)
      iintro ⟨⟨%xs, Hs, %hb⟩, Ho, ⟨%d0, H0⟩, H1, H2, H3, H4, H5, H6, H7, H8⟩
      iapply (kernelRunA c (grid1.coords t) _ _ _ _ _ _ _ _ _ _ _ _ _ _ _ _ _ _ _ _ hc1 hc0 hc3 (blkA (Vr c) t) xs Set.univ _)
      isplitl [H0]; · iexact H0
      isplitl [Hs]; · iexact Hs
      iintro ⟨H0, ⟨%xs', Hs, %hstep⟩⟩
      rw [hco1] at hstep
      isplitl [Hs]
      · iexists xs'; isplitl [Hs]; · iexact Hs
        ipureintro
        exact scrAfter_next (Vr c) t xs xs' h0 (by omega) (scrBefore_pos _ _ _ (by omega) hb) hstep
      isplitl [Ho]; · iexact Ho
      isplitl [H0]; · iexact H0
      isplitl [H1]; · icases H1 with ⟨%d1, H1⟩; iexact H1
      isplitl [H2]; · icases H2 with ⟨%d2, H2⟩; iexact H2
      isplitl [H3]; · icases H3 with ⟨%d3, H3⟩; iexact H3
      isplitl [H4]; · icases H4 with ⟨%d4, H4⟩; iexact H4
      isplitl [H5]; · icases H5 with ⟨%d5, H5⟩; iexact H5
      isplitl [H6]; · icases H6 with ⟨%d6, H6⟩; iexact H6
      isplitl [H7]; · icases H7 with ⟨%d7, H7⟩; iexact H7
      iexact H8

/-- The library's body obligation, at every point. -/
theorem body_obligation (c : Dev nD) : Pipeline.BodyObligationLoose (pdats Vr Rec 0 c) (defs₀ (F := F)) 𝒱₀ ι Set.univ := fun t => by
  rw [bigSep_W1, bigSep_W1]
  exact sound_body Vr Rec ι c t

end Cert.Proof.KI

end
-- ==== Proof.TcRegionI.lean ====
/-
  The TensorCore region as one segment of @main.

  The region is entered holding every unscoped TensorCore buffer of the core whole at the valuation `Vr c` and the
  core owing nothing, its recorded waits within `Rec`. The nine windows' arrays go to the pipeline, the other unscoped
  buffers bypass it, the scratch enters the pipeline's invariant from the region boundary. It is left holding the same
  buffers at the same contents but for the result array, which holds `outVal (Vr c)`; the recorded waits have grown by
  the pipeline's own.
-/
import proofs.«208576_g46445776339566_cont_8to1c4_655_26_alg».proof.Proof.TcDatI
import Idealize.ShloMosaic.Lib.Pipeline.Regions

set_option maxRecDepth 16384

noncomputable section

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vr : Dev nD → Valuation τ sig (Elt F)) (Rec : Set (SemLoc sig × HIx 1))
variable (ι : HIx 1) (L : GSem nD τ sig → Finset (HIx 1)) (lv : GSem nD τ sig → HIx 1 → ℕ)

/-- The thread state the region is entered from, -/
def regionPre (c : Dev nD) : sProp 𝕄 :=
  iprop(unscopedBufs c (Vc Vr c) ∗ Pipeline.owesWithin c (0 : CellTallies nD τ sig (HIx 1)) Rec)

/-- and the one it leaves. -/
def regionPost (c : Dev nD) : sProp 𝕄 :=
  iprop(unscopedBufs c (Vc (fun c => Vout (Vr c)) c)
    ∗ Pipeline.owesWithin c (0 : CellTallies nD τ sig (HIx 1)) (Rec ∪ (Pipeline.pin (pcfgs (F := F)) adm 0).waitPairs ι))

/-- The result's array is window 8's and no other window's. -/
theorem arrRef_ne_out : ∀ w : Fin 9, w ≠ 8 → Pipeline.arrRef spec1 w ≠ main_v66 := by decide

/-- Every window's array after the region is what the exit valuation says. -/
theorem arrAt_Vout (c : Dev nD) (w : Fin cfg1.W) :
    (pdats Vr Rec 0 c).arrAt w cfg1.N = Vc (fun c => Vout (Vr c)) c (Pipeline.arrRef spec1 w) := by
  by_cases hw : w = 8
  · subst hw
    rw [arrAt_out]
    show outVal (Vr c) = Vout (Vr c) (Proc.devRef .tc main_v66)
    unfold Vout
    rw [Function.update_self]
  · rw [arrAt_in Vr Rec c w hw]
    exact (Function.update_of_ne (fun h => arrRef_ne_out w hw (Proc.devRef_injective _ h)) _ _).symm

set_option backward.isDefEq.respectTransparency.types false in
/-- THE REGION. -/
def regionSeg : Pipeline.RegionSeg (pcfgs (F := F)) adm (pdats Vr Rec) ι defs₀ 𝒱₀ L lv 0 where
  win := launch1.win.to₀
  block_pos := launch1.block_pos
  stage_whole := launch1.stage_whole
  K := PEmpty
  osem := fun k => k.elim
  ho := Pipeline.OwnSemFacts.none _
  hbody c := body_obligation Vr Rec ι c
  hwaits := Pipeline.hwaits_of_owed_zero _ _ _ _ L lv 0 fun _ _ => rfl
  pre := regionPre Vr Rec
  post := regionPost Vr Rec ι
  X _ := iprop(emp)
  Y _ := iprop(emp)
  Z c := Pipeline.unscopedRest spec1 c (Vc Vr c)
  hentry c := by
    unfold regionPre
    have hsplit := Pipeline.arrays_of_unscopedBufs (pcfgs (F := F)) adm (pdats Vr Rec) launch1.win launch1.arr_whole c
      ((pdats Vr Rec 0 c).share_full fun _ => rfl) (Vc Vr c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left)) $$ HO
    isplitr; · iempintro
    iexact Hr
  hin c := by
    rw [show (pdats Vr Rec 0 c).Φ 0 = iprop(∃ xs : Vec F S4096x8 .f32, owns (c : Thread nD τ) (Memref.whole cc1_scratch0) fullShare xs ∗ ⌜ScrBefore (Vr c) 0 xs⌝) from rfl,
      scopedRest1_eq]
    simp only [owns_whole]
    iintro ⟨-, -, ⟨%f, Hf⟩⟩
    iexists f
    isplitl [Hf]
    · iexact Hf
    ipureintro; trivial
  hout c := by
    rw [Pipeline.ownSems0_none, scopedRest1_eq,
      show (pdats Vr Rec 0 c).Φ (Fin.last cfg1.N) = iprop(∃ xs : Vec F S4096x8 .f32, owns (c : Thread nD τ) (Memref.whole cc1_scratch0) fullShare xs ∗ ⌜ScrBefore (Vr c) (Fin.last cfg1.N).val xs⌝) from rfl]
    simp only [owns_whole]
    iintro ⟨%xs, Hs, -⟩
    isplitr; · iempintro
    isplitr; · iempintro
    iexists xs
    iexact Hs
  hexit c := by
    unfold regionPost
    have hjoin : iprop((pdats Vr Rec 0 c).arrays ((pdats Vr Rec 0 c).arrAt · cfg1.N) ∗ Pipeline.unscopedRest spec1 c (Vc Vr c))
        ⊢ (unscopedBufs c (Vc (fun c => Vout (Vr c)) c) : sProp 𝕄) := by
      rw [Pipeline.unscopedBufs_split (Pipeline.pin (pcfgs (F := F)) adm) 0 launch1.win.arr_unscoped launch1.win.arr_inj c (Vc (fun c => Vout (Vr c)) c),
        Pipeline.arrays_eq (Pipeline.pin (pcfgs (F := F)) adm) (pdats Vr Rec) 0 c launch1.arr_whole ((pdats Vr Rec 0 c).share_full fun _ => rfl)]
      refine sep_mono (Entails.of_eq (bigSep_congr fun w _ => by rw [arrAt_Vout])) (Entails.of_eq ?_)
      unfold Pipeline.unscopedRest
      exact bigSep_congr fun b hb => by
        have hb' : b ≠ main_v66 := fun h =>
          (Finset.mem_sdiff.mp hb).2 (Finset.mem_image.mpr ⟨(8 : Fin 9), Finset.mem_univ _, h.symm ▸ rfl⟩)
        rw [show Vc (fun c => Vout (Vr c)) c b = Vc Vr c b from
          Function.update_of_ne (fun h => hb' (Proc.devRef_injective _ h)) _ _]
    iintro ⟨Ha, HO, -, HZ⟩
    imodintro
    isplitr [HO]
    · iapply hjoin
      isplitl [Ha] <;> iassumption
    · iexact HO

theorem regionSeg_pre (c : Dev nD) : (regionSeg Vr Rec ι L lv).pre c = regionPre Vr Rec c := rfl
theorem regionSeg_post (c : Dev nD) : (regionSeg Vr Rec ι L lv).post c = regionPost Vr Rec ι c := rfl

end Cert.Proof.KI

end
-- ==== Proof.FrameI.lean ====
/-
  The program's run, assembled: the launch (@main on the TensorCore, the handshakes, the ghost state) applied to the
  SparseCore kernel's task and split and to the TensorCore region's record. Every weakly fair execution of the thirty-five
  threads ends, nothing faulting; each device's six argument arrays end as they began, and its result array holds the region's
  result, reshaped, for an array of diagonals as the SparseCore kernel leaves it.
-/
import proofs.«208576_g46445776339566_cont_8to1c4_655_26_alg».proof.Proof.ArgsI
import proofs.«208576_g46445776339566_cont_8to1c4_655_26_alg».proof.Proof.ScBodyI
import proofs.«208576_g46445776339566_cont_8to1c4_655_26_alg».proof.Proof.TcRegionI

noncomputable section

namespace Cert.Proof.KI

open Cert.KernelIdeal Cert.KernelIdeal.Gen
open Idealize.ShloMosaic
open Idealize.ShloMosaic.SparseCore (S V T)
open Idealize.SL Idealize.SL.Sem
open Idealize.ShloMosaic.Pipeline (ucRefs)

variable {F : FTy → Type} [FloatOps F] [∀ e, Nonempty (Elt F e)]
variable (m : (ℓ : Loc nD τ sig) → Buf (Elt F) ℓ) (ρ : Dev nD → PrngReg)

/-- The run of the whole program from a memory with every semaphore at zero. -/
theorem run_all :
    θ_run (Cert.KernelIdeal.defs (F := F)) (Cert.KernelIdeal.threads (F := F)) ⟨m, fun _ => 0, ρ⟩ (Launch.QC m (DiagIs m) outVal) :=
  Launch.run_main m ρ (P m) (DiagIs m) adm (fun Vr Rec => pdats Vr Rec)
    (fun Vr Rec => regionSeg Vr Rec (none : SparseCore.Cfg.HIx 1) (K (F := F)).L (K (F := F)).lev) outVal
    (fun d => st_join m d (m (gLoc d))) (dn_join m) (fun _ _ _ => rfl) (fun _ _ _ => rfl)
    (tileObl m) (vecSplit m) rfl rfl

/-- The frame: the run, with only the argument arrays read off the final memory. -/
theorem frame_all :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.KernelIdeal.defs (F := F)) _ _).mono (fun r h c => by
    obtain ⟨f, -, hb⟩ := h c
    have hm := Launch.args_mem
    exact ⟨(hb _ (hm main_arg0 (by decide))).trans (Launch.V5_arg0 m outVal c f),
      (hb _ (hm main_arg1 (by decide))).trans (Launch.V5_arg1 m outVal c f),
      (hb _ (hm main_arg2 (by decide))).trans (Launch.V5_arg2 m outVal c f),
      (hb _ (hm main_arg3 (by decide))).trans (Launch.V5_arg3 m outVal c f),
      (hb _ (hm main_arg4 (by decide))).trans (Launch.V5_arg4 m outVal c f),
      (hb _ (hm main_arg5 (by decide))).trans (Launch.V5_arg5 m outVal c f)⟩) (run_all m ρ)

end Cert.Proof.KI

end
-- ==== Proof.ScDiagI.lean ====
/-
  The result of the SparseCore kernel read at the ideal values: row 0 of batch b of what it writes is the diagonal of
  A[b].

  An entry r of that row belongs to the subcore (c, s) with 128·(16c+s) ≤ r < 128·(16c+s) + 128; within the subcore's
  128 entries it is lane j = r mod 16 of group k = (r mod 128) / 16. The kernel left there the accumulation, from zero,
  over the sixteen rows of the group, of the row's entry in lane j when the row's number is j and of zero otherwise:
  over the extended reals 0 + x = x and x + 0 = x, so what is left is row j's entry in lane j, which is the entry
  (r, r) of A[b]. The two index maps (a squeezed slice's own index to the array's) are computed here once.
-/
import Idealize.ShloMosaic.Lib.ValueLayout
import Idealize.ShloMosaic.PureOps.Ideal.Laws
import proofs.«208576_g46445776339566_cont_8to1c4_655_26_alg».proof.Proof.ScPayI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.ValueIdx

theorem trips_eq : k0_t1_loop.trips = 4 := by decide

/-- An index x of a vector matched with shape [1, 1, a] is (0, 0, x). -/
theorem reshapeEquiv_ix1_11a {a : ℕ} (h : (⟨1, ![a]⟩ : Shape).numel = (⟨3, ![1, 1, a]⟩ : Shape).numel) (x : Fin a) :
    Shape.reshapeEquiv h (ix1 x) = ix3 (⟨0, Nat.one_pos⟩ : Fin 1) (⟨0, Nat.one_pos⟩ : Fin 1) x :=
  Shape.reshapeEquiv_eq_of_rowMajor h (by
    rw [Shape.rowMajor_val_three, Shape.rowMajor_val_one]
    show ((0 * 1 + 0) * a + x.val) = x.val
    simp only [Nat.zero_mul, Nat.zero_add])

/-- Entry x of the 128 the subcore at L writes for batch b is entry (b, 0, 128·(16·L 0 + L 1) + x) of the result. -/
theorem gRow_emb (L : grid0.Coords) (b : Fin k0_t1_loop.trips) (x : Fin 128)
    (h0 : b.val < 4) (h2 : 2048 * (L 0).val + 128 * (L 1).val + x.val < 4096) :
    (gRowM L b).view.emb (ix1 (n := 128) x)
      = ix3 (n0 := 4) (n1 := 8) (n2 := 4096) ⟨b.val, h0⟩ ⟨0, by decide⟩ ⟨2048 * (L 0).val + 128 * (L 1).val + x.val, h2⟩ := by
  show (Rect.unit (s := S4x8x4096) (k0_off2 L b) S1x1x128.size (k0_off2_inb L b)).emb
      (Shape.reshapeEquiv squeezes_S1x1x128_S128.numel_eq (ix1 (n := 128) x)) = _
  rw [reshapeEquiv_ix1_11a]
  funext a
  apply Fin.ext
  rw [Rect.emb_apply]
  simp only [Rect.off_unit, Rect.stride_unit]
  rw [congrFun (k0_off2_eq L b) a]
  match a with
  | ⟨0, _⟩ => show b.val + 1 * 0 = b.val; omega
  | ⟨1, _⟩ => show 0 + 1 * 0 = 0; omega
  | ⟨2, _⟩ => show 2048 * (L 0).val + 128 * (L 1).val + 1 * x.val = 2048 * (L 0).val + 128 * (L 1).val + x.val; omega

/-- Entry (x, y) of the block the subcore at L reads for batch b is entry (b, 128·(16·L 0 + L 1) + x, … + y) of A. -/
theorem aBlk_emb (L : grid0.Coords) (b : Fin k0_t1_loop.trips) (x y : Fin 128)
    (h0 : b.val < 4) (h1 : 2048 * (L 0).val + 128 * (L 1).val + x.val < 4096) (h2 : 2048 * (L 0).val + 128 * (L 1).val + y.val < 4096) :
    (aBlkM L b).view.emb (ix2 (n0 := 128) (n1 := 128) x y)
      = ix3 (n0 := 4) (n1 := 4096) (n2 := 4096) ⟨b.val, h0⟩ ⟨2048 * (L 0).val + 128 * (L 1).val + x.val, h1⟩ ⟨2048 * (L 0).val + 128 * (L 1).val + y.val, h2⟩ := by
  show (Rect.unit (s := S4x4096x4096) (k0_off1 L b) S1x128x128.size (k0_off1_inb L b)).emb
      (Shape.reshapeEquiv squeezes_S1x128x128_S128x128.numel_eq (ix2 (n0 := 128) (n1 := 128) x y)) = _
  rw [reshapeEquiv_ix2_1ab]
  funext a
  apply Fin.ext
  rw [Rect.emb_apply]
  simp only [Rect.off_unit, Rect.stride_unit]
  rw [congrFun (k0_off1_eq L b) a]
  match a with
  | ⟨0, _⟩ => show b.val + 1 * 0 = b.val; omega
  | ⟨1, _⟩ => show 2048 * (L 0).val + 128 * (L 1).val + 1 * x.val = 2048 * (L 0).val + 128 * (L 1).val + x.val; omega
  | ⟨2, _⟩ => show 2048 * (L 0).val + 128 * (L 1).val + 1 * y.val = 2048 * (L 0).val + 128 * (L 1).val + y.val; omega

/-! ## At the ideal values the accumulation is the diagonal entry -/

/-- Lane j's number is j. -/
theorem lanes_apply (j : Fin 16) : lanes (ix1 (n := 16) j) = BitVec.ofNat 32 j.val := by
  show BitVec.ofNat 32 (0 * 16 + j.val) = _
  rw [Nat.zero_mul, Nat.zero_add]

/-- One step at the ideal values, in lane j: the row's entry is added when the row's number is j, zero otherwise. -/
theorem accStep_ideal (acc row : FVec Ideal S16 .f32) (i : ℕ) (hi : i < 16) (j : Fin 16) :
    accStep lanes acc (BitVec.ofNat 32 i) row (ix1 (n := 16) j) = acc (ix1 j) + (if j.val = i then row (ix1 j) else 0) := by
  unfold accStep
  rw [addf_apply, select_apply]
  show _ + Scalar.select (IntOp.cmpi .eq (lanes (ix1 (n := 16) j)) (BitVec.ofNat 32 i)) (row (ix1 j)) (Ideal.ofBits .f32 0x00000000#32) = _
  rw [lanes_apply, Ideal.ofBits_zero_f32]
  congr 1
  have hj : j.val < 16 := j.isLt
  by_cases h : j.val = i
  · rw [if_pos h, h]
    have : IntOp.cmpi .eq (BitVec.ofNat 32 i) (BitVec.ofNat 32 i) = 1#1 := by simp [IntOp.cmpi]
    rw [this, select_one]
  · rw [if_neg h]
    have : IntOp.cmpi .eq (BitVec.ofNat 32 j.val) (BitVec.ofNat 32 i) = 0#1 := by
      have hne : BitVec.ofNat 32 j.val ≠ BitVec.ofNat 32 i := by
        intro e
        have := congrArg BitVec.toNat e
        simp only [BitVec.toNat_ofNat] at this
        omega
      have hbq : (BitVec.ofNat 32 j.val == BitVec.ofNat 32 i) = false := beq_eq_false_iff_ne.mpr hne
      simp [IntOp.cmpi, hbq]
    rw [this, select_zero]

/-- Sixteen steps from zero at the ideal values: lane j ends as row j's entry in lane j. -/
theorem diagVec_ideal (r : Fin 16 → FVec Ideal S16 .f32) (j : Fin 16) : diagVec lanes r (ix1 (n := 16) j) = r j (ix1 j) := by
  unfold diagVec
  rw [accStep_ideal _ _ 15 (by omega), accStep_ideal _ _ 14 (by omega), accStep_ideal _ _ 13 (by omega), accStep_ideal _ _ 12 (by omega),
    accStep_ideal _ _ 11 (by omega), accStep_ideal _ _ 10 (by omega), accStep_ideal _ _ 9 (by omega), accStep_ideal _ _ 8 (by omega),
    accStep_ideal _ _ 7 (by omega), accStep_ideal _ _ 6 (by omega), accStep_ideal _ _ 5 (by omega), accStep_ideal _ _ 4 (by omega),
    accStep_ideal _ _ 3 (by omega), accStep_ideal _ _ 2 (by omega), accStep_ideal _ _ 1 (by omega), accStep_ideal _ _ 0 (by omega)]
  have h0 : (broadcast S16 (Scalar.ofBits (F := Ideal) .f32 0x00000000#32) : FVec Ideal S16 .f32) (ix1 (n := 16) j) = 0 := Ideal.ofBits_zero_f32
  rw [h0]
  fin_cases j <;> simp

variable (m : (ℓ : Loc nD τ sig) → Buf (Elt Ideal) ℓ)

def mkL (c : Fin 2) (s : Fin 16) : grid0.Coords :=
  fun | 0 => c | 1 => s | ⟨_ + 2, h⟩ => absurd h (Nat.not_lt.2 (Nat.le_add_left _ _))

/-- Read at the ideal values, what the kernel leaves in row 0 of batch b of the result is the diagonal of A[b]. -/
theorem diag_of_DiagIs (d : Dev nD) (f : Buf (Elt Ideal) (gLoc d)) (h : DiagIs (F := Ideal) m d f) :
    ∀ (b : Fin 4) (r : Fin 4096), f (ix3 (n0 := 4) (n1 := 8) (n2 := 4096) b 0 r) = m (aLoc d) (ix3 (n0 := 4) (n1 := 4096) (n2 := 4096) b r r) := by
  intro b r
  have hr : r.val < 4096 := r.isLt
  obtain ⟨c, hc⟩ : ∃ c : Fin 2, c.val = r.val / 2048 := ⟨⟨r.val / 2048, by omega⟩, rfl⟩
  obtain ⟨s, hs⟩ : ∃ s : Fin 16, s.val = r.val / 128 % 16 := ⟨⟨r.val / 128 % 16, Nat.mod_lt _ (by decide)⟩, rfl⟩
  obtain ⟨kk, hk⟩ : ∃ kk : Fin 8, kk.val = r.val % 128 / 16 := ⟨⟨r.val % 128 / 16, by omega⟩, rfl⟩
  obtain ⟨j, hj⟩ : ∃ j : Fin 16, j.val = r.val % 16 := ⟨⟨r.val % 16, Nat.mod_lt _ (by decide)⟩, rfl⟩
  have hsum : 2048 * c.val + 128 * s.val + (16 * kk.val + j.val) = r.val := by omega
  have hb : b.val < k0_t1_loop.trips := by rw [trips_eq]; exact b.isLt
  have hlt : 2048 * ((mkL c s) 0).val + 128 * ((mkL c s) 1).val + (16 * kk.val + j.val) < 4096 := by
    show 2048 * c.val + 128 * s.val + (16 * kk.val + j.val) < 4096; omega
  have key := h (mkL c s) ⟨b.val, hb⟩ kk j
  have e1 := gRow_emb (mkL c s) ⟨b.val, hb⟩ ⟨16 * kk.val + j.val, by omega⟩ b.isLt hlt
  rw [show gAt kk j = ix1 (n := 128) ⟨16 * kk.val + j.val, by omega⟩ from rfl, e1, diagVec_ideal] at key
  have e2 : (ix3 (n0 := 4) (n1 := 8) (n2 := 4096) ⟨b.val, b.isLt⟩ ⟨0, by decide⟩
      ⟨2048 * ((mkL c s) 0).val + 128 * ((mkL c s) 1).val + (16 * kk.val + j.val), hlt⟩) = ix3 b 0 r := by
    congr 1; exact Fin.ext hsum
  rw [e2] at key
  rw [key]
  unfold blkRows blkOf
  have e3 := aBlk_emb (mkL c s) ⟨b.val, hb⟩ ⟨16 * kk.val + j.val, by omega⟩ ⟨16 * kk.val + j.val, by omega⟩ b.isLt hlt hlt
  show m (aLoc d) ((aBlkM (mkL c s) ⟨b.val, hb⟩).view.emb (ix2 (n0 := 128) (n1 := 128) ⟨16 * kk.val + j.val, _⟩ ⟨16 * kk.val + j.val, _⟩)) = _
  rw [e3]
  congr 1
  congr 1 <;> exact Fin.ext hsum

end Cert.Proof.KI

end
-- ==== Proof.Spec.lean ====
/-
  The specification of the certificate, as pure mathematics over the extended reals: no program is imported.

  A batch of 4 graphs on n = 4096 nodes: node features X : [4, 4096, 64], adjacency A : [4, 4096, 4096], the
  equivariant weights W : [64, 5, 65, 8] and bias be : [64, 8], the invariant weights Wi : [64, 8] and bias
  bi : [64]. Channel c < 64 of a node is a feature, channel 64 the adjacency's. The five basis operations of
  the equivariant 2→1 map, at node i: the diagonal; the diagonal's sum over the nodes, divided by n; the row sum
  divided by n; the column sum divided by n; the total sum divided by n·n (on a feature channel only the diagonal
  entry is non-zero, so its row and column sums are the feature itself). G contracts them with W, adds be,
  takes the positive part, sums over the nodes, contracts with Wi, divides by n and adds bi. Kf is the same
  number arranged the way a fused evaluation computes it: the weights of the operations that share an operand are
  combined first (Wn, W2n), the node-independent part (base) is added once per node, and the contraction with
  Wi runs over the flattened index k = 8 m + h against a matrix that is zero off the block of m.
  The two agree when every input entry is a real number (Kf_eq_G): the rearrangement uses distributivity, which
  fails at the infinities.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Shapes and constants -/

abbrev SX : Shape := ⟨3, ![4, 4096, 64]⟩
abbrev SA : Shape := ⟨3, ![4, 4096, 4096]⟩
abbrev SW : Shape := ⟨4, ![64, 5, 65, 8]⟩
abbrev SMH : Shape := ⟨2, ![64, 8]⟩
abbrev SM : Shape := ⟨1, ![64]⟩
abbrev SO : Shape := ⟨2, ![4, 64]⟩

/-- The number of nodes, n = 4096 = 2¹², as a binary32 word. -/
abbrev nn : EReal := Ideal.ofBits .f32 0x45800000#32
/-- 1/n = 2⁻¹² as a binary32 word. -/
abbrev invn : EReal := Ideal.ofBits .f32 0x39800000#32
/-- 1/n² = 2⁻²⁴ as a binary32 word. -/
abbrev invn2 : EReal := Ideal.ofBits .f32 0x33800000#32

/-! ## The statistics of one graph -/

/-- The diagonal entry of node i. -/
def diagA (A : SA.Idx → EReal) (b : Fin 4) (i : Fin 4096) : EReal := A (ix3 b i i)
/-- The row sum of node i. -/
def rowA (A : SA.Idx → EReal) (b : Fin 4) (i : Fin 4096) : EReal := ∑ j : Fin 4096, A (ix3 b i j)
/-- The column sum of node j. -/
def colA (A : SA.Idx → EReal) (b : Fin 4) (j : Fin 4096) : EReal := ∑ i : Fin 4096, A (ix3 b i j)
/-- The trace. -/
def sdiag (A : SA.Idx → EReal) (b : Fin 4) : EReal := ∑ i : Fin 4096, A (ix3 b i i)
/-- The sum of all entries. -/
def sumA (A : SA.Idx → EReal) (b : Fin 4) : EReal := ∑ i : Fin 4096, ∑ j : Fin 4096, A (ix3 b i j)
/-- The sum of feature f over the nodes. -/
def sumX (X : SX.Idx → EReal) (b : Fin 4) (f : Fin 64) : EReal := ∑ i : Fin 4096, X (ix3 b i f)

/-! ## The reference arrangement -/

/-- 64 feature channels followed by the adjacency channel. -/
def cat65 (f : Fin 64 → EReal) (a : EReal) (c : Fin 65) : EReal :=
  if h : c.val < 64 then f ⟨c.val, h⟩ else a

/-- The five basis operations at node i, channel c. -/
def ops (X : SX.Idx → EReal) (A : SA.Idx → EReal) (b : Fin 4) (i : Fin 4096) (p : Fin 5) (c : Fin 65) : EReal :=
  ![cat65 (fun f => X (ix3 b i f)) (diagA A b i) c,
    Ideal.div (cat65 (fun f => sumX X b f) (sdiag A b) c) nn,
    Ideal.div (cat65 (fun f => X (ix3 b i f)) (rowA A b i) c) nn,
    Ideal.div (cat65 (fun f => X (ix3 b i f)) (colA A b i) c) nn,
    Ideal.div (cat65 (fun f => sumX X b f) (sumA A b) c) (nn * nn)] p

/-- The hidden feature (m, h) of node i: the positive part of the contraction of the operations with W, plus
    the bias. -/
def hidden (X : SX.Idx → EReal) (A : SA.Idx → EReal) (W : SW.Idx → EReal) (be : SMH.Idx → EReal)
    (b : Fin 4) (m : Fin 64) (i : Fin 4096) (h : Fin 8) : EReal :=
  max ((∑ c : Fin 65, ∑ p : Fin 5, W (ix4 m p c h) * ops X A b i p c) + be (ix2 m h)) 0

/-- The invariant feature m of graph b. -/
def Gat (X : SX.Idx → EReal) (A : SA.Idx → EReal) (W : SW.Idx → EReal) (be Wi : SMH.Idx → EReal)
    (bi : SM.Idx → EReal) (b : Fin 4) (m : Fin 64) : EReal :=
  Ideal.div (∑ h : Fin 8, Wi (ix2 m h) * ∑ i : Fin 4096, hidden X A W be b m i h) nn + bi (ix1 m)

/-- THE SPECIFICATION: the invariant features of the batch, index by index. -/
def G (X : SX.Idx → EReal) (A : SA.Idx → EReal) (W : SW.Idx → EReal) (be Wi : SMH.Idx → EReal)
    (bi : SM.Idx → EReal) : SO.Idx → EReal :=
  fun j => Gat X A W be Wi bi (j 0) (j 1)

/-! ## The fused arrangement -/

/-- The invariant-feature coordinate of the flattened index k = 8 m + h. -/
def mOf (k : Fin 512) : Fin 64 := ⟨k.val / 8, by omega⟩
/-- The hidden coordinate of the flattened index k = 8 m + h. -/
def hOf (k : Fin 512) : Fin 8 := ⟨k.val % 8, by omega⟩

/-- The combined weight of a node's own feature f: operations 0, 2 and 3 read it. -/
def Wn (W : SW.Idx → EReal) (f : Fin 64) (k : Fin 512) : EReal :=
  W (ix4 (mOf k) 0 f.castSucc (hOf k))
    + (W (ix4 (mOf k) 2 f.castSucc (hOf k)) + W (ix4 (mOf k) 3 f.castSucc (hOf k))) * invn
/-- The combined weight of the summed feature f: operations 1 and 4 read it. -/
def W2n (W : SW.Idx → EReal) (f : Fin 64) (k : Fin 512) : EReal :=
  W (ix4 (mOf k) 1 f.castSucc (hOf k)) * invn + W (ix4 (mOf k) 4 f.castSucc (hOf k)) * invn2
/-- The weight of operation p on the adjacency channel. -/
def wa (W : SW.Idx → EReal) (p : Fin 5) (k : Fin 512) : EReal := W (ix4 (mOf k) p (Fin.last 64) (hOf k))

/-- The part of the pre-activation that does not depend on the node. -/
def base (X : SX.Idx → EReal) (A : SA.Idx → EReal) (W : SW.Idx → EReal) (be : SMH.Idx → EReal)
    (b : Fin 4) (k : Fin 512) : EReal :=
  (∑ f : Fin 64, sumX X b f * W2n W f k) + (sdiag A b * invn) * wa W 1 k
    + ((sumA A b * invn) * invn) * wa W 4 k + be (ix2 (mOf k) (hOf k))
/-- The adjacency channel's part that depends on the node. -/
def pernode (A : SA.Idx → EReal) (W : SW.Idx → EReal) (b : Fin 4) (i : Fin 4096) (k : Fin 512) : EReal :=
  diagA A b i * wa W 0 k + (rowA A b i * invn) * wa W 2 k + (colA A b i * invn) * wa W 3 k
/-- The hidden feature k of node i, fused. -/
def hid (X : SX.Idx → EReal) (A : SA.Idx → EReal) (W : SW.Idx → EReal) (be : SMH.Idx → EReal)
    (b : Fin 4) (i : Fin 4096) (k : Fin 512) : EReal :=
  max ((∑ f : Fin 64, X (ix3 b i f) * Wn W f k) + pernode A W b i k + base X A W be b k) 0
/-- The invariant weights as a matrix that is zero off the block of m. -/
def sel (Wi : SMH.Idx → EReal) (k : Fin 512) (m : Fin 64) : EReal :=
  if mOf k = m then Wi (ix2 (mOf k) (hOf k)) else 0
/-- The invariant feature m of graph b, fused. -/
def Kat (X : SX.Idx → EReal) (A : SA.Idx → EReal) (W : SW.Idx → EReal) (be Wi : SMH.Idx → EReal)
    (bi : SM.Idx → EReal) (b : Fin 4) (m : Fin 64) : EReal :=
  (∑ k : Fin 512, (∑ i : Fin 4096, hid X A W be b i k) * sel Wi k m) * invn + bi (ix1 m)

/-- THE FUSED ARRANGEMENT, index by index. -/
def Kf (X : SX.Idx → EReal) (A : SA.Idx → EReal) (W : SW.Idx → EReal) (be Wi : SMH.Idx → EReal)
    (bi : SM.Idx → EReal) : SO.Idx → EReal :=
  fun j => Kat X A W be Wi bi (j 0) (j 1)

theorem G_ix2 (X : SX.Idx → EReal) (A : SA.Idx → EReal) (W : SW.Idx → EReal) (be Wi : SMH.Idx → EReal)
    (bi : SM.Idx → EReal) (b : Fin 4) (m : Fin 64) : G X A W be Wi bi (ix2 b m) = Gat X A W be Wi bi b m := rfl
theorem Kf_ix2 (X : SX.Idx → EReal) (A : SA.Idx → EReal) (W : SW.Idx → EReal) (be Wi : SMH.Idx → EReal)
    (bi : SM.Idx → EReal) (b : Fin 4) (m : Fin 64) : Kf X A W be Wi bi (ix2 b m) = Kat X A W be Wi bi b m := rfl

/-! ## The constants, and the reference's quotients as products -/

theorem nn_eq : nn = ((4096 : ℝ) : EReal) := by
  simp [Ideal.ofBits, Ideal.ieee, -EReal.coe_mul]; norm_num
theorem invn_eq : invn = ((1 / 4096 : ℝ) : EReal) := by
  simp [Ideal.ofBits, Ideal.ieee, -EReal.coe_mul]; norm_num
theorem invn2_eq : invn2 = ((1 / (4096 * 4096) : ℝ) : EReal) := by
  simp [Ideal.ofBits, Ideal.ieee, -EReal.coe_mul]; norm_num

/-- Dividing by n is multiplying by 1/n, on every extended real. -/
theorem div_nn (x : EReal) : Ideal.div x nn = x * invn := by
  rw [nn_eq, Ideal.div_coe (by norm_num), invn_eq]
/-- Dividing by n·n is multiplying by 1/n², on every extended real. -/
theorem div_nn2 (x : EReal) : Ideal.div x (nn * nn) = x * invn2 := by
  rw [nn_eq, ← EReal.coe_mul, Ideal.div_coe (by norm_num), invn2_eq]

/-- The coercion of the reals into the extended reals commutes with finite sums. -/
@[norm_cast] theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem cat65_castSucc (f : Fin 64 → EReal) (a : EReal) (c : Fin 64) : cat65 f a c.castSucc = f c := by
  unfold cat65
  rw [dif_pos (show (c.castSucc : Fin 65).val < 64 from c.isLt)]
  rfl
theorem cat65_last (f : Fin 64 → EReal) (a : EReal) : cat65 f a (Fin.last 64) = a := by
  unfold cat65
  rw [dif_neg (show ¬ (Fin.last 64 : Fin 65).val < 64 by simp)]

/-! ## The pre-activation: the same real number in both arrangements -/

/-- The rearrangement, over the reals: the weights of the operations that share an operand are combined. -/
theorem pre_real (x S w0 w1 w2 w3 w4 : Fin 64 → ℝ) (d sd r cl sA v0 v1 v2 v3 v4 e ι ι2 : ℝ) (h2 : ι2 = ι * ι) :
    (∑ f, (w0 f * x f + w1 f * (S f * ι) + w2 f * (x f * ι) + w3 f * (x f * ι) + w4 f * (S f * ι2)))
      + (v0 * d + v1 * (sd * ι) + v2 * (r * ι) + v3 * (cl * ι) + v4 * (sA * ι2)) + e
    = (∑ f, x f * (w0 f + (w2 f + w3 f) * ι)) + (d * v0 + (r * ι) * v2 + (cl * ι) * v3)
      + ((∑ f, S f * (w1 f * ι + w4 f * ι2)) + (sd * ι) * v1 + ((sA * ι) * ι) * v4 + e) := by
  have hs : (∑ f, (w0 f * x f + w1 f * (S f * ι) + w2 f * (x f * ι) + w3 f * (x f * ι) + w4 f * (S f * ι2)))
      = (∑ f, x f * (w0 f + (w2 f + w3 f) * ι)) + ∑ f, S f * (w1 f * ι + w4 f * ι2) := by
    rw [← Finset.sum_add_distrib]; exact Finset.sum_congr rfl fun f _ => by ring
  rw [hs, h2]; ring

/-- The reference's contraction over the 65 channels and 5 operations, channel 64 split off and the operations
    written out, the quotients as products. -/
theorem pre_G_expand (X : SX.Idx → EReal) (A : SA.Idx → EReal) (W : SW.Idx → EReal) (b : Fin 4) (m : Fin 64)
    (i : Fin 4096) (h : Fin 8) :
    (∑ c : Fin 65, ∑ p : Fin 5, W (ix4 m p c h) * ops X A b i p c)
    = (∑ f : Fin 64, (W (ix4 m 0 f.castSucc h) * X (ix3 b i f) + W (ix4 m 1 f.castSucc h) * (sumX X b f * invn)
        + W (ix4 m 2 f.castSucc h) * (X (ix3 b i f) * invn) + W (ix4 m 3 f.castSucc h) * (X (ix3 b i f) * invn)
        + W (ix4 m 4 f.castSucc h) * (sumX X b f * invn2)))
      + (W (ix4 m 0 (Fin.last 64) h) * diagA A b i + W (ix4 m 1 (Fin.last 64) h) * (sdiag A b * invn)
        + W (ix4 m 2 (Fin.last 64) h) * (rowA A b i * invn) + W (ix4 m 3 (Fin.last 64) h) * (colA A b i * invn)
        + W (ix4 m 4 (Fin.last 64) h) * (sumA A b * invn2)) := by
  rw [Fin.sum_univ_castSucc]
  simp only [Fin.sum_univ_five, ops, cat65_castSucc, cat65_last, div_nn, div_nn2, Matrix.cons_val_zero,
    Matrix.cons_val_one, Matrix.cons_val]

/-- THE PRE-ACTIVATION: on real inputs the reference's contraction plus the bias is the fused sum of the node's
    features against the combined weights, the node's adjacency part, and the node-independent part. -/
theorem pre_eq (x : SX.Idx → ℝ) (a : SA.Idx → ℝ) (w : SW.Idx → ℝ) (e : SMH.Idx → ℝ) (b : Fin 4) (i : Fin 4096)
    (k : Fin 512) :
    (∑ c : Fin 65, ∑ p : Fin 5, (w (ix4 (mOf k) p c (hOf k)) : EReal)
        * ops (fun j => (x j : EReal)) (fun j => (a j : EReal)) b i p c) + (e (ix2 (mOf k) (hOf k)) : EReal)
    = (∑ f : Fin 64, (x (ix3 b i f) : EReal) * Wn (fun j => (w j : EReal)) f k)
        + pernode (fun j => (a j : EReal)) (fun j => (w j : EReal)) b i k
        + base (fun j => (x j : EReal)) (fun j => (a j : EReal)) (fun j => (w j : EReal)) (fun j => (e j : EReal)) b k := by
  rw [pre_G_expand (fun j => (x j : EReal)) (fun j => (a j : EReal)) (fun j => (w j : EReal))]
  simp only [Wn, W2n, wa, pernode, base, diagA, rowA, colA, sdiag, sumA, sumX, invn_eq, invn2_eq]
  simp only [← EReal.coe_mul, ← EReal.coe_add, ← coe_sum]
  refine congrArg _ ?_
  exact pre_real (fun f => x (ix3 b i f)) (fun f => ∑ i' : Fin 4096, x (ix3 b i' f))
    (fun f => w (ix4 (mOf k) 0 f.castSucc (hOf k))) (fun f => w (ix4 (mOf k) 1 f.castSucc (hOf k)))
    (fun f => w (ix4 (mOf k) 2 f.castSucc (hOf k))) (fun f => w (ix4 (mOf k) 3 f.castSucc (hOf k)))
    (fun f => w (ix4 (mOf k) 4 f.castSucc (hOf k)))
    (a (ix3 b i i)) (∑ i' : Fin 4096, a (ix3 b i' i')) (∑ j : Fin 4096, a (ix3 b i j)) (∑ i' : Fin 4096, a (ix3 b i' i))
    (∑ i' : Fin 4096, ∑ j : Fin 4096, a (ix3 b i' j))
    (w (ix4 (mOf k) 0 (Fin.last 64) (hOf k))) (w (ix4 (mOf k) 1 (Fin.last 64) (hOf k)))
    (w (ix4 (mOf k) 2 (Fin.last 64) (hOf k))) (w (ix4 (mOf k) 3 (Fin.last 64) (hOf k)))
    (w (ix4 (mOf k) 4 (Fin.last 64) (hOf k))) (e (ix2 (mOf k) (hOf k))) (1 / 4096) (1 / (4096 * 4096)) (by norm_num)

/-- So the fused hidden feature k of a node is the reference's hidden feature (m, h) with k = 8 m + h. -/
theorem hid_eq (x : SX.Idx → ℝ) (a : SA.Idx → ℝ) (w : SW.Idx → ℝ) (e : SMH.Idx → ℝ) (b : Fin 4) (i : Fin 4096)
    (k : Fin 512) :
    hid (fun j => (x j : EReal)) (fun j => (a j : EReal)) (fun j => (w j : EReal)) (fun j => (e j : EReal)) b i k
    = hidden (fun j => (x j : EReal)) (fun j => (a j : EReal)) (fun j => (w j : EReal)) (fun j => (e j : EReal)) b
        (mOf k) i (hOf k) := by
  unfold hid hidden
  exact congrArg (max · 0) (pre_eq x a w e b i k).symm

/-! ## The last contraction: the flattened index against the block matrix -/

/-- The flattened index k = 8 m + h and the pair (m, h). -/
def kEquiv : Fin 64 × Fin 8 ≃ Fin 512 where
  toFun p := ⟨8 * p.1.val + p.2.val, by omega⟩
  invFun k := (mOf k, hOf k)
  left_inv p := by
    refine Prod.ext (Fin.ext ?_) (Fin.ext ?_)
    · show (8 * p.1.val + p.2.val) / 8 = p.1.val
      omega
    · show (8 * p.1.val + p.2.val) % 8 = p.2.val
      omega
  right_inv k := by
    refine Fin.ext ?_
    show 8 * (k.val / 8) + k.val % 8 = k.val
    omega

theorem mOf_kEquiv (m : Fin 64) (h : Fin 8) : mOf (kEquiv (m, h)) = m :=
  congrArg Prod.fst (kEquiv.left_inv (m, h))
theorem hOf_kEquiv (m : Fin 64) (h : Fin 8) : hOf (kEquiv (m, h)) = h :=
  congrArg Prod.snd (kEquiv.left_inv (m, h))

/-- A sum over the flattened index against the block matrix keeps the block of m: on every extended real
    (a product with zero is zero there too). -/
theorem sum_sel (Wi : SMH.Idx → EReal) (s : Fin 512 → EReal) (t : Fin 64 → Fin 8 → EReal)
    (hs : ∀ k, s k = t (mOf k) (hOf k)) (m : Fin 64) :
    ∑ k : Fin 512, s k * sel Wi k m = ∑ h : Fin 8, t m h * Wi (ix2 m h) := by
  rw [← Equiv.sum_comp kEquiv, Fintype.sum_prod_type, Finset.sum_eq_single m]
  · refine Finset.sum_congr rfl fun h _ => ?_
    rw [hs, sel, mOf_kEquiv, hOf_kEquiv, if_pos rfl]
  · intro m' _ hm
    refine Finset.sum_eq_zero fun h _ => ?_
    rw [sel, mOf_kEquiv, if_neg hm, mul_zero]
  · intro hm
    exact absurd (Finset.mem_univ m) hm

/-! ## The law -/

/-- THE LAW, at one index: on real inputs the fused arrangement is the specification. -/
theorem Kat_eq_Gat (X : SX.Idx → EReal) (A : SA.Idx → EReal) (W : SW.Idx → EReal) (be Wi : SMH.Idx → EReal)
    (bi : SM.Idx → EReal) (hX : ∀ i, ∃ r : ℝ, X i = r) (hA : ∀ i, ∃ r : ℝ, A i = r) (hW : ∀ i, ∃ r : ℝ, W i = r)
    (hbe : ∀ i, ∃ r : ℝ, be i = r) (b : Fin 4) (m : Fin 64) :
    Kat X A W be Wi bi b m = Gat X A W be Wi bi b m := by
  choose x hx using hX
  choose a ha using hA
  choose w hw using hW
  choose e he using hbe
  obtain rfl : X = fun j => (x j : EReal) := funext hx
  obtain rfl : A = fun j => (a j : EReal) := funext ha
  obtain rfl : W = fun j => (w j : EReal) := funext hw
  obtain rfl : be = fun j => (e j : EReal) := funext he
  unfold Kat Gat
  rw [div_nn, sum_sel Wi _ (fun m h => ∑ i : Fin 4096,
    hidden (fun j => (x j : EReal)) (fun j => (a j : EReal)) (fun j => (w j : EReal)) (fun j => (e j : EReal)) b m i h)
    (fun k => Finset.sum_congr rfl fun i _ => hid_eq x a w e b i k) m]
  refine congrArg (· * invn + bi (ix1 m)) (Finset.sum_congr rfl fun h _ => mul_comm _ _)

/-- THE LAW: when every entry of X, A, W and be is a real number, the fused arrangement is the specification. -/
theorem Kf_eq_G (X : SX.Idx → EReal) (A : SA.Idx → EReal) (W : SW.Idx → EReal) (be Wi : SMH.Idx → EReal)
    (bi : SM.Idx → EReal) (hX : ∀ i, ∃ r : ℝ, X i = r) (hA : ∀ i, ∃ r : ℝ, A i = r) (hW : ∀ i, ∃ r : ℝ, W i = r)
    (hbe : ∀ i, ∃ r : ℝ, be i = r) :
    Kf X A W be Wi bi = G X A W be Wi bi :=
  funext fun j => Kat_eq_Gat X A W be Wi bi hX hA hW hbe (j 0) (j 1)

end Cert.Spec

end
-- ==== Proof.GlueI.lean ====
/-
  The arrays the host prepares for the fused evaluation, read at an index: the two combined weight matrices, the
  eight packed rows (the adjacency weights of the five basis operations, the equivariant bias, two rows of zeros),
  the block matrix of the invariant weights, and the invariant bias as a one-row matrix. Each is a chain of slices,
  reshapes, transposes, broadcasts and a stack of the weight arrays; flattening (m, h) to k = 8 m + h is the only
  arithmetic, and the block number of k is computed by a floor division whose correction never applies to
  non-negative numbers.
-/
import proofs.«208576_g46445776339566_cont_8to1c4_655_26_alg».proof.Proof.MainOpsI
import proofs.«208576_g46445776339566_cont_8to1c4_655_26_alg».proof.Proof.Spec
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

set_option maxRecDepth 65536

noncomputable section

open scoped BigOperators

namespace Cert.Proof.KI.Glue

open Cert.KernelIdeal Cert.Proof.KI
open Idealize.ShloMosaic Idealize.SL.Sem Idealize.ShloMosaic.StableHlo Idealize.ShloMosaic.ValueIdx
open Cert.Spec (mOf hOf)

/-! ## Layout operations of the weight arrays, read at an index -/

section Layouts
variable {α : Type}

/-- The slab of operation p of W, restricted to the 64 feature channels and with the unit axis dropped, at (m, f, h). -/
theorem slab_at (W : (⟨4, ![64, 5, 65, 8]⟩ : Shape).Idx → α) (p : Fin 5) (off : Fin 4 → Nat) (hoff : off = ![0, p.val, 0, 0])
    (h1 : (⟨4, ![64, 5, 65, 8]⟩ : Shape).Slices ![0, 0, 0, 0] ⟨4, ![64, 5, 64, 8]⟩)
    (h2 : (⟨4, ![64, 5, 64, 8]⟩ : Shape).Slices off ⟨4, ![64, 1, 64, 8]⟩)
    (h3 : (⟨4, ![64, 1, 64, 8]⟩ : Shape).ShapeCasts ⟨3, ![64, 64, 8]⟩) (m f : Fin 64) (h : Fin 8) :
    shapeCast ⟨3, ![64, 64, 8]⟩ (extractStridedSlice ⟨4, ![64, 1, 64, 8]⟩ off
      (extractStridedSlice ⟨4, ![64, 5, 64, 8]⟩ ![0, 0, 0, 0] W h1) h2) h3 (ix3 m f h) = W (ix4 m p f.castSucc h) := by
  subst hoff
  refine (shapeCast_apply _ h3 (ix3 m f h) (ix4 m (0 : Fin 1) f h) ?_).trans ?_
  · rw [Shape.rowMajor_val_four, Shape.rowMajor_val_three]
    show ((m.val * 1 + 0) * 64 + f.val) * 8 + h.val = (m.val * 64 + f.val) * 8 + h.val
    omega
  refine (extractStridedSlice_apply _ _ h2 (ix4 m (0 : Fin 1) f h) (ix4 m p f h) (fun a => ?_)).trans ?_
  · match a with
    | ⟨0, _⟩ => show m.val = 0 + m.val; omega
    | ⟨1, _⟩ => show p.val = p.val + 0; omega
    | ⟨2, _⟩ => show f.val = 0 + f.val; omega
    | ⟨3, _⟩ => show h.val = 0 + h.val; omega
  exact extractStridedSlice_apply _ W h1 (ix4 m p f h) (ix4 m p f.castSucc h) (fun a => by
    match a with
    | ⟨0, _⟩ => show m.val = 0 + m.val; omega
    | ⟨1, _⟩ => show p.val = 0 + p.val; omega
    | ⟨2, _⟩ => show f.val = 0 + f.val; omega
    | ⟨3, _⟩ => show h.val = 0 + h.val; omega)

/-- [64, 64, 8] flattened to [64, 512]: column k = 8 m + h. -/
theorem flat_at (x : (⟨3, ![64, 64, 8]⟩ : Shape).Idx → α) (h : (⟨3, ![64, 64, 8]⟩ : Shape).ShapeCasts ⟨2, ![64, 512]⟩)
    (f : Fin 64) (k : Fin 512) : shapeCast ⟨2, ![64, 512]⟩ x h (ix2 f k) = x (ix3 f (mOf k) (hOf k)) :=
  shapeCast_apply x h _ _ (by
    rw [Shape.rowMajor_val_three, Shape.rowMajor_val_two]
    show (f.val * 64 + k.val / 8) * 8 + k.val % 8 = f.val * 512 + k.val
    omega)

/-- The first two axes exchanged. -/
theorem swap01_at (x : (⟨3, ![64, 64, 8]⟩ : Shape).Idx → α)
    (h : (⟨3, ![64, 64, 8]⟩ : Shape).Transposes [1, 0, 2] ⟨3, ![64, 64, 8]⟩) (f m : Fin 64) (hh : Fin 8) :
    transpose ⟨3, ![64, 64, 8]⟩ [1, 0, 2] x h (ix3 f m hh) = x (ix3 m f hh) :=
  transpose_apply _ x h _ _ fun c => match c with | ⟨0, _⟩ => rfl | ⟨1, _⟩ => rfl | ⟨2, _⟩ => rfl

end Layouts

section Layouts2
variable {α : Type}

/-- [64, 8] flattened to [512]: entry k = 8 m + h. -/
theorem flat2_at (x : (⟨2, ![64, 8]⟩ : Shape).Idx → α) (h : (⟨2, ![64, 8]⟩ : Shape).ShapeCasts ⟨1, ![512]⟩) (k : Fin 512) :
    shapeCast ⟨1, ![512]⟩ x h (ix1 k) = x (ix2 (mOf k) (hOf k)) :=
  shapeCast_apply x h _ _ (by
    rw [Shape.rowMajor_val_two, Shape.rowMajor_val_one]
    show k.val / 8 * 8 + k.val % 8 = k.val
    omega)

/-- A vector laid as one row. -/
theorem row1_at (x : (⟨1, ![512]⟩ : Shape).Idx → α)
    (h : (⟨1, ![512]⟩ : Shape).BroadcastsInDim ⟨2, ![1, 512]⟩ (![1] : Fin 1 → Fin 2)) (u : Fin 1) (k : Fin 512) :
    broadcastInDim ⟨2, ![1, 512]⟩ ![1] h x (ix2 u k) = x (ix1 k) :=
  broadcastInDim_apply _ h x _ _ fun a => match a with
    | ⟨0, _⟩ => by show k.val = if (512 : Nat) = 1 then 0 else k.val; rw [if_neg (by decide)]

/-- A vector of 512 entries laid as a column and repeated along 64 columns. -/
theorem col_bcast_at (x : (⟨1, ![512]⟩ : Shape).Idx → α)
    (h1 : (⟨1, ![512]⟩ : Shape).BroadcastsInDim ⟨2, ![512, 1]⟩ (![0] : Fin 1 → Fin 2))
    (h2 : (⟨2, ![512, 1]⟩ : Shape).BroadcastsInDim ⟨2, ![512, 64]⟩ (![0, 1] : Fin 2 → Fin 2)) (k : Fin 512) (m : Fin 64) :
    broadcastInDim ⟨2, ![512, 64]⟩ ![0, 1] h2 (broadcastInDim ⟨2, ![512, 1]⟩ ![0] h1 x) (ix2 k m) = x (ix1 k) := by
  refine (broadcastInDim_apply _ h2 _ (ix2 k m) (ix2 k (0 : Fin 1)) fun a => ?_).trans ?_
  · match a with
    | ⟨0, _⟩ => show k.val = if (512 : Nat) = 1 then 0 else k.val; rw [if_neg (by decide)]
    | ⟨1, _⟩ => show 0 = if (1 : Nat) = 1 then 0 else m.val; rw [if_pos rfl]
  exact broadcastInDim_apply _ h1 x _ _ fun a => match a with
    | ⟨0, _⟩ => by show k.val = if (512 : Nat) = 1 then 0 else k.val; rw [if_neg (by decide)]

/-- A vector of 64 entries laid as a row and repeated along 512 rows. -/
theorem row_bcast_at (x : (⟨1, ![64]⟩ : Shape).Idx → α)
    (h1 : (⟨1, ![64]⟩ : Shape).BroadcastsInDim ⟨2, ![1, 64]⟩ (![1] : Fin 1 → Fin 2))
    (h2 : (⟨2, ![1, 64]⟩ : Shape).BroadcastsInDim ⟨2, ![512, 64]⟩ (![0, 1] : Fin 2 → Fin 2)) (k : Fin 512) (m : Fin 64) :
    broadcastInDim ⟨2, ![512, 64]⟩ ![0, 1] h2 (broadcastInDim ⟨2, ![1, 64]⟩ ![1] h1 x) (ix2 k m) = x (ix1 m) := by
  refine (broadcastInDim_apply _ h2 _ (ix2 k m) (ix2 (0 : Fin 1) m) fun a => ?_).trans ?_
  · match a with
    | ⟨0, _⟩ => show 0 = if (1 : Nat) = 1 then 0 else k.val; rw [if_pos rfl]
    | ⟨1, _⟩ => show m.val = if (64 : Nat) = 1 then 0 else m.val; rw [if_neg (by decide)]
  exact broadcastInDim_apply _ h1 x _ _ fun a => match a with
    | ⟨0, _⟩ => by show m.val = if (64 : Nat) = 1 then 0 else m.val; rw [if_neg (by decide)]

/-- The adjacency channel of W with its unit axis dropped, at (m, p, h). -/
theorem adj_at (W : (⟨4, ![64, 5, 65, 8]⟩ : Shape).Idx → α)
    (h1 : (⟨4, ![64, 5, 65, 8]⟩ : Shape).Slices ![0, 0, 64, 0] ⟨4, ![64, 5, 1, 8]⟩)
    (h2 : (⟨4, ![64, 5, 1, 8]⟩ : Shape).ShapeCasts ⟨3, ![64, 5, 8]⟩) (m : Fin 64) (p : Fin 5) (h : Fin 8) :
    shapeCast ⟨3, ![64, 5, 8]⟩ (extractStridedSlice ⟨4, ![64, 5, 1, 8]⟩ ![0, 0, 64, 0] W h1) h2 (ix3 m p h)
      = W (ix4 m p (Fin.last 64) h) := by
  refine (shapeCast_apply _ h2 (ix3 m p h) (ix4 m p (0 : Fin 1) h) ?_).trans ?_
  · rw [Shape.rowMajor_val_four, Shape.rowMajor_val_three]
    show ((m.val * 5 + p.val) * 1 + 0) * 8 + h.val = (m.val * 5 + p.val) * 8 + h.val
    omega
  exact extractStridedSlice_apply _ W h1 _ (ix4 m p (Fin.last 64) h) (fun a => by
    match a with
    | ⟨0, _⟩ => show m.val = 0 + m.val; omega
    | ⟨1, _⟩ => show p.val = 0 + p.val; omega
    | ⟨2, _⟩ => show 64 = 64 + 0; omega
    | ⟨3, _⟩ => show h.val = 0 + h.val; omega)

/-- One operation's row of the adjacency weights, flattened to k = 8 m + h and laid as a row. -/
theorem adj_row_at (v2 : (⟨3, ![64, 5, 8]⟩ : Shape).Idx → α) (p : Fin 5) (off : Fin 3 → Nat) (hoff : off = ![0, p.val, 0])
    (h1 : (⟨3, ![64, 5, 8]⟩ : Shape).Slices off ⟨3, ![64, 1, 8]⟩)
    (h2 : (⟨3, ![64, 1, 8]⟩ : Shape).ShapeCasts ⟨2, ![64, 8]⟩) (h3 : (⟨2, ![64, 8]⟩ : Shape).ShapeCasts ⟨1, ![512]⟩)
    (h4 : (⟨1, ![512]⟩ : Shape).BroadcastsInDim ⟨2, ![1, 512]⟩ (![1] : Fin 1 → Fin 2)) (u : Fin 1) (k : Fin 512) :
    broadcastInDim ⟨2, ![1, 512]⟩ ![1] h4 (shapeCast ⟨1, ![512]⟩ (shapeCast ⟨2, ![64, 8]⟩
      (extractStridedSlice ⟨3, ![64, 1, 8]⟩ off v2 h1) h2) h3) (ix2 u k) = v2 (ix3 (mOf k) p (hOf k)) := by
  subst hoff
  rw [row1_at, flat2_at]
  refine (shapeCast_apply _ h2 (ix2 (mOf k) (hOf k)) (ix3 (mOf k) (0 : Fin 1) (hOf k)) ?_).trans ?_
  · rw [Shape.rowMajor_val_three, Shape.rowMajor_val_two]
    show ((mOf k).val * 1 + 0) * 8 + (hOf k).val = (mOf k).val * 8 + (hOf k).val
    omega
  exact extractStridedSlice_apply _ v2 h1 _ (ix3 (mOf k) p (hOf k)) (fun a => by
    match a with
    | ⟨0, _⟩ => show (mOf k).val = 0 + (mOf k).val; omega
    | ⟨1, _⟩ => show p.val = p.val + 0; omega
    | ⟨2, _⟩ => show (hOf k).val = 0 + (hOf k).val; omega)

/-- Eight rows stacked. -/
theorem stack8_at
    (h : Shape.Concatenates [⟨2, ![1, 512]⟩, ⟨2, ![1, 512]⟩, ⟨2, ![1, 512]⟩, ⟨2, ![1, 512]⟩, ⟨2, ![1, 512]⟩, ⟨2, ![1, 512]⟩,
      ⟨2, ![1, 512]⟩, ⟨2, ![1, 512]⟩] ⟨2, ![8, 512]⟩ 0)
    (r0 r1 r2 r3 r4 r5 r6 r7 : (⟨2, ![1, 512]⟩ : Shape).Idx → α) (p : Fin 8) (k : Fin 512) :
    concatenate ⟨2, ![8, 512]⟩ 0 [⟨⟨2, ![1, 512]⟩, r0⟩, ⟨⟨2, ![1, 512]⟩, r1⟩, ⟨⟨2, ![1, 512]⟩, r2⟩, ⟨⟨2, ![1, 512]⟩, r3⟩,
      ⟨⟨2, ![1, 512]⟩, r4⟩, ⟨⟨2, ![1, 512]⟩, r5⟩, ⟨⟨2, ![1, 512]⟩, r6⟩, ⟨⟨2, ![1, 512]⟩, r7⟩] h (ix2 p k)
      = ![r0 (ix2 0 k), r1 (ix2 0 k), r2 (ix2 0 k), r3 (ix2 0 k), r4 (ix2 0 k), r5 (ix2 0 k), r6 (ix2 0 k), r7 (ix2 0 k)] p := by
  have hi : ∀ (q : Fin 8) (a : Fin 2), a ≠ 0 → ((ix2 (0 : Fin 1) k) a).val = ((ix2 q k) a).val := fun q a ha =>
    match a, ha with
    | ⟨0, _⟩, ha => absurd rfl ha
    | ⟨1, _⟩, _ => rfl
  match p with
  | ⟨0, _⟩ => exact concatenate_apply_piece 0 [⟨⟨2, ![1, 512]⟩, r0⟩, ⟨⟨2, ![1, 512]⟩, r1⟩, ⟨⟨2, ![1, 512]⟩, r2⟩, ⟨⟨2, ![1, 512]⟩, r3⟩, ⟨⟨2, ![1, 512]⟩, r4⟩, ⟨⟨2, ![1, 512]⟩, r5⟩, ⟨⟨2, ![1, 512]⟩, r6⟩, ⟨⟨2, ![1, 512]⟩, r7⟩] h _ 0 (show 0 < 8 by decide) _ r0 rfl rfl 0 rfl (ix2 0 k) (hi _) rfl
  | ⟨1, _⟩ => exact concatenate_apply_piece 0 [⟨⟨2, ![1, 512]⟩, r0⟩, ⟨⟨2, ![1, 512]⟩, r1⟩, ⟨⟨2, ![1, 512]⟩, r2⟩, ⟨⟨2, ![1, 512]⟩, r3⟩, ⟨⟨2, ![1, 512]⟩, r4⟩, ⟨⟨2, ![1, 512]⟩, r5⟩, ⟨⟨2, ![1, 512]⟩, r6⟩, ⟨⟨2, ![1, 512]⟩, r7⟩] h _ 1 (show 1 < 8 by decide) _ r1 rfl rfl 1 rfl (ix2 0 k) (hi _) rfl
  | ⟨2, _⟩ => exact concatenate_apply_piece 0 [⟨⟨2, ![1, 512]⟩, r0⟩, ⟨⟨2, ![1, 512]⟩, r1⟩, ⟨⟨2, ![1, 512]⟩, r2⟩, ⟨⟨2, ![1, 512]⟩, r3⟩, ⟨⟨2, ![1, 512]⟩, r4⟩, ⟨⟨2, ![1, 512]⟩, r5⟩, ⟨⟨2, ![1, 512]⟩, r6⟩, ⟨⟨2, ![1, 512]⟩, r7⟩] h _ 2 (show 2 < 8 by decide) _ r2 rfl rfl 2 rfl (ix2 0 k) (hi _) rfl
  | ⟨3, _⟩ => exact concatenate_apply_piece 0 [⟨⟨2, ![1, 512]⟩, r0⟩, ⟨⟨2, ![1, 512]⟩, r1⟩, ⟨⟨2, ![1, 512]⟩, r2⟩, ⟨⟨2, ![1, 512]⟩, r3⟩, ⟨⟨2, ![1, 512]⟩, r4⟩, ⟨⟨2, ![1, 512]⟩, r5⟩, ⟨⟨2, ![1, 512]⟩, r6⟩, ⟨⟨2, ![1, 512]⟩, r7⟩] h _ 3 (show 3 < 8 by decide) _ r3 rfl rfl 3 rfl (ix2 0 k) (hi _) rfl
  | ⟨4, _⟩ => exact concatenate_apply_piece 0 [⟨⟨2, ![1, 512]⟩, r0⟩, ⟨⟨2, ![1, 512]⟩, r1⟩, ⟨⟨2, ![1, 512]⟩, r2⟩, ⟨⟨2, ![1, 512]⟩, r3⟩, ⟨⟨2, ![1, 512]⟩, r4⟩, ⟨⟨2, ![1, 512]⟩, r5⟩, ⟨⟨2, ![1, 512]⟩, r6⟩, ⟨⟨2, ![1, 512]⟩, r7⟩] h _ 4 (show 4 < 8 by decide) _ r4 rfl rfl 4 rfl (ix2 0 k) (hi _) rfl
  | ⟨5, _⟩ => exact concatenate_apply_piece 0 [⟨⟨2, ![1, 512]⟩, r0⟩, ⟨⟨2, ![1, 512]⟩, r1⟩, ⟨⟨2, ![1, 512]⟩, r2⟩, ⟨⟨2, ![1, 512]⟩, r3⟩, ⟨⟨2, ![1, 512]⟩, r4⟩, ⟨⟨2, ![1, 512]⟩, r5⟩, ⟨⟨2, ![1, 512]⟩, r6⟩, ⟨⟨2, ![1, 512]⟩, r7⟩] h _ 5 (show 5 < 8 by decide) _ r5 rfl rfl 5 rfl (ix2 0 k) (hi _) rfl
  | ⟨6, _⟩ => exact concatenate_apply_piece 0 [⟨⟨2, ![1, 512]⟩, r0⟩, ⟨⟨2, ![1, 512]⟩, r1⟩, ⟨⟨2, ![1, 512]⟩, r2⟩, ⟨⟨2, ![1, 512]⟩, r3⟩, ⟨⟨2, ![1, 512]⟩, r4⟩, ⟨⟨2, ![1, 512]⟩, r5⟩, ⟨⟨2, ![1, 512]⟩, r6⟩, ⟨⟨2, ![1, 512]⟩, r7⟩] h _ 6 (show 6 < 8 by decide) _ r6 rfl rfl 6 rfl (ix2 0 k) (hi _) rfl
  | ⟨7, _⟩ => exact concatenate_apply_piece 0 [⟨⟨2, ![1, 512]⟩, r0⟩, ⟨⟨2, ![1, 512]⟩, r1⟩, ⟨⟨2, ![1, 512]⟩, r2⟩, ⟨⟨2, ![1, 512]⟩, r3⟩, ⟨⟨2, ![1, 512]⟩, r4⟩, ⟨⟨2, ![1, 512]⟩, r5⟩, ⟨⟨2, ![1, 512]⟩, r6⟩, ⟨⟨2, ![1, 512]⟩, r7⟩] h _ 7 (show 7 < 8 by decide) _ r7 rfl rfl 7 rfl (ix2 0 k) (hi _) rfl

/-- The sign of a 32-bit word, as a word: 0, -1 or 1. -/
def signWord (x : BitVec 32) : BitVec 32 := if x = 0 then 0 else if x.msb then -1 else 1

/-- The block number of the flattened index, computed the way a floor division of non-negative words is: the
    quotient, corrected by one only when the signs differ and the remainder is not zero, which never happens here. -/
theorem floordiv_word : ∀ k : Fin 512,
    Scalar.select
      (IntOp.andi (IntOp.cmpi .ne (signWord (BitVec.ofNat 32 k.val)) (signWord 8#32))
        (IntOp.cmpi .ne (IntOp.remsi .host (BitVec.ofNat 32 k.val) 8#32) 0#32))
      (IntOp.subi (IntOp.divsi .host (BitVec.ofNat 32 k.val) 8#32) 1#32)
      (IntOp.divsi .host (BitVec.ofNat 32 k.val) 8#32) = BitVec.ofNat 32 (k.val / 8) := by
  decide +kernel

/-- Two block numbers below 64, as words, are equal exactly when they are equal. -/
theorem eq_word (a b : Fin 64) : IntOp.cmpi .eq (BitVec.ofNat 32 a.val) (BitVec.ofNat 32 b.val) = if a = b then 1#1 else 0#1 := by
  revert a b
  decide +kernel

end Layouts2

variable [Facts]
open Facts₀ Facts

/-! ## The combined weights -/

/-- The slab of one operation of W, feature channels only, as the host computes it. -/
abbrev slab (W : FVec Ideal S64x5x65x8 .f32) (off : Fin 4 → Nat) (h2 : S64x5x64x8.Slices off S64x1x64x8) :
    FVec Ideal S64x64x8 .f32 :=
  shapeCast S64x64x8 (extractStridedSlice S64x1x64x8 off
    (extractStridedSlice S64x5x64x8 ![0, 0, 0, 0] W slices_S64x5x65x8_S64x5x64x8_0_0_0_0) h2) shapeCasts_S64x1x64x8_S64x64x8

/-- Read at (m, f, h): the weight of operation p on feature channel f. -/
theorem slab_eq (W : FVec Ideal S64x5x65x8 .f32) (p : Fin 5) (off : Fin 4 → Nat) (hoff : off = ![0, p.val, 0, 0])
    (h2 : S64x5x64x8.Slices off S64x1x64x8) (m f : Fin 64) (h : Fin 8) :
    slab W off h2 (ix3 m f h) = W (ix4 m p f.castSucc h) :=
  slab_at W p off hoff _ h2 _ m f h

/-- The combined weight of a node's own features, as the host computes it. -/
def wnTerm (W : FVec Ideal S64x5x65x8 .f32) : FVec Ideal S64x512 .f32 :=
  shapeCast S64x512 (transpose S64x64x8 [1, 0, 2]
    (addf (slab W ![0, 0, 0, 0] slices_S64x5x64x8_S64x1x64x8_0_0_0_0)
      (mulf (addf (slab W ![0, 2, 0, 0] slices_S64x5x64x8_S64x1x64x8_0_2_0_0)
          (slab W ![0, 3, 0, 0] slices_S64x5x64x8_S64x1x64x8_0_3_0_0))
        (broadcastInDim S64x64x8 ![] bcast_S_S64x64x8 (constant S_ .f32 0x39800000#32))))
    transposes_S64x64x8_S64x64x8_1_0_2) shapeCasts_S64x64x8_S64x512

/-- The combined weight of the summed features, as the host computes it. -/
def w2nTerm (W : FVec Ideal S64x5x65x8 .f32) : FVec Ideal S64x512 .f32 :=
  shapeCast S64x512 (transpose S64x64x8 [1, 0, 2]
    (addf (mulf (slab W ![0, 1, 0, 0] slices_S64x5x64x8_S64x1x64x8_0_1_0_0)
        (broadcastInDim S64x64x8 ![] bcast_S_S64x64x8 (constant S_ .f32 0x39800000#32)))
      (mulf (slab W ![0, 4, 0, 0] slices_S64x5x64x8_S64x1x64x8_0_4_0_0)
        (broadcastInDim S64x64x8 ![] bcast_S_S64x64x8 (constant S_ .f32 0x33800000#32))))
    transposes_S64x64x8_S64x64x8_1_0_2) shapeCasts_S64x64x8_S64x512

set_option maxHeartbeats 4000000 in
theorem v14_term (V : Valuation τ sig (Elt Ideal)) :
    StableHlo.after (opsPre (F := Ideal)) V (Proc.devRef .tc main_v14) = wnTerm (V (Proc.devRef .tc main_arg2)) := by
  unfold opsPre
  after_results
  rfl

set_option maxHeartbeats 4000000 in
theorem v25_term (V : Valuation τ sig (Elt Ideal)) :
    StableHlo.after (opsPre (F := Ideal)) V (Proc.devRef .tc main_v25) = w2nTerm (V (Proc.devRef .tc main_arg2)) := by
  unfold opsPre
  after_results
  rfl

theorem wnTerm_at (W : FVec Ideal S64x5x65x8 .f32) (f : Fin 64) (k : Fin 512) :
    wnTerm W (ix2 f k) = Cert.Spec.Wn W f k := by
  unfold wnTerm
  rw [flat_at, swap01_at, addf_apply, mulf_apply, addf_apply, slab_eq W 0 ![0, 0, 0, 0] rfl, slab_eq W 2 ![0, 2, 0, 0] rfl,
    slab_eq W 3 ![0, 3, 0, 0] rfl]
  rfl

theorem w2nTerm_at (W : FVec Ideal S64x5x65x8 .f32) (f : Fin 64) (k : Fin 512) :
    w2nTerm W (ix2 f k) = Cert.Spec.W2n W f k := by
  unfold w2nTerm
  rw [flat_at, swap01_at, addf_apply, mulf_apply, mulf_apply, slab_eq W 1 ![0, 1, 0, 0] rfl, slab_eq W 4 ![0, 4, 0, 0] rfl]
  rfl

/-- The first matrix operand of the fused evaluation is the combined weight Wn. -/
theorem v14_at (V : Valuation τ sig (Elt Ideal)) (f : Fin 64) (k : Fin 512) :
    StableHlo.after (opsPre (F := Ideal)) V (Proc.devRef .tc main_v14) (ix2 f k)
      = Cert.Spec.Wn (V (Proc.devRef .tc main_arg2)) f k := by
  rw [v14_term]; exact wnTerm_at _ f k

/-- The second matrix operand is the combined weight W2n. -/
theorem v25_at (V : Valuation τ sig (Elt Ideal)) (f : Fin 64) (k : Fin 512) :
    StableHlo.after (opsPre (F := Ideal)) V (Proc.devRef .tc main_v25) (ix2 f k)
      = Cert.Spec.W2n (V (Proc.devRef .tc main_arg2)) f k := by
  rw [v25_term]; exact w2nTerm_at _ f k

/-- The invariant bias as a one-row matrix. -/
theorem v65_at (V' : Valuation τ sig (Elt Ideal)) (mm : Fin 64) :
    StableHlo.after (opsMid (F := Ideal)) V' (Proc.devRef .tc main_v65) (ix2 (0 : Fin 1) mm)
      = V' (Proc.devRef .tc main_arg5) (ix1 mm) := by
  have e : StableHlo.after (opsMid (F := Ideal)) V' (Proc.devRef .tc main_v65)
      = shapeCast S1x64 (V' (Proc.devRef .tc main_arg5)) shapeCasts_S64_S1x64 := by
    unfold opsMid
    after_results
    rfl
  rw [e]
  exact shapeCast_a_1a_apply _ _ 0 mm

/-! ## The packed rows -/

/-- The result of an operation over a literal family of eight operands, each operand's contents at its own buffer. -/
theorem nary8_result {x0 x1 x2 x3 x4 x5 x6 x7 y : Ref sig .tc}
    (f : ((k : Fin 8) → ((![x0, x1, x2, x3, x4, x5, x6, x7] : Fin 8 → Ref sig .tc) k).ty.Contents (Elt Ideal)) → y.ty.Contents (Elt Ideal))
    (hxs hy) (F : Valuation τ sig (Elt Ideal)) :
    (StableHlo.nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) := by
  rw [nary_result]; congr 1; funext k; fin_cases k <;> rfl

/-- Each operation's result at its own buffer, the others skipped: with the eight-operand stack. -/
macro "after_results8" : tactic =>
  `(tactic| (simp only [after_cons, after_nil]
             repeat (first
               | rw [nary8_result]
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-- The adjacency channel of W, unit axis dropped, as the host computes it. -/
abbrev adjTerm (W : FVec Ideal S64x5x65x8 .f32) : FVec Ideal S64x5x8 .f32 :=
  shapeCast S64x5x8 (extractStridedSlice S64x5x1x8 ![0, 0, 64, 0] W slices_S64x5x65x8_S64x5x1x8_0_0_64_0) shapeCasts_S64x5x1x8_S64x5x8

/-- One operation's row of it. -/
abbrev adjRow (W : FVec Ideal S64x5x65x8 .f32) (off : Fin 3 → Nat) (h1 : S64x5x8.Slices off S64x1x8) : FVec Ideal S1x512 .f32 :=
  broadcastInDim S1x512 ![1] bcast_S512_S1x512_1 (shapeCast S512 (shapeCast S64x8
    (extractStridedSlice S64x1x8 off (adjTerm W) h1) shapeCasts_S64x1x8_S64x8) shapeCasts_S64x8_S512)

/-- A row of zeros. -/
abbrev zeroRow : FVec Ideal S1x512 .f32 :=
  broadcastInDim S1x512 ![1] bcast_S512_S1x512_1 (broadcastInDim S512 ![] bcast_S_S512 (constant S_ .f32 0x00000000#32))

/-- The eight packed rows, as the host computes them. -/
def packTerm (W : FVec Ideal S64x5x65x8 .f32) (be : FVec Ideal S64x8 .f32) : FVec Ideal S8x512 .f32 :=
  concatenate S8x512 0 [⟨S1x512, adjRow W ![0, 0, 0] slices_S64x5x8_S64x1x8_0_0_0⟩, ⟨S1x512, adjRow W ![0, 1, 0] slices_S64x5x8_S64x1x8_0_1_0⟩,
    ⟨S1x512, adjRow W ![0, 2, 0] slices_S64x5x8_S64x1x8_0_2_0⟩, ⟨S1x512, adjRow W ![0, 3, 0] slices_S64x5x8_S64x1x8_0_3_0⟩,
    ⟨S1x512, adjRow W ![0, 4, 0] slices_S64x5x8_S64x1x8_0_4_0⟩,
    ⟨S1x512, broadcastInDim S1x512 ![1] bcast_S512_S1x512_1 (shapeCast S512 be shapeCasts_S64x8_S512)⟩,
    ⟨S1x512, zeroRow⟩, ⟨S1x512, zeroRow⟩]
    concatenates_S1x512_S1x512_S1x512_S1x512_S1x512_S1x512_S1x512_S1x512_S8x512_d0

set_option maxHeartbeats 8000000 in
theorem v52_term (V : Valuation τ sig (Elt Ideal)) :
    StableHlo.after (opsPre (F := Ideal)) V (Proc.devRef .tc main_v52)
      = packTerm (V (Proc.devRef .tc main_arg2)) (V (Proc.devRef .tc main_arg3)) := by
  unfold opsPre
  after_results8
  rfl

theorem adjRow_eq (W : FVec Ideal S64x5x65x8 .f32) (p : Fin 5) (off : Fin 3 → Nat) (hoff : off = ![0, p.val, 0])
    (h1 : S64x5x8.Slices off S64x1x8) (k : Fin 512) :
    adjRow W off h1 (ix2 (0 : Fin 1) k) = Cert.Spec.wa W p k := by
  unfold adjRow
  rw [adj_row_at (adjTerm W) p off hoff h1 _ _ _ 0 k]
  exact adj_at W _ _ (mOf k) p (hOf k)

/-- The packed rows: the adjacency weights of the five operations, the equivariant bias, and two rows of zeros. -/
theorem v52_at (V : Valuation τ sig (Elt Ideal)) (p : Fin 8) (k : Fin 512) :
    StableHlo.after (opsPre (F := Ideal)) V (Proc.devRef .tc main_v52) (ix2 p k)
      = ![Cert.Spec.wa (V (Proc.devRef .tc main_arg2)) 0 k, Cert.Spec.wa (V (Proc.devRef .tc main_arg2)) 1 k,
          Cert.Spec.wa (V (Proc.devRef .tc main_arg2)) 2 k, Cert.Spec.wa (V (Proc.devRef .tc main_arg2)) 3 k,
          Cert.Spec.wa (V (Proc.devRef .tc main_arg2)) 4 k,
          V (Proc.devRef .tc main_arg3) (ix2 (mOf k) (hOf k)), 0, 0] p := by
  rw [v52_term]
  unfold packTerm
  rw [stack8_at, adjRow_eq _ 0 ![0, 0, 0] rfl, adjRow_eq _ 1 ![0, 1, 0] rfl, adjRow_eq _ 2 ![0, 2, 0] rfl,
    adjRow_eq _ 3 ![0, 3, 0] rfl, adjRow_eq _ 4 ![0, 4, 0] rfl, row1_at, flat2_at]
  have hz : zeroRow (ix2 (0 : Fin 1) k) = (0 : EReal) := Ideal.ofBits_zero_f32
  rw [hz]

/-! ## The block matrix of the invariant weights -/

/-- The block number of each flattened index, as the host computes it: a floor division of the index by 8. -/
abbrev blockTerm : IVec S512 32 :=
  select
    (andi (cmpi .ne (signi (iotaInDim S512 32 0)) (broadcastInDim S512 ![] bcast_S_S512 (signi (constantI S_ 32 8#32))))
      (cmpi .ne (Host.remsi (iotaInDim S512 32 0) (broadcastInDim S512 ![] bcast_S_S512 (constantI S_ 32 8#32)))
        (broadcastInDim S512 ![] bcast_S_S512 (constantI S_ 32 0#32))))
    (subi (Host.divsi (iotaInDim S512 32 0) (broadcastInDim S512 ![] bcast_S_S512 (constantI S_ 32 8#32)))
      (broadcastInDim S512 ![] bcast_S_S512 (constantI S_ 32 1#32)))
    (Host.divsi (iotaInDim S512 32 0) (broadcastInDim S512 ![] bcast_S_S512 (constantI S_ 32 8#32)))

/-- Where the row's block number is the column. -/
def selCond : IVec S512x64 1 :=
  cmpi .eq (broadcastInDim S512x64 ![0, 1] bcast_S512x1_S512x64_0_1 (broadcastInDim S512x1 ![0] bcast_S512_S512x1_0 blockTerm))
    (broadcastInDim S512x64 ![0, 1] bcast_S1x64_S512x64_0_1 (broadcastInDim S1x64 ![1] bcast_S64_S1x64_1 (iotaInDim S64 32 0)))

/-- The invariant weight of the row's flattened index, in every column. -/
def selYes (Wi : FVec Ideal S64x8 .f32) : FVec Ideal S512x64 .f32 :=
  broadcastInDim S512x64 ![0, 1] bcast_S512x1_S512x64_0_1 (broadcastInDim S512x1 ![0] bcast_S512_S512x1_0
    (shapeCast S512 Wi shapeCasts_S64x8_S512))

/-- Zero everywhere. -/
def selNo : FVec Ideal S512x64 .f32 :=
  broadcastInDim S512x64 ![] bcast_S_S512x64 (constant S_ .f32 0x00000000#32)

/-- The block matrix, as the host computes it: where the row's block number is the column, the invariant weight of
    the row's flattened index, elsewhere zero. -/
def selTerm (Wi : FVec Ideal S64x8 .f32) : FVec Ideal S512x64 .f32 := select selCond (selYes Wi) selNo

set_option maxHeartbeats 8000000 in
theorem v63_term (V : Valuation τ sig (Elt Ideal)) :
    StableHlo.after (opsPre (F := Ideal)) V (Proc.devRef .tc main_v63) = selTerm (V (Proc.devRef .tc main_arg4)) := by
  unfold opsPre
  after_results
  rfl

theorem blockTerm_at (k : Fin 512) : blockTerm (ix1 k) = BitVec.ofNat 32 (k.val / 8) := floordiv_word k

theorem selCond_at (k : Fin 512) (mm : Fin 64) : selCond (ix2 k mm) = if mOf k = mm then 1#1 else 0#1 := by
  show IntOp.cmpi .eq
    (broadcastInDim S512x64 ![0, 1] bcast_S512x1_S512x64_0_1 (broadcastInDim S512x1 ![0] bcast_S512_S512x1_0 blockTerm) (ix2 k mm))
    (broadcastInDim S512x64 ![0, 1] bcast_S1x64_S512x64_0_1 (broadcastInDim S1x64 ![1] bcast_S64_S1x64_1 (iotaInDim S64 32 0)) (ix2 k mm)) = _
  rw [col_bcast_at, row_bcast_at, blockTerm_at]
  exact eq_word (mOf k) mm

theorem selYes_at (Wi : FVec Ideal S64x8 .f32) (k : Fin 512) (mm : Fin 64) :
    selYes Wi (ix2 k mm) = Wi (ix2 (mOf k) (hOf k)) := by
  unfold selYes
  rw [col_bcast_at, flat2_at]

theorem selNo_at (k : Fin 512) (mm : Fin 64) : selNo (ix2 k mm) = (0 : EReal) := Ideal.ofBits_zero_f32

/-- The block matrix is the invariant weights against the block of each flattened index. -/
theorem v63_at (V : Valuation τ sig (Elt Ideal)) (k : Fin 512) (mm : Fin 64) :
    StableHlo.after (opsPre (F := Ideal)) V (Proc.devRef .tc main_v63) (ix2 k mm)
      = Cert.Spec.sel (V (Proc.devRef .tc main_arg4)) k mm := by
  rw [v63_term]
  unfold selTerm Cert.Spec.sel
  rw [select_apply, selCond_at, selYes_at, selNo_at]
  by_cases h : mOf k = mm
  · rw [if_pos h, if_pos h, select_one]
  · rw [if_neg h, if_neg h, select_zero]

end Cert.Proof.KI.Glue

end
-- ==== Proof.TcColsValueI.lean ====
/-
  The scratch's two columns at the exact values.

  At the ideal values a float is an extended real and every operation the textbook one. Column 0 of the scratch after
  the four points (b, 0 … 3) is, at row j, the sum over all 4096 rows i of the adjacency array's entry (b, i, j): each
  point adds the sums over its block's 1024 rows to what the column held, starting from zero, and the four blocks'
  rows are the 4096 rows. Column 1 is, at row i, the sum over the 4096 columns j of the entry (b, i, j): row i lies in the
  block i / 1024, at its row i % 1024.
-/
import proofs.«208576_g46445776339566_cont_8to1c4_655_26_alg».proof.Proof.TcDatI
import Idealize.ShloMosaic.PureOps.Ideal.Laws

set_option maxRecDepth 16384

noncomputable section

namespace Cert.Proof.KI

open Cert.KernelIdeal Cert.KernelIdeal.Gen

open Idealize.ShloMosaic Idealize.ShloMosaic.ValueIdx
open scoped BigOperators

/-- The adjacency array under a valuation. -/
abbrev arrA (V : Valuation τ sig (Elt Ideal)) : S4x4096x4096.Idx → EReal := V (Proc.devRef .tc main_arg1)

/-! ## The payloads at an index -/

/-- The zero column. -/
theorem pay2_at (j : Fin 4096) : k1_pay2 (F := Ideal) (ix2 j (0 : Fin 1)) = 0 := by
  unfold k1_pay2
  rw [shapeCast_self]
  exact Ideal.ofBits_zero_f32

/-- The block's row sums: row i of the 1024 is the sum of its 4096 entries. -/
theorem pay4_at (x0 : Vec Ideal S1x1024x4096 .f32) (i : Fin 1024) :
    k1_pay4 x0 (ix2 i (0 : Fin 1)) = ∑ j : Fin 4096, x0 (ix3 (0 : Fin 1) i j) := by
  unfold k1_pay4 k1_pay1
  dsimp only
  rw [shapeCast_self]
  refine (shapeCast_apply _ _ (ix2 i (0 : Fin 1)) (ix1 i) ?_).trans ?_
  · rw [Shape.rowMajor_val_one, Shape.rowMajor_val_two]; show i.val = i.val * 1 + 0; omega
  refine (Ideal.multiReduction_add_single _ _ _ _ _ (ix1 i)).trans ?_
  refine Finset.sum_congr rfl fun j _ => ?_
  refine shapeCast_apply x0 _ _ (ix3 (0 : Fin 1) i j) ?_
  rw [Shape.rowMajor_val_three, Shape.rowMajor_val_two]
  show (0 * 1024 + i.val) * 4096 + j.val = i.val * 4096 + j.val
  omega

/-- The block's column sums added to what the column held: column j gets the sum of the block's 1024 entries in it. -/
theorem pay3_at (x0 : Vec Ideal S1x1024x4096 .f32) (v13 : Vec Ideal S4096x1 .f32) (j : Fin 4096) :
    k1_pay3 x0 v13 (ix2 j (0 : Fin 1)) = v13 (ix2 j (0 : Fin 1)) + ∑ i : Fin 1024, x0 (ix3 (0 : Fin 1) i j) := by
  unfold k1_pay3 k1_pay1
  dsimp only
  rw [shapeCast_self]
  show v13 (ix2 j (0 : Fin 1)) + _ = _
  congr 1
  refine (shapeCast_apply _ _ (ix2 j (0 : Fin 1)) (ix1 j) ?_).trans ?_
  · rw [Shape.rowMajor_val_one, Shape.rowMajor_val_two]; show j.val = j.val * 1 + 0; omega
  refine (Ideal.multiReduction_add_single _ _ _ _ _ (ix1 j)).trans ?_
  refine Finset.sum_congr rfl fun i _ => ?_
  refine shapeCast_apply x0 _ _ (ix3 (0 : Fin 1) i j) ?_
  rw [Shape.rowMajor_val_three, Shape.rowMajor_val_two]
  show (0 * 1024 + i.val) * 4096 + j.val = i.val * 4096 + j.val
  omega

/-! ## The adjacency array's blocks -/

/-- Window 0's block index at point `t` is (t / 5, min (t % 5) 3, 0): decided over the grid. -/
theorem idx0 : ∀ t : Fin cfg1.N, win1_0.index t (0 : Fin 3) = t.val / 5 ∧ win1_0.index t (1 : Fin 3) = min (t.val % 5) 3
    ∧ win1_0.index t (2 : Fin 3) = 0 :=
  (by decide +kernel : ∀ t : Fin grid1.N, win1_0.index t (0 : Fin 3) = t.val / 5 ∧ win1_0.index t (1 : Fin 3) = min (t.val % 5) 3
    ∧ win1_0.index t (2 : Fin 3) = 0)

/-- The block held at the point (b, r), r < 4, is rows [1024 r, 1024 r + 1024) of the array's member b. -/
theorem blkA_at (V : Valuation τ sig (Elt Ideal)) (b : Fin 4) (r : ℕ) (hr : r < 4) (i : Fin 1024) (j : Fin 4096) :
    blkA V (ptOf (5 * b.val + r)) (ix3 (0 : Fin 1) i j) = arrA V (ix3 b (⟨1024 * r + i.val, by omega⟩ : Fin 4096) j) := by
  have hb : b.val < 4 := b.isLt
  have hv : (ptOf (5 * b.val + r)).val = 5 * b.val + r := Nat.mod_eq_of_lt (by omega)
  obtain ⟨e0, e1, e2⟩ := idx0 (ptOf (5 * b.val + r))
  rw [hv] at e0 e1
  show arrA V (((cfg1.win 0).blk (ptOf (5 * b.val + r))).view.emb (ix3 (0 : Fin 1) i j)) = _
  refine congrArg (arrA V) (funext fun a => Fin.ext ?_)
  match a with
  | ⟨0, _⟩ => show win1_0.index (ptOf (5 * b.val + r)) (0 : Fin 3) * 1 + 1 * 0 = b.val; omega
  | ⟨1, _⟩ => show win1_0.index (ptOf (5 * b.val + r)) (1 : Fin 3) * 1024 + 1 * i.val = 1024 * r + i.val; omega
  | ⟨2, _⟩ => show win1_0.index (ptOf (5 * b.val + r)) (2 : Fin 3) * 4096 + 1 * j.val = j.val; omega

/-! ## Sums over the 4096 rows, block by block -/

/-- A sum over 4096 indices is the sum over the four blocks of 1024 of them. -/
theorem sum_blocks (f : Fin 4096 → EReal) :
    ∑ i : Fin 4096, f i = ∑ r : Fin 4, ∑ i : Fin 1024, f (⟨1024 * r.val + i.val, by have := r.isLt; have := i.isLt; omega⟩ : Fin 4096) := by
  rw [← Equiv.sum_comp (finProdFinEquiv (m := 4) (n := 1024)) f, Fintype.sum_prod_type]
  refine Finset.sum_congr rfl fun r _ => Finset.sum_congr rfl fun i _ => congrArg f (Fin.ext ?_)
  show i.val + 1024 * r.val = 1024 * r.val + i.val
  omega

/-! ## The two columns -/

/-- COLUMN 0 after the four points of member b: the column sums of the member. -/
theorem colAcc_at (V : Valuation τ sig (Elt Ideal)) (b : Fin 4) (j : Fin 4096) :
    colAcc V b.val 3 (ix2 j (0 : Fin 1)) = ∑ i : Fin 4096, arrA V (ix3 b i j) := by
  rw [show colAcc V b.val 3 = k1_pay3 (blkA V (ptOf (5 * b.val + 3))) (k1_pay3 (blkA V (ptOf (5 * b.val + 2)))
      (k1_pay3 (blkA V (ptOf (5 * b.val + 1))) (k1_pay3 (blkA V (ptOf (5 * b.val + 0))) (k1_pay2 (F := Ideal))))) from rfl,
    pay3_at, pay3_at, pay3_at, pay3_at, pay2_at, sum_blocks, Fin.sum_univ_four, zero_add]
  simp only [blkA_at V b 0 (by omega), blkA_at V b 1 (by omega), blkA_at V b 2 (by omega), blkA_at V b 3 (by omega)]
  rfl

/-- COLUMN 1 once the four blocks' row sums are in: the row sums of the member. -/
theorem col1_at (V : Valuation τ sig (Elt Ideal)) (b : Fin 4) (i : Fin 4096) :
    col1 V b.val (ix2 i (0 : Fin 1)) = ∑ j : Fin 4096, arrA V (ix3 b i j) := by
  have hi : i.val < 4096 := i.isLt
  show k1_pay4 (blkA V (ptOf (5 * b.val + i.val / 1024))) (ix2 (⟨i.val % 1024, Nat.mod_lt _ (by decide)⟩ : Fin 1024) (0 : Fin 1)) = _
  rw [pay4_at]
  refine Finset.sum_congr rfl fun j _ => ?_
  rw [blkA_at V b (i.val / 1024) (by omega)]
  exact congrArg (fun k => arrA V (ix3 b k j)) (Fin.ext (by show 1024 * (i.val / 1024) + i.val % 1024 = i.val; omega))

end Cert.Proof.KI

end
-- ==== Proof.Reading.lean ====
/-
  Reading, at an index, the operations of the reference that are not sums over one axis or elementwise: the sum
  over two axes of the adjacency array, the contraction over two axes (channel and basis operation), the
  joining of the 64 feature channels with the adjacency channel, the stacking of the five basis operations, and
  the diagonal of the adjacency array taken by a gather at the start indices (i, i). Stated over the literal shapes;
  no program is imported.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Reading

open Idealize.ShloMosaic Idealize.ShloMosaic.ValueIdx

/-! ## The sum over the last two axes of a [4, 4096, 4096] array -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- The host's sum over axes 1 and 2, at graph b: the initial value plus the double sum over rows and columns. -/
theorem hostReduceAdd_rows_cols (h : (⟨3, ![4, 4096, 4096]⟩ : Shape).ReducesTo [1, 2] ⟨1, ![4]⟩)
    (x : (⟨3, ![4, 4096, 4096]⟩ : Shape).Idx → EReal) (init : EReal) (b : Fin 4) :
    Ideal.hostReduceAdd h x init (ix1 b) = init + ∑ i : Fin 4096, ∑ j : Fin 4096, x (ix3 b i j) := by
  unfold Ideal.hostReduceAdd
  congr 1
  have hd : ∀ (b' : Fin 4) (i j : Fin 4096), h.drop (ix3 b' i j) = ix1 b ↔ b' = b := by
    intro b' i j
    have hv : ((h.drop (ix3 b' i j) 0 : Fin 4) : Nat) = b'.val :=
      Shape.ReducesTo.drop_apply_val_of_eq h (ix3 b' i j) 0 0
    constructor
    · intro e
      have e0 := congrArg (fun f => ((f 0 : Fin 4) : Nat)) e
      exact Fin.ext (hv.symm.trans e0)
    · rintro rfl
      funext a
      match a with
      | ⟨0, _⟩ => exact Fin.ext hv
  rw [Finset.sum_filter, ← Equiv.sum_comp (idxEquiv3 (n0 := 4) (n1 := 4096) (n2 := 4096)).symm, Fintype.sum_prod_type,
    Finset.sum_eq_single b]
  · rw [Fintype.sum_prod_type]
    refine Finset.sum_congr rfl fun i _ => Finset.sum_congr rfl fun j _ => ?_
    exact if_pos ((hd b i j).2 rfl)
  · intro b' _ hb'
    refine Finset.sum_eq_zero fun p _ => if_neg ?_
    exact fun e => hb' ((hd b' p.1 p.2).1 e)
  · intro hb
    exact absurd (Finset.mem_univ b) hb

/-! ## The contraction over channel and basis operation -/

/-- The dimension numbers of the contraction of W : [64, 5, 65, 8] (axes 2 and 1) with the stacked operations
    [4, 4096, 5, 65] (axes 3 and 2) into [64, 8, 4, 4096]. -/
abbrev dotWOps (wf : DotDims.WF ⟨4, ![64, 5, 65, 8]⟩ ⟨4, ![4, 4096, 5, 65]⟩ ⟨4, ![64, 8, 4, 4096]⟩ [2, 1] [3, 2] [0, 3] [0, 1] [] []) :
    DotDims ⟨4, ![64, 5, 65, 8]⟩ ⟨4, ![4, 4096, 5, 65]⟩ ⟨4, ![64, 8, 4, 4096]⟩ where
  lhsContracting := [2, 1]
  rhsContracting := [3, 2]
  lhsNonContracting := [0, 3]
  rhsNonContracting := [0, 1]
  lhsBatch := []
  rhsBatch := []
  wf := wf

section Dot
variable (wf : DotDims.WF ⟨4, ![64, 5, 65, 8]⟩ ⟨4, ![4, 4096, 5, 65]⟩ ⟨4, ![64, 8, 4, 4096]⟩ [2, 1] [3, 2] [0, 3] [0, 1] [] [])

/-- Its contraction index is a pair: a channel and an operation. -/
def contrEquiv2 : (dotWOps wf).contr.Idx ≃ Fin 65 × Fin 5 :=
  piFinTwoEquiv fun a => Fin ((dotWOps wf).contr.size a)

theorem lhs_0 (j : (⟨4, ![64, 8, 4, 4096]⟩ : Shape).Idx) (q : (dotWOps wf).contr.Idx) :
    ((dotWOps wf).lhsIdx j q 0).val = (j 0).val := by
  unfold DotDims.lhsIdx
  rw [dif_neg (show (0 : Fin 4) ∉ ([] : List (Fin 4)) by decide), dif_pos (show (0 : Fin 4) ∈ ([0, 3] : List (Fin 4)) by decide)]
  rfl
theorem lhs_1 (j : (⟨4, ![64, 8, 4, 4096]⟩ : Shape).Idx) (q : (dotWOps wf).contr.Idx) :
    ((dotWOps wf).lhsIdx j q 1).val = (q ⟨1, (show 1 < 2 by decide)⟩).val := by
  unfold DotDims.lhsIdx
  rw [dif_neg (show (1 : Fin 4) ∉ ([] : List (Fin 4)) by decide), dif_neg (show (1 : Fin 4) ∉ ([0, 3] : List (Fin 4)) by decide)]
  rfl
theorem lhs_2 (j : (⟨4, ![64, 8, 4, 4096]⟩ : Shape).Idx) (q : (dotWOps wf).contr.Idx) :
    ((dotWOps wf).lhsIdx j q 2).val = (q ⟨0, (show 0 < 2 by decide)⟩).val := by
  unfold DotDims.lhsIdx
  rw [dif_neg (show (2 : Fin 4) ∉ ([] : List (Fin 4)) by decide), dif_neg (show (2 : Fin 4) ∉ ([0, 3] : List (Fin 4)) by decide)]
  rfl
theorem lhs_3 (j : (⟨4, ![64, 8, 4, 4096]⟩ : Shape).Idx) (q : (dotWOps wf).contr.Idx) :
    ((dotWOps wf).lhsIdx j q 3).val = (j 1).val := by
  unfold DotDims.lhsIdx
  rw [dif_neg (show (3 : Fin 4) ∉ ([] : List (Fin 4)) by decide), dif_pos (show (3 : Fin 4) ∈ ([0, 3] : List (Fin 4)) by decide)]
  rfl
theorem rhs_0 (j : (⟨4, ![64, 8, 4, 4096]⟩ : Shape).Idx) (q : (dotWOps wf).contr.Idx) :
    ((dotWOps wf).rhsIdx j q 0).val = (j 2).val := by
  unfold DotDims.rhsIdx
  rw [dif_neg (show (0 : Fin 4) ∉ ([] : List (Fin 4)) by decide), dif_pos (show (0 : Fin 4) ∈ ([0, 1] : List (Fin 4)) by decide)]
  rfl
theorem rhs_1 (j : (⟨4, ![64, 8, 4, 4096]⟩ : Shape).Idx) (q : (dotWOps wf).contr.Idx) :
    ((dotWOps wf).rhsIdx j q 1).val = (j 3).val := by
  unfold DotDims.rhsIdx
  rw [dif_neg (show (1 : Fin 4) ∉ ([] : List (Fin 4)) by decide), dif_pos (show (1 : Fin 4) ∈ ([0, 1] : List (Fin 4)) by decide)]
  rfl
theorem rhs_2 (j : (⟨4, ![64, 8, 4, 4096]⟩ : Shape).Idx) (q : (dotWOps wf).contr.Idx) :
    ((dotWOps wf).rhsIdx j q 2).val = (q ⟨1, (show 1 < 2 by decide)⟩).val := by
  unfold DotDims.rhsIdx
  rw [dif_neg (show (2 : Fin 4) ∉ ([] : List (Fin 4)) by decide), dif_neg (show (2 : Fin 4) ∉ ([0, 1] : List (Fin 4)) by decide)]
  rfl
theorem rhs_3 (j : (⟨4, ![64, 8, 4, 4096]⟩ : Shape).Idx) (q : (dotWOps wf).contr.Idx) :
    ((dotWOps wf).rhsIdx j q 3).val = (q ⟨0, (show 0 < 2 by decide)⟩).val := by
  unfold DotDims.rhsIdx
  rw [dif_neg (show (3 : Fin 4) ∉ ([] : List (Fin 4)) by decide), dif_neg (show (3 : Fin 4) ∉ ([0, 1] : List (Fin 4)) by decide)]
  rfl

theorem lhsIdx_pair (m : Fin 64) (h : Fin 8) (b : Fin 4) (i : Fin 4096) (c : Fin 65) (p : Fin 5) :
    (dotWOps wf).lhsIdx (ix4 m h b i) ((contrEquiv2 wf).symm (c, p)) = ix4 m p c h := by
  funext a
  refine Fin.ext ?_
  match a with
  | ⟨0, _⟩ => exact lhs_0 wf _ _
  | ⟨1, _⟩ => exact lhs_1 wf _ _
  | ⟨2, _⟩ => exact lhs_2 wf _ _
  | ⟨3, _⟩ => exact lhs_3 wf _ _

theorem rhsIdx_pair (m : Fin 64) (h : Fin 8) (b : Fin 4) (i : Fin 4096) (c : Fin 65) (p : Fin 5) :
    (dotWOps wf).rhsIdx (ix4 m h b i) ((contrEquiv2 wf).symm (c, p)) = ix4 b i p c := by
  funext a
  refine Fin.ext ?_
  match a with
  | ⟨0, _⟩ => exact rhs_0 wf _ _
  | ⟨1, _⟩ => exact rhs_1 wf _ _
  | ⟨2, _⟩ => exact rhs_2 wf _ _
  | ⟨3, _⟩ => exact rhs_3 wf _ _

/-- The contraction at (m, h, b, i): the double sum over channels and operations of the products. -/
theorem contraction_channel_op (W : (⟨4, ![64, 5, 65, 8]⟩ : Shape).Idx → EReal)
    (o : (⟨4, ![4, 4096, 5, 65]⟩ : Shape).Idx → EReal) (m : Fin 64) (h : Fin 8) (b : Fin 4) (i : Fin 4096) :
    ∑ k : (dotWOps wf).contr.Idx, W ((dotWOps wf).lhsIdx (ix4 m h b i) k) * o ((dotWOps wf).rhsIdx (ix4 m h b i) k)
      = ∑ c : Fin 65, ∑ p : Fin 5, W (ix4 m p c h) * o (ix4 b i p c) := by
  rw [← Equiv.sum_comp (contrEquiv2 wf).symm, Fintype.sum_prod_type]
  refine Finset.sum_congr rfl fun c _ => Finset.sum_congr rfl fun p _ => ?_
  rw [lhsIdx_pair, rhsIdx_pair]

end Dot

/-! ## Joining the 64 feature channels with the adjacency channel -/

/-- The joined array at channel c: a feature below 64, the adjacency channel at 64. -/
theorem concat_channels (h : Shape.Concatenates [⟨3, ![4, 4096, 64]⟩, ⟨3, ![4, 4096, 1]⟩] ⟨3, ![4, 4096, 65]⟩ 2)
    (x₁ : (⟨3, ![4, 4096, 64]⟩ : Shape).Idx → EReal) (x₂ : (⟨3, ![4, 4096, 1]⟩ : Shape).Idx → EReal)
    (b : Fin 4) (i : Fin 4096) (c : Fin 65) :
    concatenate ⟨3, ![4, 4096, 65]⟩ 2 [⟨⟨3, ![4, 4096, 64]⟩, x₁⟩, ⟨⟨3, ![4, 4096, 1]⟩, x₂⟩] h (ix3 b i c)
      = if hc : c.val < 64 then x₁ (ix3 b i ⟨c.val, hc⟩) else x₂ (ix3 b i 0) := by
  by_cases hc : c.val < 64
  · rw [dif_pos hc]
    exact concatenate_pair_apply_left 2 x₁ x₂ h (ix3 b i c) rfl (ix3 b i ⟨c.val, hc⟩)
      (fun a => match a with | ⟨0, _⟩ => rfl | ⟨1, _⟩ => rfl | ⟨2, _⟩ => rfl)
  · rw [dif_neg hc]
    refine concatenate_pair_apply_right 2 x₁ x₂ h (ix3 b i c) rfl rfl (ix3 b i 0)
      (fun a ha => match a, ha with | ⟨0, _⟩, _ => rfl | ⟨1, _⟩, _ => rfl | ⟨2, _⟩, ha => absurd rfl ha) ?_
    show 0 + 64 = c.val
    have := c.isLt
    omega

/-! ## Stacking the five basis operations -/

/-- The stacked array at operation p is the p-th piece. -/
theorem stack_ops
    (h : Shape.Concatenates [⟨4, ![4, 4096, 1, 65]⟩, ⟨4, ![4, 4096, 1, 65]⟩, ⟨4, ![4, 4096, 1, 65]⟩, ⟨4, ![4, 4096, 1, 65]⟩,
      ⟨4, ![4, 4096, 1, 65]⟩] ⟨4, ![4, 4096, 5, 65]⟩ 2)
    (u0 u1 u2 u3 u4 : (⟨4, ![4, 4096, 1, 65]⟩ : Shape).Idx → EReal) (b : Fin 4) (i : Fin 4096) (p : Fin 5) (c : Fin 65) :
    concatenate ⟨4, ![4, 4096, 5, 65]⟩ 2 [⟨⟨4, ![4, 4096, 1, 65]⟩, u0⟩, ⟨⟨4, ![4, 4096, 1, 65]⟩, u1⟩,
      ⟨⟨4, ![4, 4096, 1, 65]⟩, u2⟩, ⟨⟨4, ![4, 4096, 1, 65]⟩, u3⟩, ⟨⟨4, ![4, 4096, 1, 65]⟩, u4⟩] h (ix4 b i p c)
      = ![u0 (ix4 b i 0 c), u1 (ix4 b i 0 c), u2 (ix4 b i 0 c), u3 (ix4 b i 0 c), u4 (ix4 b i 0 c)] p := by
  have hi : ∀ (q : Fin 5) (a : Fin 4), a ≠ 2 → ((ix4 b i (0 : Fin 1) c) a).val = ((ix4 b i q c) a).val := fun q a ha =>
    match a, ha with
    | ⟨0, _⟩, _ => rfl
    | ⟨1, _⟩, _ => rfl
    | ⟨2, _⟩, ha => absurd rfl ha
    | ⟨3, _⟩, _ => rfl
  match p with
  | ⟨0, _⟩ => exact concatenate_apply_piece 2 [⟨⟨4, ![4, 4096, 1, 65]⟩, u0⟩, ⟨⟨4, ![4, 4096, 1, 65]⟩, u1⟩, ⟨⟨4, ![4, 4096, 1, 65]⟩, u2⟩, ⟨⟨4, ![4, 4096, 1, 65]⟩, u3⟩, ⟨⟨4, ![4, 4096, 1, 65]⟩, u4⟩] h _ 0 (show 0 < 5 by decide) _ u0 rfl rfl 0 rfl (ix4 b i 0 c) (hi _) rfl
  | ⟨1, _⟩ => exact concatenate_apply_piece 2 [⟨⟨4, ![4, 4096, 1, 65]⟩, u0⟩, ⟨⟨4, ![4, 4096, 1, 65]⟩, u1⟩, ⟨⟨4, ![4, 4096, 1, 65]⟩, u2⟩, ⟨⟨4, ![4, 4096, 1, 65]⟩, u3⟩, ⟨⟨4, ![4, 4096, 1, 65]⟩, u4⟩] h _ 1 (show 1 < 5 by decide) _ u1 rfl rfl 1 rfl (ix4 b i 0 c) (hi _) rfl
  | ⟨2, _⟩ => exact concatenate_apply_piece 2 [⟨⟨4, ![4, 4096, 1, 65]⟩, u0⟩, ⟨⟨4, ![4, 4096, 1, 65]⟩, u1⟩, ⟨⟨4, ![4, 4096, 1, 65]⟩, u2⟩, ⟨⟨4, ![4, 4096, 1, 65]⟩, u3⟩, ⟨⟨4, ![4, 4096, 1, 65]⟩, u4⟩] h _ 2 (show 2 < 5 by decide) _ u2 rfl rfl 2 rfl (ix4 b i 0 c) (hi _) rfl
  | ⟨3, _⟩ => exact concatenate_apply_piece 2 [⟨⟨4, ![4, 4096, 1, 65]⟩, u0⟩, ⟨⟨4, ![4, 4096, 1, 65]⟩, u1⟩, ⟨⟨4, ![4, 4096, 1, 65]⟩, u2⟩, ⟨⟨4, ![4, 4096, 1, 65]⟩, u3⟩, ⟨⟨4, ![4, 4096, 1, 65]⟩, u4⟩] h _ 3 (show 3 < 5 by decide) _ u3 rfl rfl 3 rfl (ix4 b i 0 c) (hi _) rfl
  | ⟨4, _⟩ => exact concatenate_apply_piece 2 [⟨⟨4, ![4, 4096, 1, 65]⟩, u0⟩, ⟨⟨4, ![4, 4096, 1, 65]⟩, u1⟩, ⟨⟨4, ![4, 4096, 1, 65]⟩, u2⟩, ⟨⟨4, ![4, 4096, 1, 65]⟩, u3⟩, ⟨⟨4, ![4, 4096, 1, 65]⟩, u4⟩] h _ 4 (show 4 < 5 by decide) _ u4 rfl rfl 4 rfl (ix4 b i 0 c) (hi _) rfl

/-! ## The diagonal, taken by a gather at the start indices (i, i) -/

/-- The dimension numbers of the gather that reads A[b, s₁, s₂] at the start index (s₁, s₂) = idx[i, ·] into
    result element (b, i). -/
abbrev diagDims (wf : GatherDims.WF ⟨3, ![4, 4096, 4096]⟩ ⟨2, ![4096, 2]⟩ ⟨2, ![4, 4096]⟩ [0] [1, 2] [] [1, 2] [] 1 ![4, 1, 1]) :
    GatherDims ⟨3, ![4, 4096, 4096]⟩ ⟨2, ![4096, 2]⟩ ⟨2, ![4, 4096]⟩ where
  offsetDims := [0]
  collapsedSliceDims := [1, 2]
  operandBatchingDims := []
  startIndicesBatchingDims := []
  startIndexMap := [1, 2]
  indexVectorDim := 1
  sliceSizes := ![4, 1, 1]
  wf := wf

/-- A node number below 4096, as a 32-bit word read back signed, is the node number. -/
theorem toNat_word (i : Fin 4096) : (BitVec.ofNat 32 i.val).toInt.toNat = i.val := by
  have hi := i.isLt
  have h1 : (BitVec.ofNat 32 i.val).toNat = i.val := by
    rw [BitVec.toNat_ofNat]; exact Nat.mod_eq_of_lt (by omega)
  unfold BitVec.toInt
  rw [h1, if_pos (by omega)]
  simp

section Diag
variable (wf : GatherDims.WF ⟨3, ![4, 4096, 4096]⟩ ⟨2, ![4096, 2]⟩ ⟨2, ![4, 4096]⟩ [0] [1, 2] [] [1, 2] [] 1 ![4, 1, 1])

theorem diag_axis0 (j : (⟨2, ![4, 4096]⟩ : Shape).Idx) (idx : IVec ⟨2, ![4096, 2]⟩ 32) :
    (diagDims wf).start j idx 0 + (diagDims wf).batchCoord j 0 + (diagDims wf).offCoord j 0 = (j 0).val := by
  rw [GatherDims.batchCoord_eq_zero _ _ _ List.not_mem_nil, Nat.add_zero]
  unfold GatherDims.start GatherDims.offCoord
  rw [dif_neg (show (0 : Fin 3) ∉ ([1, 2] : List (Fin 3)) by decide),
    dif_pos ((GatherDims.mem_sKept _ _).mpr ⟨(show (0 : Fin 3) ∉ ([1, 2] : List (Fin 3)) by decide), List.not_mem_nil⟩),
    Nat.zero_add]
  rfl

theorem diag_axis1 (b : Fin 4) (i : Fin 4096) (idx : IVec ⟨2, ![4096, 2]⟩ 32) :
    (diagDims wf).start (ix2 b i) idx 1 + (diagDims wf).batchCoord (ix2 b i) 1 + (diagDims wf).offCoord (ix2 b i) 1
      = min (idx (ix2 i 0)).toInt.toNat 4095 := by
  rw [GatherDims.batchCoord_eq_zero _ _ _ List.not_mem_nil, Nat.add_zero,
    GatherDims.offCoord_eq_zero _ _ _ (fun h => ((GatherDims.mem_sKept _ _).mp h).1
      (show (1 : Fin 3) ∈ ([1, 2] : List (Fin 3)) by decide)), Nat.add_zero]
  unfold GatherDims.start
  rw [dif_pos (show (1 : Fin 3) ∈ ([1, 2] : List (Fin 3)) by decide)]
  have hsi : (diagDims wf).siIdx (ix2 b i) ⟨List.idxOf (1 : Fin 3) (diagDims wf).startIndexMap,
      List.idxOf_lt_length_iff.2 (show (1 : Fin 3) ∈ ([1, 2] : List (Fin 3)) by decide)⟩ = ix2 i 0 := by
    funext c; refine Fin.ext ?_
    match c with
    | ⟨0, _⟩ => rfl
    | ⟨1, _⟩ => rfl
  rw [hsi]
  rfl

theorem diag_axis2 (b : Fin 4) (i : Fin 4096) (idx : IVec ⟨2, ![4096, 2]⟩ 32) :
    (diagDims wf).start (ix2 b i) idx 2 + (diagDims wf).batchCoord (ix2 b i) 2 + (diagDims wf).offCoord (ix2 b i) 2
      = min (idx (ix2 i 1)).toInt.toNat 4095 := by
  rw [GatherDims.batchCoord_eq_zero _ _ _ List.not_mem_nil, Nat.add_zero,
    GatherDims.offCoord_eq_zero _ _ _ (fun h => ((GatherDims.mem_sKept _ _).mp h).1
      (show (2 : Fin 3) ∈ ([1, 2] : List (Fin 3)) by decide)), Nat.add_zero]
  unfold GatherDims.start
  rw [dif_pos (show (2 : Fin 3) ∈ ([1, 2] : List (Fin 3)) by decide)]
  have hsi : (diagDims wf).siIdx (ix2 b i) ⟨List.idxOf (2 : Fin 3) (diagDims wf).startIndexMap,
      List.idxOf_lt_length_iff.2 (show (2 : Fin 3) ∈ ([1, 2] : List (Fin 3)) by decide)⟩ = ix2 i 1 := by
    funext c; refine Fin.ext ?_
    match c with
    | ⟨0, _⟩ => rfl
    | ⟨1, _⟩ => rfl
  rw [hsi]
  rfl

/-- The gather at start indices (i, i), read at (b, i): the diagonal entry A[b, i, i]. -/
theorem gather_diag {α : Type} (x : (⟨3, ![4, 4096, 4096]⟩ : Shape).Idx → α) (idx : IVec ⟨2, ![4096, 2]⟩ 32)
    (b : Fin 4) (i : Fin 4096) (h0 : idx (ix2 i 0) = BitVec.ofNat 32 i.val) (h1 : idx (ix2 i 1) = BitVec.ofNat 32 i.val) :
    Host.gather (diagDims wf) x idx (ix2 b i) = x (ix3 b i i) := by
  unfold Host.gather
  congr 1
  funext a
  refine Fin.ext ?_
  have hi := i.isLt
  match a with
  | ⟨0, _⟩ => exact diag_axis0 wf _ _
  | ⟨1, _⟩ =>
    refine (diag_axis1 wf b i idx).trans ?_
    rw [h0, toNat_word]
    exact Nat.min_eq_left (by omega)
  | ⟨2, _⟩ =>
    refine (diag_axis2 wf b i idx).trans ?_
    rw [h1, toNat_word]
    exact Nat.min_eq_left (by omega)

end Diag

end Cert.Reading

end
-- ==== Proof.KPayI.lean ====
/-
  The pure values the fused evaluation computes at the point that stores a result block, read at an index: the
  product of the features with the first weight matrix, the diagonal's row as a column, the node-independent part of
  the pre-activation (the summed features against the second weight matrix, the trace over n and the total over n·n
  against two of the packed rows), and the result block — the positive part of the pre-activation summed over the
  nodes, contracted with the block matrix, over n, plus the bias. Every reduction starts from zero and every
  contraction accumulates into zero, so each is a bare sum.
-/
import proofs.«208576_g46445776339566_cont_8to1c4_655_26_alg».proof.Proof.Gen.KernelIdeal.Skeleton
import proofs.«208576_g46445776339566_cont_8to1c4_655_26_alg».proof.Proof.Spec
import proofs.«208576_g46445776339566_cont_8to1c4_655_26_alg».proof.Proof.Reading
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

set_option maxRecDepth 16384
noncomputable section
open scoped BigOperators
namespace Cert.Proof.KI.KVal
open Cert.KernelIdeal Cert.KernelIdeal.Gen
open Idealize.ShloMosaic Idealize.SL.Sem Idealize.ShloMosaic.ValueIdx
open Cert.Spec (mOf hOf invn)

/-! ## Contractions and sums of matrices, read at an index -/

/-- A plain matrix product's contraction, as a sum over the shared axis. -/
theorem plain_contr (M K N : Nat) (lhs : (⟨2, ![M, K]⟩ : Shape).Idx → EReal) (rhs : (⟨2, ![K, N]⟩ : Shape).Idx → EReal)
    (i : Fin M) (j : Fin N) :
    ∑ q : (DotDims.plain M K N).contr.Idx, lhs ((DotDims.plain M K N).lhsIdx (ix2 i j) q) * rhs ((DotDims.plain M K N).rhsIdx (ix2 i j) q)
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- The sum of a matrix over its rows, at column j. -/
theorem colsum_apply {n m : Nat} (src : FVec Ideal ⟨2, ![n, m]⟩ .f32) (h : Shape.Reduces ⟨2, ![n, m]⟩ [0] ⟨1, ![m]⟩)
    (hφ : FKind.Formats .f32) (hacc : (0x00000000#32 : BitVec 32) = FKind.add.neutral .f32 hφ) (j : Fin m) :
    multiReduction .add [0] ⟨1, ![m]⟩ src 0x00000000#32 h hφ hacc (ix1 j) = ∑ i : Fin n, src (ix2 i j) :=
  (Ideal.multiReduction_add_single src _ h hφ hacc (ix1 j)).trans
    (Finset.sum_congr rfl fun i _ => congrArg src (funext fun a => Fin.ext (by
      match a with
      | ⟨0, _⟩ => rfl
      | ⟨1, _⟩ => rfl)))

/-- The sum of all entries of a [1, n, 1] array. -/
theorem total_apply {n : Nat} (src : FVec Ideal ⟨3, ![1, n, 1]⟩ .f32) (h : Shape.Reduces ⟨3, ![1, n, 1]⟩ [1, 2] ⟨1, ![1]⟩)
    (hφ : FKind.Formats .f32) (hacc : (0x00000000#32 : BitVec 32) = FKind.add.neutral .f32 hφ) (j : (⟨1, ![1]⟩ : Shape).Idx) :
    multiReduction .add [1, 2] ⟨1, ![1]⟩ src 0x00000000#32 h hφ hacc j = ∑ i : Fin n, src (ix3 (0 : Fin 1) i (0 : Fin 1)) := by
  rw [Ideal.multiReduction_add_total src _ h (fun b => by match b with | ⟨0, _⟩ => rfl) hφ hacc j,
    ← Equiv.sum_comp (Cert.Reading.idxEquiv3 (n0 := 1) (n1 := n) (n2 := 1)).symm, Fintype.sum_prod_type, Fin.sum_univ_one,
    Fintype.sum_prod_type]
  refine Finset.sum_congr rfl fun i _ => ?_
  rw [Fin.sum_univ_one]
  rfl

theorem pay9_eq (v29 : Vec Ideal S8x512 .f32) : k1_pay9 (F := Ideal) v29 = v29 := by
  unfold k1_pay9
  exact shapeCast_self _ _

/-- The diagonal's row as a column. -/
theorem pay8_at (v18 : Vec Ideal S1x1x4096 .f32) (i : Fin 4096) :
    k1_pay8 (F := Ideal) v18 (ix2 i (0 : Fin 1)) = v18 (ix3 (0 : Fin 1) (0 : Fin 1) i) := by
  unfold k1_pay8
  refine (shapeCast_apply _ shapeCasts_S4096_S4096x1 (ix2 i (0 : Fin 1)) (ix1 i) ?_).trans ?_
  · rw [Shape.rowMajor_val_two, Shape.rowMajor_val_one]
    show i.val = i.val * 1 + 0
    omega
  exact shapeCast_apply _ shapeCasts_S1x1x4096_S4096 (ix1 i) (ix3 (0 : Fin 1) (0 : Fin 1) i) (by
    rw [Shape.rowMajor_val_three, Shape.rowMajor_val_one]
    show (0 * 1 + 0) * 4096 + i.val = i.val
    omega)

/-- The features' block with its unit axis dropped. -/
theorem pay6_at (v6 : Vec Ideal S1x4096x64 .f32) (i : Fin 4096) (f : Fin 64) :
    k1_pay6 (F := Ideal) v6 (ix2 i f) = v6 (ix3 (0 : Fin 1) i f) := by
  unfold k1_pay6
  exact shapeCast_1ab_ab_apply _ _ i f

/-- The product of the features' block with the first weight matrix. -/
theorem pay7_at (v6 : Vec Ideal S1x4096x64 .f32) (v8 : Vec Ideal S64x512 .f32) (i : Fin 4096) (k : Fin 512) :
    k1_pay7 (F := Ideal) v6 v8 (ix2 i k) = ∑ f : Fin 64, v6 (ix3 (0 : Fin 1) i f) * v8 (ix2 f k) := by
  unfold k1_pay7
  simp only [matmul]
  rw [Ideal.matmul_constant_zero_apply, shapeCast_self]
  refine (plain_contr 4096 64 512 (k1_pay6 v6) v8 i k).trans ?_
  exact Finset.sum_congr rfl fun f _ => by rw [pay6_at]

/-- A [4096, 1] column with a leading unit axis added. -/
theorem col_addUnit_at (x : (⟨2, ![4096, 1]⟩ : Shape).Idx → EReal) (h : (⟨2, ![4096, 1]⟩ : Shape).ShapeCasts ⟨3, ![1, 4096, 1]⟩)
    (i : Fin 4096) : shapeCast ⟨3, ![1, 4096, 1]⟩ x h (ix3 (0 : Fin 1) i (0 : Fin 1)) = x (ix2 i (0 : Fin 1)) :=
  shapeCast_ab_1ab_apply x h 0 i 0

/-- The one entry of a [1] array laid as [1, 1, 1]. -/
theorem one_entry_at (x : (⟨1, ![1]⟩ : Shape).Idx → EReal) (h : (⟨1, ![1]⟩ : Shape).ShapeCasts ⟨3, ![1, 1, 1]⟩)
    (hp : ∀ a, (![0, 0, 0] : Fin 3 → Nat) a < (⟨3, ![1, 1, 1]⟩ : Shape).size a) :
    extractAt ![0, 0, 0] (shapeCast ⟨3, ![1, 1, 1]⟩ x h) hp = x (ix1 (0 : Fin 1)) := by
  unfold extractAt
  exact shapeCast_apply x h _ (ix1 (0 : Fin 1)) (by
    rw [Shape.rowMajor_val_three, Shape.rowMajor_val_one]
    rfl)

/-- The node-independent part of the pre-activation without the bias: the summed features against the second
    weight matrix, the trace over n against row 1 and the total over n·n against row 4 of the packed rows. -/
theorem pay10_at (v6 : Vec Ideal S1x4096x64 .f32) (v13 : Vec Ideal S64x512 .f32) (v17 : Vec Ideal S4096x1 .f32)
    (v18 : Vec Ideal S1x1x4096 .f32) (v29 : Vec Ideal S8x512 .f32) (k : Fin 512) :
    k1_pay10 (F := Ideal) v6 v13 v17 v18 v29 (ix2 (0 : Fin 1) k)
      = (∑ f : Fin 64, (∑ i : Fin 4096, v6 (ix3 (0 : Fin 1) i f)) * v13 (ix2 f k))
        + ((∑ i : Fin 4096, v18 (ix3 (0 : Fin 1) (0 : Fin 1) i)) * invn) * v29 (ix2 (1 : Fin 8) k)
        + (((∑ i : Fin 4096, v17 (ix2 i (0 : Fin 1))) * invn) * invn) * v29 (ix2 (4 : Fin 8) k) := by
  unfold k1_pay10
  dsimp only
  rw [addf_apply, addf_apply, mulf_apply, mulf_apply]
  refine congrArg₂ (· + ·) (congrArg₂ (· + ·) ?_ (congrArg₂ (· * ·) ?_ ?_)) (congrArg₂ (· * ·) ?_ ?_)
  · -- the summed features against the second weight matrix
    simp only [matmul]
    rw [Ideal.matmul_constant_zero_apply, shapeCast_self]
    refine (plain_contr 1 64 512 _ v13 0 k).trans ?_
    refine Finset.sum_congr rfl fun f _ => congrArg (· * v13 (ix2 f k)) ?_
    refine (shapeCast_a_1a_apply _ _ 0 f).trans ((colsum_apply _ _ _ _ f).trans ?_)
    exact Finset.sum_congr rfl fun i _ => pay6_at v6 i f
  · -- the trace over n
    rw [broadcast_apply, Ideal.scalar_mulf_def]
    refine congrArg₂ (· * ·) ?_ rfl
    refine (one_entry_at _ _ _).trans ((total_apply _ _ _ _ _).trans ?_)
    exact Finset.sum_congr rfl fun i _ => by rw [col_addUnit_at, pay8_at]
  · rw [pay9_eq]
    exact slice2_axis0_apply 1 v29 _ 0 k 1 rfl
  · -- the total over n·n
    rw [broadcast_apply, Ideal.scalar_mulf_def, Ideal.scalar_mulf_def]
    refine congrArg₂ (· * ·) (congrArg₂ (· * ·) ?_ rfl) rfl
    refine (one_entry_at _ _ _).trans ((total_apply _ _ _ _ _).trans ?_)
    exact Finset.sum_congr rfl fun i _ => by rw [col_addUnit_at]
  · rw [pay9_eq]
    exact slice2_axis0_apply 4 v29 _ 0 k 4 rfl

/-- A [4096, 1] column repeated along 512 columns. -/
theorem bcast_col_at (v : (⟨2, ![4096, 1]⟩ : Shape).Idx → EReal) (h : (⟨2, ![4096, 1]⟩ : Shape).Broadcasts ⟨2, ![4096, 512]⟩)
    (i : Fin 4096) (k : Fin 512) : broadcastTo ⟨2, ![4096, 512]⟩ v h (ix2 i k) = v (ix2 i (0 : Fin 1)) := by
  refine broadcastTo_apply v h (ix2 i k) (ix2 i (0 : Fin 1)) fun ax => ?_
  match ax with
  | ⟨0, _⟩ =>
    show i.val = if (4096 : Nat) = 1 then 0 else i.val
    rw [if_neg (by decide)]
  | ⟨1, _⟩ =>
    show 0 = if (1 : Nat) = 1 then 0 else k.val
    rw [if_pos rfl]

/-- THE RESULT'S BLOCK, read at feature m: the fused evaluation over the arrays the body is given. -/
theorem pay5_at (v10 : FVec Ideal S4096x512 .f32) (v16 v17 : Vec Ideal S4096x1 .f32) (v20 : FVec Ideal S4096x1 .f32)
    (v30 : FVec Ideal S8x512 .f32) (v41 : FVec Ideal S1x512 .f32) (v69 : Vec Ideal S512x64 .f32) (v75 : Vec Ideal S1x64 .f32)
    (m : Fin 64) :
    k1_pay5 (F := Ideal) v10 v16 v17 v20 v30 v41 v69 v75 (ix3 (0 : Fin 1) (0 : Fin 1) m)
      = (∑ k : Fin 512, (∑ i : Fin 4096,
            max (v10 (ix2 i k)
                + (v20 (ix2 i (0 : Fin 1)) * v30 (ix2 (0 : Fin 8) k) + (v17 (ix2 i (0 : Fin 1)) * invn) * v30 (ix2 (2 : Fin 8) k)
                  + (v16 (ix2 i (0 : Fin 1)) * invn) * v30 (ix2 (3 : Fin 8) k))
                + (v41 (ix2 (0 : Fin 1) k) + v30 (ix2 (5 : Fin 8) k))) 0)
          * v69 (ix2 k m)) * invn + v75 (ix2 (0 : Fin 1) m) := by
  unfold k1_pay5
  dsimp only
  refine (shapeCast_apply _ shapeCasts_S64_S1x1x64 (ix3 (0 : Fin 1) (0 : Fin 1) m) (ix1 m) ?_).trans ?_
  · rw [Shape.rowMajor_val_three, Shape.rowMajor_val_one]
    show m.val = (0 * 1 + 0) * 64 + m.val
    omega
  rw [addf_apply]
  refine congrArg₂ (· + ·) ?_ (shapeCast_1a_a_apply v75 _ m)
  rw [shapeCast_1a_a_apply, mulf_apply]
  refine congrArg₂ (· * ·) ?_ rfl
  simp only [matmul]
  rw [Ideal.matmul_constant_zero_apply, shapeCast_self]
  refine (plain_contr 1 512 64 _ v69 0 m).trans ?_
  refine Finset.sum_congr rfl fun k _ => congrArg (· * v69 (ix2 k m)) ?_
  refine (shapeCast_a_1a_apply _ _ 0 k).trans ((colsum_apply _ _ _ _ k).trans ?_)
  refine Finset.sum_congr rfl fun i _ => ?_
  rw [maximumf_apply]
  refine congrArg₂ max ?_ Ideal.ofBits_zero_f32
  simp only [addf_apply, mulf_apply]
  rw [bcast_col_at, bcast_col_at, bcast_col_at, broadcastTo_1b_ab_apply, broadcastTo_1b_ab_apply, broadcastTo_1b_ab_apply,
    broadcastTo_1b_ab_apply, addf_apply, mulf_apply, mulf_apply,
    slice2_axis0_apply 0 v30 _ 0 k 0 rfl, slice2_axis0_apply 2 v30 _ 0 k 2 rfl, slice2_axis0_apply 3 v30 _ 0 k 3 rfl,
    slice2_axis0_apply 5 v30 _ 0 k 5 rfl]
  rfl

end Cert.Proof.KI.KVal

end
-- ==== Proof.KValueI.lean ====
/-
  The result array the region leaves is the fused arrangement of the specification. The point that stores graph b's
  result block reads graph b's features, row 0 of graph b's block of the diagonal array and the five weight arrays
  whole (the windows' index maps, decided over the grid); the stored block is then the fused evaluation over those
  arrays and the scratch's two columns.
-/
import proofs.«208576_g46445776339566_cont_8to1c4_655_26_alg».proof.Proof.TcColsValueI
import proofs.«208576_g46445776339566_cont_8to1c4_655_26_alg».proof.Proof.KPayI
import proofs.«208576_g46445776339566_cont_8to1c4_655_26_alg».proof.Proof.Spec

set_option maxRecDepth 16384

noncomputable section

open scoped BigOperators

namespace Cert.Proof.KI

open Cert.KernelIdeal Cert.KernelIdeal.Gen
open Idealize.ShloMosaic Idealize.ShloMosaic.TcCoe Idealize.SL.Sem Idealize.ShloMosaic.ValueIdx
open Cert.Spec (mOf hOf invn)
open Cert.Proof.KI.KVal

/-! ## The blocks the storing point reads -/

/-- The features' and the diagonal's windows hold block (t / 5) at point t; the five weight windows hold their arrays
    whole: decided over the grid. -/
theorem idx_in : ∀ t : Fin cfg1.N,
    (win1_1.index t (0 : Fin 3) = t.val / 5 ∧ win1_1.index t (1 : Fin 3) = 0 ∧ win1_1.index t (2 : Fin 3) = 0)
    ∧ (win1_2.index t (0 : Fin 3) = t.val / 5 ∧ win1_2.index t (1 : Fin 3) = 0 ∧ win1_2.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N,
    (win1_1.index t (0 : Fin 3) = t.val / 5 ∧ win1_1.index t (1 : Fin 3) = 0 ∧ win1_1.index t (2 : Fin 3) = 0)
    ∧ (win1_2.index t (0 : Fin 3) = t.val / 5 ∧ win1_2.index t (1 : Fin 3) = 0 ∧ win1_2.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0))

/-- The storing point of graph b has number 5 b + 4. -/
theorem pt_val (b : Fin 4) : (ptOf (5 * b.val + 4)).val = 5 * b.val + 4 :=
  Nat.mod_eq_of_lt (by have := b.isLt; omega)

variable (V : Valuation τ sig (Elt Ideal))

/-- The features' block at the storing point of graph b is graph b's features. -/
theorem blkX_at (b : Fin 4) (i : Fin 4096) (f : Fin 64) :
    blkX V (ptOf (5 * b.val + 4)) (ix3 (0 : Fin 1) i f) = V (Proc.devRef .tc main_arg0) (ix3 b i f) := by
  obtain ⟨⟨e0, e1, e2⟩, -⟩ := idx_in (ptOf (5 * b.val + 4))
  rw [pt_val] at e0
  have hb := b.isLt
  show V (Proc.devRef .tc main_arg0) (((cfg1.win 1).blk (ptOf (5 * b.val + 4))).view.emb (ix3 (0 : Fin 1) i f)) = _
  refine congrArg (V (Proc.devRef .tc main_arg0)) (funext fun a => Fin.ext ?_)
  match a with
  | ⟨0, _⟩ => show win1_1.index (ptOf (5 * b.val + 4)) (0 : Fin 3) * 1 + 1 * 0 = b.val; omega
  | ⟨1, _⟩ => show win1_1.index (ptOf (5 * b.val + 4)) (1 : Fin 3) * 4096 + 1 * i.val = i.val; omega
  | ⟨2, _⟩ => show win1_1.index (ptOf (5 * b.val + 4)) (2 : Fin 3) * 64 + 1 * f.val = f.val; omega

/-- Row 0 of the diagonal's block at the storing point of graph b is row 0 of graph b's block of the diagonal array. -/
theorem diagRow_at (b : Fin 4) (i : Fin 4096) :
    diagRow V (ptOf (5 * b.val + 4)) (ix3 (0 : Fin 1) (0 : Fin 1) i) = V (Proc.devRef .tc main_v64) (ix3 b (0 : Fin 8) i) := by
  obtain ⟨-, ⟨e0, e1, e2⟩, -⟩ := idx_in (ptOf (5 * b.val + 4))
  rw [pt_val] at e0
  have hb := b.isLt
  show V (Proc.devRef .tc main_v64) (((cfg1.win 2).blk (ptOf (5 * b.val + 4))).view.emb (Rd.idx (ix3 (0 : Fin 1) (0 : Fin 1) i))) = _
  refine congrArg (V (Proc.devRef .tc main_v64)) (funext fun a => Fin.ext ?_)
  match a with
  | ⟨0, _⟩ => show win1_2.index (ptOf (5 * b.val + 4)) (0 : Fin 3) * 1 + 1 * (0 + 1 * 0) = b.val; omega
  | ⟨1, _⟩ => show win1_2.index (ptOf (5 * b.val + 4)) (1 : Fin 3) * 8 + 1 * (0 + 1 * 0) = 0; omega
  | ⟨2, _⟩ => show win1_2.index (ptOf (5 * b.val + 4)) (2 : Fin 3) * 4096 + 1 * (0 + 1 * i.val) = i.val; omega

/-- A weight window's block is its array. -/
theorem blkW3_at (t : Fin cfg1.N) (f : Fin 64) (k : Fin 512) : blkW3 V t (ix2 f k) = V (Proc.devRef .tc main_v14) (ix2 f k) := by
  obtain ⟨-, -, ⟨e0, e1⟩, -⟩ := idx_in t
  show V (Proc.devRef .tc main_v14) (((cfg1.win 3).blk t).view.emb (ix2 f k)) = _
  refine congrArg (V (Proc.devRef .tc main_v14)) (funext fun a => Fin.ext ?_)
  match a with
  | ⟨0, _⟩ => show win1_3.index t (0 : Fin 2) * 64 + 1 * f.val = f.val; omega
  | ⟨1, _⟩ => show win1_3.index t (1 : Fin 2) * 512 + 1 * k.val = k.val; omega
theorem blkW4_at (t : Fin cfg1.N) (f : Fin 64) (k : Fin 512) : blkW4 V t (ix2 f k) = V (Proc.devRef .tc main_v25) (ix2 f k) := by
  obtain ⟨-, -, -, ⟨e0, e1⟩, -⟩ := idx_in t
  show V (Proc.devRef .tc main_v25) (((cfg1.win 4).blk t).view.emb (ix2 f k)) = _
  refine congrArg (V (Proc.devRef .tc main_v25)) (funext fun a => Fin.ext ?_)
  match a with
  | ⟨0, _⟩ => show win1_4.index t (0 : Fin 2) * 64 + 1 * f.val = f.val; omega
  | ⟨1, _⟩ => show win1_4.index t (1 : Fin 2) * 512 + 1 * k.val = k.val; omega
theorem blkW5_at (t : Fin cfg1.N) (p : Fin 8) (k : Fin 512) : blkW5 V t (ix2 p k) = V (Proc.devRef .tc main_v52) (ix2 p k) := by
  obtain ⟨-, -, -, -, ⟨e0, e1⟩, -⟩ := idx_in t
  show V (Proc.devRef .tc main_v52) (((cfg1.win 5).blk t).view.emb (ix2 p k)) = _
  refine congrArg (V (Proc.devRef .tc main_v52)) (funext fun a => Fin.ext ?_)
  match a with
  | ⟨0, _⟩ => show win1_5.index t (0 : Fin 2) * 8 + 1 * p.val = p.val; omega
  | ⟨1, _⟩ => show win1_5.index t (1 : Fin 2) * 512 + 1 * k.val = k.val; omega
theorem blkW6_at (t : Fin cfg1.N) (k : Fin 512) (m : Fin 64) : blkW6 V t (ix2 k m) = V (Proc.devRef .tc main_v63) (ix2 k m) := by
  obtain ⟨-, -, -, -, -, ⟨e0, e1⟩, -⟩ := idx_in t
  show V (Proc.devRef .tc main_v63) (((cfg1.win 6).blk t).view.emb (ix2 k m)) = _
  refine congrArg (V (Proc.devRef .tc main_v63)) (funext fun a => Fin.ext ?_)
  match a with
  | ⟨0, _⟩ => show win1_6.index t (0 : Fin 2) * 512 + 1 * k.val = k.val; omega
  | ⟨1, _⟩ => show win1_6.index t (1 : Fin 2) * 64 + 1 * m.val = m.val; omega
theorem blkW7_at (t : Fin cfg1.N) (m : Fin 64) : blkW7 V t (ix2 (0 : Fin 1) m) = V (Proc.devRef .tc main_v65) (ix2 (0 : Fin 1) m) := by
  obtain ⟨-, -, -, -, -, -, ⟨e0, e1⟩⟩ := idx_in t
  show V (Proc.devRef .tc main_v65) (((cfg1.win 7).blk t).view.emb (ix2 (0 : Fin 1) m)) = _
  refine congrArg (V (Proc.devRef .tc main_v65)) (funext fun a => Fin.ext ?_)
  match a with
  | ⟨0, _⟩ => show win1_7.index t (0 : Fin 2) * 1 + 1 * 0 = 0; omega
  | ⟨1, _⟩ => show win1_7.index t (1 : Fin 2) * 64 + 1 * m.val = m.val; omega

/-! ## The result array is the fused arrangement -/

/-- THE RESULT ARRAY the region leaves, at graph b and feature m, is the fused arrangement of the specification:
    given what the weight windows' arrays hold and that the diagonal array's row 0 is the diagonal (the two scratch
    columns hold the column sums and the row sums of graph b's adjacency). -/
theorem outVal_at (W : Cert.Spec.SW.Idx → EReal) (be Wi : Cert.Spec.SMH.Idx → EReal) (bi : Cert.Spec.SM.Idx → EReal)
    (b : Fin 4) (m : Fin 64)
    (hdiag : ∀ r : Fin 4096, V (Proc.devRef .tc main_v64) (ix3 b (0 : Fin 8) r) = V (Proc.devRef .tc main_arg1) (ix3 b r r))
    (h14 : ∀ (f : Fin 64) (k : Fin 512), V (Proc.devRef .tc main_v14) (ix2 f k) = Cert.Spec.Wn W f k)
    (h25 : ∀ (f : Fin 64) (k : Fin 512), V (Proc.devRef .tc main_v25) (ix2 f k) = Cert.Spec.W2n W f k)
    (h52 : ∀ (p : Fin 8) (k : Fin 512), V (Proc.devRef .tc main_v52) (ix2 p k)
      = ![Cert.Spec.wa W 0 k, Cert.Spec.wa W 1 k, Cert.Spec.wa W 2 k, Cert.Spec.wa W 3 k, Cert.Spec.wa W 4 k,
          be (ix2 (mOf k) (hOf k)), 0, 0] p)
    (h63 : ∀ (k : Fin 512) (mm : Fin 64), V (Proc.devRef .tc main_v63) (ix2 k mm) = Cert.Spec.sel Wi k mm)
    (h65 : ∀ mm : Fin 64, V (Proc.devRef .tc main_v65) (ix2 (0 : Fin 1) mm) = bi (ix1 mm)) :
    outVal V (ix3 b (0 : Fin 1) m)
      = Cert.Spec.Kat (V (Proc.devRef .tc main_arg0)) (V (Proc.devRef .tc main_arg1)) W be Wi bi b m := by
  show outBlk V b.val (ix3 (0 : Fin 1) (0 : Fin 1) m) = _
  unfold outBlk
  rw [pay5_at, blkW7_at, h65]
  unfold Cert.Spec.Kat
  refine congrArg (· * invn + bi (ix1 m)) (Finset.sum_congr rfl fun k _ => ?_)
  rw [blkW6_at, h63]
  refine congrArg (· * Cert.Spec.sel Wi k m) (Finset.sum_congr rfl fun i _ => ?_)
  unfold Cert.Spec.hid Cert.Spec.pernode Cert.Spec.base Cert.Spec.diagA Cert.Spec.rowA Cert.Spec.colA Cert.Spec.sdiag
    Cert.Spec.sumA Cert.Spec.sumX
  rw [pay7_at, pay8_at, pay9_eq, pay10_at, diagRow_at, hdiag, colAcc_at, col1_at, blkW5_at, blkW5_at, blkW5_at, blkW5_at, blkW5_at,
    blkW5_at, h52, h52, h52, h52, h52, h52]
  refine congrArg (max · 0) ?_
  refine congrArg₂ (· + ·) (congrArg₂ (· + ·) ?_ rfl) (congrArg₂ (· + ·) (congrArg₂ (· + ·) (congrArg₂ (· + ·) ?_ ?_) ?_) rfl)
  · exact Finset.sum_congr rfl fun f _ => by rw [blkX_at, blkW3_at, h14]
  · exact Finset.sum_congr rfl fun f _ => by
      rw [blkW4_at, h25]
      exact congrArg (· * Cert.Spec.W2n W f k) (Finset.sum_congr rfl fun i' _ => blkX_at V b i' f)
  · refine congrArg (· * invn * Cert.Spec.wa W 1 k) (Finset.sum_congr rfl fun i' _ => ?_)
    rw [diagRow_at, hdiag]
  · refine congrArg (· * invn * invn * Cert.Spec.wa W 4 k) (Finset.sum_congr rfl fun i' _ => ?_)
    exact col1_at V b i'

end Cert.Proof.KI

end
-- ==== Proof.RefValue.lean ====
/-
  The reference computes the specification: the last stage of the reference program, as a function of the six
  argument arrays, is G index by index. Each stage is read at an index built from its coordinates: the graph's
  statistics (diagonal, row and column sums, trace, total, feature sums), the five basis operations on the 65
  channels, the contraction with W over channel and operation, the positive part, the sum over the nodes, the
  contraction with Wi, the quotient by n and the bias.
-/
import proofs.«208576_g46445776339566_cont_8to1c4_655_26_alg».proof.Proof.Spec
import proofs.«208576_g46445776339566_cont_8to1c4_655_26_alg».proof.Proof.Reading
import proofs.«208576_g46445776339566_cont_8to1c4_655_26_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec Cert.Reading

/-- Two indices with the same coordinates are equal: rank 1 to 4. -/
macro "idx1" : tactic => `(tactic| (funext a; match a with | ⟨0, _⟩ => rfl))
macro "idx2" : tactic => `(tactic| (funext a; match a with | ⟨0, _⟩ => rfl | ⟨1, _⟩ => rfl))
macro "idx3" : tactic => `(tactic| (funext a; match a with | ⟨0, _⟩ => rfl | ⟨1, _⟩ => rfl | ⟨2, _⟩ => rfl))
macro "idx4" : tactic => `(tactic| (funext a; match a with | ⟨0, _⟩ => rfl | ⟨1, _⟩ => rfl | ⟨2, _⟩ => rfl | ⟨3, _⟩ => rfl))

/-- The zero word a sum starts from is 0. -/
theorem zero_word : Ideal.ofBits .f32 0x00000000#32 = (0 : EReal) := Ideal.ofBits_zero_f32

variable (x0 : (⟨S4x4096x64, .f32⟩ : BufTy).Contents (Elt Ideal)) (x1 : (⟨S4x4096x4096, .f32⟩ : BufTy).Contents (Elt Ideal))
  (x2 : (⟨S64x5x65x8, .f32⟩ : BufTy).Contents (Elt Ideal)) (x3 x4 : (⟨S64x8, .f32⟩ : BufTy).Contents (Elt Ideal))
  (x5 : (⟨S64, .f32⟩ : BufTy).Contents (Elt Ideal))

/-! ## The statistics of a graph -/

/-- The start index the gather reads for node i: the word of i (a node number is not negative, so the wrap-around
    branch of the index normalization is not taken). -/
theorem start_word (i : Fin 4096) : Scalar.select (IntOp.cmpi .slt (BitVec.ofNat 32 i.val) 0#32)
    (IntOp.addi (BitVec.ofNat 32 i.val) 4096#32) (BitVec.ofNat 32 i.val) = BitVec.ofNat 32 i.val := by
  have hi := i.isLt
  have h2 : (BitVec.ofNat 32 i.val).toNat = i.val := by
    rw [BitVec.toNat_ofNat]; exact Nat.mod_eq_of_lt (by omega)
  have h1 : (BitVec.ofNat 32 i.val).toInt = (i.val : Int) := by
    unfold BitVec.toInt
    rw [h2, if_pos (by omega)]
  have hlt : IntOp.cmpi .slt (BitVec.ofNat 32 i.val) 0#32 = 0#1 := by
    refine eq_zero_of_ne_one fun h => ?_
    rw [IntOp.cmpi_slt, h1] at h
    have h0 : (0#32 : BitVec 32).toInt = 0 := by decide
    omega
  rw [hlt, select_zero]

theorem starts_0 (i : Fin 4096) : val_main_call0_v14 (F := Ideal) (ix2 i 0) = BitVec.ofNat 32 i.val := by
  unfold val_main_call0_v14
  rw [concatenate_pair_apply_left 1 _ _ concatenates_S4096x1_S4096x1_S4096x2_d1 (ix2 i 0) rfl (ix2 i 0)
    (fun a => match a with | ⟨0, _⟩ => rfl | ⟨1, _⟩ => rfl)]
  rw [val_main_call0_v12_apply, val_main_call0_v6_apply, val_main_call0_v3_apply, val_main_call0_v5_apply,
    val_main_call0_v0_apply, val_main_call0_v2_apply, val_main_call0_v4_apply, val_main_call0_c_apply,
    val_main_call0_c_0_apply]
  exact start_word i

theorem starts_1 (i : Fin 4096) : val_main_call0_v14 (F := Ideal) (ix2 i 1) = BitVec.ofNat 32 i.val := by
  unfold val_main_call0_v14
  rw [concatenate_pair_apply_right 1 _ _ concatenates_S4096x1_S4096x1_S4096x2_d1 (ix2 i 1) rfl rfl (ix2 i 0)
    (fun a ha => match a, ha with | ⟨0, _⟩, _ => rfl | ⟨1, _⟩, ha => absurd rfl ha) rfl]
  rw [val_main_call0_v13_apply, val_main_call0_v11_apply, val_main_call0_v8_apply, val_main_call0_v10_apply,
    val_main_call0_v1_apply, val_main_call0_v7_apply, val_main_call0_v9_apply, val_main_call0_c_1_apply,
    val_main_call0_c_2_apply]
  exact start_word i

/-- The gathered diagonal. -/
theorem diag_at (b : Fin 4) (i : Fin 4096) : val_main_v0 (F := Ideal) x1 (ix2 b i) = diagA x1 b i := by
  unfold val_main_v0
  exact gather_diag gather_S4x4096x4096_S4096x2_S4x4096_0_12_n_n_12_1_411.wf x1 _ b i (starts_0 i) (starts_1 i)

/-- The row sums. -/
theorem row_at (b : Fin 4) (i : Fin 4096) : val_main_v1 (F := Ideal) x1 (ix2 b i) = rowA x1 b i := by
  rw [val_main_v1_apply, val_main_cst_apply, Ideal.ofBits_def, zero_word, zero_add]
  exact Finset.sum_congr rfl fun k _ => congrArg x1 (by idx3)

/-- The column sums. -/
theorem col_at (b : Fin 4) (j : Fin 4096) : val_main_v2 (F := Ideal) x1 (ix2 b j) = colA x1 b j := by
  rw [val_main_v2_apply, val_main_cst_0_apply, Ideal.ofBits_def, zero_word, zero_add]
  exact Finset.sum_congr rfl fun k _ => congrArg x1 (by idx3)

/-- The trace. -/
theorem trace_at (b : Fin 4) : val_main_v3 (F := Ideal) x1 (ix1 b) = sdiag x1 b := by
  rw [val_main_v3_apply, val_main_cst_1_apply, Ideal.ofBits_def, zero_word, zero_add]
  refine Finset.sum_congr rfl fun k _ => ?_
  rw [show idx_main_v3 (ix1 b) k = ix2 b k from by idx2]
  exact diag_at x1 b k

/-- The total. -/
theorem total_at (b : Fin 4) : val_main_v4 (F := Ideal) x1 (ix1 b) = sumA x1 b := by
  unfold val_main_v4
  simp only [Host.reduceAdd, Ideal.hostReduceAdd_def]
  rw [hostReduceAdd_rows_cols, val_main_cst_2_apply, Ideal.ofBits_def, zero_word, zero_add]
  rfl

/-- The feature sums. -/
theorem featsum_at (b : Fin 4) (f : Fin 64) : val_main_v5 (F := Ideal) x0 (ix2 b f) = sumX x0 b f := by
  rw [val_main_v5_apply, val_main_cst_3_apply, Ideal.ofBits_def, zero_word, zero_add]
  exact Finset.sum_congr rfl fun k _ => congrArg x0 (by idx3)

/-! ## The five basis operations on the 65 channels -/

/-- Operation 0: the node's features and its diagonal entry. -/
theorem op0_at (b : Fin 4) (i : Fin 4096) (c : Fin 65) :
    val_main_v7 (F := Ideal) x0 x1 (ix3 b i c) = cat65 (fun f => x0 (ix3 b i f)) (diagA x1 b i) c := by
  unfold val_main_v7
  rw [concat_channels, val_main_v6_apply, show idx_main_v6 (ix3 b i (0 : Fin 1)) = ix2 b i from by idx2, diag_at]
  rfl

/-- Operation 1 before the quotient: the feature sums and the trace, the same at every node. -/
theorem op1_at (b : Fin 4) (i : Fin 4096) (c : Fin 65) :
    val_main_v12 (F := Ideal) x0 x1 (ix3 b i c) = cat65 (fun f => sumX x0 b f) (sdiag x1 b) c := by
  have e1 : ∀ f : Fin 64, val_main_v9 (F := Ideal) x0 (ix3 b i f) = sumX x0 b f := fun f => by
    rw [val_main_v9_apply, val_main_v8_apply, show idx_main_v8 (idx_main_v9 (ix3 b i f)) = ix2 b f from by idx2]
    exact featsum_at x0 b f
  have e2 : val_main_v11 (F := Ideal) x1 (ix3 b i (0 : Fin 1)) = sdiag x1 b := by
    rw [val_main_v11_apply, val_main_v10_apply, show idx_main_v10 (idx_main_v11 (ix3 b i (0 : Fin 1))) = ix1 b from by idx1]
    exact trace_at x1 b
  unfold val_main_v12
  rw [concat_channels, e2]
  unfold cat65
  by_cases hc : c.val < 64
  · rw [dif_pos hc, dif_pos hc]
    exact e1 _
  · rw [dif_neg hc, dif_neg hc]

/-- Operation 2 before the quotient: the node's features and its row sum. -/
theorem op2_at (b : Fin 4) (i : Fin 4096) (c : Fin 65) :
    val_main_v16 (F := Ideal) x0 x1 (ix3 b i c) = cat65 (fun f => x0 (ix3 b i f)) (rowA x1 b i) c := by
  unfold val_main_v16
  rw [concat_channels, val_main_v15_apply, show idx_main_v15 (ix3 b i (0 : Fin 1)) = ix2 b i from by idx2, row_at]
  rfl

/-- Operation 3 before the quotient: the node's features and its column sum. -/
theorem op3_at (b : Fin 4) (i : Fin 4096) (c : Fin 65) :
    val_main_v20 (F := Ideal) x0 x1 (ix3 b i c) = cat65 (fun f => x0 (ix3 b i f)) (colA x1 b i) c := by
  unfold val_main_v20
  rw [concat_channels, val_main_v19_apply, show idx_main_v19 (ix3 b i (0 : Fin 1)) = ix2 b i from by idx2, col_at]
  rfl

/-- Operation 4 before the quotient: the feature sums and the total, the same at every node. -/
theorem op4_at (b : Fin 4) (i : Fin 4096) (c : Fin 65) :
    val_main_v27 (F := Ideal) x0 x1 (ix3 b i c) = cat65 (fun f => sumX x0 b f) (sumA x1 b) c := by
  have e1 : ∀ f : Fin 64, val_main_v24 (F := Ideal) x0 (ix3 b i f) = sumX x0 b f := fun f => by
    rw [val_main_v24_apply, val_main_v23_apply, show idx_main_v23 (idx_main_v24 (ix3 b i f)) = ix2 b f from by idx2]
    exact featsum_at x0 b f
  have e2 : val_main_v26 (F := Ideal) x1 (ix3 b i (0 : Fin 1)) = sumA x1 b := by
    rw [val_main_v26_apply, val_main_v25_apply, show idx_main_v25 (idx_main_v26 (ix3 b i (0 : Fin 1))) = ix1 b from by idx1]
    exact total_at x1 b
  unfold val_main_v27
  rw [concat_channels, e2]
  unfold cat65
  by_cases hc : c.val < 64
  · rw [dif_pos hc, dif_pos hc]
    exact e1 _
  · rw [dif_neg hc, dif_neg hc]

theorem piece0 (b : Fin 4) (i : Fin 4096) (c : Fin 65) :
    val_main_v31 (F := Ideal) x0 x1 (ix4 b i (0 : Fin 1) c) = cat65 (fun f => x0 (ix3 b i f)) (diagA x1 b i) c := by
  rw [val_main_v31_apply, show idx_main_v31 (ix4 b i (0 : Fin 1) c) = ix3 b i c from by idx3]
  exact op0_at x0 x1 b i c
theorem piece1 (b : Fin 4) (i : Fin 4096) (c : Fin 65) :
    val_main_v32 (F := Ideal) x0 x1 (ix4 b i (0 : Fin 1) c) = Ideal.div (cat65 (fun f => sumX x0 b f) (sdiag x1 b) c) nn := by
  rw [val_main_v32_apply, show idx_main_v32 (ix4 b i (0 : Fin 1) c) = ix3 b i c from by idx3, val_main_v14_apply,
    val_main_v13_apply, val_main_cst_4_apply, op1_at]
  rfl
theorem piece2 (b : Fin 4) (i : Fin 4096) (c : Fin 65) :
    val_main_v33 (F := Ideal) x0 x1 (ix4 b i (0 : Fin 1) c) = Ideal.div (cat65 (fun f => x0 (ix3 b i f)) (rowA x1 b i) c) nn := by
  rw [val_main_v33_apply, show idx_main_v33 (ix4 b i (0 : Fin 1) c) = ix3 b i c from by idx3, val_main_v18_apply,
    val_main_v17_apply, val_main_cst_5_apply, op2_at]
  rfl
theorem piece3 (b : Fin 4) (i : Fin 4096) (c : Fin 65) :
    val_main_v34 (F := Ideal) x0 x1 (ix4 b i (0 : Fin 1) c) = Ideal.div (cat65 (fun f => x0 (ix3 b i f)) (colA x1 b i) c) nn := by
  rw [val_main_v34_apply, show idx_main_v34 (ix4 b i (0 : Fin 1) c) = ix3 b i c from by idx3, val_main_v22_apply,
    val_main_v21_apply, val_main_cst_6_apply, op3_at]
  rfl
theorem piece4 (b : Fin 4) (i : Fin 4096) (c : Fin 65) :
    val_main_v35 (F := Ideal) x0 x1 (ix4 b i (0 : Fin 1) c)
      = Ideal.div (cat65 (fun f => sumX x0 b f) (sumA x1 b) c) (nn * nn) := by
  rw [val_main_v35_apply, show idx_main_v35 (ix4 b i (0 : Fin 1) c) = ix3 b i c from by idx3, val_main_v30_apply,
    val_main_v29_apply, val_main_v28_apply, val_main_cst_7_apply, val_main_cst_8_apply, op4_at]
  rfl

/-- The five operations stacked. -/
theorem ops_at (b : Fin 4) (i : Fin 4096) (p : Fin 5) (c : Fin 65) :
    val_main_v36 (F := Ideal) x0 x1 (ix4 b i p c) = ops x0 x1 b i p c := by
  unfold val_main_v36
  rw [stack_ops, piece0, piece1, piece2, piece3, piece4]
  rfl

/-! ## The hidden features and the invariant features -/

/-- The contraction with W over channel and operation. -/
theorem contract_at (m : Fin 64) (h : Fin 8) (b : Fin 4) (i : Fin 4096) :
    val_main_v37 (F := Ideal) x0 x1 x2 (ix4 m h b i) = ∑ c : Fin 65, ∑ p : Fin 5, x2 (ix4 m p c h) * ops x0 x1 b i p c := by
  unfold val_main_v37
  simp only [Host.dotGeneral]
  rw [Ideal.dotGeneral_apply]
  refine (contraction_channel_op dot_S64x5x65x8_S4x4096x5x65_S64x8x4x4096_21_32_03_01_n_n.wf x2 _ m h b i).trans ?_
  exact Finset.sum_congr rfl fun c _ => Finset.sum_congr rfl fun p _ => congrArg _ (ops_at x0 x1 b i p c)

/-- The hidden feature (m, h) of node i. -/
theorem hidden_at (b : Fin 4) (m : Fin 64) (i : Fin 4096) (h : Fin 8) :
    val_main_v42 (F := Ideal) x0 x1 x2 x3 (ix4 b m i h) = hidden x0 x1 x2 x3 b m i h := by
  rw [val_main_v42_apply, val_main_v41_apply, val_main_v38_apply, val_main_v40_apply, val_main_v39_apply,
    val_main_call1_v0_apply, val_main_call1_cst_apply,
    show idx_main_v38 (ix4 b m i h) = ix4 m h b i from by idx4, contract_at,
    show idx_main_v39 (idx_main_v40 (ix4 b m i h)) = ix2 m h from by idx2, Ideal.ofBits_def, zero_word]
  rfl

/-- The hidden feature summed over the nodes. -/
theorem nodesum_at (b : Fin 4) (m : Fin 64) (h : Fin 8) :
    val_main_v43 (F := Ideal) x0 x1 x2 x3 (ix3 b m h) = ∑ i : Fin 4096, hidden x0 x1 x2 x3 b m i h := by
  rw [val_main_v43_apply, val_main_cst_9_apply, Ideal.ofBits_def, zero_word, zero_add]
  refine Finset.sum_congr rfl fun k _ => ?_
  rw [show idx_main_v43 (ix3 b m h) k = ix4 b m k h from by idx4]
  exact hidden_at x0 x1 x2 x3 b m k h

/-- The invariant feature m of graph b. -/
theorem result_at (b : Fin 4) (m : Fin 64) :
    val_main_v50 (F := Ideal) x0 x1 x2 x3 x4 x5 (ix2 b m) = Gat x0 x1 x2 x3 x4 x5 b m := by
  have e : ∀ k : Fin 8, x4 (lidx_main_v44 (idx_main_v45 (ix2 b m)) k)
      * val_main_v43 (F := Ideal) x0 x1 x2 x3 (ridx_main_v44 (idx_main_v45 (ix2 b m)) k)
      = x4 (ix2 m k) * ∑ i : Fin 4096, hidden x0 x1 x2 x3 b m i k := fun k => by
    rw [show lidx_main_v44 (idx_main_v45 (ix2 b m)) k = ix2 m k from by idx2,
      show ridx_main_v44 (idx_main_v45 (ix2 b m)) k = ix3 b m k from by idx3, nodesum_at]
  rw [val_main_v50_apply, val_main_v47_apply, val_main_v45_apply, val_main_v44_apply, val_main_v46_apply,
    val_main_cst_10_apply, val_main_v49_apply, val_main_v48_apply, Finset.sum_congr rfl fun k _ => e k,
    show idx_main_v48 (idx_main_v49 (ix2 b m)) = ix1 m from by idx1]
  rfl

/-- THE REFERENCE IS THE SPECIFICATION: the reference program's last stage, as a function of the argument arrays,
    is G. -/
theorem result_eq : val_main_v50 (F := Ideal) x0 x1 x2 x3 x4 x5 = G x0 x1 x2 x3 x4 x5 := by
  funext j
  obtain ⟨b, m, rfl⟩ : ∃ (b : Fin 4) (m : Fin 64), j = ix2 b m := ⟨j 0, j 1, eq_ix2 j⟩
  exact result_at x0 x1 x2 x3 x4 x5 b m

end Cert.ReferenceIdeal.RefValue

end
-- ==== Proof.Finite.lean ====
/-
  From the certificate's precondition to the hypotheses of the algebraic law: the precondition says that every
  entry of each of the six argument arrays has absolute value below +∞ (a conjunction of six "all entries" facts),
  and an extended real whose absolute value is below +∞ is a real number.
-/
import proofs.«208576_g46445776339566_cont_8to1c4_655_26_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The scalar shape has one index. -/
instance : Subsingleton S_.Idx := ⟨fun a b => funext fun d => d.elim0⟩

/-- An extended real whose absolute value is below +∞ is a real number. -/
theorem real_of_abs_lt_top (x : EReal)
    (h : FloatOps.cmpf (F := Ideal) (φ := .f32) .olt (FloatOps.hostAbsf x) (FloatOps.ofBits .f32 0x7F800000#32) = 1#1) :
    ∃ r : ℝ, x = r := by
  have htop : Ideal.ofBits .f32 0x7F800000#32 = ⊤ := by simp [Ideal.ofBits, Ideal.ieee]
  rw [Ideal.cmpf_def, Ideal.hostAbsf_def, Ideal.absf_def, Ideal.ofBits_def, htop] at h
  induction x using EReal.rec with
  | bot => simp [Ideal.cmp] at h
  | coe r => exact ⟨r, rfl⟩
  | top => simp [Ideal.cmp] at h

/-- One array: if "all entries have absolute value below +∞" holds, every entry is a real number. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu ValueIdx.ix0 = 1#1) (i : s.Idx) : ∃ r : ℝ, x i = r :=
  real_of_abs_lt_top (x i) (Host.reduce_andi_all _ _ hr hu _ h i)

/-- THE PRECONDITION READ BACK: every entry of every argument array is a real number. -/
theorem finite_inputs [Facts] (x0 : FVec Ideal S4x4096x64 .f32) (x1 : FVec Ideal S4x4096x4096 .f32)
    (x2 : FVec Ideal S64x5x65x8 .f32) (x3 x4 : FVec Ideal S64x8 .f32) (x5 : FVec Ideal S64 .f32)
    (h : fn (F := Ideal) x0 x1 x2 x3 x4 x5 = (fun _ => 1#1)) :
    (∀ i, ∃ r : ℝ, x0 i = r) ∧ (∀ i, ∃ r : ℝ, x1 i = r) ∧ (∀ i, ∃ r : ℝ, x2 i = r)
      ∧ (∀ i, ∃ r : ℝ, x3 i = r) ∧ (∀ i, ∃ r : ℝ, x4 i = r) ∧ (∀ i, ∃ r : ℝ, x5 i = r) := by
  have h0 := congrFun h ValueIdx.ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨all_real x0 _ _ _ h0', all_real x1 _ _ _ h1, all_real x2 _ _ _ h2, all_real x3 _ _ _ h3,
    all_real x4 _ _ _ h4, all_real x5 _ _ _ h5⟩

end Cert.Finite

end
-- ==== Proof.AlgI.lean ====
/-
  The algebraic claim: at the extended reals, from memories that agree on the six argument arrays, every entry of
  them a real number, the fused program and the reference both run and end with the same result array, their
  arguments unchanged. The common result is the specification G of the arguments: the reference computes G stage by
  stage; the fused program's result block b is the fused arrangement Kat at (b, m), given what the host prepared for
  its weight windows and that the diagonal array's row 0 is the diagonal; and the fused arrangement is G on real
  inputs.
-/
import proofs.«208576_g46445776339566_cont_8to1c4_655_26_alg».proof.Defs
import proofs.«208576_g46445776339566_cont_8to1c4_655_26_alg».proof.Proof.FrameI
import proofs.«208576_g46445776339566_cont_8to1c4_655_26_alg».proof.Proof.ScDiagI
import proofs.«208576_g46445776339566_cont_8to1c4_655_26_alg».proof.Proof.GlueI
import proofs.«208576_g46445776339566_cont_8to1c4_655_26_alg».proof.Proof.KValueI
import proofs.«208576_g46445776339566_cont_8to1c4_655_26_alg».proof.Proof.RefValue
import proofs.«208576_g46445776339566_cont_8to1c4_655_26_alg».proof.Proof.Finite
import proofs.«208576_g46445776339566_cont_8to1c4_655_26_alg».proof.Proof.Gen.ReferenceIdeal.Run
import proofs.«208576_g46445776339566_cont_8to1c4_655_26_alg».proof.Proof.Gen.ReferenceIdeal.Read
import proofs.«208576_g46445776339566_cont_8to1c4_655_26_alg».proof.Proof.Gen.Pre_finite_inputs

set_option maxRecDepth 16384

noncomputable section

namespace Cert.Proof.KI.Alg

open Idealize.ShloMosaic Idealize.SL.Sem Idealize.ShloMosaic.ValueIdx
open Cert.KernelIdeal (nD τ sig main_arg0 main_arg1 main_arg2 main_arg3 main_arg4 main_arg5 main_v14 main_v25 main_v52 main_v63
  main_v64 main_v65 main_v67)
open Cert.Proof.KI (outVal DiagIs diag_of_DiagIs outVal_at)
open Cert.Proof.KI.Launch (V0 V2 V3 V5 gLoc rRef)

/-- The fused program's result array, for real inputs and a diagonal array that holds the diagonals, is the
    specification of the launch's argument arrays. -/
theorem kernel_value (m : (ℓ : Loc nD τ sig) → Buf (Elt Ideal) ℓ) (c : Dev nD) (f : Buf (Elt Ideal) (gLoc c))
    (hf : DiagIs (F := Ideal) m c f)
    (hX : ∀ i : Cert.Spec.SX.Idx, ∃ r : ℝ, V0 m c (Proc.devRef .tc main_arg0) i = ((r : ℝ) : EReal))
    (hA : ∀ i : Cert.Spec.SA.Idx, ∃ r : ℝ, V0 m c (Proc.devRef .tc main_arg1) i = ((r : ℝ) : EReal))
    (hW : ∀ i : Cert.Spec.SW.Idx, ∃ r : ℝ, V0 m c (Proc.devRef .tc main_arg2) i = ((r : ℝ) : EReal))
    (hbe : ∀ i : Cert.Spec.SMH.Idx, ∃ r : ℝ, V0 m c (Proc.devRef .tc main_arg3) i = ((r : ℝ) : EReal)) :
    V5 m outVal c f rRef
      = Cert.Spec.G (V0 m c (Proc.devRef .tc main_arg0)) (V0 m c (Proc.devRef .tc main_arg1)) (V0 m c (Proc.devRef .tc main_arg2))
          (V0 m c (Proc.devRef .tc main_arg3)) (V0 m c (Proc.devRef .tc main_arg4)) (V0 m c (Proc.devRef .tc main_arg5)) := by
  rw [Cert.Proof.KI.Launch.V5_r]
  funext i
  obtain ⟨b, mm, rfl⟩ : ∃ (b : Fin 4) (mm : Fin 64), i = ix2 b mm := ⟨i 0, i 1, eq_ix2 i⟩
  refine (shapeCast_apply _ _ (ix2 b mm) (ix3 b (0 : Fin 1) mm) ?_).trans ?_
  · rw [Shape.rowMajor_val_three, Shape.rowMajor_val_two]
    show (b.val * 1 + 0) * 64 + mm.val = b.val * 64 + mm.val
    omega
  rw [outVal_at (V3 m c f) (V0 m c (Proc.devRef .tc main_arg2)) (V0 m c (Proc.devRef .tc main_arg3))
    (V0 m c (Proc.devRef .tc main_arg4)) (V0 m c (Proc.devRef .tc main_arg5)) b mm
    (fun r => by
      rw [show V3 m c f (Proc.devRef .tc main_v64) = f from Cert.Proof.KI.Launch.V3_g m c f, Cert.Proof.KI.Launch.V3_arg1]
      exact diag_of_DiagIs m c f hf b r)
    (fun f' k => by rw [Cert.Proof.KI.Launch.V3_v14]; exact Cert.Proof.KI.Glue.v14_at (V0 m c) f' k)
    (fun f' k => by rw [Cert.Proof.KI.Launch.V3_v25]; exact Cert.Proof.KI.Glue.v25_at (V0 m c) f' k)
    (fun p k => by rw [Cert.Proof.KI.Launch.V3_v52]; exact Cert.Proof.KI.Glue.v52_at (V0 m c) p k)
    (fun k mm' => by rw [Cert.Proof.KI.Launch.V3_v63]; exact Cert.Proof.KI.Glue.v63_at (V0 m c) k mm')
    (fun mm' => by
      rw [Cert.Proof.KI.Launch.V3_v65, Cert.Proof.KI.Glue.v65_at (V2 m c f) mm', Cert.Proof.KI.Launch.V2_arg5]
      rfl)]
  rw [Cert.Proof.KI.Launch.V3_arg0, Cert.Proof.KI.Launch.V3_arg1]
  exact Cert.Spec.Kat_eq_Gat _ _ _ _ _ _ hX hA hW hbe b mm

/-- The reference runs and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

/-- THE ALGEBRAIC CLAIM. -/
theorem algebraic : Cert.algebraic_KernelIdeal_ReferenceIdeal := by
  intro m ρ m' ρ' hpre hagree
  refine ⟨fun c => Cert.Spec.G (V0 m c (Proc.devRef .tc main_arg0)) (V0 m c (Proc.devRef .tc main_arg1))
    (V0 m c (Proc.devRef .tc main_arg2)) (V0 m c (Proc.devRef .tc main_arg3)) (V0 m c (Proc.devRef .tc main_arg4))
    (V0 m c (Proc.devRef .tc main_arg5)), ?_, ?_⟩
  · refine (θ_run (Cert.KernelIdeal.defs (F := Ideal)) _ _).mono (fun r h c => ?_) (Cert.Proof.KI.run_all (F := Ideal) m ρ)
    obtain ⟨f, hf, hb⟩ := h c
    obtain ⟨hX, hA, hW, hbe, -, -⟩ := Cert.Finite.finite_inputs _ _ _ _ _ _ (hpre c)
    have hm := Cert.Proof.KI.Launch.args_mem
    exact ⟨(hb _ (hm main_v67 (by decide))).trans (kernel_value m c f hf hX hA hW hbe),
      (hb _ (hm main_arg0 (by decide))).trans (Cert.Proof.KI.Launch.V5_arg0 m outVal c f),
      (hb _ (hm main_arg1 (by decide))).trans (Cert.Proof.KI.Launch.V5_arg1 m outVal c f),
      (hb _ (hm main_arg2 (by decide))).trans (Cert.Proof.KI.Launch.V5_arg2 m outVal c f),
      (hb _ (hm main_arg3 (by decide))).trans (Cert.Proof.KI.Launch.V5_arg3 m outVal c f),
      (hb _ (hm main_arg4 (by decide))).trans (Cert.Proof.KI.Launch.V5_arg4 m outVal c f),
      (hb _ (hm main_arg5 (by decide))).trans (Cert.Proof.KI.Launch.V5_arg5 m outVal c f)⟩
  · refine (θ_run (Cert.ReferenceIdeal.defs (F := Ideal)) _ _).mono (fun _ h c => ⟨?_, (h c).2⟩)
      (Cert.ReferenceIdeal.Value.run (F := Ideal) m' ρ')
    rw [(h c).1, Cert.ReferenceIdeal.Read.val_main_v50_eq, Cert.ReferenceIdeal.RefValue.result_eq, (hagree c).1, (hagree c).2.1,
      (hagree c).2.2.1, (hagree c).2.2.2.1, (hagree c).2.2.2.2.1, (hagree c).2.2.2.2.2]
    rfl

end Cert.Proof.KI.Alg

end
-- ==== Proof.lean ====
/-
  The certificate's claim, assembled. The kernel computes, for each of four graphs, sixty-four invariant features: a
  SparseCore kernel first copies the diagonal of the 4096 × 4096 adjacency matrix out (thirty-two vector subcores, each four
  128 × 128 diagonal blocks, one per graph), then one TensorCore kernel accumulates the matrix's column sums and row sums over
  four row blocks per graph and, at a fifth grid point, contracts the node features with weights into which the divisions by
  n = 4096 were folded on the host, adds the per-node and per-graph terms built from the diagonal, the row sums and the column
  sums, takes the positive part, sums over the nodes and contracts with a block matrix holding the invariant weights. The
  reference stacks five basis operations per node and channel, contracts them with the weights, takes the positive part and
  averages. At the extended reals the two are the same function of finite inputs: 2⁻¹² is exactly 1/4096, so every folded
  product is the reference's quotient, and the rearrangement is distributivity and the exchange of finite sums, which hold
  where every entry is a real.
  The three frames: each program's run ends, nothing faulting, its argument arrays unchanged — for the two kernel programs
  from the launch of their thirty-five threads (Proof/FrameB, Proof/FrameI), for the reference from its run. The idealization
  rewrote no operation, so nothing is owed for it. The algebraic claim is Proof/AlgI.
-/
import proofs.«208576_g46445776339566_cont_8to1c4_655_26_alg».proof.Defs
import proofs.«208576_g46445776339566_cont_8to1c4_655_26_alg».proof.Proof.FrameB
import proofs.«208576_g46445776339566_cont_8to1c4_655_26_alg».proof.Proof.FrameI
import proofs.«208576_g46445776339566_cont_8to1c4_655_26_alg».proof.Proof.AlgI
import proofs.«208576_g46445776339566_cont_8to1c4_655_26_alg».proof.Proof.Gen.Kernel
import proofs.«208576_g46445776339566_cont_8to1c4_655_26_alg».proof.Proof.Gen.KernelIdeal
import proofs.«208576_g46445776339566_cont_8to1c4_655_26_alg».proof.Proof.Gen.ReferenceIdeal
import proofs.«208576_g46445776339566_cont_8to1c4_655_26_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Proof.KB.frame_all (F := Bits) m ρ,
    fun m ρ _ => Cert.Proof.KI.frame_all (F := Ideal) m ρ,
    Cert.Proof.KI.Alg.frame_ri,
    trivial,
    Cert.Proof.KI.Alg.algebraic⟩

end Cert.Proof

end
